-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S4000000x3 : Shape := ⟨2, ![4000000, 3]⟩
abbrev S6000000x2 : Shape := ⟨2, ![6000000, 2]⟩
abbrev S64x64x64 : Shape := ⟨3, ![64, 64, 64]⟩
abbrev S6000000 : Shape := ⟨1, ![6000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_
  bcast_S_S6000000 : S_.BroadcastsInDim S6000000 (![] : Fin 0 → Fin S6000000.rank)
  reducesTo_S6000000_S_d0 : S6000000.ReducesTo [0] S_

variable [Facts]

def fn_part1 {F : FTy → Type} [FloatOps F] (main_arg0 : FVec F S2000000x3 .f32) (main_v13 : IVec S_ 1) (main_v15 : IVec S2000000x3 1) (main_c_5 : IVec S_ 1) : IVec S_ 1 :=
  let main_v16 : IVec S_ 1 := (fun x v => Host.reduce IntOp.andi x v reducesTo_S2000000x3_S_d0_1 h_S_) main_v15 main_c_5
  let main_v17 : IVec S_ 1 := andi main_v13 main_v16
  let main_cst_6 : FVec F S_ .f32 := constant S_ .f32 0x3F800000#32
  let main_v18 : FVec F S2000000x3 .f32 := broadcastInDim S2000000x3 ![] bcast_S_S2000000x3 main_cst_6
  let main_v19 : IVec S2000000x3 1 := cmpf .olt main_arg0 main_v18
  let main_c_7 : IVec S_ 1 := constantI S_ 1 1#1
  let main_v20 : IVec S_ 1 := (fun x v => Host.reduce IntOp.andi x v reducesTo_S2000000x3_S_d0_1 h_S_) main_v19 main_c_7
  let main_v21 : IVec S_ 1 := andi main_v17 main_v20
  main_v21

def fn {F : FTy → Type} [FloatOps F] (main_arg0 : FVec F S2000000x3 .f32) (main_arg1 : IVec S4000000x3 32) (main_arg2 : IVec S6000000x2 32) (main_arg3 : FVec F S64x64x64 .f32) (main_arg4 : FVec F S6000000 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S64x64x64 .f32 := Host.absf main_arg3
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  let main_v9 : FVec F S6000000 .f32 := Host.absf main_arg4
  let main_cst_2 : FVec F S_ .f32 := constant S_ .f32 0x7F800000#32
  let main_v10 : FVec F S6000000 .f32 := broadcastInDim S6000000 ![] bcast_S_S6000000 main_cst_2
  let main_v11 : IVec S6000000 1 := cmpf .olt main_v9 main_v10
  let main_c_3 : IVec S_ 1 := constantI S_ 1 1#1
  let main_v12 : IVec S_ 1 := (fun x v => Host.reduce IntOp.andi x v reducesTo_S6000000_S_d0 h_S_) main_v11 main_c_3
  let main_v13 : IVec S_ 1 := andi main_v8 main_v12
  let main_cst_4 : FVec F S_ .f32 := constant S_ .f32 0x00000000#32
  let main_v14 : FVec F S2000000x3 .f32 := broadcastInDim S2000000x3 ![] bcast_S_S2000000x3 main_cst_4
  let main_v15 : IVec S2000000x3 1 := cmpf .oge main_arg0 main_v14
  let main_c_5 : IVec S_ 1 := constantI S_ 1 1#1
  fn_part1 (F := F) main_arg0 main_v13 main_v15 main_c_5
-- ==== Kernel.lean ====
abbrev S2000000x3 : Shape := ⟨2, ![2000000, 3]⟩
abbrev S4000000x3 : Shape := ⟨2, ![4000000, 3]⟩
abbrev S6000000x2 : Shape := ⟨2, ![6000000, 2]⟩
abbrev S64x64x64 : Shape := ⟨3, ![64, 64, 64]⟩
abbrev S6000000 : Shape := ⟨1, ![6000000]⟩
abbrev S4096x64 : Shape := ⟨2, ![4096, 64]⟩
abbrev S3x2000000 : Shape := ⟨2, ![3, 2000000]⟩
abbrev S1x1 : Shape := ⟨2, ![1, 1]⟩
abbrev S3x640 : Shape := ⟨2, ![3, 640]⟩
abbrev S1x640 : Shape := ⟨2, ![1, 640]⟩
abbrev S64x1 : Shape := ⟨2, ![64, 1]⟩
abbrev S64x640 : Shape := ⟨2, ![64, 640]⟩
abbrev S4096x640 : Shape := ⟨2, ![4096, 640]⟩
abbrev S640 : Shape := ⟨1, ![640]⟩
abbrev S1 : Shape := ⟨1, ![1]⟩
abbrev S_ : Shape := ⟨0, ![]⟩
abbrev S6000000x1 : Shape := ⟨2, ![6000000, 1]⟩
abbrev S6000000x3 : Shape := ⟨2, ![6000000, 3]⟩
abbrev S3x6000000 : Shape := ⟨2, ![3, 6000000]⟩
abbrev S1x6000000 : Shape := ⟨2, ![1, 6000000]⟩
abbrev S3x80000 : Shape := ⟨2, ![3, 80000]⟩
abbrev S1x80000 : Shape := ⟨2, ![1, 80000]⟩
abbrev S80000 : Shape := ⟨1, ![80000]⟩

abbrev nBuf : Space → Nat
  | .hbm => 38
  | .vmem => 13
  | .smem => 0
  | _ => 0

abbrev bufTy : (tb : Table) → Fin (tcTables nBuf tb) → BufTy
  | .hbm, ⟨0, _⟩ => ⟨S2000000x3, .f32⟩
  | .hbm, ⟨1, _⟩ => ⟨S4000000x3, .i32⟩
  | .hbm, ⟨2, _⟩ => ⟨S6000000x2, .i32⟩
  | .hbm, ⟨3, _⟩ => ⟨S64x64x64, .f32⟩
  | .hbm, ⟨4, _⟩ => ⟨S6000000, .f32⟩
  | .hbm, ⟨5, _⟩ => ⟨S4096x64, .f32⟩
  | .hbm, ⟨6, _⟩ => ⟨S4096x64, .bf16⟩
  | .hbm, ⟨7, _⟩ => ⟨S3x2000000, .f32⟩
  | .hbm, ⟨8, _⟩ => ⟨S1x1, .f32⟩
  | .hbm, ⟨9, _⟩ => ⟨S_, .f32⟩
  | .hbm, ⟨10, _⟩ => ⟨S6000000x1, .i32⟩
  | .hbm, ⟨11, _⟩ => ⟨S6000000, .i32⟩
  | .hbm, ⟨12, _⟩ => ⟨S6000000x1, .i32⟩
  | .hbm, ⟨13, _⟩ => ⟨S6000000, .i32⟩
  | .hbm, ⟨14, _⟩ => ⟨S_, .i32⟩
  | .hbm, ⟨15, _⟩ => ⟨S6000000, .i32⟩
  | .hbm, ⟨16, _⟩ => ⟨S6000000, .i1⟩
  | .hbm, ⟨17, _⟩ => ⟨S_, .i32⟩
  | .hbm, ⟨18, _⟩ => ⟨S6000000, .i32⟩
  | .hbm, ⟨19, _⟩ => ⟨S6000000, .i32⟩
  | .hbm, ⟨20, _⟩ => ⟨S6000000, .i32⟩
  | .hbm, ⟨21, _⟩ => ⟨S6000000x1, .i32⟩
  | .hbm, ⟨22, _⟩ => ⟨S6000000x3, .f32⟩
  | .hbm, ⟨23, _⟩ => ⟨S_, .i32⟩
  | .hbm, ⟨24, _⟩ => ⟨S6000000, .i32⟩
  | .hbm, ⟨25, _⟩ => ⟨S6000000, .i1⟩
  | .hbm, ⟨26, _⟩ => ⟨S_, .i32⟩
  | .hbm, ⟨27, _⟩ => ⟨S6000000, .i32⟩
  | .hbm, ⟨28, _⟩ => ⟨S6000000, .i32⟩
  | .hbm, ⟨29, _⟩ => ⟨S6000000, .i32⟩
  | .hbm, ⟨30, _⟩ => ⟨S6000000x1, .i32⟩
  | .hbm, ⟨31, _⟩ => ⟨S6000000x3, .f32⟩
  | .hbm, ⟨32, _⟩ => ⟨S3x6000000, .f32⟩
  | .hbm, ⟨33, _⟩ => ⟨S3x6000000, .f32⟩
  | .hbm, ⟨34, _⟩ => ⟨S1x6000000, .f32⟩
  | .hbm, ⟨35, _⟩ => ⟨S1x1, .f32⟩
  | .hbm, ⟨36, _⟩ => ⟨S_, .f32⟩
  | .hbm, ⟨37, _⟩ => ⟨S_, .f32⟩
  | .local _ .vmem, ⟨0, _⟩ => ⟨S3x640, .f32⟩
  | .local _ .vmem, ⟨1, _⟩ => ⟨S3x640, .f32⟩
  | .local _ .vmem, ⟨2, _⟩ => ⟨S4096x64, .bf16⟩
  | .local _ .vmem, ⟨3, _⟩ => ⟨S1x1, .f32⟩
  | .local _ .vmem, ⟨4, _⟩ => ⟨S1x1, .f32⟩
  | .local _ .vmem, ⟨5, _⟩ => ⟨S3x80000, .f32⟩
  | .local _ .vmem, ⟨6, _⟩ => ⟨S3x80000, .f32⟩
  | .local _ .vmem, ⟨7, _⟩ => ⟨S3x80000, .f32⟩
  | .local _ .vmem, ⟨8, _⟩ => ⟨S3x80000, .f32⟩
  | .local _ .vmem, ⟨9, _⟩ => ⟨S1x80000, .f32⟩
  | .local _ .vmem, ⟨10, _⟩ => ⟨S1x80000, .f32⟩
  | .local _ .vmem, ⟨11, _⟩ => ⟨S1x1, .f32⟩
  | .local _ .vmem, ⟨12, _⟩ => ⟨S1x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨1, ![3125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x80000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x80000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S64x64x64_S4096x64 : S64x64x64.ShapeCasts S4096x64
  bitsLt_bf16_f32 : FTy.bits .bf16 < FTy.bits .f32
  transposes_S2000000x3_S3x2000000_1_0 : S2000000x3.Transposes [1, 0] S3x2000000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x640_S1x640_0_0 : ∀ a, (![0, 0] : Fin 2 → Nat) a + S1x640.size a ≤ S3x640.size a
  h_S1x640 : 0 < S1x640.numel
  shapeCasts_S1x640_S1x640 : S1x640.ShapeCasts S1x640
  inb_S3x640_S1x640_1_0 : ∀ a, (![1, 0] : Fin 2 → Nat) a + S1x640.size a ≤ S3x640.size a
  inb_S3x640_S1x640_2_0 : ∀ a, (![2, 0] : Fin 2 → Nat) a + S1x640.size a ≤ S3x640.size a
  iota_S64x1_d0_w32 : S64x1.Iotas .tc 32 [0]
  broadcasts_S64x1_S64x640 : S64x1.Broadcasts S64x640
  broadcasts_S1x640_S64x640 : S1x640.Broadcasts S64x640
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S4096x640_o0_0_S64x640 : S4096x640.Slices ![0, 0] S64x640
  reduces_S64x640_S640 : S64x640.Reduces [0] S640
  shapeCasts_S640_S1x640 : S640.ShapeCasts S1x640
  slices_S4096x640_o64_0_S64x640 : S4096x640.Slices ![64, 0] S64x640
  slices_S4096x640_o128_0_S64x640 : S4096x640.Slices ![128, 0] S64x640
  slices_S4096x640_o192_0_S64x640 : S4096x640.Slices ![192, 0] S64x640
  slices_S4096x640_o256_0_S64x640 : S4096x640.Slices ![256, 0] S64x640
  slices_S4096x640_o320_0_S64x640 : S4096x640.Slices ![320, 0] S64x640
  slices_S4096x640_o384_0_S64x640 : S4096x640.Slices ![384, 0] S64x640
  slices_S4096x640_o448_0_S64x640 : S4096x640.Slices ![448, 0] S64x640
  slices_S4096x640_o512_0_S64x640 : S4096x640.Slices ![512, 0] S64x640
  slices_S4096x640_o576_0_S64x640 : S4096x640.Slices ![576, 0] S64x640
  slices_S4096x640_o640_0_S64x640 : S4096x640.Slices ![640, 0] S64x640
  slices_S4096x640_o704_0_S64x640 : S4096x640.Slices ![704, 0] S64x640
  slices_S4096x640_o768_0_S64x640 : S4096x640.Slices ![768, 0] S64x640
  slices_S4096x640_o832_0_S64x640 : S4096x640.Slices ![832, 0] S64x640
  slices_S4096x640_o896_0_S64x640 : S4096x640.Slices ![896, 0] S64x640
  slices_S4096x640_o960_0_S64x640 : S4096x640.Slices ![960, 0] S64x640
  slices_S4096x640_o1024_0_S64x640 : S4096x640.Slices ![1024, 0] S64x640
  slices_S4096x640_o1088_0_S64x640 : S4096x640.Slices ![1088, 0] S64x640
  slices_S4096x640_o1152_0_S64x640 : S4096x640.Slices ![1152, 0] S64x640
  slices_S4096x640_o1216_0_S64x640 : S4096x640.Slices ![1216, 0] S64x640
  slices_S4096x640_o1280_0_S64x640 : S4096x640.Slices ![1280, 0] S64x640
  slices_S4096x640_o1344_0_S64x640 : S4096x640.Slices ![1344, 0] S64x640
  slices_S4096x640_o1408_0_S64x640 : S4096x640.Slices ![1408, 0] S64x640
  slices_S4096x640_o1472_0_S64x640 : S4096x640.Slices ![1472, 0] S64x640
  slices_S4096x640_o1536_0_S64x640 : S4096x640.Slices ![1536, 0] S64x640
  slices_S4096x640_o1600_0_S64x640 : S4096x640.Slices ![1600, 0] S64x640
  slices_S4096x640_o1664_0_S64x640 : S4096x640.Slices ![1664, 0] S64x640
  slices_S4096x640_o1728_0_S64x640 : S4096x640.Slices ![1728, 0] S64x640
  slices_S4096x640_o1792_0_S64x640 : S4096x640.Slices ![1792, 0] S64x640
  slices_S4096x640_o1856_0_S64x640 : S4096x640.Slices ![1856, 0] S64x640
  slices_S4096x640_o1920_0_S64x640 : S4096x640.Slices ![1920, 0] S64x640
  slices_S4096x640_o1984_0_S64x640 : S4096x640.Slices ![1984, 0] S64x640
  slices_S4096x640_o2048_0_S64x640 : S4096x640.Slices ![2048, 0] S64x640
  slices_S4096x640_o2112_0_S64x640 : S4096x640.Slices ![2112, 0] S64x640
  slices_S4096x640_o2176_0_S64x640 : S4096x640.Slices ![2176, 0] S64x640
  slices_S4096x640_o2240_0_S64x640 : S4096x640.Slices ![2240, 0] S64x640
  slices_S4096x640_o2304_0_S64x640 : S4096x640.Slices ![2304, 0] S64x640
  slices_S4096x640_o2368_0_S64x640 : S4096x640.Slices ![2368, 0] S64x640
  slices_S4096x640_o2432_0_S64x640 : S4096x640.Slices ![2432, 0] S64x640
  slices_S4096x640_o2496_0_S64x640 : S4096x640.Slices ![2496, 0] S64x640
  slices_S4096x640_o2560_0_S64x640 : S4096x640.Slices ![2560, 0] S64x640
  slices_S4096x640_o2624_0_S64x640 : S4096x640.Slices ![2624, 0] S64x640
  slices_S4096x640_o2688_0_S64x640 : S4096x640.Slices ![2688, 0] S64x640
  slices_S4096x640_o2752_0_S64x640 : S4096x640.Slices ![2752, 0] S64x640
  slices_S4096x640_o2816_0_S64x640 : S4096x640.Slices ![2816, 0] S64x640
  slices_S4096x640_o2880_0_S64x640 : S4096x640.Slices ![2880, 0] S64x640
  slices_S4096x640_o2944_0_S64x640 : S4096x640.Slices ![2944, 0] S64x640
  slices_S4096x640_o3008_0_S64x640 : S4096x640.Slices ![3008, 0] S64x640
  slices_S4096x640_o3072_0_S64x640 : S4096x640.Slices ![3072, 0] S64x640
  slices_S4096x640_o3136_0_S64x640 : S4096x640.Slices ![3136, 0] S64x640
  slices_S4096x640_o3200_0_S64x640 : S4096x640.Slices ![3200, 0] S64x640
  slices_S4096x640_o3264_0_S64x640 : S4096x640.Slices ![3264, 0] S64x640
  slices_S4096x640_o3328_0_S64x640 : S4096x640.Slices ![3328, 0] S64x640
  slices_S4096x640_o3392_0_S64x640 : S4096x640.Slices ![3392, 0] S64x640
  slices_S4096x640_o3456_0_S64x640 : S4096x640.Slices ![3456, 0] S64x640
  slices_S4096x640_o3520_0_S64x640 : S4096x640.Slices ![3520, 0] S64x640
  slices_S4096x640_o3584_0_S64x640 : S4096x640.Slices ![3584, 0] S64x640
  slices_S4096x640_o3648_0_S64x640 : S4096x640.Slices ![3648, 0] S64x640
  slices_S4096x640_o3712_0_S64x640 : S4096x640.Slices ![3712, 0] S64x640
  slices_S4096x640_o3776_0_S64x640 : S4096x640.Slices ![3776, 0] S64x640
  slices_S4096x640_o3840_0_S64x640 : S4096x640.Slices ![3840, 0] S64x640
  slices_S4096x640_o3904_0_S64x640 : S4096x640.Slices ![3904, 0] S64x640
  slices_S4096x640_o3968_0_S64x640 : S4096x640.Slices ![3968, 0] S64x640
  slices_S4096x640_o4032_0_S64x640 : S4096x640.Slices ![4032, 0] S64x640
  reduces_S1x640_S1 : S1x640.Reduces [1] S1
  shapeCasts_S1_S1x1 : S1.ShapeCasts S1x1
  shapeCasts_S1x1_S_ : S1x1.ShapeCasts S_
  slices_S6000000x2_S6000000x1_0_0 : S6000000x2.Slices ![0, 0] S6000000x1
  shapeCasts_S6000000x1_S6000000 : S6000000x1.ShapeCasts S6000000
  slices_S6000000x2_S6000000x1_0_1 : S6000000x2.Slices ![0, 1] S6000000x1
  bcast_S_S6000000 : S_.BroadcastsInDim S6000000 (![] : Fin 0 → Fin S6000000.rank)
  bcast_S6000000_S6000000x1_0 : S6000000.BroadcastsInDim S6000000x1 (![0] : Fin 1 → Fin S6000000x1.rank)
  transposes_S6000000x3_S3x6000000_1_0 : S6000000x3.Transposes [1, 0] S3x6000000
  shapeCasts_S6000000_S1x6000000 : S6000000.ShapeCasts S1x6000000
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  reduces_S3x80000_S80000 : S3x80000.Reduces [0] S80000
  shapeCasts_S80000_S1x80000 : S80000.ShapeCasts S1x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  reduces_S1x80000_S1 : S1x80000.Reduces [1] S1
  dot_S4096x64_S64x640_S4096x640_1_0_0_1_n_n_wf : DotDims.WF S4096x64 S64x640 S4096x640 [1] [0] [0] [1] [] []
  gather_S2000000x3_S6000000x1_S6000000x3_1_0_n_n_0_1_13_wf : GatherDims.WF S2000000x3 S6000000x1 S6000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x640.size a ≤ S3x2000000.size a
  hwx0_0 : ∀ i : grid0.Coords, EltTy.bits .f32 = 32 ∨ (Rect.block (s := S3x2000000) S3x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x80000.size a ≤ S3x6000000.size a
  hwx1_0 : ∀ i : grid1.Coords, EltTy.bits .f32 = 32 ∨ (Rect.block (s := S3x6000000) S3x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x80000.size a ≤ S3x6000000.size a
  hwx1_1 : ∀ i : grid1.Coords, EltTy.bits .f32 = 32 ∨ (Rect.block (s := S3x6000000) S3x80000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80000.size a ≤ S1x6000000.size a
  hwx1_2 : ∀ i : grid1.Coords, EltTy.bits .f32 = 32 ∨ (Rect.block (s := S1x6000000) S1x80000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S4096x64_S64x640_S4096x640_1_0_0_1_n_n : DotDims S4096x64 S64x640 S4096x640 where
  lhsContracting := [1]
  rhsContracting := [0]
  lhsNonContracting := [0]
  rhsNonContracting := [1]
  lhsBatch := []
  rhsBatch := []
  wf := dot_S4096x64_S64x640_S4096x640_1_0_0_1_n_n_wf
def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf

abbrev win0_0 : Pipeline.Window sig grid0 :=
  Pipeline.Window.ofSpec (Memref.whole main_v2) S3x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S3x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S3x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x80000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000x3 : Shape := ⟨2, ![2000000, 3]⟩
abbrev S4000000x3 : Shape := ⟨2, ![4000000, 3]⟩
abbrev S6000000x2 : Shape := ⟨2, ![6000000, 2]⟩
abbrev S64x64x64 : Shape := ⟨3, ![64, 64, 64]⟩
abbrev S6000000 : Shape := ⟨1, ![6000000]⟩
abbrev S_ : Shape := ⟨0, ![]⟩
abbrev S2000000x1 : Shape := ⟨2, ![2000000, 1]⟩
abbrev S2000000 : Shape := ⟨1, ![2000000]⟩
abbrev S6000000x1 : Shape := ⟨2, ![6000000, 1]⟩
abbrev S6000000x3 : Shape := ⟨2, ![6000000, 3]⟩

abbrev nBuf : Space → Nat
  | .hbm => 398
  | .vmem => 0
  | .smem => 0
  | _ => 0

abbrev hbmTy0_0 (i : Nat) : BufTy := match i % 128 with
  | 0 => ⟨S2000000x3, .f32⟩
  | 1 => ⟨S4000000x3, .i32⟩
  | 2 => ⟨S6000000x2, .i32⟩
  | 3 => ⟨S64x64x64, .f32⟩
  | 4 => ⟨S6000000, .f32⟩
  | 5 => ⟨S_, .f32⟩
  | 6 => ⟨S2000000x3, .f32⟩
  | 7 => ⟨S2000000x3, .f32⟩
  | 8 => ⟨S2000000x3, .f32⟩
  | 9 => ⟨S2000000x3, .i32⟩
  | 10 => ⟨S_, .i32⟩
  | 11 => ⟨S_, .i32⟩
  | 12 => ⟨S_, .i32⟩
  | 13 => ⟨S2000000x3, .i32⟩
  | 14 => ⟨S2000000x3, .i32⟩
  | 15 => ⟨S_, .i32⟩
  | 16 => ⟨S2000000x3, .i32⟩
  | 17 => ⟨S2000000x3, .i32⟩
  | 18 => ⟨S2000000x3, .f32⟩
  | 19 => ⟨S2000000x3, .f32⟩
  | 20 => ⟨S2000000x1, .i32⟩
  | 21 => ⟨S2000000, .i32⟩
  | 22 => ⟨S2000000x1, .i32⟩
  | 23 => ⟨S2000000, .i32⟩
  | 24 => ⟨S2000000x1, .i32⟩
  | 25 => ⟨S2000000, .i32⟩
  | 26 => ⟨S2000000x1, .f32⟩
  | 27 => ⟨S2000000, .f32⟩
  | 28 => ⟨S2000000x1, .f32⟩
  | 29 => ⟨S2000000, .f32⟩
  | 30 => ⟨S2000000x1, .f32⟩
  | 31 => ⟨S2000000, .f32⟩
  | 32 => ⟨S_, .i32⟩
  | 33 => ⟨S2000000, .i32⟩
  | 34 => ⟨S2000000, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x1, .i32⟩
  | 64 => ⟨S2000000x1, .i32⟩
  | 65 => ⟨S2000000x3, .i32⟩
  | 66 => ⟨S2000000, .f32⟩
  | 67 => ⟨S_, .f32⟩
  | 68 => ⟨S2000000, .f32⟩
  | 69 => ⟨S2000000, .f32⟩
  | 70 => ⟨S2000000, .f32⟩
  | 71 => ⟨S_, .i32⟩
  | 72 => ⟨S2000000, .i32⟩
  | 73 => ⟨S2000000, .i32⟩
  | 74 => ⟨S_, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x1, .i32⟩
  | 103 => ⟨S2000000x1, .i32⟩
  | 104 => ⟨S2000000x3, .i32⟩
  | 105 => ⟨S2000000, .f32⟩
  | 106 => ⟨S2000000, .f32⟩
  | 107 => ⟨S2000000, .f32⟩
  | 108 => ⟨S_, .i32⟩
  | 109 => ⟨S2000000, .i32⟩
  | 110 => ⟨S2000000, .i32⟩
  | 111 => ⟨S_, .i32⟩
  | 112 => ⟨S2000000, .i32⟩
  | 113 => ⟨S2000000, .i32⟩
  | 114 => ⟨S_, .i32⟩
  | 115 => ⟨S2000000, .i32⟩
  | 116 => ⟨S2000000, .i32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S_, .i32⟩
  | 125 => ⟨S2000000, .i32⟩
  | 126 => ⟨S2000000, .i1⟩
  | 127 => ⟨S_, .i32⟩
  | _ => ⟨S2000000x3, .f32⟩

abbrev hbmTy0_1 (i : Nat) : BufTy := match i % 128 with
  | 0 => ⟨S2000000, .i32⟩
  | 1 => ⟨S2000000, .i32⟩
  | 2 => ⟨S2000000, .i32⟩
  | 3 => ⟨S_, .i32⟩
  | 4 => ⟨S2000000, .i32⟩
  | 5 => ⟨S2000000, .i1⟩
  | 6 => ⟨S_, .i32⟩
  | 7 => ⟨S2000000, .i32⟩
  | 8 => ⟨S2000000, .i32⟩
  | 9 => ⟨S2000000, .i32⟩
  | 10 => ⟨S2000000x1, .i32⟩
  | 11 => ⟨S2000000x1, .i32⟩
  | 12 => ⟨S2000000x1, .i32⟩
  | 13 => ⟨S2000000x3, .i32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .i32⟩
  | 20 => ⟨S2000000, .i32⟩
  | 21 => ⟨S2000000, .i32⟩
  | 22 => ⟨S_, .i32⟩
  | 23 => ⟨S2000000, .i32⟩
  | 24 => ⟨S2000000, .i32⟩
  | 25 => ⟨S_, .i32⟩
  | 26 => ⟨S2000000, .i32⟩
  | 27 => ⟨S2000000, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S2000000x1, .i32⟩
  | 51 => ⟨S2000000x1, .i32⟩
  | 52 => ⟨S2000000x3, .i32⟩
  | 53 => ⟨S2000000, .f32⟩
  | 54 => ⟨S2000000, .f32⟩
  | 55 => ⟨S2000000, .f32⟩
  | 56 => ⟨S_, .i32⟩
  | 57 => ⟨S2000000, .i32⟩
  | 58 => ⟨S2000000, .i32⟩
  | 59 => ⟨S_, .i32⟩
  | 60 => ⟨S2000000, .i32⟩
  | 61 => ⟨S2000000, .i32⟩
  | 62 => ⟨S_, .i32⟩
  | 63 => ⟨S2000000, .i32⟩
  | 64 => ⟨S2000000, .i32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x1, .i32⟩
  | 88 => ⟨S2000000x1, .i32⟩
  | 89 => ⟨S2000000x3, .i32⟩
  | 90 => ⟨S2000000, .f32⟩
  | 91 => ⟨S_, .f32⟩
  | 92 => ⟨S2000000, .f32⟩
  | 93 => ⟨S2000000, .f32⟩
  | 94 => ⟨S2000000, .f32⟩
  | 95 => ⟨S_, .i32⟩
  | 96 => ⟨S2000000, .i32⟩
  | 97 => ⟨S2000000, .i32⟩
  | 98 => ⟨S_, .i32⟩
  | 99 => ⟨S2000000, .i32⟩
  | 100 => ⟨S2000000, .i32⟩
  | 101 => ⟨S_, .i32⟩
  | 102 => ⟨S2000000, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x1, .i32⟩
  | 127 => ⟨S2000000x1, .i32⟩
  | _ => ⟨S2000000x3, .f32⟩

abbrev hbmTy0_2 (i : Nat) : BufTy := match i % 128 with
  | 0 => ⟨S2000000x3, .i32⟩
  | 1 => ⟨S2000000, .f32⟩
  | 2 => ⟨S2000000, .f32⟩
  | 3 => ⟨S2000000, .f32⟩
  | 4 => ⟨S_, .i32⟩
  | 5 => ⟨S2000000, .i32⟩
  | 6 => ⟨S2000000, .i32⟩
  | 7 => ⟨S_, .i32⟩
  | 8 => ⟨S2000000, .i32⟩
  | 9 => ⟨S2000000, .i32⟩
  | 10 => ⟨S_, .i32⟩
  | 11 => ⟨S2000000, .i32⟩
  | 12 => ⟨S2000000, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x1, .i32⟩
  | 36 => ⟨S2000000x1, .i32⟩
  | 37 => ⟨S2000000x3, .i32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .i32⟩
  | 44 => ⟨S2000000, .i32⟩
  | 45 => ⟨S2000000, .i32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x1, .i32⟩
  | 75 => ⟨S2000000x1, .i32⟩
  | 76 => ⟨S2000000x3, .i32⟩
  | 77 => ⟨S2000000, .f32⟩
  | 78 => ⟨S2000000, .f32⟩
  | 79 => ⟨S2000000, .f32⟩
  | 80 => ⟨S_, .f32⟩
  | 81 => ⟨S2000000, .f32⟩
  | 82 => ⟨S2000000, .f32⟩
  | 83 => ⟨S2000000, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S2000000, .f32⟩
  | 90 => ⟨S2000000, .f32⟩
  | 91 => ⟨S2000000, .f32⟩
  | 92 => ⟨S_, .f32⟩
  | 93 => ⟨S2000000, .f32⟩
  | 94 => ⟨S2000000, .f32⟩
  | 95 => ⟨S2000000, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S6000000x1, .i32⟩
  | 103 => ⟨S6000000, .i32⟩
  | 104 => ⟨S_, .i32⟩
  | 105 => ⟨S6000000, .i32⟩
  | 106 => ⟨S6000000, .i1⟩
  | 107 => ⟨S_, .i32⟩
  | 108 => ⟨S6000000, .i32⟩
  | 109 => ⟨S6000000, .i32⟩
  | 110 => ⟨S6000000, .i32⟩
  | 111 => ⟨S6000000x1, .i32⟩
  | 112 => ⟨S6000000x3, .f32⟩
  | 113 => ⟨S6000000x1, .i32⟩
  | 114 => ⟨S6000000, .i32⟩
  | 115 => ⟨S_, .i32⟩
  | 116 => ⟨S6000000, .i32⟩
  | 117 => ⟨S6000000, .i1⟩
  | 118 => ⟨S_, .i32⟩
  | 119 => ⟨S6000000, .i32⟩
  | 120 => ⟨S6000000, .i32⟩
  | 121 => ⟨S6000000, .i32⟩
  | 122 => ⟨S6000000x1, .i32⟩
  | 123 => ⟨S6000000x3, .f32⟩
  | 124 => ⟨S6000000x3, .f32⟩
  | 125 => ⟨S6000000x3, .f32⟩
  | 126 => ⟨S_, .f32⟩
  | 127 => ⟨S6000000, .f32⟩
  | _ => ⟨S2000000x3, .f32⟩

abbrev hbmTy0_3 (i : Nat) : BufTy := match i % 128 with
  | 0 => ⟨S_, .f32⟩
  | 1 => ⟨S6000000, .f32⟩
  | 2 => ⟨S6000000, .f32⟩
  | 3 => ⟨S6000000, .f32⟩
  | 4 => ⟨S6000000, .f32⟩
  | 5 => ⟨S6000000, .f32⟩
  | 6 => ⟨S_, .f32⟩
  | 7 => ⟨S6000000, .f32⟩
  | 8 => ⟨S6000000, .f32⟩
  | 9 => ⟨S_, .f32⟩
  | 10 => ⟨S_, .f32⟩
  | 11 => ⟨S_, .f32⟩
  | 12 => ⟨S_, .f32⟩
  | 13 => ⟨S_, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_16 : Ref sig .tc := ⟨.hbm, 87, rfl⟩
abbrev main_v59 : Ref sig .tc := ⟨.hbm, 88, rfl⟩
abbrev main_v60 : Ref sig .tc := ⟨.hbm, 89, rfl⟩
abbrev main_c_17 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_18 : Ref sig .tc := ⟨.hbm, 94, rfl⟩
abbrev main_v64 : Ref sig .tc := ⟨.hbm, 95, rfl⟩
abbrev main_v65 : Ref sig .tc := ⟨.hbm, 96, rfl⟩
abbrev main_c_19 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_20 : Ref sig .tc := ⟨.hbm, 108, rfl⟩
abbrev main_v76 : Ref sig .tc := ⟨.hbm, 109, rfl⟩
abbrev main_v77 : Ref sig .tc := ⟨.hbm, 110, rfl⟩
abbrev main_c_21 : Ref sig .tc := ⟨.hbm, 111, rfl⟩
abbrev main_v78 : Ref sig .tc := ⟨.hbm, 112, rfl⟩
abbrev main_v79 : Ref sig .tc := ⟨.hbm, 113, rfl⟩
abbrev main_c_22 : Ref sig .tc := ⟨.hbm, 114, rfl⟩
abbrev main_v80 : Ref sig .tc := ⟨.hbm, 115, rfl⟩
abbrev main_v81 : Ref sig .tc := ⟨.hbm, 116, rfl⟩
abbrev main_c_23 : Ref sig .tc := ⟨.hbm, 117, rfl⟩
abbrev main_v82 : Ref sig .tc := ⟨.hbm, 118, rfl⟩
abbrev main_v83 : Ref sig .tc := ⟨.hbm, 119, rfl⟩
abbrev main_c_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_25 : Ref sig .tc := ⟨.hbm, 124, rfl⟩
abbrev main_v87 : Ref sig .tc := ⟨.hbm, 125, rfl⟩
abbrev main_v88 : Ref sig .tc := ⟨.hbm, 126, rfl⟩
abbrev main_c_26 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_27 : Ref sig .tc := ⟨.hbm, 131, rfl⟩
abbrev main_v92 : Ref sig .tc := ⟨.hbm, 132, rfl⟩
abbrev main_v93 : Ref sig .tc := ⟨.hbm, 133, rfl⟩
abbrev main_c_28 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_29 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_30 : Ref sig .tc := ⟨.hbm, 147, rfl⟩
abbrev main_v105 : Ref sig .tc := ⟨.hbm, 148, rfl⟩
abbrev main_v106 : Ref sig .tc := ⟨.hbm, 149, rfl⟩
abbrev main_c_31 : Ref sig .tc := ⟨.hbm, 150, rfl⟩
abbrev main_v107 : Ref sig .tc := ⟨.hbm, 151, rfl⟩
abbrev main_v108 : Ref sig .tc := ⟨.hbm, 152, rfl⟩
abbrev main_c_32 : Ref sig .tc := ⟨.hbm, 153, rfl⟩
abbrev main_v109 : Ref sig .tc := ⟨.hbm, 154, rfl⟩
abbrev main_v110 : Ref sig .tc := ⟨.hbm, 155, rfl⟩
abbrev main_c_33 : Ref sig .tc := ⟨.hbm, 156, rfl⟩
abbrev main_v111 : Ref sig .tc := ⟨.hbm, 157, rfl⟩
abbrev main_v112 : Ref sig .tc := ⟨.hbm, 158, rfl⟩
abbrev main_c_34 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_35 : Ref sig .tc := ⟨.hbm, 163, rfl⟩
abbrev main_v116 : Ref sig .tc := ⟨.hbm, 164, rfl⟩
abbrev main_v117 : Ref sig .tc := ⟨.hbm, 165, rfl⟩
abbrev main_c_36 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_37 : Ref sig .tc := ⟨.hbm, 170, rfl⟩
abbrev main_v121 : Ref sig .tc := ⟨.hbm, 171, rfl⟩
abbrev main_v122 : Ref sig .tc := ⟨.hbm, 172, rfl⟩
abbrev main_c_38 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_39 : Ref sig .tc := ⟨.hbm, 184, rfl⟩
abbrev main_v133 : Ref sig .tc := ⟨.hbm, 185, rfl⟩
abbrev main_v134 : Ref sig .tc := ⟨.hbm, 186, rfl⟩
abbrev main_c_40 : Ref sig .tc := ⟨.hbm, 187, rfl⟩
abbrev main_v135 : Ref sig .tc := ⟨.hbm, 188, rfl⟩
abbrev main_v136 : Ref sig .tc := ⟨.hbm, 189, rfl⟩
abbrev main_c_41 : Ref sig .tc := ⟨.hbm, 190, rfl⟩
abbrev main_v137 : Ref sig .tc := ⟨.hbm, 191, rfl⟩
abbrev main_v138 : Ref sig .tc := ⟨.hbm, 192, rfl⟩
abbrev main_c_42 : Ref sig .tc := ⟨.hbm, 193, rfl⟩
abbrev main_v139 : Ref sig .tc := ⟨.hbm, 194, rfl⟩
abbrev main_v140 : Ref sig .tc := ⟨.hbm, 195, rfl⟩
abbrev main_c_43 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_44 : Ref sig .tc := ⟨.hbm, 200, rfl⟩
abbrev main_v144 : Ref sig .tc := ⟨.hbm, 201, rfl⟩
abbrev main_v145 : Ref sig .tc := ⟨.hbm, 202, rfl⟩
abbrev main_c_45 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_46 : Ref sig .tc := ⟨.hbm, 207, rfl⟩
abbrev main_v149 : Ref sig .tc := ⟨.hbm, 208, rfl⟩
abbrev main_v150 : Ref sig .tc := ⟨.hbm, 209, rfl⟩
abbrev main_c_47 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_48 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_c_49 : Ref sig .tc := ⟨.hbm, 223, rfl⟩
abbrev main_v162 : Ref sig .tc := ⟨.hbm, 224, rfl⟩
abbrev main_v163 : Ref sig .tc := ⟨.hbm, 225, rfl⟩
abbrev main_c_50 : Ref sig .tc := ⟨.hbm, 226, rfl⟩
abbrev main_v164 : Ref sig .tc := ⟨.hbm, 227, rfl⟩
abbrev main_v165 : Ref sig .tc := ⟨.hbm, 228, rfl⟩
abbrev main_c_51 : Ref sig .tc := ⟨.hbm, 229, rfl⟩
abbrev main_v166 : Ref sig .tc := ⟨.hbm, 230, rfl⟩
abbrev main_v167 : Ref sig .tc := ⟨.hbm, 231, rfl⟩
abbrev main_c_52 : Ref sig .tc := ⟨.hbm, 232, rfl⟩
abbrev main_v168 : Ref sig .tc := ⟨.hbm, 233, rfl⟩
abbrev main_v169 : Ref sig .tc := ⟨.hbm, 234, rfl⟩
abbrev main_c_53 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_c_54 : Ref sig .tc := ⟨.hbm, 239, rfl⟩
abbrev main_v173 : Ref sig .tc := ⟨.hbm, 240, rfl⟩
abbrev main_v174 : Ref sig .tc := ⟨.hbm, 241, rfl⟩
abbrev main_c_55 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_c_56 : Ref sig .tc := ⟨.hbm, 246, rfl⟩
abbrev main_v178 : Ref sig .tc := ⟨.hbm, 247, rfl⟩
abbrev main_v179 : Ref sig .tc := ⟨.hbm, 248, rfl⟩
abbrev main_c_57 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_c_58 : Ref sig .tc := ⟨.hbm, 260, rfl⟩
abbrev main_v190 : Ref sig .tc := ⟨.hbm, 261, rfl⟩
abbrev main_v191 : Ref sig .tc := ⟨.hbm, 262, rfl⟩
abbrev main_c_59 : Ref sig .tc := ⟨.hbm, 263, rfl⟩
abbrev main_v192 : Ref sig .tc := ⟨.hbm, 264, rfl⟩
abbrev main_v193 : Ref sig .tc := ⟨.hbm, 265, rfl⟩
abbrev main_c_60 : Ref sig .tc := ⟨.hbm, 266, rfl⟩
abbrev main_v194 : Ref sig .tc := ⟨.hbm, 267, rfl⟩
abbrev main_v195 : Ref sig .tc := ⟨.hbm, 268, rfl⟩
abbrev main_c_61 : Ref sig .tc := ⟨.hbm, 269, rfl⟩
abbrev main_v196 : Ref sig .tc := ⟨.hbm, 270, rfl⟩
abbrev main_v197 : Ref sig .tc := ⟨.hbm, 271, rfl⟩
abbrev main_c_62 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_c_63 : Ref sig .tc := ⟨.hbm, 276, rfl⟩
abbrev main_v201 : Ref sig .tc := ⟨.hbm, 277, rfl⟩
abbrev main_v202 : Ref sig .tc := ⟨.hbm, 278, rfl⟩
abbrev main_c_64 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_c_65 : Ref sig .tc := ⟨.hbm, 283, rfl⟩
abbrev main_v206 : Ref sig .tc := ⟨.hbm, 284, rfl⟩
abbrev main_v207 : Ref sig .tc := ⟨.hbm, 285, rfl⟩
abbrev main_c_66 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_cst_67 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_c_68 : Ref sig .tc := ⟨.hbm, 299, rfl⟩
abbrev main_v219 : Ref sig .tc := ⟨.hbm, 300, rfl⟩
abbrev main_v220 : Ref sig .tc := ⟨.hbm, 301, rfl⟩
abbrev main_c_69 : Ref sig .tc := ⟨.hbm, 302, rfl⟩
abbrev main_v221 : Ref sig .tc := ⟨.hbm, 303, rfl⟩
abbrev main_v222 : Ref sig .tc := ⟨.hbm, 304, rfl⟩
abbrev main_c_70 : Ref sig .tc := ⟨.hbm, 305, rfl⟩
abbrev main_v223 : Ref sig .tc := ⟨.hbm, 306, rfl⟩
abbrev main_v224 : Ref sig .tc := ⟨.hbm, 307, rfl⟩
abbrev main_c_71 : Ref sig .tc := ⟨.hbm, 308, rfl⟩
abbrev main_v225 : Ref sig .tc := ⟨.hbm, 309, rfl⟩
abbrev main_v226 : Ref sig .tc := ⟨.hbm, 310, rfl⟩
abbrev main_c_72 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_c_73 : Ref sig .tc := ⟨.hbm, 315, rfl⟩
abbrev main_v230 : Ref sig .tc := ⟨.hbm, 316, rfl⟩
abbrev main_v231 : Ref sig .tc := ⟨.hbm, 317, rfl⟩
abbrev main_c_74 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_c_75 : Ref sig .tc := ⟨.hbm, 322, rfl⟩
abbrev main_v235 : Ref sig .tc := ⟨.hbm, 323, rfl⟩
abbrev main_v236 : Ref sig .tc := ⟨.hbm, 324, rfl⟩
abbrev main_c_76 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_cst_77 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_cst_78 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_cst_79 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_cst_80 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_c_81 : Ref sig .tc := ⟨.hbm, 360, rfl⟩
abbrev main_v267 : Ref sig .tc := ⟨.hbm, 361, rfl⟩
abbrev main_v268 : Ref sig .tc := ⟨.hbm, 362, rfl⟩
abbrev main_c_82 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_c_83 : Ref sig .tc := ⟨.hbm, 371, rfl⟩
abbrev main_v276 : Ref sig .tc := ⟨.hbm, 372, rfl⟩
abbrev main_v277 : Ref sig .tc := ⟨.hbm, 373, rfl⟩
abbrev main_c_84 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_cst_85 : Ref sig .tc := ⟨.hbm, 382, rfl⟩
abbrev main_v285 : Ref sig .tc := ⟨.hbm, 383, rfl⟩
abbrev main_cst_86 : Ref sig .tc := ⟨.hbm, 384, rfl⟩
abbrev main_v286 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_cst_87 : Ref sig .tc := ⟨.hbm, 390, rfl⟩
abbrev main_v291 : Ref sig .tc := ⟨.hbm, 391, rfl⟩
abbrev main_v292 : Ref sig .tc := ⟨.hbm, 392, rfl⟩
abbrev main_cst_88 : Ref sig .tc := ⟨.hbm, 393, rfl⟩
abbrev main_v293 : Ref sig .tc := ⟨.hbm, 394, rfl⟩
abbrev main_cst_89 : Ref sig .tc := ⟨.hbm, 395, rfl⟩
abbrev main_v294 : Ref sig .tc := ⟨.hbm, 396, rfl⟩
abbrev main_v295 : Ref sig .tc := ⟨.hbm, 397, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  slices_S6000000x2_S6000000x1_0_0 : S6000000x2.Slices ![0, 0] S6000000x1
  shapeCasts_S6000000x1_S6000000 : S6000000x1.ShapeCasts S6000000
  bcast_S_S6000000 : S_.BroadcastsInDim S6000000 (![] : Fin 0 → Fin S6000000.rank)
  bcast_S6000000_S6000000x1_0 : S6000000.BroadcastsInDim S6000000x1 (![0] : Fin 1 → Fin S6000000x1.rank)
  slices_S6000000x2_S6000000x1_0_1 : S6000000x2.Slices ![0, 1] S6000000x1
  reducesTo_S6000000x3_S6000000_d1 : S6000000x3.ReducesTo [1] S6000000
  h_S_ : 0 < S_.numel
  reducesTo_S2000000_S_d0 : S2000000.ReducesTo [0] S_
  reducesTo_S6000000_S_d0 : S6000000.ReducesTo [0] S_
  gather_S64x64x64_S2000000x3_S2000000_n_012_n_n_012_1_111_wf : GatherDims.WF S64x64x64 S2000000x3 S2000000 [] [0, 1, 2] [] [0, 1, 2] [] 1 ![1, 1, 1]
  gather_S2000000x3_S6000000x1_S6000000x3_1_0_n_n_0_1_13_wf : GatherDims.WF S2000000x3 S6000000x1 S6000000x3 [1] [0] [] [0] [] 1 ![1, 3]

variable [Facts₀]

def gather_S64x64x64_S2000000x3_S2000000_n_012_n_n_012_1_111 : GatherDims S64x64x64 S2000000x3 S2000000 where
  offsetDims := []
  collapsedSliceDims := [0, 1, 2]
  operandBatchingDims := []
  startIndicesBatchingDims := []
  startIndexMap := [0, 1, 2]
  indexVectorDim := 1
  sliceSizes := ![1, 1, 1]
  wf := gather_S64x64x64_S2000000x3_S2000000_n_012_n_n_012_1_111_wf
def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf

class Facts : Prop extends Facts₀ where

variable [Facts]
-- ==== Proof.K.R0Runs.lean ====
/- Region 0 of @main (the first pallas_call, a pipeline over a grid of 3125 points with a 1x1 scratch carried between
   points as a running sum): what the two whole-body runs and the body obligation are stated over. The windows' blocks
   read off the arrays as the region finds them, the branch condition of the body's one conditional in closed form,
   the windows' liveness, the staging and scratch memrefs, and the region's entry invariant with the scratch as a
   memref owned at some contents. -/
import proofs.«152542_j63075889709151_1_alg».proof.Proof.Gen.Kernel.Launch
import proofs.«152542_j63075889709151_1_alg».proof.Proof.Gen.Kernel.Skeleton
import proofs.«152542_j63075889709151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer (the whole array, fetched at the first point only) holds its block at every point,
    fetched there or not: unfetched, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch condition -/

/-- The condition of the body's one conditional (is this the grid's first point?), from the grid coordinates: the
    skeleton's scalar chain substituted. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## Where the windows are idle: nowhere (the configuration states no idle point) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Output window 2 is live at every point: the body stores into it at every point. -/
theorem liveAt0_2 : ∀ t : Fin cfg0.N, cfg0.idle 2 (grid0.coords t) = false := fun _ => rfl

/-! ## The staging and scratch memrefs -/

/-- The one staging buffer of output window 2, through which its contents are stated. -/
abbrev VO0_2 : View sig .tc .vmem S1x1 .f32 := (Memref.whole cc0_stg2_0 : Memref sig .tc .vmem S1x1 .f32).view
/-- Each window's current staging memref at point `t`, spelled as the pipeline passes it to the body, and its wholeness. -/
abbrev ms0_0 (t : Fin cfg0.N) : Memref sig .tc .vmem S3x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1x1 .f32 := Memref.whole cc0_scratch0
/-- The scratch the kernel carries between points (the running sum), as a view: what it holds is stated through it. -/
abbrev VS0_0 : View sig .tc .vmem S1x1 .f32 := scM0_0.view

/-- The core's scoped buffers that are neither a staging buffer of this region nor its scratch (the other region's
    staging buffers and scratch), each whole at some contents: carried through the region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's entry invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.Kernel.Hand

end
-- ==== Proof.K.R0RunA.lean ====
/- Region 0, case A (the grid's first point): the whole-body run of the kernel, as a subtype whose witness — the pieces
   the body's stores leave in the output window's staging buffer and in the scratch — the symbolic execution finds. -/
import proofs.«152542_j63075889709151_1_alg».proof.Proof.K.R0Runs

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref (`L2`) and in the scratch (`LS0`), as pieces
    (last first), IN CASE A (the conditional taken: the grid's first point), WITH the proof that on whole staging
    memrefs — the inputs' at their contents, the output's and the scratch at anything — the body runs to the
    continuation holding the inputs' as they were and the output's buffer and the scratch with their pieces written.
    The scratch is stored with zero under the conditional, read back, the tile's term added to it and the sum stored;
    the sum is then read and stored to the output window. The pieces are the witness the run finds. -/
noncomputable def kernelRun0_A (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0RunB.lean ====
/- Region 0, case B (every point after the first): the whole-body run of the kernel, as a subtype whose witness — the
   pieces the body's stores leave in the output window's staging buffer and in the scratch — the symbolic execution
   finds. -/
import proofs.«152542_j63075889709151_1_alg».proof.Proof.K.R0RunA

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref (`L2`) and in the scratch (`LS0`), as pieces
    (last first), IN CASE B (the conditional not taken: every point after the first), WITH the proof that on whole
    staging memrefs — the inputs' at their contents, the output's at anything, the scratch at the contents `xs0` the
    point before left — the body runs to the continuation holding the inputs' as they were and the output's buffer and
    the scratch with their pieces written. The running sum is read from the scratch, the tile's term added to it and the
    sum stored back; the sum is then read and stored to the output window. The pieces are the witness the run finds. -/
noncomputable def kernelRun0_B (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0Body.lean ====
/- Region 0: what the output window's buffer and the scratch hold per case (covers) and point by point (the
   accumulation, by recursion on the point), the region invariant that carries the scratch's contents between points,
   the pipeline's proof data, and the body obligation at every point; with what the launch hands the region and takes
   back. All at a parameter: the buffer contents when the region is entered. -/
import proofs.«152542_j63075889709151_1_alg».proof.Proof.K.R0RunB

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## What each case leaves in the output window's buffer and in the scratch -/

/-- Case A's pieces for output window 2 tile its 1x1 block (one store), so they cover it. -/
theorem cover0_A_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) (y : S1x1.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S1x1.size (by sl_kernel_rfl) y

/-- What case A leaves in output window 2's staging buffer: its pieces read back over junk. -/
def out0_A_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) : Vec F S1x1 .f32 :=
  VO0_2.read (Elt F) (VO0_2.writes (Elt F) VO0_2.junk (kernelRun0_A c i arg1 harg1 arg2 harg2 arg3 harg3 arg4 harg4 hc0 x0 x1).1)

/-- Case A's pieces for the scratch, which the kernel carries between points, cover it (two stores of the 1x1 block:
    the zero, then the sum). -/
theorem scover0_A_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) (y : S1x1.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x1.size (by sl_kernel_rfl) y

/-- What case A leaves in the scratch: its pieces read back over junk. -/
def sout0_A_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) : Vec F S1x1 .f32 :=
  VS0_0.read (Elt F) (VS0_0.writes (Elt F) VS0_0.junk (kernelRun0_A c i arg1 harg1 arg2 harg2 arg3 harg3 arg4 harg4 hc0 x0 x1).2.1)

/-- Case B's pieces for output window 2 tile its 1x1 block (one store), so they cover it. -/
theorem cover0_B_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) (y : S1x1.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S1x1.size (by sl_kernel_rfl) y

/-- What case B leaves in output window 2's staging buffer: its pieces read back over junk. -/
def out0_B_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) : Vec F S1x1 .f32 :=
  VO0_2.read (Elt F) (VO0_2.writes (Elt F) VO0_2.junk (kernelRun0_B c i arg1 harg1 arg2 harg2 arg3 harg3 arg4 harg4 hc0 x0 x1 xs0).1)

/-- Case B's pieces for the scratch cover it (one store of the 1x1 block: the sum). -/
theorem scover0_B_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) (y : S1x1.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S1x1.size (by sl_kernel_rfl) y

/-- What case B leaves in the scratch: its pieces read back over junk. -/
def sout0_B_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) : Vec F S1x1 .f32 :=
  VS0_0.read (Elt F) (VS0_0.writes (Elt F) VS0_0.junk (kernelRun0_B c i arg1 harg1 arg2 harg2 arg3 harg3 arg4 harg4 hc0 x0 x1 xs0).2.1)

/-! ## What the output window and the scratch hold after each point -/

/-- THE ACCUMULATION. What output window 2's staging buffer and the scratch hold after the body at position `n` (a pair:
    the output, then the scratch): at the first point case A, run at the point's memrefs and input blocks; at a later
    point case B, the scratch at what the point before left. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn)).2)

/-- `outsAt0` at the point of case A (the first): that case's contents. -/
theorem outsAt0_A (c : Dev nD) (t : Fin cfg0.N) (h0 : t.val = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact absurd h0 (Nat.succ_ne_zero n)

/-- `outsAt0` at a point of case B (any later one): that case's contents, over what the point before left. -/
theorem outsAt0_B (c : Dev nD) (t : Fin cfg0.N) (h0 : ¬t.val = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact rfl

/-- The region invariant before position `n`: before the first point the region's entry invariant (the scratch at
    anything); afterwards the scoped rest with the scratch at what the point before left in it (`outsAt0`'s second
    component), the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks (`before0_W`); the closed form says which case the
    point is in; so that case's run applies. The invariant hands the body the scratch at what the point before left
    (at anything at the first point) and the generator register at some state, and takes the scratch back at this
    point's contents (by the scratch's cover); the other scoped buffers and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val = 0
  · rw [outsAt0_A V c t h0]
    unfold out0_A_2 sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · rw [outsAt0_B V c t h0]
    unfold out0_B_2 sout0_B_0; (try dsimp only)
    rw [PhiS0_castSucc V c t, PhiS0_pos V c _ _ h0]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 3125 := N_0; omega)

end Regions

end Cert.Kernel.Hand

end
-- ==== Proof.K.R1Runs.lean ====
/- Region 1 of the idealized kernel program (the edge-term kernel, 75 grid points, one 1x1 scratch carried between
   points as a running sum): what the two whole-body runs are stated over — each window's block at a point, the
   body's branch condition in closed form, where the windows are live, the staging and scratch memrefs, and the
   region invariant with the scratch as a memref. -/
import proofs.«152542_j63075889709151_1_alg».proof.Proof.Gen.Kernel.Launch
import proofs.«152542_j63075889709151_1_alg».proof.Proof.Gen.Kernel.Skeleton
import proofs.«152542_j63075889709151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is an input,
    uncut and never idle, so an unfetched point finds the block the point before left, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): the window is an input,
    uncut and never idle, so an unfetched point finds the block the point before left, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): the window is an input,
    uncut and never idle, so an unfetched point finds the block the point before left, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`, from the grid coordinate (the skeleton's scalar chain substituted):
    "the program id is zero". -/
abbrev cond1_0 (i : grid1.Coords) : Prop := (Scalar.cmpi .ne (Scalar.extui (Scalar.cmpi .eq (BitVec.ofNat 32 (i 0).val) 0#32)) 0#32) = 1#1
/-- It holds at the first point only (the grid is one axis of 75 points) — decided over the grid. -/
theorem hcond1_0 : ∀ t : Fin cfg1.N, cond1_0 (grid1.coords t) ↔ t.val % 75 = 0 :=
  (by decide +kernel : ∀ t : Fin grid1.N, cond1_0 (grid1.coords t) ↔ t.val % 75 = 0)

/-! ## Where the windows are idle: nowhere (the body loads every input and stores the output at every point) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (the output: stored at every point, under no condition). -/
theorem liveAt1_3 : ∀ t : Fin cfg1.N, cfg1.idle 3 (grid1.coords t) = false := by decide +kernel

/-! ## The kernel body on any staging memrefs: what the runs are stated over -/

/-- The staging buffer of output window 3, through which its contents are stated (the choice of view does not
    matter: pieces that cover a view read back the same through any). -/
abbrev VO1_3 : View sig .tc .vmem S1x1 .f32 := (Memref.whole cc1_stg3_0 : Memref sig .tc .vmem S1x1 .f32).view
/-- Each window's current staging memref at point `t`, spelled as the pipeline passes it (`bodyAt1`), and its wholeness. -/
abbrev ms1_0 (t : Fin cfg1.N) : Memref sig .tc .vmem S3x80000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x80000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x80000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1x1 .f32 := Memref.whole cc1_scratch0
/-- The scratch the kernel carries between points (the running sum), as a view: what it holds is stated through it. -/
abbrev VS1_0 : View sig .tc .vmem S1x1 .f32 := scM1_0.view

/-- The region's class invariant with the scratch operand as a memref owned at some contents: the scoped buffers that
    are no staging buffer of this call (the other call's staging buffers and scratch, at some contents each, and this
    call's scratch), and the generator register at some state — what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
/- Region 1, case A (the first grid point): the whole-body run of the edge-term kernel as a subtype — the pieces the
   body's stores leave in the output window's buffer and in the scratch, with the proof that the body runs to them. -/
import proofs.«152542_j63075889709151_1_alg».proof.Proof.K.R1Runs

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output window's staging memref (`L3`) and in the scratch (`LS0`), as pieces
    (last first), IN CASE A (the `scf.if` taken: the first grid point), WITH the proof that on whole memrefs — the
    inputs' at their contents, the output's at anything, the scratch at anything (the case stores zero into it before
    it reads it) — the body runs to the continuation holding the inputs' as they were and the output's buffer and the
    scratch with their pieces written. The printed function is its skeleton, which is run operation by operation, the
    `scf.if` decided by the case's hypothesis; the pieces are the witness that run finds. -/
noncomputable def kernelRun1_A (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__edge_kernel i arg1 harg1 arg2 harg2 arg3 harg3 arg4 harg4 arg5 harg5) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.R1RunB.lean ====
/- Region 1, case B (every grid point after the first): the whole-body run of the edge-term kernel as a subtype — the
   pieces the body's stores leave in the output window's buffer and in the scratch, with the proof that the body runs
   to them from the scratch at what the point before left. -/
import proofs.«152542_j63075889709151_1_alg».proof.Proof.K.R1RunA

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output window's staging memref (`L3`) and in the scratch (`LS0`), as pieces
    (last first), IN CASE B (the `scf.if` not taken: every point after the first), WITH the proof that on whole
    memrefs — the inputs' at their contents, the output's at anything, the scratch at the contents `xs0` the point
    before left (the case reads it: the running sum) — the body runs to the continuation holding the inputs' as they
    were and the output's buffer and the scratch with their pieces written. The printed function is its skeleton, which
    is run operation by operation, the `scf.if` decided by the case's hypothesis; the pieces are the witness that run
    finds. -/
noncomputable def kernelRun1_B (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__edge_kernel i arg1 harg1 arg2 harg2 arg3 harg3 arg4 harg4 arg5 harg5) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.R1Body.lean ====
/- Region 1: what the output window's buffer and the carried scratch hold case by case and point by point, the region
   invariant that names the scratch's contents between points, the pipeline's proof data at the entry contents `V`,
   and the body obligation at every point. -/
import proofs.«152542_j63075889709151_1_alg».proof.Proof.K.R1RunB

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves in the output window's buffer and in the scratch -/

/-- Case A's pieces for output window 3 tile its block (blocks of the whole 1x1 shape, checked by the kernel's
    evaluation), so they cover it. -/
theorem cover1_A_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) (y : S1x1.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S1x1.size (by sl_kernel_rfl) y

/-- What case A leaves in output window 3's staging buffer: its pieces read back over junk. -/
def out1_A_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) : Vec F S1x1 .f32 :=
  VO1_3.read (Elt F) (VO1_3.writes (Elt F) VO1_3.junk (kernelRun1_A c i arg1 harg1 arg2 harg2 arg3 harg3 arg4 harg4 arg5 harg5 hc0 x0 x1 x2).1)

/-- Case A's pieces for the scratch, which the kernel carries between points, cover it: the zero stored first, then the sum stored over it. -/
theorem scover1_A_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) (y : S1x1.Idx) :
    ∃ pc ∈ (kernelRun1_A c i arg1 harg1 arg2 harg2 arg3 harg3 arg4 harg4 arg5 harg5 hc0 x0 x1 x2).2.1, y ∈ pc.1.set :=
  View.cover_of_tiledL (kernelRun1_A c i arg1 harg1 arg2 harg2 arg3 harg3 arg4 harg4 arg5 harg5 hc0 x0 x1 x2).2.1 S1x1.size (by sl_kernel_rfl) y

/-- What case A leaves in the scratch: its pieces read back over junk. -/
def sout1_A_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) : Vec F S1x1 .f32 :=
  VS1_0.read (Elt F) (VS1_0.writes (Elt F) VS1_0.junk (kernelRun1_A c i arg1 harg1 arg2 harg2 arg3 harg3 arg4 harg4 arg5 harg5 hc0 x0 x1 x2).2.1)

/-- Case B's pieces for output window 3 tile its block (blocks of the whole 1x1 shape, checked by the kernel's
    evaluation), so they cover it. -/
theorem cover1_B_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) (y : S1x1.Idx) :
    ∃ pc ∈ (kernelRun1_B c i arg1 harg1 arg2 harg2 arg3 harg3 arg4 harg4 arg5 harg5 hc0 x0 x1 x2 xs0).1, y ∈ pc.1.set :=
  View.cover_of_tiledL (kernelRun1_B c i arg1 harg1 arg2 harg2 arg3 harg3 arg4 harg4 arg5 harg5 hc0 x0 x1 x2 xs0).1 S1x1.size (by sl_kernel_rfl) y

/-- What case B leaves in output window 3's staging buffer: its pieces read back over junk. -/
def out1_B_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 x0 x1 x2 xs0).1)

/-- Case B's pieces for the scratch, which the kernel carries between points, cover it: the sum stored over what the point before left. -/
theorem scover1_B_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) (y : S1x1.Idx) :
    ∃ pc ∈ (kernelRun1_B c i arg1 harg1 arg2 harg2 arg3 harg3 arg4 harg4 arg5 harg5 hc0 x0 x1 x2 xs0).2.1, y ∈ pc.1.set :=
  View.cover_of_tiledL (kernelRun1_B c i arg1 harg1 arg2 harg2 arg3 harg3 arg4 harg4 arg5 harg5 hc0 x0 x1 x2 xs0).2.1 S1x1.size (by sl_kernel_rfl) y

/-- What case B leaves in the scratch: its pieces read back over junk. -/
def sout1_B_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 x0 x1 x2 xs0).2.1)

/-! ## What the output window's buffer and the scratch hold after each point -/

/-- THE ACCUMULATION. What the output window's staging buffer and the scratch the kernel carries between points hold
    after the body at position `n` (a pair: the output, then the scratch): the case the closed form selects at `n`,
    run at the point's memrefs and input blocks — after the first point, from the scratch at what this leaves at
    `n - 1`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 75 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 75 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 75 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`, the scratch being CARRIED between points: before the first point the class's
    (every scoped buffer that is no staging buffer of this call at anything, the generator register at some state);
    afterwards the same with the scratch at what the point before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1` (the class's
    before the first point, then the scoped rest with the carried scratch at `outsAt1`'s second component); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns (no window is idle at any point: each buffer at what the body leaves). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' memrefs hold their blocks (`before1_W`); the closed form says which case the
    point is in; the output window's buffer goes to the run at whatever it holds (the body's one load of it is read by
    nothing); the invariant hands the body the carried scratch at what the point before left (at anything at the first
    point), the other scoped buffers and the generator register pass through untouched, and the carried scratch comes back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 75 := lt_of_lt_of_eq t.isLt (show cfg1.N = 75 from N_1)
  by_cases h0 : t.val % 75 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · exfalso; omega
  · rw [outsAt1_B V c t h0]
    unfold out1_B_3 sout1_B_0; (try dsimp only)
    by_cases hz : t.val = 0
    · exfalso; omega
    · rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_B_0 c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 75 := N_1; omega)

end Cert.Kernel.Hand

end
-- ==== Proof.K.Launch.lean ====
/-
  The launch of the kernel program as printed (the same text serves the idealized program: both are stated for any float instance): @main is five segments — a stretch of host operations (the grid reshaped
  and narrowed, the vertices transposed), the distance-field region, a second stretch (the first region's scalar
  reshaped; the edge end-points gathered, transposed; the rest lengths reshaped), the edge region, and a last stretch
  (the second scalar reshaped and the two added). The buffers' contents at the six boundaries are a fold from the launch
  memory: a host stretch applies its operations, a region replaces its windows' arrays by what the write-backs leave.
  Each region is entered with every unscoped buffer at the boundary's contents and left with them at the next; inside,
  its invariant carries the 1×1 scratch accumulator from grid point to grid point. The run ends with EVERY unscoped
  buffer at the last boundary's contents, from which both the frame (no argument is written) and the returned scalar
  (the sum of the two regions' output arrays) are read.
-/
import proofs.«152542_j63075889709151_1_alg».proof.Proof.K.R0Body
import proofs.«152542_j63075889709151_1_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At region 0's exit: its windows' arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last stretch of host operations: the contents @main returns with. -/
abbrev B5 : Dev nD → Valuation τ sig (Elt F) := fun c => StableHlo.after hostOps2 (B4 m ρ c)

/-! ### No host operation and no region writes an argument: each reaches the end as launched -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg1) := B4_of_ne m ρ c main_arg1 (by decide)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

abbrev admH : (p : Fin 2) → (pcfgs (F := F) p).Adm := fun p => (cfgs p).toPCfg_adm
/-- Each pipeline's proof data at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- Region 0 as a segment: entered with every unscoped buffer at the boundary contents before it, left with them at the
    contents after it. Its windows' arrays are split out of the unscoped buffers and put back at what the write-backs
    leave; the generator register goes into the invariant and comes back; nothing is owed; the kernel has no semaphore
    of its own. The invariant carries the scratch accumulator from point to point and forgets it at the exit. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c)
    unfold Pipeline.ΦA
    iintro ⟨Hp, -, Hr⟩
    isplitl [Hr]; · iexact Hr
    iexact Hp
  hout c := by
    rw [Pipeline.ownSems0_none]
    refine BIBase.Entails.trans (hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary contents before it, left with them at the
    contents after it. Its windows' arrays are split out of the unscoped buffers and put back at what the write-backs
    leave; the generator register goes into the invariant and comes back; nothing is owed; the kernel has no semaphore
    of its own. The invariant carries the scratch accumulator from point to point and forgets it at the exit. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_freshH (B0 m ρ)),
    .region (regH0 m ρ),
    .host (hsegH hostOps1 hostOps1_sub hostOps1_freshH (B2 m ρ)),
    .region (regH1 m ρ),
    .host (hsegH hostOps2 hostOps2_sub hostOps2_freshH (B4 m ρ)) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting, and in
    every final state every unscoped TensorCore buffer holds the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ RH c)
        ⊢ iprop(TH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (B5_main_arg0 m ρ c),
     (h c _ (mem_ucH main_arg1 (by decide))).trans (B5_main_arg1 m ρ c),
     (h c _ (mem_ucH main_arg2 (by decide))).trans (B5_main_arg2 m ρ c),
     (h c _ (mem_ucH main_arg3 (by decide))).trans (B5_main_arg3 m ρ c),
     (h c _ (mem_ucH main_arg4 (by decide))).trans (B5_main_arg4 m ρ c)⟩) (run_all m ρ)

/-! ## The returned scalar, traced back to the two regions' output arrays -/

/-- The last stretch adds the two regions' results: `main_v28 = main_v4 + reshape main_v26`. -/
theorem B5_v28 (c : Dev nD) :
    B5 m ρ c (Proc.devRef .tc main_v28)
      = addf (B4 m ρ c (Proc.devRef .tc main_v4))
          (shapeCast S_ (B4 m ρ c (Proc.devRef .tc main_v26)) shapeCasts_S1x1_S_) := by
  show StableHlo.after hostOps2 (B4 m ρ c) (Proc.devRef .tc main_v28) = _
  after_results; rfl

/-- The middle stretch reshapes region 0's result: `main_v4 = reshape main_v3`. -/
theorem B3_v4 (c : Dev nD) :
    B3 m ρ c (Proc.devRef .tc main_v4) = shapeCast S_ (B2 m ρ c (Proc.devRef .tc main_v3)) shapeCasts_S1x1_S_ := by
  show StableHlo.after hostOps1 (B2 m ρ c) (Proc.devRef .tc main_v4) = _
  after_results; rfl

/-- Region 1 does not touch `main_v4`. -/
theorem B4_v4 (c : Dev nD) : B4 m ρ c (Proc.devRef .tc main_v4) = B3 m ρ c (Proc.devRef .tc main_v4) :=
  B4_of_ne m ρ c main_v4 (by decide)

/-- The returned scalar: the sum of what the two regions' write-backs leave in their 1×1 output arrays. -/
theorem B5_result (c : Dev nD) :
    B5 m ρ c (Proc.devRef .tc main_v28)
      = addf (shapeCast S_ ((dat0 (E1 m ρ) c).arrAt 2 cfg0.N) shapeCasts_S1x1_S_)
          (shapeCast S_ ((dat1 (E3 m ρ) c).arrAt 3 cfg1.N) shapeCasts_S1x1_S_) := by
  rw [B5_v28, B4_v4, B3_v4, ← B2_arr m ρ c 2, ← B4_arr m ρ c 3]

end Cert.Kernel.Hand

end
-- ==== Proof.KI.R0Runs.lean ====
/- Region 0 of @main (the first pallas_call, a pipeline over a grid of 3125 points with a 1x1 scratch carried between
   points as a running sum): what the two whole-body runs and the body obligation are stated over. The windows' blocks
   read off the arrays as the region finds them, the branch condition of the body's one conditional in closed form,
   the windows' liveness, the staging and scratch memrefs, and the region's entry invariant with the scratch as a
   memref owned at some contents. -/
import proofs.«152542_j63075889709151_1_alg».proof.Proof.Gen.KernelIdeal.Launch
import proofs.«152542_j63075889709151_1_alg».proof.Proof.Gen.KernelIdeal.Skeleton
import proofs.«152542_j63075889709151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer (the whole array, fetched at the first point only) holds its block at every point,
    fetched there or not: unfetched, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch condition -/

/-- The condition of the body's one conditional (is this the grid's first point?), from the grid coordinates: the
    skeleton's scalar chain substituted. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## Where the windows are idle: nowhere (the configuration states no idle point) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Output window 2 is live at every point: the body stores into it at every point. -/
theorem liveAt0_2 : ∀ t : Fin cfg0.N, cfg0.idle 2 (grid0.coords t) = false := fun _ => rfl

/-! ## The staging and scratch memrefs -/

/-- The one staging buffer of output window 2, through which its contents are stated. -/
abbrev VO0_2 : View sig .tc .vmem S1x1 .f32 := (Memref.whole cc0_stg2_0 : Memref sig .tc .vmem S1x1 .f32).view
/-- Each window's current staging memref at point `t`, spelled as the pipeline passes it to the body, and its wholeness. -/
abbrev ms0_0 (t : Fin cfg0.N) : Memref sig .tc .vmem S3x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1x1 .f32 := Memref.whole cc0_scratch0
/-- The scratch the kernel carries between points (the running sum), as a view: what it holds is stated through it. -/
abbrev VS0_0 : View sig .tc .vmem S1x1 .f32 := scM0_0.view

/-- The core's scoped buffers that are neither a staging buffer of this region nor its scratch (the other region's
    staging buffers and scratch), each whole at some contents: carried through the region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's entry invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.KernelIdeal.Hand

end
-- ==== Proof.KI.R0RunA.lean ====
/- Region 0, case A (the grid's first point): the whole-body run of the kernel, as a subtype whose witness — the pieces
   the body's stores leave in the output window's staging buffer and in the scratch — the symbolic execution finds. -/
import proofs.«152542_j63075889709151_1_alg».proof.Proof.KI.R0Runs

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref (`L2`) and in the scratch (`LS0`), as pieces
    (last first), IN CASE A (the conditional taken: the grid's first point), WITH the proof that on whole staging
    memrefs — the inputs' at their contents, the output's and the scratch at anything — the body runs to the
    continuation holding the inputs' as they were and the output's buffer and the scratch with their pieces written.
    The scratch is stored with zero under the conditional, read back, the tile's term added to it and the sum stored;
    the sum is then read and stored to the output window. The pieces are the witness the run finds. -/
noncomputable def kernelRun0_A (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0RunB.lean ====
/- Region 0, case B (every point after the first): the whole-body run of the kernel, as a subtype whose witness — the
   pieces the body's stores leave in the output window's staging buffer and in the scratch — the symbolic execution
   finds. -/
import proofs.«152542_j63075889709151_1_alg».proof.Proof.KI.R0RunA

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref (`L2`) and in the scratch (`LS0`), as pieces
    (last first), IN CASE B (the conditional not taken: every point after the first), WITH the proof that on whole
    staging memrefs — the inputs' at their contents, the output's at anything, the scratch at the contents `xs0` the
    point before left — the body runs to the continuation holding the inputs' as they were and the output's buffer and
    the scratch with their pieces written. The running sum is read from the scratch, the tile's term added to it and the
    sum stored back; the sum is then read and stored to the output window. The pieces are the witness the run finds. -/
noncomputable def kernelRun0_B (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0Body.lean ====
/- Region 0: what the output window's buffer and the scratch hold per case (covers) and point by point (the
   accumulation, by recursion on the point), the region invariant that carries the scratch's contents between points,
   the pipeline's proof data, and the body obligation at every point; with what the launch hands the region and takes
   back. All at a parameter: the buffer contents when the region is entered. -/
import proofs.«152542_j63075889709151_1_alg».proof.Proof.KI.R0RunB

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## What each case leaves in the output window's buffer and in the scratch -/

/-- Case A's pieces for output window 2 tile its 1x1 block (one store), so they cover it. -/
theorem cover0_A_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) (y : S1x1.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S1x1.size (by sl_kernel_rfl) y

/-- What case A leaves in output window 2's staging buffer: its pieces read back over junk. -/
def out0_A_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) : Vec F S1x1 .f32 :=
  VO0_2.read (Elt F) (VO0_2.writes (Elt F) VO0_2.junk (kernelRun0_A c i arg1 harg1 arg2 harg2 arg3 harg3 arg4 harg4 hc0 x0 x1).1)

/-- Case A's pieces for the scratch, which the kernel carries between points, cover it (two stores of the 1x1 block:
    the zero, then the sum). -/
theorem scover0_A_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) (y : S1x1.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x1.size (by sl_kernel_rfl) y

/-- What case A leaves in the scratch: its pieces read back over junk. -/
def sout0_A_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) : Vec F S1x1 .f32 :=
  VS0_0.read (Elt F) (VS0_0.writes (Elt F) VS0_0.junk (kernelRun0_A c i arg1 harg1 arg2 harg2 arg3 harg3 arg4 harg4 hc0 x0 x1).2.1)

/-- Case B's pieces for output window 2 tile its 1x1 block (one store), so they cover it. -/
theorem cover0_B_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) (y : S1x1.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S1x1.size (by sl_kernel_rfl) y

/-- What case B leaves in output window 2's staging buffer: its pieces read back over junk. -/
def out0_B_2 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) : Vec F S1x1 .f32 :=
  VO0_2.read (Elt F) (VO0_2.writes (Elt F) VO0_2.junk (kernelRun0_B c i arg1 harg1 arg2 harg2 arg3 harg3 arg4 harg4 hc0 x0 x1 xs0).1)

/-- Case B's pieces for the scratch cover it (one store of the 1x1 block: the sum). -/
theorem scover0_B_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) (y : S1x1.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S1x1.size (by sl_kernel_rfl) y

/-- What case B leaves in the scratch: its pieces read back over junk. -/
def sout0_B_0 (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) : Vec F S1x1 .f32 :=
  VS0_0.read (Elt F) (VS0_0.writes (Elt F) VS0_0.junk (kernelRun0_B c i arg1 harg1 arg2 harg2 arg3 harg3 arg4 harg4 hc0 x0 x1 xs0).2.1)

/-! ## What the output window and the scratch hold after each point -/

/-- THE ACCUMULATION. What output window 2's staging buffer and the scratch hold after the body at position `n` (a pair:
    the output, then the scratch): at the first point case A, run at the point's memrefs and input blocks; at a later
    point case B, the scratch at what the point before left. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn)).2)

/-- `outsAt0` at the point of case A (the first): that case's contents. -/
theorem outsAt0_A (c : Dev nD) (t : Fin cfg0.N) (h0 : t.val = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact absurd h0 (Nat.succ_ne_zero n)

/-- `outsAt0` at a point of case B (any later one): that case's contents, over what the point before left. -/
theorem outsAt0_B (c : Dev nD) (t : Fin cfg0.N) (h0 : ¬t.val = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact rfl

/-- The region invariant before position `n`: before the first point the region's entry invariant (the scratch at
    anything); afterwards the scoped rest with the scratch at what the point before left in it (`outsAt0`'s second
    component), the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks (`before0_W`); the closed form says which case the
    point is in; so that case's run applies. The invariant hands the body the scratch at what the point before left
    (at anything at the first point) and the generator register at some state, and takes the scratch back at this
    point's contents (by the scratch's cover); the other scoped buffers and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val = 0
  · rw [outsAt0_A V c t h0]
    unfold out0_A_2 sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · rw [outsAt0_B V c t h0]
    unfold out0_B_2 sout0_B_0; (try dsimp only)
    rw [PhiS0_castSucc V c t, PhiS0_pos V c _ _ h0]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 3125 := N_0; omega)

end Regions

end Cert.KernelIdeal.Hand

end
-- ==== Proof.KI.R1Runs.lean ====
/- Region 1 of the idealized kernel program (the edge-term kernel, 75 grid points, one 1x1 scratch carried between
   points as a running sum): what the two whole-body runs are stated over — each window's block at a point, the
   body's branch condition in closed form, where the windows are live, the staging and scratch memrefs, and the
   region invariant with the scratch as a memref. -/
import proofs.«152542_j63075889709151_1_alg».proof.Proof.Gen.KernelIdeal.Launch
import proofs.«152542_j63075889709151_1_alg».proof.Proof.Gen.KernelIdeal.Skeleton
import proofs.«152542_j63075889709151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is an input,
    uncut and never idle, so an unfetched point finds the block the point before left, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): the window is an input,
    uncut and never idle, so an unfetched point finds the block the point before left, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): the window is an input,
    uncut and never idle, so an unfetched point finds the block the point before left, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`, from the grid coordinate (the skeleton's scalar chain substituted):
    "the program id is zero". -/
abbrev cond1_0 (i : grid1.Coords) : Prop := (Scalar.cmpi .ne (Scalar.extui (Scalar.cmpi .eq (BitVec.ofNat 32 (i 0).val) 0#32)) 0#32) = 1#1
/-- It holds at the first point only (the grid is one axis of 75 points) — decided over the grid. -/
theorem hcond1_0 : ∀ t : Fin cfg1.N, cond1_0 (grid1.coords t) ↔ t.val % 75 = 0 :=
  (by decide +kernel : ∀ t : Fin grid1.N, cond1_0 (grid1.coords t) ↔ t.val % 75 = 0)

/-! ## Where the windows are idle: nowhere (the body loads every input and stores the output at every point) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (the output: stored at every point, under no condition). -/
theorem liveAt1_3 : ∀ t : Fin cfg1.N, cfg1.idle 3 (grid1.coords t) = false := by decide +kernel

/-! ## The kernel body on any staging memrefs: what the runs are stated over -/

/-- The staging buffer of output window 3, through which its contents are stated (the choice of view does not
    matter: pieces that cover a view read back the same through any). -/
abbrev VO1_3 : View sig .tc .vmem S1x1 .f32 := (Memref.whole cc1_stg3_0 : Memref sig .tc .vmem S1x1 .f32).view
/-- Each window's current staging memref at point `t`, spelled as the pipeline passes it (`bodyAt1`), and its wholeness. -/
abbrev ms1_0 (t : Fin cfg1.N) : Memref sig .tc .vmem S3x80000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x80000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x80000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1x1 .f32 := Memref.whole cc1_scratch0
/-- The scratch the kernel carries between points (the running sum), as a view: what it holds is stated through it. -/
abbrev VS1_0 : View sig .tc .vmem S1x1 .f32 := scM1_0.view

/-- The region's class invariant with the scratch operand as a memref owned at some contents: the scoped buffers that
    are no staging buffer of this call (the other call's staging buffers and scratch, at some contents each, and this
    call's scratch), and the generator register at some state — what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
/- Region 1, case A (the first grid point): the whole-body run of the edge-term kernel as a subtype — the pieces the
   body's stores leave in the output window's buffer and in the scratch, with the proof that the body runs to them. -/
import proofs.«152542_j63075889709151_1_alg».proof.Proof.KI.R1Runs

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output window's staging memref (`L3`) and in the scratch (`LS0`), as pieces
    (last first), IN CASE A (the `scf.if` taken: the first grid point), WITH the proof that on whole memrefs — the
    inputs' at their contents, the output's at anything, the scratch at anything (the case stores zero into it before
    it reads it) — the body runs to the continuation holding the inputs' as they were and the output's buffer and the
    scratch with their pieces written. The printed function is its skeleton, which is run operation by operation, the
    `scf.if` decided by the case's hypothesis; the pieces are the witness that run finds. -/
noncomputable def kernelRun1_A (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__edge_kernel i arg1 harg1 arg2 harg2 arg3 harg3 arg4 harg4 arg5 harg5) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.R1RunB.lean ====
/- Region 1, case B (every grid point after the first): the whole-body run of the edge-term kernel as a subtype — the
   pieces the body's stores leave in the output window's buffer and in the scratch, with the proof that the body runs
   to them from the scratch at what the point before left. -/
import proofs.«152542_j63075889709151_1_alg».proof.Proof.KI.R1RunA

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output window's staging memref (`L3`) and in the scratch (`LS0`), as pieces
    (last first), IN CASE B (the `scf.if` not taken: every point after the first), WITH the proof that on whole
    memrefs — the inputs' at their contents, the output's at anything, the scratch at the contents `xs0` the point
    before left (the case reads it: the running sum) — the body runs to the continuation holding the inputs' as they
    were and the output's buffer and the scratch with their pieces written. The printed function is its skeleton, which
    is run operation by operation, the `scf.if` decided by the case's hypothesis; the pieces are the witness that run
    finds. -/
noncomputable def kernelRun1_B (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__edge_kernel i arg1 harg1 arg2 harg2 arg3 harg3 arg4 harg4 arg5 harg5) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.R1Body.lean ====
/- Region 1: what the output window's buffer and the carried scratch hold case by case and point by point, the region
   invariant that names the scratch's contents between points, the pipeline's proof data at the entry contents `V`,
   and the body obligation at every point. -/
import proofs.«152542_j63075889709151_1_alg».proof.Proof.KI.R1RunB

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves in the output window's buffer and in the scratch -/

/-- Case A's pieces for output window 3 tile its block (blocks of the whole 1x1 shape, checked by the kernel's
    evaluation), so they cover it. -/
theorem cover1_A_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) (y : S1x1.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S1x1.size (by sl_kernel_rfl) y

/-- What case A leaves in output window 3's staging buffer: its pieces read back over junk. -/
def out1_A_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) : Vec F S1x1 .f32 :=
  VO1_3.read (Elt F) (VO1_3.writes (Elt F) VO1_3.junk (kernelRun1_A c i arg1 harg1 arg2 harg2 arg3 harg3 arg4 harg4 arg5 harg5 hc0 x0 x1 x2).1)

/-- Case A's pieces for the scratch, which the kernel carries between points, cover it: the zero stored first, then the sum stored over it. -/
theorem scover1_A_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) (y : S1x1.Idx) :
    ∃ pc ∈ (kernelRun1_A c i arg1 harg1 arg2 harg2 arg3 harg3 arg4 harg4 arg5 harg5 hc0 x0 x1 x2).2.1, y ∈ pc.1.set :=
  View.cover_of_tiledL (kernelRun1_A c i arg1 harg1 arg2 harg2 arg3 harg3 arg4 harg4 arg5 harg5 hc0 x0 x1 x2).2.1 S1x1.size (by sl_kernel_rfl) y

/-- What case A leaves in the scratch: its pieces read back over junk. -/
def sout1_A_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) : Vec F S1x1 .f32 :=
  VS1_0.read (Elt F) (VS1_0.writes (Elt F) VS1_0.junk (kernelRun1_A c i arg1 harg1 arg2 harg2 arg3 harg3 arg4 harg4 arg5 harg5 hc0 x0 x1 x2).2.1)

/-- Case B's pieces for output window 3 tile its block (blocks of the whole 1x1 shape, checked by the kernel's
    evaluation), so they cover it. -/
theorem cover1_B_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) (y : S1x1.Idx) :
    ∃ pc ∈ (kernelRun1_B c i arg1 harg1 arg2 harg2 arg3 harg3 arg4 harg4 arg5 harg5 hc0 x0 x1 x2 xs0).1, y ∈ pc.1.set :=
  View.cover_of_tiledL (kernelRun1_B c i arg1 harg1 arg2 harg2 arg3 harg3 arg4 harg4 arg5 harg5 hc0 x0 x1 x2 xs0).1 S1x1.size (by sl_kernel_rfl) y

/-- What case B leaves in output window 3's staging buffer: its pieces read back over junk. -/
def out1_B_3 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 x0 x1 x2 xs0).1)

/-- Case B's pieces for the scratch, which the kernel carries between points, cover it: the sum stored over what the point before left. -/
theorem scover1_B_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) (y : S1x1.Idx) :
    ∃ pc ∈ (kernelRun1_B c i arg1 harg1 arg2 harg2 arg3 harg3 arg4 harg4 arg5 harg5 hc0 x0 x1 x2 xs0).2.1, y ∈ pc.1.set :=
  View.cover_of_tiledL (kernelRun1_B c i arg1 harg1 arg2 harg2 arg3 harg3 arg4 harg4 arg5 harg5 hc0 x0 x1 x2 xs0).2.1 S1x1.size (by sl_kernel_rfl) y

/-- What case B leaves in the scratch: its pieces read back over junk. -/
def sout1_B_0 (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 x0 x1 x2 xs0).2.1)

/-! ## What the output window's buffer and the scratch hold after each point -/

/-- THE ACCUMULATION. What the output window's staging buffer and the scratch the kernel carries between points hold
    after the body at position `n` (a pair: the output, then the scratch): the case the closed form selects at `n`,
    run at the point's memrefs and input blocks — after the first point, from the scratch at what this leaves at
    `n - 1`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 75 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 75 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 75 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`, the scratch being CARRIED between points: before the first point the class's
    (every scoped buffer that is no staging buffer of this call at anything, the generator register at some state);
    afterwards the same with the scratch at what the point before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1` (the class's
    before the first point, then the scoped rest with the carried scratch at `outsAt1`'s second component); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns (no window is idle at any point: each buffer at what the body leaves). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' memrefs hold their blocks (`before1_W`); the closed form says which case the
    point is in; the output window's buffer goes to the run at whatever it holds (the body's one load of it is read by
    nothing); the invariant hands the body the carried scratch at what the point before left (at anything at the first
    point), the other scoped buffers and the generator register pass through untouched, and the carried scratch comes back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 75 := lt_of_lt_of_eq t.isLt (show cfg1.N = 75 from N_1)
  by_cases h0 : t.val % 75 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · exfalso; omega
  · rw [outsAt1_B V c t h0]
    unfold out1_B_3 sout1_B_0; (try dsimp only)
    by_cases hz : t.val = 0
    · exfalso; omega
    · rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_B_0 c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 75 := N_1; omega)

end Cert.KernelIdeal.Hand

end
-- ==== Proof.KI.Launch.lean ====
/-
  The launch of the idealized kernel program: @main is five segments — a stretch of host operations (the grid reshaped
  and narrowed, the vertices transposed), the distance-field region, a second stretch (the first region's scalar
  reshaped; the edge end-points gathered, transposed; the rest lengths reshaped), the edge region, and a last stretch
  (the second scalar reshaped and the two added). The buffers' contents at the six boundaries are a fold from the launch
  memory: a host stretch applies its operations, a region replaces its windows' arrays by what the write-backs leave.
  Each region is entered with every unscoped buffer at the boundary's contents and left with them at the next; inside,
  its invariant carries the 1×1 scratch accumulator from grid point to grid point. The run ends with EVERY unscoped
  buffer at the last boundary's contents, from which both the frame (no argument is written) and the returned scalar
  (the sum of the two regions' output arrays) are read.
-/
import proofs.«152542_j63075889709151_1_alg».proof.Proof.KI.R0Body
import proofs.«152542_j63075889709151_1_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At region 0's exit: its windows' arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last stretch of host operations: the contents @main returns with. -/
abbrev B5 : Dev nD → Valuation τ sig (Elt F) := fun c => StableHlo.after hostOps2 (B4 m ρ c)

/-! ### No host operation and no region writes an argument: each reaches the end as launched -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg1) := B4_of_ne m ρ c main_arg1 (by decide)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

abbrev admH : (p : Fin 2) → (pcfgs (F := F) p).Adm := fun p => (cfgs p).toPCfg_adm
/-- Each pipeline's proof data at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- Region 0 as a segment: entered with every unscoped buffer at the boundary contents before it, left with them at the
    contents after it. Its windows' arrays are split out of the unscoped buffers and put back at what the write-backs
    leave; the generator register goes into the invariant and comes back; nothing is owed; the kernel has no semaphore
    of its own. The invariant carries the scratch accumulator from point to point and forgets it at the exit. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c)
    unfold Pipeline.ΦA
    iintro ⟨Hp, -, Hr⟩
    isplitl [Hr]; · iexact Hr
    iexact Hp
  hout c := by
    rw [Pipeline.ownSems0_none]
    refine BIBase.Entails.trans (hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary contents before it, left with them at the
    contents after it. Its windows' arrays are split out of the unscoped buffers and put back at what the write-backs
    leave; the generator register goes into the invariant and comes back; nothing is owed; the kernel has no semaphore
    of its own. The invariant carries the scratch accumulator from point to point and forgets it at the exit. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_freshH (B0 m ρ)),
    .region (regH0 m ρ),
    .host (hsegH hostOps1 hostOps1_sub hostOps1_freshH (B2 m ρ)),
    .region (regH1 m ρ),
    .host (hsegH hostOps2 hostOps2_sub hostOps2_freshH (B4 m ρ)) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting, and in
    every final state every unscoped TensorCore buffer holds the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ RH c)
        ⊢ iprop(TH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (B5_main_arg0 m ρ c),
     (h c _ (mem_ucH main_arg1 (by decide))).trans (B5_main_arg1 m ρ c),
     (h c _ (mem_ucH main_arg2 (by decide))).trans (B5_main_arg2 m ρ c),
     (h c _ (mem_ucH main_arg3 (by decide))).trans (B5_main_arg3 m ρ c),
     (h c _ (mem_ucH main_arg4 (by decide))).trans (B5_main_arg4 m ρ c)⟩) (run_all m ρ)

/-! ## The returned scalar, traced back to the two regions' output arrays -/

/-- The last stretch adds the two regions' results: `main_v28 = main_v4 + reshape main_v26`. -/
theorem B5_v28 (c : Dev nD) :
    B5 m ρ c (Proc.devRef .tc main_v28)
      = addf (B4 m ρ c (Proc.devRef .tc main_v4))
          (shapeCast S_ (B4 m ρ c (Proc.devRef .tc main_v26)) shapeCasts_S1x1_S_) := by
  show StableHlo.after hostOps2 (B4 m ρ c) (Proc.devRef .tc main_v28) = _
  after_results; rfl

/-- The middle stretch reshapes region 0's result: `main_v4 = reshape main_v3`. -/
theorem B3_v4 (c : Dev nD) :
    B3 m ρ c (Proc.devRef .tc main_v4) = shapeCast S_ (B2 m ρ c (Proc.devRef .tc main_v3)) shapeCasts_S1x1_S_ := by
  show StableHlo.after hostOps1 (B2 m ρ c) (Proc.devRef .tc main_v4) = _
  after_results; rfl

/-- Region 1 does not touch `main_v4`. -/
theorem B4_v4 (c : Dev nD) : B4 m ρ c (Proc.devRef .tc main_v4) = B3 m ρ c (Proc.devRef .tc main_v4) :=
  B4_of_ne m ρ c main_v4 (by decide)

/-- The returned scalar: the sum of what the two regions' write-backs leave in their 1×1 output arrays. -/
theorem B5_result (c : Dev nD) :
    B5 m ρ c (Proc.devRef .tc main_v28)
      = addf (shapeCast S_ ((dat0 (E1 m ρ) c).arrAt 2 cfg0.N) shapeCasts_S1x1_S_)
          (shapeCast S_ ((dat1 (E3 m ρ) c).arrAt 3 cfg1.N) shapeCasts_S1x1_S_) := by
  rw [B5_v28, B4_v4, B3_v4, ← B2_arr m ρ c 2, ← B4_arr m ρ c 3]

end Cert.KernelIdeal.Hand

end
-- ==== Proof.KI.R0Value.lean ====
/- Region 0: the VALUE the region leaves. What each case's pieces read back as, in closed form over the skeleton's
   payloads: one point steps the running sum by the tile's term; and the output array after the region. -/
import proofs.«152542_j63075889709151_1_alg».proof.Proof.KI.R0Body
import Idealize.ShloMosaic.Lib.Pipeline.Value

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt. -/
theorem hz0 : (![0, 0] : Fin 2 → Nat) = fun _ => 0 := funext fun a => by fin_cases a <;> rfl

/-- The three per-lane stage terms of a tile that the body's last payload takes, from the point's two input blocks: the
    three rows of input window 0's 3x640 block and input window 1's whole 4096x64 array, through the skeleton's payloads
    composed in program order (each stage's term feeds the next). -/
def stages0 (x0 : Vec F S3x640 .f32) (x1 : Vec F S4096x64 .bf16) : FVec F S1x640 .f32 × FVec F S1x640 .f32 × FVec F S1x640 .f32 :=
  let v3 : Vec F S1x640 .f32 := View.ld x0 (Rect.unit (s := S3x640) ![0, 0] S1x640.size inb_S3x640_S1x640_0_0)
  let v7 : Vec F S1x640 .f32 := View.ld x0 (Rect.unit (s := S3x640) ![1, 0] S1x640.size inb_S3x640_S1x640_1_0)
  let v11 : Vec F S1x640 .f32 := View.ld x0 (Rect.unit (s := S3x640) ![2, 0] S1x640.size inb_S3x640_S1x640_2_0)
  let v34 : Vec F S4096x64 .bf16 := x1
  let v6 := k0_pay3 v3
  let v24 := k0_pay5 v7
  let v36 := k0_pay6 v11 v34
  let v37 := k0_pay7 (F := F)
  let v38 := k0_pay8 v11 v34
  let cst_28 : F .f32 := Scalar.ofBits .f32 0x3F800000#32
  let v76 := k0_pay9 v6 v24 v36 v37 v38
  let v80 := k0_pay10 v24 v36
  let v83 := k0_pay11 v6
  let v128 := k0_pay12 v6 v24 v36 v76 v80 v83 cst_28
  let v130 := k0_pay13 v24 v36
  let v167 := k0_pay14 v6 v24 v36 v128 v130
  let v171 := k0_pay15 v24 v36
  let v174 := k0_pay16 v6
  let v175 := k0_pay17 (F := F)
  let v219 := k0_pay18 v6 v24 v36 v167 v171 v174 v175
  let v221 := k0_pay19 v24 v36
  let v258 := k0_pay20 v6 v24 v36 v219 v221
  let v262 := k0_pay21 v24 v36
  let v267 := k0_pay22 v6
  let v310 := k0_pay23 v6 v24 v36 v258 v262 v267
  let v313 := k0_pay24 v24 v36
  let cst_113 : F .f32 := Scalar.ofBits .f32 0x00000000#32
  let v349 := k0_pay25 v6 v24 v36 v310 v313
  let v353 := k0_pay26 v24 v36
  let v358 := k0_pay27 v6
  let v401 := k0_pay28 v6 v24 v36 v349 v353 v358 cst_113
  let v405 := k0_pay29 v24 v36
  let v440 := k0_pay30 v6 v24 v36 v401 v405
  let v444 := k0_pay31 v24 v36
  let v449 := k0_pay32 v6
  let v450 := k0_pay33 (F := F)
  let cst_155 : F .f32 := Scalar.ofBits .f32 0x420C0000#32
  let v492 := k0_pay34 v6 v24 v36 v440 v444 v449 v450
  let v496 := k0_pay35 v24 v36
  let v531 := k0_pay36 v6 v24 v36 v492 v496 cst_155
  let v535 := k0_pay37 v24 v36
  let v542 := k0_pay38 v6
  let v583 := k0_pay39 v6 v24 v36 v531 v535 v542
  let v587 := k0_pay40 v24 v36
  let v588 := k0_pay41 (F := F)
  let v622 := k0_pay42 v6 v24 v36 v583 v587 v588
  let v634 := k0_pay43 v6 v24 v36
  let v674 := k0_pay44 v6 v24 v36 v622 v634
  let v678 := k0_pay45 v24 v36
  let v680 := k0_pay46 v6
  let v726 := k0_pay47 v6 v24 v36 v674 v678 v680
  let v765 := k0_pay48 v6 v24 v36 v726
  let v769 := k0_pay49 v24 v36
  let v772 := k0_pay50 v6
  let v817 := k0_pay51 v6 v24 v36 v765 v769 v772
  let v818 := k0_pay52 v36
  let cst_268 : F .f32 := Scalar.ofBits .f32 0x3F800000#32
  let v856 := k0_pay53 v6 v24 v36 v817 v818
  let v860 := k0_pay54 v24 v36
  let v863 := k0_pay55 v6
  (v856, v860, v863)

/-- ONE POINT'S STEP on the running sum: the body's last payload, which adds the tile's term (half the sum over the 640
    lanes of a squared per-lane value built from the three stage terms) to the accumulator `acc`. -/
def step0 (x0 : Vec F S3x640 .f32) (x1 : Vec F S4096x64 .bf16) (acc : Vec F S1x1 .f32) : Vec F S1x1 .f32 :=
  k0_pay1 (stages0 x0 x1).1 (stages0 x0 x1).2.1 (stages0 x0 x1).2.2 (Scalar.ofBits .f32 0x3F800000#32) acc

/-- A load through the whole-shape rectangle at zero offsets of what a LAST store through it left, whatever the earlier
    stores were, reads that store's payload: an accumulator stored, then read back. -/
theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v ((⟨Rect.unit off S.size inb, w⟩ : View.Piece Val S e) :: L) (Rect.unit off S.size inb)
      (fun y => ⟨_, List.mem_cons_self, View.mem_set_unit_zero h inb y⟩),
    View.canon_cons_unit_zero h, View.ld_unit_zero h]

/-! ## The value each case leaves -/

/-- CASE B's scratch (every point after the first): the running sum `xs0` the point before left, stepped by this tile. -/
theorem sout0_B_eq (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) :
    sout0_B_0 c i arg1 harg1 arg2 harg2 arg3 harg3 arg4 harg4 hc0 x0 x1 xs0 = step0 x0 x1 xs0 := by
  unfold sout0_B_0
  rw [View.read_writes_eq_canon _ _ _ (scover0_B_0 c i arg1 harg1 arg2 harg2 arg3 harg3 arg4 harg4 hc0 x0 x1 xs0)]
  unfold kernelRun0_B
  dsimp only
  sl_unfold_words
  rw [View.canon_unit_zero (S := S1x1) hz0]
  simp only [View.readAt_eq_ld, harg1.read_unread, harg2.read_unread, harg4.read_unread, View.ld_unit_zero (S := S1x1) hz0, View.ld_unit_zero (S := S4096x64) hz0]
  rfl

/-- CASE B's output window: the sum just stored to the scratch, read back and stored to the window. -/
theorem out0_B_eq (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 : Vec F S3x640 .f32) (x1 : Vec F S4096x64 .bf16) (xs0 : Vec F S1x1 .f32) :
    out0_B_2 c i arg1 harg1 arg2 harg2 arg3 harg3 arg4 harg4 hc0 x0 x1 xs0 = step0 x0 x1 xs0 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero (S := S1x1) hz0, View.readCov_unit_zero (S := S1x1) _ hz0]
  simp only [View.readAt_eq_ld, harg1.read_unread, harg2.read_unread, harg4.read_unread, View.ld_unit_zero (S := S1x1) hz0, View.ld_unit_zero (S := S4096x64) hz0]
  rfl

/-- CASE A's scratch (the first point): the zero block stored under the conditional, read back, stepped by this tile. -/
theorem sout0_A_eq (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) :
    sout0_A_0 c i arg1 harg1 arg2 harg2 arg3 harg3 arg4 harg4 hc0 x0 x1 = step0 x0 x1 (k0_pay2 (F := F)) := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_cons_unit_zero (S := S1x1) hz0, View.readCov_unit_zero (S := S1x1) _ hz0]
  simp only [View.readAt_eq_ld, harg1.read_unread, harg2.read_unread, View.ld_unit_zero (S := S1x1) hz0, View.ld_unit_zero (S := S4096x64) hz0]
  rfl

/-- CASE A's output window: the sum just stored to the scratch, read back and stored to the window. -/
theorem out0_A_eq (c : Dev nD) (i : grid0.Coords) (arg1 : Memref sig .tc .vmem S3x640 .f32) (harg1 : arg1.IsWhole) (arg2 : Memref sig .tc .vmem S4096x64 .bf16) (harg2 : arg2.IsWhole) (arg3 : Memref sig .tc .vmem S1x1 .f32) (harg3 : arg3.IsWhole) (arg4 : Memref sig .tc .vmem S1x1 .f32) (harg4 : arg4.IsWhole) (hc0 : cond0_0 i)
    (x0 : Vec F S3x640 .f32) (x1 : Vec F S4096x64 .bf16) :
    out0_A_2 c i arg1 harg1 arg2 harg2 arg3 harg3 arg4 harg4 hc0 x0 x1 = step0 x0 x1 (k0_pay2 (F := F)) := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero (S := S1x1) hz0]
  rw [readCov_cons_unit_zero (S := S1x1) _ hz0, View.readCov_unit_zero (S := S1x1) _ hz0]
  simp only [View.readAt_eq_ld, harg1.read_unread, harg2.read_unread, View.ld_unit_zero (S := S1x1) hz0, View.ld_unit_zero (S := S4096x64) hz0]
  rfl

section Regions
-- the TensorCore's buffer contents when the region is entered: the parameter the region's half is stated at
variable (V : (c : Dev nD) → (b : Ref sig .tc) → Buf (Elt F) ((c : Thread nD τ).loc b))

/-! ## The accumulation in closed form -/

/-- After the FIRST point the output window's buffer and the scratch alike hold the zero block stepped by the first tile. -/
theorem outsAt0_zero (c : Dev nD) (h : 0 < cfg0.N) :
    outsAt0 V c 0 h = (step0 (iblk0 V c 0 ⟨0, h⟩) (iblk0 V c 1 ⟨0, h⟩) (k0_pay2 (F := F)), step0 (iblk0 V c 0 ⟨0, h⟩) (iblk0 V c 1 ⟨0, h⟩) (k0_pay2 (F := F))) :=
  (outsAt0_A V c ⟨0, h⟩ rfl).trans (congrArg₂ Prod.mk (out0_A_eq ..) (sout0_A_eq ..))

/-- After point `n + 1` they alike hold the running sum point `n` left in the scratch, stepped by the tile of point `n + 1`. -/
theorem outsAt0_succ (c : Dev nD) (n : ℕ) (h : n + 1 < cfg0.N) :
    outsAt0 V c (n + 1) h = (step0 (iblk0 V c 0 ⟨n + 1, h⟩) (iblk0 V c 1 ⟨n + 1, h⟩) (outsAt0 V c n (Nat.lt_of_succ_lt h)).2, step0 (iblk0 V c 0 ⟨n + 1, h⟩) (iblk0 V c 1 ⟨n + 1, h⟩) (outsAt0 V c n (Nat.lt_of_succ_lt h)).2) :=
  (outsAt0_B V c ⟨n + 1, h⟩ (Nat.succ_ne_zero n)).trans (congrArg₂ Prod.mk (out0_B_eq ..) (sout0_B_eq ..))

/-- The two components agree at every point: the output window holds the running sum. -/
theorem outsAt0_fst_eq_snd (c : Dev nD) (n : ℕ) (h : n < cfg0.N) : (outsAt0 V c n h).1 = (outsAt0 V c n h).2 := by
  cases n with
  | zero => rw [outsAt0_zero]
  | succ n => rw [outsAt0_succ]

/-! ## The output array after the region

Stated at a VARIABLE last point `n` (the one with `n + 1 = cfg0.N`) and, inside, at a NAME `G` for what the body left in the
output window there, so that no step looks inside the accumulation at a numeral. -/

/-- Output window 2's block at any point is the whole 1x1 array: every index of the array lies in it. -/
theorem mem_blk0_2 (c : Dev nD) (t : Fin cfg0.N) (i : ((cfg0.win 2).arr.view.loc (c : Thread nD τ)).2.ty.Idx) :
    i ∈ ((cfg0.win 2).blk t).view.set := by
  show i ∈ ((View.whole main_v3).slice (win0_2.rect t)).set
  rw [View.set_slice_whole, Rect.mem_set_unit]
  intro a
  have h0 : (i 0 : Nat) < 1 := (i 0).isLt
  have h1 : (i 1 : Nat) < 1 := (i 1).isLt
  match a with
  | ⟨0, _⟩ => show win0_2.index t 0 * win0_2.size 0 ≤ (i 0 : Nat) ∧ (i 0 : Nat) < win0_2.index t 0 * win0_2.size 0 + win0_2.xsize (grid0.coords t) 0
              rw [show win0_2.index t 0 * win0_2.size 0 = 0 from rfl, show win0_2.xsize (grid0.coords t) 0 = 1 from rfl]; omega
  | ⟨1, _⟩ => show win0_2.index t 1 * win0_2.size 1 ≤ (i 1 : Nat) ∧ (i 1 : Nat) < win0_2.index t 1 * win0_2.size 1 + win0_2.xsize (grid0.coords t) 1
              rw [show win0_2.index t 1 * win0_2.size 1 = 0 from rfl, show win0_2.xsize (grid0.coords t) 1 = 1 from rfl]; omega

/-- The one write-back, at the last point `n`, writes what the body left in the output window there (`G`): block (0, 0) of
    the 1x1 array read through zero offsets is the array. -/
theorem flushed0_eq (c : Dev nD) (n : ℕ) (hn : n + 1 = cfg0.N) (G : Buf (Elt F) ((c : Thread nD τ).loc main_v3))
    (hG : (outsAt0 V c n (by omega)).1 = G) (t : Fin cfg0.N) (hf : (cfg0.win 2).flush t = true) :
    (dat0 V c).flushed 2 t = ((cfg0.win 2).blk t).view.read (Elt F) G := by
  have hN : cfg0.N = 3125 := N_0
  have h3 : t.val = n := by have := (flush0_2 t).mp hf; have := t.isLt; omega
  subst h3
  show (cfg0.win 2).cut (grid0.coords t) ((dat0 V c).after 2 t) = _
  rw [after0_2, hG]
  have hz' : (fun a => win0_2.index t a * main_v3.ty.shape.size a) = fun _ => 0 := funext fun a => by fin_cases a <;> rfl
  exact (Memref.read_access_unit_zero (Elt F) main_v3 hz' (fun a => by rw [congrFun hz' a]; simp) G).symm

/-- So the output array ends holding what the body left in the output window at the last point, under any name `G` of it: -/
theorem final0_of (c : Dev nD) (n : ℕ) (hn : n + 1 = cfg0.N) (G : Buf (Elt F) ((c : Thread nD τ).loc main_v3))
    (hG : (outsAt0 V c n (by omega)).1 = G) : (dat0 V c).arrAt 2 cfg0.N = G := by
  have hN : cfg0.N = 3125 := N_0
  exact (dat0 V c).arrAt_eq_of_cover 2 G (flushed0_eq V c n hn G hG) fun i =>
    ⟨⟨n, by omega⟩, (flush0_2 _).mpr (by dsimp only; omega), mem_blk0_2 c _ i⟩

/-- THE OUTPUT ARRAY AFTER THE REGION: the output window's buffer after the last point `n` (`n + 1 = cfg0.N`). -/
theorem final0 (c : Dev nD) (n : ℕ) (hn : n + 1 = cfg0.N) : (dat0 V c).arrAt 2 cfg0.N = (outsAt0 V c n (by omega)).1 :=
  final0_of V c n hn _ rfl

end Regions

end Cert.KernelIdeal.Hand

end
-- ==== Proof.KI.Glue0.lean ====
/-
  What the distance-field region's two input arrays hold, in terms of @main's arguments: the first stretch of host
  operations transposes the vertex array (row a of the [3, 2000000] array is coordinate a of every vertex) and lays the
  64×64×64 grid out as a [4096, 64] matrix (row i·64 + j, column k is grid[i, j, k]); narrowing it to bf16 changes
  nothing at the ideal instance.
-/
import proofs.«152542_j63075889709151_1_alg».proof.Proof.KI.Launch
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-- The first stretch leaves the transposed vertex array in `main_v2`. -/
theorem B1_v2 (c : Dev nD) :
    B1 m ρ c (Proc.devRef .tc main_v2)
      = transpose S3x2000000 [1, 0] (m ((c : Thread nD τ).loc main_arg0)) transposes_S2000000x3_S3x2000000_1_0 := by
  show StableHlo.after hostOps0 (B0 m ρ c) (Proc.devRef .tc main_v2) = _
  after_results

/-- … and the grid as a narrowed [4096, 64] matrix in `main_v1`. -/
theorem B1_v1 (c : Dev nD) :
    B1 m ρ c (Proc.devRef .tc main_v1)
      = truncf .bf16 (shapeCast S4096x64 (m ((c : Thread nD τ).loc main_arg3)) shapeCasts_S64x64x64_S4096x64) bitsLt_bf16_f32 := by
  show StableHlo.after hostOps0 (B0 m ρ c) (Proc.devRef .tc main_v1) = _
  after_results; rfl

/-- Row `a`, column `n` of the transposed array is coordinate `a` of vertex `n`. -/
theorem B1_v2_apply (c : Dev nD) (a : Fin 3) (n : Fin 2000000) :
    B1 m ρ c (Proc.devRef .tc main_v2) (ix2 a n) = m ((c : Thread nD τ).loc main_arg0) (ix2 n a) := by
  rw [B1_v2]
  exact transpose_apply _ _ _ _ _ (fun b => by match b with | ⟨0, _⟩ => rfl | ⟨1, _⟩ => rfl)

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- At the ideal instance row `i·64 + j`, column `k` of the matrix is the grid at `(i, j, k)`. -/
theorem B1_v1_apply (c : Dev nD) (i j k : Fin 64) :
    B1 (F := Ideal) m ρ c (Proc.devRef .tc main_v1) (ix2 (⟨i.val * 64 + j.val, by omega⟩ : Fin 4096) k)
      = m ((c : Thread nD τ).loc main_arg3) (ix3 i j k) := by
  rw [B1_v1]
  show shapeCast S4096x64 (m ((c : Thread nD τ).loc main_arg3)) shapeCasts_S64x64x64_S4096x64
      (ix2 (⟨i.val * 64 + j.val, by omega⟩ : Fin 4096) k) = _
  refine shapeCast_apply _ _ _ _ ?_
  show (S64x64x64.rowMajor (ix3 i j k)).val = (S4096x64.rowMajor (ix2 (⟨i.val * 64 + j.val, by omega⟩ : Fin 4096) k)).val
  rw [Shape.rowMajor_val_three, Shape.rowMajor_val_two]
  show (i.val * 64 + j.val) * 64 + k.val = (i.val * 64 + j.val) * 64 + k.val
  rfl

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The two input windows' index maps over the grid: the vertex window's block `t` is columns `640·t …`, rows all; the grid
    matrix is one block. -/
theorem idxF0 : ∀ t : Fin cfg0.N, win0_0.index t (0 : Fin 2) = 0 ∧ win0_0.index t (1 : Fin 2) = t.val
    ∧ win0_1.index t (0 : Fin 2) = 0 ∧ win0_1.index t (1 : Fin 2) = 0 :=
  (by decide +kernel : ∀ t : Fin grid0.N, _)

variable (V : (c : Dev nD) → (b : Ref sig .tc) → Buf (Elt F) ((c : Thread nD τ).loc b))

/-- Entry `(a, l)` of the vertex window's block at point `t` is entry `(a, 640·t + l)` of its array. -/
theorem iblk0_0_apply (c : Dev nD) (t : Fin cfg0.N) (a : Fin 3) (l : Fin 640) :
    iblk0 V c 0 t (ix2 a l)
      = V c main_v2 (ix2 a (⟨t.val * 640 + l.val, by have := t.isLt; have h : cfg0.N = 3125 := N_0; omega⟩ : Fin 2000000)) := by
  unfold iblk0
  show V c main_v2 (((cfg0.win 0).blk t).view.emb (ix2 a l)) = _
  refine congrArg (V c main_v2) (funext fun d => Fin.ext ?_)
  obtain ⟨e0, e1, e2, e3⟩ := idxF0 t
  match d with
  | ⟨0, _⟩ => show win0_0.index t (0 : Fin 2) * 3 + 1 * a.val = a.val; omega
  | ⟨1, _⟩ => show win0_0.index t (1 : Fin 2) * 640 + 1 * l.val = t.val * 640 + l.val; omega

/-- The grid matrix's block is the whole matrix at every point. -/
theorem iblk0_1_apply (c : Dev nD) (t : Fin cfg0.N) (r : Fin 4096) (k : Fin 64) :
    iblk0 V c 1 t (ix2 r k) = V c main_v1 (ix2 r k) := by
  unfold iblk0
  show V c main_v1 (((cfg0.win 1).blk t).view.emb (ix2 r k)) = _
  refine congrArg (V c main_v1) (funext fun d => Fin.ext ?_)
  obtain ⟨e0, e1, e2, e3⟩ := idxF0 t
  match d with
  | ⟨0, _⟩ => show win0_1.index t (0 : Fin 2) * 4096 + 1 * r.val = r.val; omega
  | ⟨1, _⟩ => show win0_1.index t (1 : Fin 2) * 64 + 1 * k.val = k.val; omega

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem

/-- In terms of @main's arguments: the vertex block at point `t` holds coordinate `a` of vertex `640·t + l` at `(a, l)`. -/
theorem vblock_arg {F : FTy → Type} [FloatOps F] (m : (ℓ : Loc nD τ sig) → Buf (Elt F) ℓ) (ρ : Dev nD → PrngReg)
    (c : Dev nD) (t : Fin cfg0.N) (a : Fin 3) (l : Fin 640) :
    iblk0 (E1 m ρ) c 0 t (ix2 a l)
      = m ((c : Thread nD τ).loc main_arg0)
          (ix2 (⟨t.val * 640 + l.val, by have := t.isLt; have h : cfg0.N = 3125 := N_0; omega⟩ : Fin 2000000) a) :=
  (iblk0_0_apply (E1 m ρ) c t a l).trans (B1_v2_apply m ρ c a _)

/-- At the ideal instance the grid block holds `grid[i, j, k]` at row `i·64 + j`, column `k`, at every point. -/
theorem gblock_arg (m : (ℓ : Loc nD τ sig) → Buf (Elt Ideal) ℓ) (ρ : Dev nD → PrngReg)
    (c : Dev nD) (t : Fin cfg0.N) (i j k : Fin 64) :
    iblk0 (F := Ideal) (E1 m ρ) c 1 t (ix2 (⟨i.val * 64 + j.val, by omega⟩ : Fin 4096) k)
      = m ((c : Thread nD τ).loc main_arg3) (ix3 i j k) :=
  (iblk0_1_apply (E1 m ρ) c t _ k).trans (B1_v1_apply m ρ c i j k)

end Cert.KernelIdeal.Hand

end
-- ==== Proof.HatInterp.lean ====
import Mathlib.Tactic
import Mathlib.Data.Real.Basic
import Mathlib.Algebra.Order.Archimedean.Real.Basic
import Mathlib.Algebra.BigOperators.Fin
import Mathlib.Algebra.BigOperators.Intervals
import Mathlib.Algebra.Order.Floor.Ring
import Mathlib.Data.Fintype.BigOperators

/-!
# Hat-function weights and trilinear interpolation

On a one-dimensional grid with nodes at the integers `0, 1, …, 63`, the *hat function* centred at
node `i` is `w_i(p) = max (1 - |i - p|) 0`: it is `1` at `p = i`, falls linearly to `0` at
`p = i ± 1`, and vanishes outside `(i - 1, i + 1)`.

If `k ≤ p < k + 1` for an integer `k`, at most two of the weights are non-zero:
`w_k(p) = 1 - (p - k)` and `w_{k+1}(p) = p - k`.  Hence summing a grid function against *all* the
hat weights gives exactly the linear interpolation between its values at the two neighbouring
nodes `k` and `k + 1`, with fraction `p - k`.  Doing this on three axes in turn gives classical
trilinear interpolation in the cell with corner `(kx, ky, kz)`.

The file also records the elementary facts about `⌊63 v⌋` for `0 ≤ v < 1`, and a regrouping law
for a sum taken tile by tile.
-/

namespace Cert.HatInterp

open Finset

/-- The hat (tent) weight of node `i` at position `p`: `max (1 - |i - p|) 0`. -/
noncomputable def hat (p : ℝ) (i : ℕ) : ℝ := max (1 - |(i : ℝ) - p|) 0

/-- A node at distance at least one to the left of the cell `[k, k+1)` containing `p` has weight
zero: `i + 1 ≤ k ≤ p` gives `|i - p| = p - i ≥ 1`. -/
theorem hat_eq_zero_of_le {p : ℝ} {i k : ℕ} (h0 : (k : ℝ) ≤ p) (hik : i + 1 ≤ k) :
    hat p i = 0 := by
  unfold hat
  have h : (i : ℝ) + 1 ≤ k := by exact_mod_cast hik
  have habs : |(i : ℝ) - p| = p - i := by
    rw [abs_of_nonpos (by linarith)]; ring
  rw [habs]
  exact max_eq_right (by linarith)

/-- A node at distance at least one to the right of the cell `[k, k+1)` containing `p` has weight
zero: `p < k + 1` and `k + 2 ≤ i` give `|i - p| = i - p > 1`. -/
theorem hat_eq_zero_of_ge {p : ℝ} {i k : ℕ} (h1 : p < (k : ℝ) + 1) (hik : k + 2 ≤ i) :
    hat p i = 0 := by
  unfold hat
  have h : (k : ℝ) + 2 ≤ i := by exact_mod_cast hik
  have habs : |(i : ℝ) - p| = i - p := abs_of_nonneg (by linarith)
  rw [habs]
  exact max_eq_right (by linarith)

/-- The weight of the left node of the cell: for `k ≤ p < k + 1`, `w_k(p) = 1 - (p - k)`. -/
theorem hat_left {p : ℝ} {k : ℕ} (h0 : (k : ℝ) ≤ p) (h1 : p < (k : ℝ) + 1) :
    hat p k = 1 - (p - k) := by
  unfold hat
  have habs : |(k : ℝ) - p| = p - k := by
    rw [abs_of_nonpos (by linarith)]; ring
  rw [habs]
  exact max_eq_left (by linarith)

/-- The weight of the right node of the cell: for `k ≤ p < k + 1`, `w_{k+1}(p) = p - k`. -/
theorem hat_right {p : ℝ} {k : ℕ} (h0 : (k : ℝ) ≤ p) (h1 : p < (k : ℝ) + 1) :
    hat p (k + 1) = p - k := by
  unfold hat
  have habs : |((k + 1 : ℕ) : ℝ) - p| = (k : ℝ) + 1 - p := by
    push_cast
    exact abs_of_nonneg (by linarith)
  rw [habs]
  rw [max_eq_left (by linarith)]
  ring

/-- Summing a grid function against all 64 hat weights is linear interpolation between the two
nodes of the cell `[k, k+1)` that contains `p`: every other node has weight zero. -/
theorem hat_sum (g : Fin 64 → ℝ) (p : ℝ) (k : ℕ) (hk : k ≤ 62) (h0 : (k : ℝ) ≤ p)
    (h1 : p < (k : ℝ) + 1) :
    ∑ i : Fin 64, hat p i * g i
      = g ⟨k, by omega⟩ * (1 - (p - k)) + g ⟨k + 1, by omega⟩ * (p - k) := by
  have hne : (⟨k, by omega⟩ : Fin 64) ≠ ⟨k + 1, by omega⟩ := by
    intro h
    have := congrArg Fin.val h
    simp at this
  rw [Fintype.sum_eq_add (⟨k, by omega⟩ : Fin 64) ⟨k + 1, by omega⟩ hne]
  · show hat p k * _ + hat p (k + 1) * _ = _
    rw [hat_left h0 h1, hat_right h0 h1]; ring
  · intro c hc
    have hc1 : (c : ℕ) ≠ k := fun h => hc.1 (Fin.ext h)
    have hc2 : (c : ℕ) ≠ k + 1 := fun h => hc.2 (Fin.ext h)
    rcases Nat.lt_or_ge (c : ℕ) k with h | h
    · rw [hat_eq_zero_of_le h0 h, zero_mul]
    · rw [hat_eq_zero_of_ge h1 (by omega), zero_mul]

/-- `hat_sum` with the weight written on the right of each product. -/
theorem hat_sum' (g : Fin 64 → ℝ) (p : ℝ) (k : ℕ) (hk : k ≤ 62) (h0 : (k : ℝ) ≤ p)
    (h1 : p < (k : ℝ) + 1) :
    ∑ i : Fin 64, g i * hat p i
      = g ⟨k, by omega⟩ * (1 - (p - k)) + g ⟨k + 1, by omega⟩ * (p - k) := by
  rw [← hat_sum g p k hk h0 h1]
  exact Finset.sum_congr rfl fun i _ => mul_comm _ _

/-- Three-axis version.  The left side sums against the hat weights of all `64³` nodes, axis by
axis (`z` innermost, then `y`, then `x`); the right side is trilinear interpolation in the cell with
corner `(kx, ky, kz)` and fractions `fx = px - kx`, `fy = py - ky`, `fz = pz - kz`: first along `x`
on the four edges, then along `y` on the two faces, then along `z`. -/
theorem hat_trilinear (G : Fin 64 → Fin 64 → Fin 64 → ℝ) (px py pz : ℝ) (kx ky kz : ℕ)
    (hkx : kx ≤ 62) (hky : ky ≤ 62) (hkz : kz ≤ 62)
    (hx0 : (kx : ℝ) ≤ px) (hx1 : px < (kx : ℝ) + 1)
    (hy0 : (ky : ℝ) ≤ py) (hy1 : py < (ky : ℝ) + 1)
    (hz0 : (kz : ℝ) ≤ pz) (hz1 : pz < (kz : ℝ) + 1) :
    ∑ i : Fin 64, hat px i * ∑ j : Fin 64, hat py j * ∑ k : Fin 64, G i j k * hat pz k
      = ((G ⟨kx, by omega⟩ ⟨ky, by omega⟩ ⟨kz, by omega⟩ * (1 - (px - kx))
            + G ⟨kx + 1, by omega⟩ ⟨ky, by omega⟩ ⟨kz, by omega⟩ * (px - kx)) * (1 - (py - ky))
          + (G ⟨kx, by omega⟩ ⟨ky + 1, by omega⟩ ⟨kz, by omega⟩ * (1 - (px - kx))
            + G ⟨kx + 1, by omega⟩ ⟨ky + 1, by omega⟩ ⟨kz, by omega⟩ * (px - kx)) * (py - ky))
          * (1 - (pz - kz))
        + ((G ⟨kx, by omega⟩ ⟨ky, by omega⟩ ⟨kz + 1, by omega⟩ * (1 - (px - kx))
            + G ⟨kx + 1, by omega⟩ ⟨ky, by omega⟩ ⟨kz + 1, by omega⟩ * (px - kx)) * (1 - (py - ky))
          + (G ⟨kx, by omega⟩ ⟨ky + 1, by omega⟩ ⟨kz + 1, by omega⟩ * (1 - (px - kx))
            + G ⟨kx + 1, by omega⟩ ⟨ky + 1, by omega⟩ ⟨kz + 1, by omega⟩ * (px - kx)) * (py - ky))
          * (pz - kz) := by
  simp only [hat_sum' _ pz kz hkz hz0 hz1, hat_sum _ py ky hky hy0 hy1,
    hat_sum _ px kx hkx hx0 hx1]
  ring

/-- `hat_trilinear` with the right side written with named intermediate values, as trilinear
interpolation is usually presented.  The corner values are `g a b c = G (kx + a) (ky + b) (kz + c)`
for offsets `a, b, c ∈ {0, 1}`. -/
theorem hat_trilinear_let (G : Fin 64 → Fin 64 → Fin 64 → ℝ) (px py pz : ℝ) (kx ky kz : ℕ)
    (hkx : kx ≤ 62) (hky : ky ≤ 62) (hkz : kz ≤ 62)
    (hx0 : (kx : ℝ) ≤ px) (hx1 : px < (kx : ℝ) + 1)
    (hy0 : (ky : ℝ) ≤ py) (hy1 : py < (ky : ℝ) + 1)
    (hz0 : (kz : ℝ) ≤ pz) (hz1 : pz < (kz : ℝ) + 1) :
    ∑ i : Fin 64, hat px i * ∑ j : Fin 64, hat py j * ∑ k : Fin 64, G i j k * hat pz k
      = (let fx := px - kx
         let fy := py - ky
         let fz := pz - kz
         let g := fun (a b c : Fin 2) =>
           G ⟨kx + a, by omega⟩ ⟨ky + b, by omega⟩ ⟨kz + c, by omega⟩
         let c00 := g 0 0 0 * (1 - fx) + g 1 0 0 * fx
         let c01 := g 0 0 1 * (1 - fx) + g 1 0 1 * fx
         let c10 := g 0 1 0 * (1 - fx) + g 1 1 0 * fx
         let c11 := g 0 1 1 * (1 - fx) + g 1 1 1 * fx
         let c0 := c00 * (1 - fy) + c10 * fy
         let c1 := c01 * (1 - fy) + c11 * fy
         c0 * (1 - fz) + c1 * fz) :=
  hat_trilinear G px py pz kx ky kz hkx hky hkz hx0 hx1 hy0 hy1 hz0 hz1

/-! ## The cell index `⌊p⌋` on the domain `0 ≤ p < 63` -/

/-- `0 ≤ p` gives `0 ≤ ⌊p⌋`. -/
theorem floor_nonneg {p : ℝ} (h0 : 0 ≤ p) : 0 ≤ ⌊p⌋ := Int.floor_nonneg.mpr h0

/-- `p < 63` gives `⌊p⌋ ≤ 62`. -/
theorem floor_le_62 {p : ℝ} (h1 : p < 63) : ⌊p⌋ ≤ 62 := by
  have h : ⌊p⌋ < 63 := Int.floor_lt.mpr (by exact_mod_cast h1)
  omega

/-- `⌊p⌋ ≤ p`. -/
theorem floor_le (p : ℝ) : (⌊p⌋ : ℝ) ≤ p := Int.floor_le p

/-- `p < ⌊p⌋ + 1`. -/
theorem lt_floor_add_one (p : ℝ) : p < (⌊p⌋ : ℝ) + 1 := Int.lt_floor_add_one p

/-- Clipping `⌊p⌋` to `0..62` does nothing on the domain. -/
theorem max_min_floor {p : ℝ} (h0 : 0 ≤ p) (h1 : p < 63) : max 0 (min 62 ⌊p⌋) = ⌊p⌋ := by
  rw [min_eq_right (floor_le_62 h1), max_eq_right (floor_nonneg h0)]

/-- Clipping `⌊p⌋` to `0..62` does nothing on the domain (upper bound first). -/
theorem max_min_floor' {p : ℝ} (h0 : 0 ≤ p) (h1 : p < 63) : max (min ⌊p⌋ 62) 0 = ⌊p⌋ := by
  rw [min_eq_left (floor_le_62 h1), max_eq_left (floor_nonneg h0)]

/-- Clipping `⌊p⌋` to `0..62` does nothing on the domain (lower bound first). -/
theorem min_max_floor {p : ℝ} (h0 : 0 ≤ p) (h1 : p < 63) : min (max ⌊p⌋ 0) 62 = ⌊p⌋ := by
  rw [max_eq_left (floor_nonneg h0), min_eq_left (floor_le_62 h1)]

/-- Clipping `⌊p⌋` to `0..62` does nothing on the domain (lower bound first, constants on the
left). -/
theorem min_max_floor' {p : ℝ} (h0 : 0 ≤ p) (h1 : p < 63) : min 62 (max 0 ⌊p⌋) = ⌊p⌋ := by
  rw [max_eq_right (floor_nonneg h0), min_eq_right (floor_le_62 h1)]

/-- For `0 ≤ v < 1` the scaled coordinate `p = 63 v` lies in `[0, 63)`. -/
theorem scaled_nonneg {v : ℝ} (h0 : 0 ≤ v) : 0 ≤ v * 63 := by positivity

theorem scaled_lt {v : ℝ} (h1 : v < 1) : v * 63 < 63 := by linarith

theorem floor_scaled_nonneg {v : ℝ} (h0 : 0 ≤ v) : 0 ≤ ⌊v * 63⌋ := floor_nonneg (scaled_nonneg h0)

theorem floor_scaled_le_62 {v : ℝ} (h1 : v < 1) : ⌊v * 63⌋ ≤ 62 := floor_le_62 (scaled_lt h1)

theorem floor_scaled_le (v : ℝ) : (⌊v * 63⌋ : ℝ) ≤ v * 63 := Int.floor_le _

theorem lt_floor_scaled_add_one (v : ℝ) : v * 63 < (⌊v * 63⌋ : ℝ) + 1 := Int.lt_floor_add_one _

theorem max_min_floor_scaled {v : ℝ} (h0 : 0 ≤ v) (h1 : v < 1) :
    max 0 (min 62 ⌊v * 63⌋) = ⌊v * 63⌋ := max_min_floor (scaled_nonneg h0) (scaled_lt h1)

theorem max_min_floor_scaled' {v : ℝ} (h0 : 0 ≤ v) (h1 : v < 1) :
    max (min ⌊v * 63⌋ 62) 0 = ⌊v * 63⌋ := max_min_floor' (scaled_nonneg h0) (scaled_lt h1)

theorem min_max_floor_scaled {v : ℝ} (h0 : 0 ≤ v) (h1 : v < 1) :
    min (max ⌊v * 63⌋ 0) 62 = ⌊v * 63⌋ := min_max_floor (scaled_nonneg h0) (scaled_lt h1)

theorem min_max_floor_scaled' {v : ℝ} (h0 : 0 ≤ v) (h1 : v < 1) :
    min 62 (max 0 ⌊v * 63⌋) = ⌊v * 63⌋ := min_max_floor' (scaled_nonneg h0) (scaled_lt h1)

/-- The cell index as a natural number: for `0 ≤ p < 63` the number `k = ⌊p⌋` (read as a natural
number) satisfies `k ≤ 62` and `k ≤ p < k + 1`, which are the hypotheses of `hat_sum`. -/
theorem cell_spec {p : ℝ} (h0 : 0 ≤ p) (h1 : p < 63) :
    ((⌊p⌋.toNat : ℕ) : ℤ) = ⌊p⌋ ∧ ⌊p⌋.toNat ≤ 62 ∧ ((⌊p⌋.toNat : ℕ) : ℝ) ≤ p
      ∧ p < ((⌊p⌋.toNat : ℕ) : ℝ) + 1 := by
  have hz : ((⌊p⌋.toNat : ℕ) : ℤ) = ⌊p⌋ := Int.toNat_of_nonneg (floor_nonneg h0)
  have hr : ((⌊p⌋.toNat : ℕ) : ℝ) = (⌊p⌋ : ℝ) :=
    calc ((⌊p⌋.toNat : ℕ) : ℝ) = (((⌊p⌋.toNat : ℕ) : ℤ) : ℝ) := (Int.cast_natCast _).symm
      _ = (⌊p⌋ : ℝ) := by rw [hz]
  refine ⟨hz, ?_, ?_, ?_⟩
  · have := floor_le_62 h1
    omega
  · rw [hr]; exact Int.floor_le p
  · rw [hr]; exact Int.lt_floor_add_one p

/-! ## Regrouping a sum taken tile by tile -/

/-- Summing `f` over `T` consecutive tiles of length `B` is summing it over `0 ≤ n < T * B`:
every `n` is `t * B + l` for exactly one tile `t` and one offset `l < B`. -/
theorem sum_tiles (f : ℕ → ℝ) (T B : ℕ) :
    ∑ t ∈ range T, ∑ l ∈ range B, f (t * B + l) = ∑ n ∈ range (T * B), f n := by
  induction T with
  | zero => simp
  | succ T ih => rw [Finset.sum_range_succ, ih, Nat.succ_mul, Finset.sum_range_add]

/-- `sum_tiles` with a constant factor applied to each tile's partial sum. -/
theorem sum_tiles_mul (c : ℝ) (f : ℕ → ℝ) (T B : ℕ) :
    ∑ t ∈ range T, c * ∑ l ∈ range B, f (t * B + l) = ∑ n ∈ range (T * B), c * f n := by
  rw [← Finset.mul_sum, ← Finset.mul_sum, sum_tiles]

/-- `sum_tiles_mul` for the factor one half. -/
theorem sum_tiles_half (f : ℕ → ℝ) (T B : ℕ) :
    ∑ t ∈ range T, (1 / 2 : ℝ) * ∑ l ∈ range B, f (t * B + l)
      = ∑ n ∈ range (T * B), (1 / 2 : ℝ) * f n :=
  sum_tiles_mul (1 / 2) f T B

/-- The flat index `t * B + l` of offset `l` in tile `t` is below `T * B`. -/
theorem tile_index_lt {T B : ℕ} (t : Fin T) (l : Fin B) : (t : ℕ) * B + l < T * B :=
  calc (t : ℕ) * B + l < (t : ℕ) * B + B := Nat.add_lt_add_left l.isLt _
    _ = ((t : ℕ) + 1) * B := (Nat.succ_mul _ _).symm
    _ ≤ T * B := Nat.mul_le_mul_right _ t.isLt

/-- The tile-by-tile sum over finite index types, through the bijection
`(t, l) ↦ l + B * t` between `Fin T × Fin B` and `Fin (T * B)`. -/
theorem sum_fin_tiles_equiv {T B : ℕ} (F : Fin (T * B) → ℝ) :
    ∑ t : Fin T, ∑ l : Fin B, F (finProdFinEquiv (t, l)) = ∑ n : Fin (T * B), F n :=
  (Fintype.sum_prod_type (fun x => F (finProdFinEquiv x))).symm.trans
    (Equiv.sum_comp finProdFinEquiv F)

/-- The tile-by-tile sum over finite index types with the flat index written `t * B + l`. -/
theorem sum_fin_tiles {T B : ℕ} (F : Fin (T * B) → ℝ) :
    ∑ t : Fin T, ∑ l : Fin B, F ⟨(t : ℕ) * B + l, tile_index_lt t l⟩ = ∑ n : Fin (T * B), F n := by
  rw [← sum_fin_tiles_equiv F]
  refine Finset.sum_congr rfl fun t _ => Finset.sum_congr rfl fun l _ => ?_
  congr 1
  apply Fin.ext
  simp only [finProdFinEquiv_apply_val]
  ring

/-- `sum_fin_tiles` with a constant factor applied to each tile's partial sum. -/
theorem sum_fin_tiles_mul {T B : ℕ} (c : ℝ) (F : Fin (T * B) → ℝ) :
    ∑ t : Fin T, c * ∑ l : Fin B, F ⟨(t : ℕ) * B + l, tile_index_lt t l⟩
      = ∑ n : Fin (T * B), c * F n := by
  rw [← Finset.mul_sum, ← Finset.mul_sum, sum_fin_tiles]

end Cert.HatInterp
-- ==== Proof.RefDist.lean ====
import proofs.«152542_j63075889709151_1_alg».proof.ReferenceIdeal
import proofs.«152542_j63075889709151_1_alg».proof.Proof.Gen.ReferenceIdeal
import proofs.«152542_j63075889709151_1_alg».proof.Proof.RefReadP
import proofs.«152542_j63075889709151_1_alg».proof.Proof.HatInterp
import Idealize.ShloMosaic.Lib.ValueIdx
import Idealize.ShloMosaic.Lib.IdealHost
import Idealize.ShloMosaic.Lib.Pipeline.Value
import Idealize.ShloMosaic.PureOps.Ideal.Laws

/-!
# The reference's distance-field term, read at an index

The reference samples a `64 × 64 × 64` grid at the scaled position `p = 63 v` of each point `v` by
trilinear interpolation in the cell `⌊p⌋` (clipped to `0..62`) and takes half the square of the
sample.  On the domain `0 ≤ v < 1` the cell index needs no clipping, the eight corner indices are
inside the grid, and the sample equals the sum of the grid against the hat weights of all nodes.
-/

noncomputable section

namespace Cert.RefDist

open Idealize.ShloMosaic Idealize.ShloMosaic.ValueIdx
open Cert.HatInterp
open Cert.ReferenceIdeal Cert.ReferenceIdeal.Gen

/-! ## Scalar facts at the ideal instance -/

/-- The floor of a real number, as an extended real. -/
theorem hostFloor_coe (r : ℝ) :
    FloatOps.hostUnary (F := Ideal) .floor (φ := .f32) ((r : ℝ) : EReal) = (((⌊r⌋ : ℤ) : ℝ) : EReal) :=
  rfl

/-- The product of two real numbers, as extended reals. -/
theorem mulf_coe (a b : ℝ) :
    FloatOps.mulf (F := Ideal) (φ := .f32) ((a : ℝ) : EReal) ((b : ℝ) : EReal) = ((a * b : ℝ) : EReal) :=
  (EReal.coe_mul a b).symm

/-- The single-precision pattern `0x427C0000` is the real number `63`. -/
theorem ofBits_63 : Ideal.ofBits .f32 0x427C0000#32 = ((63 : ℝ) : EReal) := by
  simp [Ideal.ofBits, Ideal.ieee, -EReal.coe_mul]; norm_num

/-- Conversion of a small natural number (as a real) to a signed 32-bit word is that number's word:
truncation does nothing to an integer and the clamp to the signed range is not reached. -/
theorem fptosi_natCast (k : ℕ) (hk : k ≤ 63) :
    Ideal.fptosi 32 (((k : ℕ) : ℝ) : EReal) = BitVec.ofNat 32 k := by
  unfold Ideal.fptosi
  rw [Ideal.toIntClamped_coe, if_pos (Nat.cast_nonneg k), Int.floor_natCast]
  have h1 : min (((2 ^ (32 - 1) : ℕ) : ℤ) - 1) (k : ℤ) = k := min_eq_right (by norm_num; omega)
  rw [h1, max_eq_right (by norm_num)]
  exact BitVec.ofInt_natCast 32 k

/-- The words of the numbers `0..63`: their signed value, that they are not negative, and their
value after clamping into `0..63`. -/
theorem word_facts (m : ℕ) (hm : m ≤ 63) :
    (BitVec.ofNat 32 m).toInt = m ∧ IntOp.cmpi .slt (BitVec.ofNat 32 m) 0#32 = 0#1
      ∧ min (BitVec.ofNat 32 m).toInt.toNat (64 - 1) = m := by
  interval_cases m <;> decide

/-- Clipping the word of `k ≤ 62` to `0..62` leaves it. -/
theorem clip_word (k : ℕ) (hk : k ≤ 62) :
    IntOp.minsi 62#32 (IntOp.maxsi 0#32 (BitVec.ofNat 32 k)) = BitVec.ofNat 32 k := by
  interval_cases k <;> decide

/-- Adding the offset `0` or `1` to the word of `k ≤ 62`. -/
theorem addi_word (k : ℕ) (hk : k ≤ 62) :
    IntOp.addi (BitVec.ofNat 32 k) 0#32 = BitVec.ofNat 32 k
      ∧ IntOp.addi (BitVec.ofNat 32 k) 1#32 = BitVec.ofNat 32 (k + 1) := by
  interval_cases k <;> decide

/-- The word of `m ≤ 63` converted back to a float is `m`. -/
theorem sitofp_word (m : ℕ) (hm : m ≤ 63) :
    FloatOps.sitofp (F := Ideal) .f32 (BitVec.ofNat 32 m) = (((m : ℕ) : ℝ) : EReal) := by
  show (((BitVec.ofNat 32 m).toInt : ℝ) : EReal) = _
  rw [(word_facts m hm).1]; norm_cast

/-- An index word `m ≤ 63` is not negative, so the wrap-around of negative indices keeps it. -/
theorem wrap_word (m : ℕ) (hm : m ≤ 63) :
    Scalar.select (IntOp.cmpi .slt (BitVec.ofNat 32 m) 0#32) (IntOp.addi (BitVec.ofNat 32 m) 64#32)
      (BitVec.ofNat 32 m) = BitVec.ofNat 32 m := by
  rw [(word_facts m hm).2.1]; exact select_zero _ _

/-! ## The point gather and the three-column concatenation, read at an index -/

section Layout
variable {α : Type}

/-- The gather that reads one grid element per row of a `[N, 3]` array of index triples: element
`n` of the result is the grid at the three words of row `n`, each read as a signed integer and
clamped into `0..63`. -/
theorem gather_point_apply (x : S64x64x64.Idx → α) (idx : IVec S2000000x3 32) (n : Fin 2000000) :
    Host.gather gather_S64x64x64_S2000000x3_S2000000_n_012_n_n_012_1_111 x idx (ix1 n)
      = x (ix3 ⟨min (idx (ix2 n 0)).toInt.toNat (64 - 1), by omega⟩
              ⟨min (idx (ix2 n 1)).toInt.toNat (64 - 1), by omega⟩
              ⟨min (idx (ix2 n 2)).toInt.toNat (64 - 1), by omega⟩) := by
  have h3 : ∀ a : Fin 3, a = 0 ∨ a = 1 ∨ a = 2 := by decide
  have hmem : ∀ a : Fin 3, a ∈ ([0, 1, 2] : List (Fin 3)) := by decide
  unfold Host.gather
  congr 1
  funext a
  refine Fin.ext ?_
  show gather_S64x64x64_S2000000x3_S2000000_n_012_n_n_012_1_111.start (ix1 n) idx a
      + gather_S64x64x64_S2000000x3_S2000000_n_012_n_n_012_1_111.batchCoord (ix1 n) a
      + gather_S64x64x64_S2000000x3_S2000000_n_012_n_n_012_1_111.offCoord (ix1 n) a = _
  have hcol : a ∈ gather_S64x64x64_S2000000x3_S2000000_n_012_n_n_012_1_111.collapsedSliceDims := hmem a
  have hsim : a ∈ gather_S64x64x64_S2000000x3_S2000000_n_012_n_n_012_1_111.startIndexMap := hmem a
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hsim]
  rcases h3 a with rfl | rfl | rfl
  · have hsi : gather_S64x64x64_S2000000x3_S2000000_n_012_n_n_012_1_111.siIdx (ix1 n)
        ⟨List.idxOf (0 : Fin 3) gather_S64x64x64_S2000000x3_S2000000_n_012_n_n_012_1_111.startIndexMap,
          List.idxOf_lt_length_iff.2 hsim⟩ = ix2 n 0 := by
      funext b; refine Fin.ext ?_
      match b with
      | ⟨0, _⟩ => rfl
      | ⟨1, _⟩ => rfl
    rw [hsi]; rfl
  · have hsi : gather_S64x64x64_S2000000x3_S2000000_n_012_n_n_012_1_111.siIdx (ix1 n)
        ⟨List.idxOf (1 : Fin 3) gather_S64x64x64_S2000000x3_S2000000_n_012_n_n_012_1_111.startIndexMap,
          List.idxOf_lt_length_iff.2 hsim⟩ = ix2 n 1 := by
      funext b; refine Fin.ext ?_
      match b with
      | ⟨0, _⟩ => rfl
      | ⟨1, _⟩ => rfl
    rw [hsi]; rfl
  · have hsi : gather_S64x64x64_S2000000x3_S2000000_n_012_n_n_012_1_111.siIdx (ix1 n)
        ⟨List.idxOf (2 : Fin 3) gather_S64x64x64_S2000000x3_S2000000_n_012_n_n_012_1_111.startIndexMap,
          List.idxOf_lt_length_iff.2 hsim⟩ = ix2 n 2 := by
      funext b; refine Fin.ext ?_
      match b with
      | ⟨0, _⟩ => rfl
      | ⟨1, _⟩ => rfl
    rw [hsi]; rfl

/-- Three `[N, 1]` columns joined along the second axis, read at `(n, c)`: column `c` at `(n, 0)`. -/
theorem concat3_apply (u0 u1 u2 : S2000000x1.Idx → α) (n : Fin 2000000) :
    concatenate S2000000x3 1 [⟨S2000000x1, u0⟩, ⟨S2000000x1, u1⟩, ⟨S2000000x1, u2⟩]
        concatenates_S2000000x1_S2000000x1_S2000000x1_S2000000x3_d1 (ix2 n 0) = u0 (ix2 n 0)
    ∧ concatenate S2000000x3 1 [⟨S2000000x1, u0⟩, ⟨S2000000x1, u1⟩, ⟨S2000000x1, u2⟩]
        concatenates_S2000000x1_S2000000x1_S2000000x1_S2000000x3_d1 (ix2 n 1) = u1 (ix2 n 0)
    ∧ concatenate S2000000x3 1 [⟨S2000000x1, u0⟩, ⟨S2000000x1, u1⟩, ⟨S2000000x1, u2⟩]
        concatenates_S2000000x1_S2000000x1_S2000000x1_S2000000x3_d1 (ix2 n 2) = u2 (ix2 n 0) := by
  have hi : ∀ c : Fin 3, ∀ b : Fin S2000000x1.rank, b.cast (rfl : S2000000x1.rank = S2000000x3.rank) ≠ 1 →
      ((ix2 n (0 : Fin 1) : S2000000x1.Idx) b).val
        = ((ix2 n c : S2000000x3.Idx) (b.cast (rfl : S2000000x1.rank = S2000000x3.rank))).val := by
    intro c b hb
    match b with
    | ⟨0, _⟩ => rfl
    | ⟨1, _⟩ => exact absurd rfl hb
  refine ⟨?_, ?_, ?_⟩
  · exact concatenate_apply_piece (t := S2000000x3) (a := 1) (xs := [⟨S2000000x1, u0⟩, ⟨S2000000x1, u1⟩, ⟨S2000000x1, u2⟩])
      (h := concatenates_S2000000x1_S2000000x1_S2000000x1_S2000000x3_d1) (j := (ix2 n (0 : Fin 3) : S2000000x3.Idx))
      (k := 0) (hk := (by decide : 0 < 3)) (s₁ := S2000000x1) (x₁ := u0) (hxk := rfl) (hr := rfl) (pre := 0) (hpre := rfl)
      (i := (ix2 n (0 : Fin 1) : S2000000x1.Idx)) (hi := hi 0) (ha := rfl)
  · exact concatenate_apply_piece (t := S2000000x3) (a := 1) (xs := [⟨S2000000x1, u0⟩, ⟨S2000000x1, u1⟩, ⟨S2000000x1, u2⟩])
      (h := concatenates_S2000000x1_S2000000x1_S2000000x1_S2000000x3_d1) (j := (ix2 n (1 : Fin 3) : S2000000x3.Idx))
      (k := 1) (hk := (by decide : 1 < 3)) (s₁ := S2000000x1) (x₁ := u1) (hxk := rfl) (hr := rfl) (pre := 1) (hpre := rfl)
      (i := (ix2 n (0 : Fin 1) : S2000000x1.Idx)) (hi := hi 1) (ha := rfl)
  · exact concatenate_apply_piece (t := S2000000x3) (a := 1) (xs := [⟨S2000000x1, u0⟩, ⟨S2000000x1, u1⟩, ⟨S2000000x1, u2⟩])
      (h := concatenates_S2000000x1_S2000000x1_S2000000x1_S2000000x3_d1) (j := (ix2 n (2 : Fin 3) : S2000000x3.Idx))
      (k := 2) (hk := (by decide : 2 < 3)) (s₁ := S2000000x1) (x₁ := u2) (hxk := rfl) (hr := rfl) (pre := 2) (hpre := rfl)
      (i := (ix2 n (0 : Fin 1) : S2000000x1.Idx)) (hi := hi 2) (ha := rfl)

end Layout

/-- The gather of `gather_point_apply` when the three index words of row `n` are the words of
numbers `a, b, c ≤ 63`: the grid at `(a, b, c)`. -/
theorem gather_at {α : Type} (x : S64x64x64.Idx → α) (idx : IVec S2000000x3 32) (n : Fin 2000000) (a b c : ℕ)
    (ha : a ≤ 63) (hb : b ≤ 63) (hc : c ≤ 63)
    (h0 : idx (ix2 n 0) = BitVec.ofNat 32 a) (h1 : idx (ix2 n 1) = BitVec.ofNat 32 b)
    (h2 : idx (ix2 n 2) = BitVec.ofNat 32 c) :
    Host.gather gather_S64x64x64_S2000000x3_S2000000_n_012_n_n_012_1_111 x idx (ix1 n)
      = x (ix3 ⟨a, by omega⟩ ⟨b, by omega⟩ ⟨c, by omega⟩) := by
  rw [gather_point_apply]
  refine congrArg x ?_
  funext d
  match d with
  | ⟨0, _⟩ => exact Fin.ext (by
      show min (idx (ix2 n 0)).toInt.toNat (64 - 1) = a
      rw [h0]; exact (word_facts a ha).2.2)
  | ⟨1, _⟩ => exact Fin.ext (by
      show min (idx (ix2 n 1)).toInt.toNat (64 - 1) = b
      rw [h1]; exact (word_facts b hb).2.2)
  | ⟨2, _⟩ => exact Fin.ext (by
      show min (idx (ix2 n 2)).toInt.toNat (64 - 1) = c
      rw [h2]; exact (word_facts c hc).2.2)

/-- Trilinear interpolation of eight real corner values with real fractions, computed in the
extended reals, is the coercion of the same expression computed in the reals. -/
theorem trilinear_coe (g000 g100 g010 g110 g001 g101 g011 g111 fx fy fz : ℝ) :
    (((g000 : EReal) * (1 - (fx : EReal)) + (g100 : EReal) * (fx : EReal)) * (1 - (fy : EReal))
        + ((g010 : EReal) * (1 - (fx : EReal)) + (g110 : EReal) * (fx : EReal)) * (fy : EReal)) * (1 - (fz : EReal))
      + (((g001 : EReal) * (1 - (fx : EReal)) + (g101 : EReal) * (fx : EReal)) * (1 - (fy : EReal))
        + ((g011 : EReal) * (1 - (fx : EReal)) + (g111 : EReal) * (fx : EReal)) * (fy : EReal)) * (fz : EReal)
    = ((((g000 * (1 - fx) + g100 * fx) * (1 - fy) + (g010 * (1 - fx) + g110 * fx) * fy) * (1 - fz)
        + ((g001 * (1 - fx) + g101 * fx) * (1 - fy) + (g011 * (1 - fx) + g111 * fx) * fy) * fz : ℝ) : EReal) := by
  simp only [EReal.coe_add, EReal.coe_mul, EReal.coe_sub, EReal.coe_one]

/-! ## The distance-field term of the reference, read at a point -/

section Dist
open Cert.ReferenceIdeal.ReadP

variable (x : (⟨S2000000x3, .f32⟩ : BufTy).Contents (Elt Ideal)) (g : (⟨S64x64x64, .f32⟩ : BufTy).Contents (Elt Ideal))

/-- The scaled coordinate `63 · v` of point `n` on axis `a` (the real value of the point's coordinate,
times `63`). -/
def pos (n : Fin 2000000) (a : Fin 3) : ℝ := (x (ix2 n a)).toReal * 63

/-- The cell index of point `n` on axis `a`: `⌊63 · v⌋`, kept below `63`. -/
def cell (n : Fin 2000000) (a : Fin 3) : ℕ := min ⌊pos x n a⌋.toNat 62

/-- The real value of the grid at node `(i, j, k)`. -/
def gridR (i j k : Fin 64) : ℝ := (g (ix3 i j k)).toReal

/-- The sample of the grid at point `n` as the sum against the hat weights of all `64³` nodes. -/
def D (n : Fin 2000000) : EReal :=
  ((∑ i : Fin 64, hat (pos x n 0) i * ∑ j : Fin 64, hat (pos x n 1) j *
      ∑ k : Fin 64, gridR g i j k * hat (pos x n 2) k : ℝ) : EReal)

theorem cell_le (n : Fin 2000000) (a : Fin 3) : cell x n a ≤ 62 := Nat.min_le_right _ _

variable {x g}

/-- On the domain the scaled coordinate lies in `[0, 63)`, the cell index is its floor, and the
coordinate lies in the cell. -/
theorem pos_spec (hfin : ∀ i, ∃ r : ℝ, x i = (r : EReal)) (hdom : ∀ i (r : ℝ), x i = (r : EReal) → 0 ≤ r ∧ r < 1) (n : Fin 2000000) (a : Fin 3) :
    x (ix2 n a) = (((x (ix2 n a)).toReal : ℝ) : EReal) ∧ 0 ≤ pos x n a ∧ pos x n a < 63
      ∧ (((⌊pos x n a⌋ : ℤ) : ℝ) : EReal) = (((cell x n a : ℕ) : ℝ) : EReal)
      ∧ ((cell x n a : ℕ) : ℝ) ≤ pos x n a ∧ pos x n a < ((cell x n a : ℕ) : ℝ) + 1 := by
  obtain ⟨r, hr⟩ := hfin (ix2 n a)
  obtain ⟨h0, h1⟩ := hdom _ r hr
  have hp : pos x n a = r * 63 := by unfold pos; rw [hr, EReal.toReal_coe]
  have hp0 : 0 ≤ pos x n a := by rw [hp]; positivity
  have hp1 : pos x n a < 63 := by rw [hp]; linarith
  obtain ⟨hz, h62, hle, hlt⟩ := cell_spec hp0 hp1
  have hc : cell x n a = ⌊pos x n a⌋.toNat := by unfold cell; exact min_eq_left h62
  have hzr : ((⌊pos x n a⌋ : ℤ) : ℝ) = ((⌊pos x n a⌋.toNat : ℕ) : ℝ) := by
    have := congrArg (Int.cast : ℤ → ℝ) hz
    rw [Int.cast_natCast] at this
    exact this.symm
  refine ⟨?_, hp0, hp1, ?_, ?_, ?_⟩
  · rw [hr, EReal.toReal_coe]
  · rw [hc, hzr]
  · rw [hc]; exact hle
  · rw [hc]; exact hlt

/-- The scaled coordinate, as the program computes it. -/
theorem v1_at (hfin : ∀ i, ∃ r : ℝ, x i = (r : EReal)) (hdom : ∀ i (r : ℝ), x i = (r : EReal) → 0 ≤ r ∧ r < 1) (n : Fin 2000000) (a : Fin 3) :
    val_main_v1 (F := Ideal) x (ix2 n a) = ((pos x n a : ℝ) : EReal) := by
  obtain ⟨r, hr⟩ := hfin (ix2 n a)
  have hp : pos x n a = r * 63 := by unfold pos; rw [hr, EReal.toReal_coe]
  rw [val_main_v1_apply, val_main_v0_apply, val_main_cst_apply, hr, hp]
  show ((r : ℝ) : EReal) * Ideal.ofBits .f32 0x427C0000#32 = _
  rw [ofBits_63, ← EReal.coe_mul]

/-- The clipped cell index word, as the program computes it. -/
theorem v4_at (hfin : ∀ i, ∃ r : ℝ, x i = (r : EReal)) (hdom : ∀ i (r : ℝ), x i = (r : EReal) → 0 ≤ r ∧ r < 1) (n : Fin 2000000) (a : Fin 3) :
    val_main_v4 (F := Ideal) x (ix2 n a) = BitVec.ofNat 32 (cell x n a) := by
  obtain ⟨_, _, _, hfl, _, _⟩ := pos_spec hfin hdom n a
  have hk := cell_le x n a
  rw [val_main_v4_apply, val_main_call0_v4_apply, val_main_call0_v3_apply, val_main_c_0_apply,
    val_main_call0_v2_apply, val_main_call0_v1_apply, val_main_call0_v0_apply, val_main_c_apply,
    val_main_v3_apply, val_main_v2_apply, v1_at hfin hdom, hostFloor_coe, hfl]
  show IntOp.minsi 62#32 (IntOp.maxsi 0#32 (Ideal.fptosi 32 _)) = _
  rw [fptosi_natCast _ (by omega), clip_word _ hk]

/-- The fraction inside the cell, as the program computes it. -/
theorem v6_at (hfin : ∀ i, ∃ r : ℝ, x i = (r : EReal)) (hdom : ∀ i (r : ℝ), x i = (r : EReal) → 0 ≤ r ∧ r < 1) (n : Fin 2000000) (a : Fin 3) :
    val_main_v6 (F := Ideal) x (ix2 n a) = ((pos x n a - ((cell x n a : ℕ) : ℝ) : ℝ) : EReal) := by
  have hk := cell_le x n a
  rw [val_main_v6_apply, val_main_v5_apply, v1_at hfin hdom, v4_at hfin hdom, sitofp_word _ (by omega)]
  show ((_ : ℝ) : EReal) - ((_ : ℝ) : EReal) = _
  rw [← EReal.coe_sub]

/-! The three columns of the cell index and of the fraction. -/

theorem v8_at (n : Fin 2000000) :
    val_main_v8 (F := Ideal) x (ix1 n) = val_main_v4 (F := Ideal) x (ix2 n 0) := by
  rw [val_main_v8_apply, val_main_v7_apply]
  refine congrArg (val_main_v4 (F := Ideal) x) ?_
  funext a
  match a with
  | ⟨0, _⟩ => exact Fin.ext (Nat.div_one _)
  | ⟨1, _⟩ => rfl

theorem v10_at (n : Fin 2000000) :
    val_main_v10 (F := Ideal) x (ix1 n) = val_main_v4 (F := Ideal) x (ix2 n 1) := by
  rw [val_main_v10_apply, val_main_v9_apply]
  refine congrArg (val_main_v4 (F := Ideal) x) ?_
  funext a
  match a with
  | ⟨0, _⟩ => exact Fin.ext (Nat.div_one _)
  | ⟨1, _⟩ => rfl

theorem v12_at (n : Fin 2000000) :
    val_main_v12 (F := Ideal) x (ix1 n) = val_main_v4 (F := Ideal) x (ix2 n 2) := by
  rw [val_main_v12_apply, val_main_v11_apply]
  refine congrArg (val_main_v4 (F := Ideal) x) ?_
  funext a
  match a with
  | ⟨0, _⟩ => exact Fin.ext (Nat.div_one _)
  | ⟨1, _⟩ => rfl

theorem v14_at (n : Fin 2000000) :
    val_main_v14 (F := Ideal) x (ix1 n) = val_main_v6 (F := Ideal) x (ix2 n 0) := by
  rw [val_main_v14_apply, val_main_v13_apply]
  refine congrArg (val_main_v6 (F := Ideal) x) ?_
  funext a
  match a with
  | ⟨0, _⟩ => exact Fin.ext (Nat.div_one _)
  | ⟨1, _⟩ => rfl

theorem v16_at (n : Fin 2000000) :
    val_main_v16 (F := Ideal) x (ix1 n) = val_main_v6 (F := Ideal) x (ix2 n 1) := by
  rw [val_main_v16_apply, val_main_v15_apply]
  refine congrArg (val_main_v6 (F := Ideal) x) ?_
  funext a
  match a with
  | ⟨0, _⟩ => exact Fin.ext (Nat.div_one _)
  | ⟨1, _⟩ => rfl

theorem v18_at (n : Fin 2000000) :
    val_main_v18 (F := Ideal) x (ix1 n) = val_main_v6 (F := Ideal) x (ix2 n 2) := by
  rw [val_main_v18_apply, val_main_v17_apply]
  refine congrArg (val_main_v6 (F := Ideal) x) ?_
  funext a
  match a with
  | ⟨0, _⟩ => exact Fin.ext (Nat.div_one _)
  | ⟨1, _⟩ => rfl

/-! The index words of the eight corners: the cell index plus the corner's offset on each axis
(never negative, so the wrap-around of negative indices keeps them). -/

theorem v29_at (hfin : ∀ i, ∃ r : ℝ, x i = (r : EReal)) (hdom : ∀ i (r : ℝ), x i = (r : EReal) → 0 ≤ r ∧ r < 1) (n : Fin 2000000) :
    val_main_v29 (F := Ideal) x (ix1 n) = BitVec.ofNat 32 (cell x n 0) := by
  have hk := cell_le x n 0
  simp only [val_main_c_1_apply, val_main_v19_apply, val_main_v20_apply, val_main_c_4_apply, val_main_v25_apply, val_main_v26_apply, val_main_c_5_apply, val_main_v27_apply, val_main_v28_apply, val_main_v29_apply]
  rw [v8_at, v4_at hfin hdom, (addi_word _ hk).1]
  exact wrap_word _ (by omega)

theorem v34_at (hfin : ∀ i, ∃ r : ℝ, x i = (r : EReal)) (hdom : ∀ i (r : ℝ), x i = (r : EReal) → 0 ≤ r ∧ r < 1) (n : Fin 2000000) :
    val_main_v34 (F := Ideal) x (ix1 n) = BitVec.ofNat 32 (cell x n 1) := by
  have hk := cell_le x n 1
  simp only [val_main_c_2_apply, val_main_v21_apply, val_main_v22_apply, val_main_c_6_apply, val_main_v30_apply, val_main_v31_apply, val_main_c_7_apply, val_main_v32_apply, val_main_v33_apply, val_main_v34_apply]
  rw [v10_at, v4_at hfin hdom, (addi_word _ hk).1]
  exact wrap_word _ (by omega)

theorem v39_at (hfin : ∀ i, ∃ r : ℝ, x i = (r : EReal)) (hdom : ∀ i (r : ℝ), x i = (r : EReal) → 0 ≤ r ∧ r < 1) (n : Fin 2000000) :
    val_main_v39 (F := Ideal) x (ix1 n) = BitVec.ofNat 32 (cell x n 2) := by
  have hk := cell_le x n 2
  simp only [val_main_c_3_apply, val_main_v23_apply, val_main_v24_apply, val_main_c_8_apply, val_main_v35_apply, val_main_v36_apply, val_main_c_9_apply, val_main_v37_apply, val_main_v38_apply, val_main_v39_apply]
  rw [v12_at, v4_at hfin hdom, (addi_word _ hk).1]
  exact wrap_word _ (by omega)

theorem v58_at (hfin : ∀ i, ∃ r : ℝ, x i = (r : EReal)) (hdom : ∀ i (r : ℝ), x i = (r : EReal) → 0 ≤ r ∧ r < 1) (n : Fin 2000000) :
    val_main_v58 (F := Ideal) x (ix1 n) = BitVec.ofNat 32 (cell x n 0 + 1) := by
  have hk := cell_le x n 0
  simp only [val_main_c_11_apply, val_main_v48_apply, val_main_v49_apply, val_main_c_14_apply, val_main_v54_apply, val_main_v55_apply, val_main_c_15_apply, val_main_v56_apply, val_main_v57_apply, val_main_v58_apply]
  rw [v8_at, v4_at hfin hdom, (addi_word _ hk).2]
  exact wrap_word _ (by omega)

theorem v63_at (hfin : ∀ i, ∃ r : ℝ, x i = (r : EReal)) (hdom : ∀ i (r : ℝ), x i = (r : EReal) → 0 ≤ r ∧ r < 1) (n : Fin 2000000) :
    val_main_v63 (F := Ideal) x (ix1 n) = BitVec.ofNat 32 (cell x n 1) := by
  have hk := cell_le x n 1
  simp only [val_main_c_12_apply, val_main_v50_apply, val_main_v51_apply, val_main_c_16_apply, val_main_v59_apply, val_main_v60_apply, val_main_c_17_apply, val_main_v61_apply, val_main_v62_apply, val_main_v63_apply]
  rw [v10_at, v4_at hfin hdom, (addi_word _ hk).1]
  exact wrap_word _ (by omega)

theorem v68_at (hfin : ∀ i, ∃ r : ℝ, x i = (r : EReal)) (hdom : ∀ i (r : ℝ), x i = (r : EReal) → 0 ≤ r ∧ r < 1) (n : Fin 2000000) :
    val_main_v68 (F := Ideal) x (ix1 n) = BitVec.ofNat 32 (cell x n 2) := by
  have hk := cell_le x n 2
  simp only [val_main_c_13_apply, val_main_v52_apply, val_main_v53_apply, val_main_c_18_apply, val_main_v64_apply, val_main_v65_apply, val_main_c_19_apply, val_main_v66_apply, val_main_v67_apply, val_main_v68_apply]
  rw [v12_at, v4_at hfin hdom, (addi_word _ hk).1]
  exact wrap_word _ (by omega)

theorem v86_at (hfin : ∀ i, ∃ r : ℝ, x i = (r : EReal)) (hdom : ∀ i (r : ℝ), x i = (r : EReal) → 0 ≤ r ∧ r < 1) (n : Fin 2000000) :
    val_main_v86 (F := Ideal) x (ix1 n) = BitVec.ofNat 32 (cell x n 0) := by
  have hk := cell_le x n 0
  simp only [val_main_c_20_apply, val_main_v76_apply, val_main_v77_apply, val_main_c_23_apply, val_main_v82_apply, val_main_v83_apply, val_main_c_24_apply, val_main_v84_apply, val_main_v85_apply, val_main_v86_apply]
  rw [v8_at, v4_at hfin hdom, (addi_word _ hk).1]
  exact wrap_word _ (by omega)

theorem v91_at (hfin : ∀ i, ∃ r : ℝ, x i = (r : EReal)) (hdom : ∀ i (r : ℝ), x i = (r : EReal) → 0 ≤ r ∧ r < 1) (n : Fin 2000000) :
    val_main_v91 (F := Ideal) x (ix1 n) = BitVec.ofNat 32 (cell x n 1) := by
  have hk := cell_le x n 1
  simp only [val_main_c_21_apply, val_main_v78_apply, val_main_v79_apply, val_main_c_25_apply, val_main_v87_apply, val_main_v88_apply, val_main_c_26_apply, val_main_v89_apply, val_main_v90_apply, val_main_v91_apply]
  rw [v10_at, v4_at hfin hdom, (addi_word _ hk).1]
  exact wrap_word _ (by omega)

theorem v96_at (hfin : ∀ i, ∃ r : ℝ, x i = (r : EReal)) (hdom : ∀ i (r : ℝ), x i = (r : EReal) → 0 ≤ r ∧ r < 1) (n : Fin 2000000) :
    val_main_v96 (F := Ideal) x (ix1 n) = BitVec.ofNat 32 (cell x n 2 + 1) := by
  have hk := cell_le x n 2
  simp only [val_main_c_22_apply, val_main_v80_apply, val_main_v81_apply, val_main_c_27_apply, val_main_v92_apply, val_main_v93_apply, val_main_c_28_apply, val_main_v94_apply, val_main_v95_apply, val_main_v96_apply]
  rw [v12_at, v4_at hfin hdom, (addi_word _ hk).2]
  exact wrap_word _ (by omega)

theorem v115_at (hfin : ∀ i, ∃ r : ℝ, x i = (r : EReal)) (hdom : ∀ i (r : ℝ), x i = (r : EReal) → 0 ≤ r ∧ r < 1) (n : Fin 2000000) :
    val_main_v115 (F := Ideal) x (ix1 n) = BitVec.ofNat 32 (cell x n 0 + 1) := by
  have hk := cell_le x n 0
  simp only [val_main_c_30_apply, val_main_v105_apply, val_main_v106_apply, val_main_c_33_apply, val_main_v111_apply, val_main_v112_apply, val_main_c_34_apply, val_main_v113_apply, val_main_v114_apply, val_main_v115_apply]
  rw [v8_at, v4_at hfin hdom, (addi_word _ hk).2]
  exact wrap_word _ (by omega)

theorem v120_at (hfin : ∀ i, ∃ r : ℝ, x i = (r : EReal)) (hdom : ∀ i (r : ℝ), x i = (r : EReal) → 0 ≤ r ∧ r < 1) (n : Fin 2000000) :
    val_main_v120 (F := Ideal) x (ix1 n) = BitVec.ofNat 32 (cell x n 1) := by
  have hk := cell_le x n 1
  simp only [val_main_c_31_apply, val_main_v107_apply, val_main_v108_apply, val_main_c_35_apply, val_main_v116_apply, val_main_v117_apply, val_main_c_36_apply, val_main_v118_apply, val_main_v119_apply, val_main_v120_apply]
  rw [v10_at, v4_at hfin hdom, (addi_word _ hk).1]
  exact wrap_word _ (by omega)

theorem v125_at (hfin : ∀ i, ∃ r : ℝ, x i = (r : EReal)) (hdom : ∀ i (r : ℝ), x i = (r : EReal) → 0 ≤ r ∧ r < 1) (n : Fin 2000000) :
    val_main_v125 (F := Ideal) x (ix1 n) = BitVec.ofNat 32 (cell x n 2 + 1) := by
  have hk := cell_le x n 2
  simp only [val_main_c_32_apply, val_main_v109_apply, val_main_v110_apply, val_main_c_37_apply, val_main_v121_apply, val_main_v122_apply, val_main_c_38_apply, val_main_v123_apply, val_main_v124_apply, val_main_v125_apply]
  rw [v12_at, v4_at hfin hdom, (addi_word _ hk).2]
  exact wrap_word _ (by omega)

theorem v143_at (hfin : ∀ i, ∃ r : ℝ, x i = (r : EReal)) (hdom : ∀ i (r : ℝ), x i = (r : EReal) → 0 ≤ r ∧ r < 1) (n : Fin 2000000) :
    val_main_v143 (F := Ideal) x (ix1 n) = BitVec.ofNat 32 (cell x n 0) := by
  have hk := cell_le x n 0
  simp only [val_main_c_39_apply, val_main_v133_apply, val_main_v134_apply, val_main_c_42_apply, val_main_v139_apply, val_main_v140_apply, val_main_c_43_apply, val_main_v141_apply, val_main_v142_apply, val_main_v143_apply]
  rw [v8_at, v4_at hfin hdom, (addi_word _ hk).1]
  exact wrap_word _ (by omega)

theorem v148_at (hfin : ∀ i, ∃ r : ℝ, x i = (r : EReal)) (hdom : ∀ i (r : ℝ), x i = (r : EReal) → 0 ≤ r ∧ r < 1) (n : Fin 2000000) :
    val_main_v148 (F := Ideal) x (ix1 n) = BitVec.ofNat 32 (cell x n 1 + 1) := by
  have hk := cell_le x n 1
  simp only [val_main_c_40_apply, val_main_v135_apply, val_main_v136_apply, val_main_c_44_apply, val_main_v144_apply, val_main_v145_apply, val_main_c_45_apply, val_main_v146_apply, val_main_v147_apply, val_main_v148_apply]
  rw [v10_at, v4_at hfin hdom, (addi_word _ hk).2]
  exact wrap_word _ (by omega)

theorem v153_at (hfin : ∀ i, ∃ r : ℝ, x i = (r : EReal)) (hdom : ∀ i (r : ℝ), x i = (r : EReal) → 0 ≤ r ∧ r < 1) (n : Fin 2000000) :
    val_main_v153 (F := Ideal) x (ix1 n) = BitVec.ofNat 32 (cell x n 2) := by
  have hk := cell_le x n 2
  simp only [val_main_c_41_apply, val_main_v137_apply, val_main_v138_apply, val_main_c_46_apply, val_main_v149_apply, val_main_v150_apply, val_main_c_47_apply, val_main_v151_apply, val_main_v152_apply, val_main_v153_apply]
  rw [v12_at, v4_at hfin hdom, (addi_word _ hk).1]
  exact wrap_word _ (by omega)

theorem v172_at (hfin : ∀ i, ∃ r : ℝ, x i = (r : EReal)) (hdom : ∀ i (r : ℝ), x i = (r : EReal) → 0 ≤ r ∧ r < 1) (n : Fin 2000000) :
    val_main_v172 (F := Ideal) x (ix1 n) = BitVec.ofNat 32 (cell x n 0 + 1) := by
  have hk := cell_le x n 0
  simp only [val_main_c_49_apply, val_main_v162_apply, val_main_v163_apply, val_main_c_52_apply, val_main_v168_apply, val_main_v169_apply, val_main_c_53_apply, val_main_v170_apply, val_main_v171_apply, val_main_v172_apply]
  rw [v8_at, v4_at hfin hdom, (addi_word _ hk).2]
  exact wrap_word _ (by omega)

theorem v177_at (hfin : ∀ i, ∃ r : ℝ, x i = (r : EReal)) (hdom : ∀ i (r : ℝ), x i = (r : EReal) → 0 ≤ r ∧ r < 1) (n : Fin 2000000) :
    val_main_v177 (F := Ideal) x (ix1 n) = BitVec.ofNat 32 (cell x n 1 + 1) := by
  have hk := cell_le x n 1
  simp only [val_main_c_50_apply, val_main_v164_apply, val_main_v165_apply, val_main_c_54_apply, val_main_v173_apply, val_main_v174_apply, val_main_c_55_apply, val_main_v175_apply, val_main_v176_apply, val_main_v177_apply]
  rw [v10_at, v4_at hfin hdom, (addi_word _ hk).2]
  exact wrap_word _ (by omega)

theorem v182_at (hfin : ∀ i, ∃ r : ℝ, x i = (r : EReal)) (hdom : ∀ i (r : ℝ), x i = (r : EReal) → 0 ≤ r ∧ r < 1) (n : Fin 2000000) :
    val_main_v182 (F := Ideal) x (ix1 n) = BitVec.ofNat 32 (cell x n 2) := by
  have hk := cell_le x n 2
  simp only [val_main_c_51_apply, val_main_v166_apply, val_main_v167_apply, val_main_c_56_apply, val_main_v178_apply, val_main_v179_apply, val_main_c_57_apply, val_main_v180_apply, val_main_v181_apply, val_main_v182_apply]
  rw [v12_at, v4_at hfin hdom, (addi_word _ hk).1]
  exact wrap_word _ (by omega)

theorem v200_at (hfin : ∀ i, ∃ r : ℝ, x i = (r : EReal)) (hdom : ∀ i (r : ℝ), x i = (r : EReal) → 0 ≤ r ∧ r < 1) (n : Fin 2000000) :
    val_main_v200 (F := Ideal) x (ix1 n) = BitVec.ofNat 32 (cell x n 0) := by
  have hk := cell_le x n 0
  simp only [val_main_c_58_apply, val_main_v190_apply, val_main_v191_apply, val_main_c_61_apply, val_main_v196_apply, val_main_v197_apply, val_main_c_62_apply, val_main_v198_apply, val_main_v199_apply, val_main_v200_apply]
  rw [v8_at, v4_at hfin hdom, (addi_word _ hk).1]
  exact wrap_word _ (by omega)

theorem v205_at (hfin : ∀ i, ∃ r : ℝ, x i = (r : EReal)) (hdom : ∀ i (r : ℝ), x i = (r : EReal) → 0 ≤ r ∧ r < 1) (n : Fin 2000000) :
    val_main_v205 (F := Ideal) x (ix1 n) = BitVec.ofNat 32 (cell x n 1 + 1) := by
  have hk := cell_le x n 1
  simp only [val_main_c_59_apply, val_main_v192_apply, val_main_v193_apply, val_main_c_63_apply, val_main_v201_apply, val_main_v202_apply, val_main_c_64_apply, val_main_v203_apply, val_main_v204_apply, val_main_v205_apply]
  rw [v10_at, v4_at hfin hdom, (addi_word _ hk).2]
  exact wrap_word _ (by omega)

theorem v210_at (hfin : ∀ i, ∃ r : ℝ, x i = (r : EReal)) (hdom : ∀ i (r : ℝ), x i = (r : EReal) → 0 ≤ r ∧ r < 1) (n : Fin 2000000) :
    val_main_v210 (F := Ideal) x (ix1 n) = BitVec.ofNat 32 (cell x n 2 + 1) := by
  have hk := cell_le x n 2
  simp only [val_main_c_60_apply, val_main_v194_apply, val_main_v195_apply, val_main_c_65_apply, val_main_v206_apply, val_main_v207_apply, val_main_c_66_apply, val_main_v208_apply, val_main_v209_apply, val_main_v210_apply]
  rw [v12_at, v4_at hfin hdom, (addi_word _ hk).2]
  exact wrap_word _ (by omega)

theorem v229_at (hfin : ∀ i, ∃ r : ℝ, x i = (r : EReal)) (hdom : ∀ i (r : ℝ), x i = (r : EReal) → 0 ≤ r ∧ r < 1) (n : Fin 2000000) :
    val_main_v229 (F := Ideal) x (ix1 n) = BitVec.ofNat 32 (cell x n 0 + 1) := by
  have hk := cell_le x n 0
  simp only [val_main_c_68_apply, val_main_v219_apply, val_main_v220_apply, val_main_c_71_apply, val_main_v225_apply, val_main_v226_apply, val_main_c_72_apply, val_main_v227_apply, val_main_v228_apply, val_main_v229_apply]
  rw [v8_at, v4_at hfin hdom, (addi_word _ hk).2]
  exact wrap_word _ (by omega)

theorem v234_at (hfin : ∀ i, ∃ r : ℝ, x i = (r : EReal)) (hdom : ∀ i (r : ℝ), x i = (r : EReal) → 0 ≤ r ∧ r < 1) (n : Fin 2000000) :
    val_main_v234 (F := Ideal) x (ix1 n) = BitVec.ofNat 32 (cell x n 1 + 1) := by
  have hk := cell_le x n 1
  simp only [val_main_c_69_apply, val_main_v221_apply, val_main_v222_apply, val_main_c_73_apply, val_main_v230_apply, val_main_v231_apply, val_main_c_74_apply, val_main_v232_apply, val_main_v233_apply, val_main_v234_apply]
  rw [v10_at, v4_at hfin hdom, (addi_word _ hk).2]
  exact wrap_word _ (by omega)

theorem v239_at (hfin : ∀ i, ∃ r : ℝ, x i = (r : EReal)) (hdom : ∀ i (r : ℝ), x i = (r : EReal) → 0 ≤ r ∧ r < 1) (n : Fin 2000000) :
    val_main_v239 (F := Ideal) x (ix1 n) = BitVec.ofNat 32 (cell x n 2 + 1) := by
  have hk := cell_le x n 2
  simp only [val_main_c_70_apply, val_main_v223_apply, val_main_v224_apply, val_main_c_75_apply, val_main_v235_apply, val_main_v236_apply, val_main_c_76_apply, val_main_v237_apply, val_main_v238_apply, val_main_v239_apply]
  rw [v12_at, v4_at hfin hdom, (addi_word _ hk).2]
  exact wrap_word _ (by omega)

/-! The eight corner values. -/

theorem v43_at_0 (hfin : ∀ i, ∃ r : ℝ, x i = (r : EReal)) (hdom : ∀ i (r : ℝ), x i = (r : EReal) → 0 ≤ r ∧ r < 1) (n : Fin 2000000) :
    val_main_v43 (F := Ideal) x (ix2 n 0) = BitVec.ofNat 32 (cell x n 0) := by
  unfold val_main_v43
  rw [(concat3_apply _ _ _ n).1, val_main_v40_apply]
  have hi : idx_main_v40 (ix2 n (0 : Fin 1)) = ix1 n := by
    funext a; match a with | ⟨0, _⟩ => rfl
  rw [hi, v29_at hfin hdom]

theorem v43_at_1 (hfin : ∀ i, ∃ r : ℝ, x i = (r : EReal)) (hdom : ∀ i (r : ℝ), x i = (r : EReal) → 0 ≤ r ∧ r < 1) (n : Fin 2000000) :
    val_main_v43 (F := Ideal) x (ix2 n 1) = BitVec.ofNat 32 (cell x n 1) := by
  unfold val_main_v43
  rw [(concat3_apply _ _ _ n).2.1, val_main_v41_apply]
  have hi : idx_main_v41 (ix2 n (0 : Fin 1)) = ix1 n := by
    funext a; match a with | ⟨0, _⟩ => rfl
  rw [hi, v34_at hfin hdom]

theorem v43_at_2 (hfin : ∀ i, ∃ r : ℝ, x i = (r : EReal)) (hdom : ∀ i (r : ℝ), x i = (r : EReal) → 0 ≤ r ∧ r < 1) (n : Fin 2000000) :
    val_main_v43 (F := Ideal) x (ix2 n 2) = BitVec.ofNat 32 (cell x n 2) := by
  unfold val_main_v43
  rw [(concat3_apply _ _ _ n).2.2, val_main_v42_apply]
  have hi : idx_main_v42 (ix2 n (0 : Fin 1)) = ix1 n := by
    funext a; match a with | ⟨0, _⟩ => rfl
  rw [hi, v39_at hfin hdom]

theorem v44_at (hfin : ∀ i, ∃ r : ℝ, x i = (r : EReal)) (hdom : ∀ i (r : ℝ), x i = (r : EReal) → 0 ≤ r ∧ r < 1) (n : Fin 2000000) :
    val_main_v44 (F := Ideal) x g (ix1 n)
      = g (ix3 ⟨cell x n 0, by have := cell_le x n 0; omega⟩ ⟨cell x n 1, by have := cell_le x n 1; omega⟩
          ⟨cell x n 2, by have := cell_le x n 2; omega⟩) := by
  have h0 := cell_le x n 0
  have h1 := cell_le x n 1
  have h2 := cell_le x n 2
  unfold val_main_v44
  exact gather_at g _ n _ _ _ (by omega) (by omega) (by omega) (v43_at_0 hfin hdom n)
    (v43_at_1 hfin hdom n) (v43_at_2 hfin hdom n)

theorem v72_at_0 (hfin : ∀ i, ∃ r : ℝ, x i = (r : EReal)) (hdom : ∀ i (r : ℝ), x i = (r : EReal) → 0 ≤ r ∧ r < 1) (n : Fin 2000000) :
    val_main_v72 (F := Ideal) x (ix2 n 0) = BitVec.ofNat 32 (cell x n 0 + 1) := by
  unfold val_main_v72
  rw [(concat3_apply _ _ _ n).1, val_main_v69_apply]
  have hi : idx_main_v69 (ix2 n (0 : Fin 1)) = ix1 n := by
    funext a; match a with | ⟨0, _⟩ => rfl
  rw [hi, v58_at hfin hdom]

theorem v72_at_1 (hfin : ∀ i, ∃ r : ℝ, x i = (r : EReal)) (hdom : ∀ i (r : ℝ), x i = (r : EReal) → 0 ≤ r ∧ r < 1) (n : Fin 2000000) :
    val_main_v72 (F := Ideal) x (ix2 n 1) = BitVec.ofNat 32 (cell x n 1) := by
  unfold val_main_v72
  rw [(concat3_apply _ _ _ n).2.1, val_main_v70_apply]
  have hi : idx_main_v70 (ix2 n (0 : Fin 1)) = ix1 n := by
    funext a; match a with | ⟨0, _⟩ => rfl
  rw [hi, v63_at hfin hdom]

theorem v72_at_2 (hfin : ∀ i, ∃ r : ℝ, x i = (r : EReal)) (hdom : ∀ i (r : ℝ), x i = (r : EReal) → 0 ≤ r ∧ r < 1) (n : Fin 2000000) :
    val_main_v72 (F := Ideal) x (ix2 n 2) = BitVec.ofNat 32 (cell x n 2) := by
  unfold val_main_v72
  rw [(concat3_apply _ _ _ n).2.2, val_main_v71_apply]
  have hi : idx_main_v71 (ix2 n (0 : Fin 1)) = ix1 n := by
    funext a; match a with | ⟨0, _⟩ => rfl
  rw [hi, v68_at hfin hdom]

theorem v73_at (hfin : ∀ i, ∃ r : ℝ, x i = (r : EReal)) (hdom : ∀ i (r : ℝ), x i = (r : EReal) → 0 ≤ r ∧ r < 1) (n : Fin 2000000) :
    val_main_v73 (F := Ideal) x g (ix1 n)
      = g (ix3 ⟨cell x n 0 + 1, by have := cell_le x n 0; omega⟩ ⟨cell x n 1, by have := cell_le x n 1; omega⟩
          ⟨cell x n 2, by have := cell_le x n 2; omega⟩) := by
  have h0 := cell_le x n 0
  have h1 := cell_le x n 1
  have h2 := cell_le x n 2
  unfold val_main_v73
  exact gather_at g _ n _ _ _ (by omega) (by omega) (by omega) (v72_at_0 hfin hdom n)
    (v72_at_1 hfin hdom n) (v72_at_2 hfin hdom n)

theorem v100_at_0 (hfin : ∀ i, ∃ r : ℝ, x i = (r : EReal)) (hdom : ∀ i (r : ℝ), x i = (r : EReal) → 0 ≤ r ∧ r < 1) (n : Fin 2000000) :
    val_main_v100 (F := Ideal) x (ix2 n 0) = BitVec.ofNat 32 (cell x n 0) := by
  unfold val_main_v100
  rw [(concat3_apply _ _ _ n).1, val_main_v97_apply]
  have hi : idx_main_v97 (ix2 n (0 : Fin 1)) = ix1 n := by
    funext a; match a with | ⟨0, _⟩ => rfl
  rw [hi, v86_at hfin hdom]

theorem v100_at_1 (hfin : ∀ i, ∃ r : ℝ, x i = (r : EReal)) (hdom : ∀ i (r : ℝ), x i = (r : EReal) → 0 ≤ r ∧ r < 1) (n : Fin 2000000) :
    val_main_v100 (F := Ideal) x (ix2 n 1) = BitVec.ofNat 32 (cell x n 1) := by
  unfold val_main_v100
  rw [(concat3_apply _ _ _ n).2.1, val_main_v98_apply]
  have hi : idx_main_v98 (ix2 n (0 : Fin 1)) = ix1 n := by
    funext a; match a with | ⟨0, _⟩ => rfl
  rw [hi, v91_at hfin hdom]

theorem v100_at_2 (hfin : ∀ i, ∃ r : ℝ, x i = (r : EReal)) (hdom : ∀ i (r : ℝ), x i = (r : EReal) → 0 ≤ r ∧ r < 1) (n : Fin 2000000) :
    val_main_v100 (F := Ideal) x (ix2 n 2) = BitVec.ofNat 32 (cell x n 2 + 1) := by
  unfold val_main_v100
  rw [(concat3_apply _ _ _ n).2.2, val_main_v99_apply]
  have hi : idx_main_v99 (ix2 n (0 : Fin 1)) = ix1 n := by
    funext a; match a with | ⟨0, _⟩ => rfl
  rw [hi, v96_at hfin hdom]

theorem v101_at (hfin : ∀ i, ∃ r : ℝ, x i = (r : EReal)) (hdom : ∀ i (r : ℝ), x i = (r : EReal) → 0 ≤ r ∧ r < 1) (n : Fin 2000000) :
    val_main_v101 (F := Ideal) x g (ix1 n)
      = g (ix3 ⟨cell x n 0, by have := cell_le x n 0; omega⟩ ⟨cell x n 1, by have := cell_le x n 1; omega⟩
          ⟨cell x n 2 + 1, by have := cell_le x n 2; omega⟩) := by
  have h0 := cell_le x n 0
  have h1 := cell_le x n 1
  have h2 := cell_le x n 2
  unfold val_main_v101
  exact gather_at g _ n _ _ _ (by omega) (by omega) (by omega) (v100_at_0 hfin hdom n)
    (v100_at_1 hfin hdom n) (v100_at_2 hfin hdom n)

theorem v129_at_0 (hfin : ∀ i, ∃ r : ℝ, x i = (r : EReal)) (hdom : ∀ i (r : ℝ), x i = (r : EReal) → 0 ≤ r ∧ r < 1) (n : Fin 2000000) :
    val_main_v129 (F := Ideal) x (ix2 n 0) = BitVec.ofNat 32 (cell x n 0 + 1) := by
  unfold val_main_v129
  rw [(concat3_apply _ _ _ n).1, val_main_v126_apply]
  have hi : idx_main_v126 (ix2 n (0 : Fin 1)) = ix1 n := by
    funext a; match a with | ⟨0, _⟩ => rfl
  rw [hi, v115_at hfin hdom]

theorem v129_at_1 (hfin : ∀ i, ∃ r : ℝ, x i = (r : EReal)) (hdom : ∀ i (r : ℝ), x i = (r : EReal) → 0 ≤ r ∧ r < 1) (n : Fin 2000000) :
    val_main_v129 (F := Ideal) x (ix2 n 1) = BitVec.ofNat 32 (cell x n 1) := by
  unfold val_main_v129
  rw [(concat3_apply _ _ _ n).2.1, val_main_v127_apply]
  have hi : idx_main_v127 (ix2 n (0 : Fin 1)) = ix1 n := by
    funext a; match a with | ⟨0, _⟩ => rfl
  rw [hi, v120_at hfin hdom]

theorem v129_at_2 (hfin : ∀ i, ∃ r : ℝ, x i = (r : EReal)) (hdom : ∀ i (r : ℝ), x i = (r : EReal) → 0 ≤ r ∧ r < 1) (n : Fin 2000000) :
    val_main_v129 (F := Ideal) x (ix2 n 2) = BitVec.ofNat 32 (cell x n 2 + 1) := by
  unfold val_main_v129
  rw [(concat3_apply _ _ _ n).2.2, val_main_v128_apply]
  have hi : idx_main_v128 (ix2 n (0 : Fin 1)) = ix1 n := by
    funext a; match a with | ⟨0, _⟩ => rfl
  rw [hi, v125_at hfin hdom]

theorem v130_at (hfin : ∀ i, ∃ r : ℝ, x i = (r : EReal)) (hdom : ∀ i (r : ℝ), x i = (r : EReal) → 0 ≤ r ∧ r < 1) (n : Fin 2000000) :
    val_main_v130 (F := Ideal) x g (ix1 n)
      = g (ix3 ⟨cell x n 0 + 1, by have := cell_le x n 0; omega⟩ ⟨cell x n 1, by have := cell_le x n 1; omega⟩
          ⟨cell x n 2 + 1, by have := cell_le x n 2; omega⟩) := by
  have h0 := cell_le x n 0
  have h1 := cell_le x n 1
  have h2 := cell_le x n 2
  unfold val_main_v130
  exact gather_at g _ n _ _ _ (by omega) (by omega) (by omega) (v129_at_0 hfin hdom n)
    (v129_at_1 hfin hdom n) (v129_at_2 hfin hdom n)

theorem v157_at_0 (hfin : ∀ i, ∃ r : ℝ, x i = (r : EReal)) (hdom : ∀ i (r : ℝ), x i = (r : EReal) → 0 ≤ r ∧ r < 1) (n : Fin 2000000) :
    val_main_v157 (F := Ideal) x (ix2 n 0) = BitVec.ofNat 32 (cell x n 0) := by
  unfold val_main_v157
  rw [(concat3_apply _ _ _ n).1, val_main_v154_apply]
  have hi : idx_main_v154 (ix2 n (0 : Fin 1)) = ix1 n := by
    funext a; match a with | ⟨0, _⟩ => rfl
  rw [hi, v143_at hfin hdom]

theorem v157_at_1 (hfin : ∀ i, ∃ r : ℝ, x i = (r : EReal)) (hdom : ∀ i (r : ℝ), x i = (r : EReal) → 0 ≤ r ∧ r < 1) (n : Fin 2000000) :
    val_main_v157 (F := Ideal) x (ix2 n 1) = BitVec.ofNat 32 (cell x n 1 + 1) := by
  unfold val_main_v157
  rw [(concat3_apply _ _ _ n).2.1, val_main_v155_apply]
  have hi : idx_main_v155 (ix2 n (0 : Fin 1)) = ix1 n := by
    funext a; match a with | ⟨0, _⟩ => rfl
  rw [hi, v148_at hfin hdom]

theorem v157_at_2 (hfin : ∀ i, ∃ r : ℝ, x i = (r : EReal)) (hdom : ∀ i (r : ℝ), x i = (r : EReal) → 0 ≤ r ∧ r < 1) (n : Fin 2000000) :
    val_main_v157 (F := Ideal) x (ix2 n 2) = BitVec.ofNat 32 (cell x n 2) := by
  unfold val_main_v157
  rw [(concat3_apply _ _ _ n).2.2, val_main_v156_apply]
  have hi : idx_main_v156 (ix2 n (0 : Fin 1)) = ix1 n := by
    funext a; match a with | ⟨0, _⟩ => rfl
  rw [hi, v153_at hfin hdom]

theorem v158_at (hfin : ∀ i, ∃ r : ℝ, x i = (r : EReal)) (hdom : ∀ i (r : ℝ), x i = (r : EReal) → 0 ≤ r ∧ r < 1) (n : Fin 2000000) :
    val_main_v158 (F := Ideal) x g (ix1 n)
      = g (ix3 ⟨cell x n 0, by have := cell_le x n 0; omega⟩ ⟨cell x n 1 + 1, by have := cell_le x n 1; omega⟩
          ⟨cell x n 2, by have := cell_le x n 2; omega⟩) := by
  have h0 := cell_le x n 0
  have h1 := cell_le x n 1
  have h2 := cell_le x n 2
  unfold val_main_v158
  exact gather_at g _ n _ _ _ (by omega) (by omega) (by omega) (v157_at_0 hfin hdom n)
    (v157_at_1 hfin hdom n) (v157_at_2 hfin hdom n)

theorem v186_at_0 (hfin : ∀ i, ∃ r : ℝ, x i = (r : EReal)) (hdom : ∀ i (r : ℝ), x i = (r : EReal) → 0 ≤ r ∧ r < 1) (n : Fin 2000000) :
    val_main_v186 (F := Ideal) x (ix2 n 0) = BitVec.ofNat 32 (cell x n 0 + 1) := by
  unfold val_main_v186
  rw [(concat3_apply _ _ _ n).1, val_main_v183_apply]
  have hi : idx_main_v183 (ix2 n (0 : Fin 1)) = ix1 n := by
    funext a; match a with | ⟨0, _⟩ => rfl
  rw [hi, v172_at hfin hdom]

theorem v186_at_1 (hfin : ∀ i, ∃ r : ℝ, x i = (r : EReal)) (hdom : ∀ i (r : ℝ), x i = (r : EReal) → 0 ≤ r ∧ r < 1) (n : Fin 2000000) :
    val_main_v186 (F := Ideal) x (ix2 n 1) = BitVec.ofNat 32 (cell x n 1 + 1) := by
  unfold val_main_v186
  rw [(concat3_apply _ _ _ n).2.1, val_main_v184_apply]
  have hi : idx_main_v184 (ix2 n (0 : Fin 1)) = ix1 n := by
    funext a; match a with | ⟨0, _⟩ => rfl
  rw [hi, v177_at hfin hdom]

theorem v186_at_2 (hfin : ∀ i, ∃ r : ℝ, x i = (r : EReal)) (hdom : ∀ i (r : ℝ), x i = (r : EReal) → 0 ≤ r ∧ r < 1) (n : Fin 2000000) :
    val_main_v186 (F := Ideal) x (ix2 n 2) = BitVec.ofNat 32 (cell x n 2) := by
  unfold val_main_v186
  rw [(concat3_apply _ _ _ n).2.2, val_main_v185_apply]
  have hi : idx_main_v185 (ix2 n (0 : Fin 1)) = ix1 n := by
    funext a; match a with | ⟨0, _⟩ => rfl
  rw [hi, v182_at hfin hdom]

theorem v187_at (hfin : ∀ i, ∃ r : ℝ, x i = (r : EReal)) (hdom : ∀ i (r : ℝ), x i = (r : EReal) → 0 ≤ r ∧ r < 1) (n : Fin 2000000) :
    val_main_v187 (F := Ideal) x g (ix1 n)
      = g (ix3 ⟨cell x n 0 + 1, by have := cell_le x n 0; omega⟩ ⟨cell x n 1 + 1, by have := cell_le x n 1; omega⟩
          ⟨cell x n 2, by have := cell_le x n 2; omega⟩) := by
  have h0 := cell_le x n 0
  have h1 := cell_le x n 1
  have h2 := cell_le x n 2
  unfold val_main_v187
  exact gather_at g _ n _ _ _ (by omega) (by omega) (by omega) (v186_at_0 hfin hdom n)
    (v186_at_1 hfin hdom n) (v186_at_2 hfin hdom n)

theorem v214_at_0 (hfin : ∀ i, ∃ r : ℝ, x i = (r : EReal)) (hdom : ∀ i (r : ℝ), x i = (r : EReal) → 0 ≤ r ∧ r < 1) (n : Fin 2000000) :
    val_main_v214 (F := Ideal) x (ix2 n 0) = BitVec.ofNat 32 (cell x n 0) := by
  unfold val_main_v214
  rw [(concat3_apply _ _ _ n).1, val_main_v211_apply]
  have hi : idx_main_v211 (ix2 n (0 : Fin 1)) = ix1 n := by
    funext a; match a with | ⟨0, _⟩ => rfl
  rw [hi, v200_at hfin hdom]

theorem v214_at_1 (hfin : ∀ i, ∃ r : ℝ, x i = (r : EReal)) (hdom : ∀ i (r : ℝ), x i = (r : EReal) → 0 ≤ r ∧ r < 1) (n : Fin 2000000) :
    val_main_v214 (F := Ideal) x (ix2 n 1) = BitVec.ofNat 32 (cell x n 1 + 1) := by
  unfold val_main_v214
  rw [(concat3_apply _ _ _ n).2.1, val_main_v212_apply]
  have hi : idx_main_v212 (ix2 n (0 : Fin 1)) = ix1 n := by
    funext a; match a with | ⟨0, _⟩ => rfl
  rw [hi, v205_at hfin hdom]

theorem v214_at_2 (hfin : ∀ i, ∃ r : ℝ, x i = (r : EReal)) (hdom : ∀ i (r : ℝ), x i = (r : EReal) → 0 ≤ r ∧ r < 1) (n : Fin 2000000) :
    val_main_v214 (F := Ideal) x (ix2 n 2) = BitVec.ofNat 32 (cell x n 2 + 1) := by
  unfold val_main_v214
  rw [(concat3_apply _ _ _ n).2.2, val_main_v213_apply]
  have hi : idx_main_v213 (ix2 n (0 : Fin 1)) = ix1 n := by
    funext a; match a with | ⟨0, _⟩ => rfl
  rw [hi, v210_at hfin hdom]

theorem v215_at (hfin : ∀ i, ∃ r : ℝ, x i = (r : EReal)) (hdom : ∀ i (r : ℝ), x i = (r : EReal) → 0 ≤ r ∧ r < 1) (n : Fin 2000000) :
    val_main_v215 (F := Ideal) x g (ix1 n)
      = g (ix3 ⟨cell x n 0, by have := cell_le x n 0; omega⟩ ⟨cell x n 1 + 1, by have := cell_le x n 1; omega⟩
          ⟨cell x n 2 + 1, by have := cell_le x n 2; omega⟩) := by
  have h0 := cell_le x n 0
  have h1 := cell_le x n 1
  have h2 := cell_le x n 2
  unfold val_main_v215
  exact gather_at g _ n _ _ _ (by omega) (by omega) (by omega) (v214_at_0 hfin hdom n)
    (v214_at_1 hfin hdom n) (v214_at_2 hfin hdom n)

theorem v243_at_0 (hfin : ∀ i, ∃ r : ℝ, x i = (r : EReal)) (hdom : ∀ i (r : ℝ), x i = (r : EReal) → 0 ≤ r ∧ r < 1) (n : Fin 2000000) :
    val_main_v243 (F := Ideal) x (ix2 n 0) = BitVec.ofNat 32 (cell x n 0 + 1) := by
  unfold val_main_v243
  rw [(concat3_apply _ _ _ n).1, val_main_v240_apply]
  have hi : idx_main_v240 (ix2 n (0 : Fin 1)) = ix1 n := by
    funext a; match a with | ⟨0, _⟩ => rfl
  rw [hi, v229_at hfin hdom]

theorem v243_at_1 (hfin : ∀ i, ∃ r : ℝ, x i = (r : EReal)) (hdom : ∀ i (r : ℝ), x i = (r : EReal) → 0 ≤ r ∧ r < 1) (n : Fin 2000000) :
    val_main_v243 (F := Ideal) x (ix2 n 1) = BitVec.ofNat 32 (cell x n 1 + 1) := by
  unfold val_main_v243
  rw [(concat3_apply _ _ _ n).2.1, val_main_v241_apply]
  have hi : idx_main_v241 (ix2 n (0 : Fin 1)) = ix1 n := by
    funext a; match a with | ⟨0, _⟩ => rfl
  rw [hi, v234_at hfin hdom]

theorem v243_at_2 (hfin : ∀ i, ∃ r : ℝ, x i = (r : EReal)) (hdom : ∀ i (r : ℝ), x i = (r : EReal) → 0 ≤ r ∧ r < 1) (n : Fin 2000000) :
    val_main_v243 (F := Ideal) x (ix2 n 2) = BitVec.ofNat 32 (cell x n 2 + 1) := by
  unfold val_main_v243
  rw [(concat3_apply _ _ _ n).2.2, val_main_v242_apply]
  have hi : idx_main_v242 (ix2 n (0 : Fin 1)) = ix1 n := by
    funext a; match a with | ⟨0, _⟩ => rfl
  rw [hi, v239_at hfin hdom]

theorem v244_at (hfin : ∀ i, ∃ r : ℝ, x i = (r : EReal)) (hdom : ∀ i (r : ℝ), x i = (r : EReal) → 0 ≤ r ∧ r < 1) (n : Fin 2000000) :
    val_main_v244 (F := Ideal) x g (ix1 n)
      = g (ix3 ⟨cell x n 0 + 1, by have := cell_le x n 0; omega⟩ ⟨cell x n 1 + 1, by have := cell_le x n 1; omega⟩
          ⟨cell x n 2 + 1, by have := cell_le x n 2; omega⟩) := by
  have h0 := cell_le x n 0
  have h1 := cell_le x n 1
  have h2 := cell_le x n 2
  unfold val_main_v244
  exact gather_at g _ n _ _ _ (by omega) (by omega) (by omega) (v243_at_0 hfin hdom n)
    (v243_at_1 hfin hdom n) (v243_at_2 hfin hdom n)

/-- The trilinear sample, as the program computes it, is the sum against all the hat weights. -/
theorem v261_at (hfin : ∀ i, ∃ r : ℝ, x i = (r : EReal)) (hdom : ∀ i (r : ℝ), x i = (r : EReal) → 0 ≤ r ∧ r < 1) (hg : ∀ i, ∃ r : ℝ, g i = (r : EReal)) (n : Fin 2000000) :
    val_main_v261 (F := Ideal) x g (ix1 n) = D x g n := by
  have hgr : ∀ i j k, g (ix3 i j k) = ((gridR g i j k : ℝ) : EReal) := by
    intro i j k
    obtain ⟨r, hr⟩ := hg (ix3 i j k)
    unfold gridR; rw [hr, EReal.toReal_coe]
  obtain ⟨_, _, _, _, hx0, hx1⟩ := pos_spec hfin hdom n 0
  obtain ⟨_, _, _, _, hy0, hy1⟩ := pos_spec hfin hdom n 1
  obtain ⟨_, _, _, _, hz0, hz1⟩ := pos_spec hfin hdom n 2
  simp only [
    val_main_cst_10_apply, val_main_v45_apply, val_main_v46_apply, val_main_v47_apply, val_main_v74_apply,
    val_main_v75_apply, val_main_cst_77_apply, val_main_v247_apply, val_main_v248_apply, val_main_v249_apply,
    val_main_cst_48_apply, val_main_v159_apply, val_main_v160_apply, val_main_v161_apply,
    val_main_v188_apply, val_main_v189_apply, val_main_v250_apply, val_main_v251_apply,
    val_main_cst_79_apply, val_main_v257_apply, val_main_v258_apply, val_main_v259_apply,
    val_main_cst_29_apply, val_main_v102_apply, val_main_v103_apply, val_main_v104_apply,
    val_main_v131_apply, val_main_v132_apply, val_main_cst_78_apply, val_main_v252_apply,
    val_main_v253_apply, val_main_v254_apply, val_main_cst_67_apply, val_main_v216_apply,
    val_main_v217_apply, val_main_v218_apply, val_main_v245_apply, val_main_v246_apply, val_main_v255_apply,
    val_main_v256_apply, val_main_v260_apply, val_main_v261_apply,
    Ideal.ofBits_def, Ideal.ofBits_one_f32, Ideal.addf_def, Ideal.subf_def, Ideal.mulf_def]
  rw [v44_at hfin hdom, v73_at hfin hdom, v101_at hfin hdom, v130_at hfin hdom, v158_at hfin hdom,
    v187_at hfin hdom, v215_at hfin hdom, v244_at hfin hdom, v14_at, v16_at, v18_at,
    v6_at hfin hdom n 0, v6_at hfin hdom n 1, v6_at hfin hdom n 2]
  simp only [hgr]
  rw [trilinear_coe]
  unfold D
  rw [hat_trilinear (gridR g) (pos x n 0) (pos x n 1) (pos x n 2) (cell x n 0) (cell x n 1) (cell x n 2)
    (cell_le x n 0) (cell_le x n 1) (cell_le x n 2) hx0 hx1 hy0 hy1 hz0 hz1]

/-- **The distance-field term at point `n`**: one half (the program's constant word) times the
square of the hat-weight sample. -/
theorem val_main_v264_at (hfin : ∀ i, ∃ r : ℝ, x i = (r : EReal)) (hdom : ∀ i (r : ℝ), x i = (r : EReal) → 0 ≤ r ∧ r < 1) (hg : ∀ i, ∃ r : ℝ, g i = (r : EReal)) (n : Fin 2000000) :
    val_main_v264 (F := Ideal) x g (ix1 n)
      = Ideal.ofBits .f32 0x3F000000#32 * (D x g n * D x g n) := by
  rw [val_main_v264_apply, val_main_v263_apply, val_main_cst_80_apply, val_main_v262_apply,
    v261_at hfin hdom hg]
  rfl

/-- A rank-one index set is its one coordinate's range. -/
def idxEquiv1 {m : ℕ} : (⟨1, ![m]⟩ : Shape).Idx ≃ Fin m where
  toFun i := i 0
  invFun a := ix1 a
  left_inv i := (eq_ix1 i).symm
  right_inv _ := rfl

/-- A sum over a rank-one index set is the sum over its coordinate. -/
theorem sum_idx1 {M : Type*} [AddCommMonoid M] {m : ℕ} (f : (⟨1, ![m]⟩ : Shape).Idx → M) :
    ∑ i, f i = ∑ a : Fin m, f (ix1 a) :=
  (Equiv.sum_comp (idxEquiv1 (m := m)).symm f).symm

/-- **The distance-field loss**: the program's sum of the per-point terms from the initial value zero. -/
theorem val_main_v293_at (hfin : ∀ i, ∃ r : ℝ, x i = (r : EReal)) (hdom : ∀ i (r : ℝ), x i = (r : EReal) → 0 ≤ r ∧ r < 1) (hg : ∀ i, ∃ r : ℝ, g i = (r : EReal)) (i : S_.Idx) :
    val_main_v293 (F := Ideal) x g i
      = 0 + ∑ n : Fin 2000000, Ideal.ofBits .f32 0x3F000000#32 * (D x g n * D x g n) := by
  rw [val_main_v293_apply, val_main_cst_88_apply]
  show Ideal.ofBits .f32 0x00000000#32 + _ = _
  rw [Ideal.ofBits_zero_f32, sum_idx1]
  exact congrArg (0 + ·) (Finset.sum_congr rfl fun n _ => val_main_v264_at hfin hdom hg n)

end Dist

end Cert.RefDist
-- ==== Proof.DistBridge.lean ====
import proofs.«152542_j63075889709151_1_alg».proof.Proof.HatInterp
import Idealize.ShloMosaic.PureOps.Ideal.Laws

/-!
# From the tiled accumulation of hat-weight samples to one sum over all points

A computation visits `3125` tiles of `640` points each.  For every point it forms the sample
`∑ᵢ wᵢ(px) ∑ⱼ wⱼ(py) ∑ₖ G i j k · wₖ(pz)` of a grid `G` against the hat weights
`w_i(p) = max (1 - |i - p|) 0`, adds `c · ∑ (sample)²` of the tile to a running total that starts
at zero, and returns the last total.  All of it is written in the extended reals.  When the
positions and the grid are finite, the returned total is `0 + ∑ₙ c · (sampleₙ)²` over all
`2 000 000` points, each sample being the coercion of the real hat-weight sum.

The steps: coercion commutes with finite sums, with `max` and with `|·|` written as `max y (-y)`
(so every extended-real spelling of a hat weight is the coercion of the real one); a running total
is the sum of its increments; and a sum taken tile by tile is the sum over all points.
-/

noncomputable section

namespace Cert.DistBridge

open Cert.HatInterp Idealize.ShloMosaic
open Finset

/-! ## Coercion from the reals to the extended reals -/

/-- Coercion commutes with a finite sum. -/
theorem coe_finset_sum {ι : Type*} (s : Finset ι) (f : ι → ℝ) :
    ((∑ i ∈ s, f i : ℝ) : EReal) = ∑ i ∈ s, ((f i : ℝ) : EReal) :=
  map_sum (⟨⟨(fun r : ℝ => (r : EReal)), EReal.coe_zero⟩, EReal.coe_add⟩ : ℝ →+ EReal) f s

/-- Coercion commutes with a sum over a finite type. -/
theorem coe_fintype_sum {ι : Type*} [Fintype ι] (f : ι → ℝ) :
    ((∑ i, f i : ℝ) : EReal) = ∑ i, ((f i : ℝ) : EReal) :=
  coe_finset_sum Finset.univ f

/-- Coercion commutes with `max`: it is monotone. -/
theorem coe_max (a b : ℝ) : ((max a b : ℝ) : EReal) = max (a : EReal) (b : EReal) :=
  EReal.coe_strictMono.monotone.map_max

/-- The absolute value, written `max y (-y)` in the extended reals. -/
theorem coe_abs (y : ℝ) : ((|y| : ℝ) : EReal) = max (y : EReal) (-(y : EReal)) := by
  rw [abs_eq_max_neg, coe_max, EReal.coe_neg]

/-- The absolute value, written `max (-y) y` in the extended reals. -/
theorem coe_abs' (y : ℝ) : ((|y| : ℝ) : EReal) = max (-(y : EReal)) (y : EReal) := by
  rw [coe_abs, max_comm]

/-- A natural number seen in the extended reals directly or through the reals: the same. -/
theorem natCast_coe (i : ℕ) : ((i : ℕ) : EReal) = (((i : ℕ) : ℝ) : EReal) := rfl

/-! ## The hat weight in the extended reals -/

/-- The hat weight of node `i` at an extended-real position `p`, spelled
`max (1 - max (i - p) (-(i - p))) 0`. -/
def hatE (p : EReal) (i : ℕ) : EReal :=
  max (1 - max ((((i : ℕ) : ℝ) : EReal) - p) (-((((i : ℕ) : ℝ) : EReal) - p))) 0

/-- Whatever extended real `A` stands for `|i - p|`, `max (1 - A) 0` is the coerced hat weight. -/
theorem hat_coe_of (p : ℝ) (i : ℕ) (A : EReal) (hA : A = ((|((i : ℕ) : ℝ) - p| : ℝ) : EReal)) :
    max (1 - A) 0 = ((hat p i : ℝ) : EReal) := by
  subst hA
  unfold hat
  rw [coe_max, EReal.coe_sub, EReal.coe_one, EReal.coe_zero]

/-- The same with the arguments of the outer `max` exchanged. -/
theorem hat_coe_of' (p : ℝ) (i : ℕ) (A : EReal) (hA : A = ((|((i : ℕ) : ℝ) - p| : ℝ) : EReal)) :
    max 0 (1 - A) = ((hat p i : ℝ) : EReal) := by
  rw [max_comm]; exact hat_coe_of p i A hA

/-- `|i - p|` as `max (i - p) (-(i - p))`. -/
theorem abs_form_ip (p : ℝ) (i : ℕ) :
    max ((((i : ℕ) : ℝ) : EReal) - (p : EReal)) (-((((i : ℕ) : ℝ) : EReal) - (p : EReal)))
      = ((|((i : ℕ) : ℝ) - p| : ℝ) : EReal) := by
  rw [coe_abs, EReal.coe_sub]

/-- `|i - p|` as `max (-(i - p)) (i - p)`. -/
theorem abs_form_ip' (p : ℝ) (i : ℕ) :
    max (-((((i : ℕ) : ℝ) : EReal) - (p : EReal))) ((((i : ℕ) : ℝ) : EReal) - (p : EReal))
      = ((|((i : ℕ) : ℝ) - p| : ℝ) : EReal) := by
  rw [coe_abs', EReal.coe_sub]

/-- `|i - p|` as `max (p - i) (-(p - i))`. -/
theorem abs_form_pi (p : ℝ) (i : ℕ) :
    max ((p : EReal) - (((i : ℕ) : ℝ) : EReal)) (-((p : EReal) - (((i : ℕ) : ℝ) : EReal)))
      = ((|((i : ℕ) : ℝ) - p| : ℝ) : EReal) := by
  rw [abs_sub_comm, coe_abs, EReal.coe_sub]

/-- `|i - p|` as `max (-(p - i)) (p - i)`. -/
theorem abs_form_pi' (p : ℝ) (i : ℕ) :
    max (-((p : EReal) - (((i : ℕ) : ℝ) : EReal))) ((p : EReal) - (((i : ℕ) : ℝ) : EReal))
      = ((|((i : ℕ) : ℝ) - p| : ℝ) : EReal) := by
  rw [abs_sub_comm, coe_abs', EReal.coe_sub]

/-- At a real position the extended-real hat weight is the coercion of the real one. -/
theorem hatE_coe (p : ℝ) (i : ℕ) : hatE (p : EReal) i = ((hat p i : ℝ) : EReal) :=
  hat_coe_of p i _ (abs_form_ip p i)

/-- The three-axis sum of coerced weights against a coerced grid is the coercion of the real sum. -/
theorem hatSum_coe (G : Fin 64 → Fin 64 → Fin 64 → ℝ) (px py pz : ℝ) :
    ∑ i : Fin 64, ((hat px i : ℝ) : EReal) * ∑ j : Fin 64, ((hat py j : ℝ) : EReal) *
        ∑ k : Fin 64, ((G i j k : ℝ) : EReal) * ((hat pz k : ℝ) : EReal)
      = ((∑ i : Fin 64, hat px i * ∑ j : Fin 64, hat py j * ∑ k : Fin 64, G i j k * hat pz k : ℝ) : EReal) := by
  simp only [coe_fintype_sum, EReal.coe_mul]

/-! ## A running total is the sum of its increments -/

/-- If `acc 0 = 0 + T 0` and `acc (t + 1) = acc t + T (t + 1)` then `acc t = ∑ s ≤ t, T s`. -/
theorem fold_eq_sum (acc T : ℕ → EReal) (h0 : acc 0 = 0 + T 0) (hs : ∀ t, acc (t + 1) = acc t + T (t + 1))
    (t : ℕ) : acc t = ∑ s ∈ range (t + 1), T s := by
  induction t with
  | zero => rw [h0, zero_add, Finset.sum_range_one]
  | succ t ih => rw [hs, ih, Finset.sum_range_succ _ (t + 1)]

/-! ## The tile-by-tile sum of squares -/

/-- The single-precision pattern `0x3F000000` is one half. -/
theorem ofBits_half : Ideal.ofBits .f32 0x3F000000#32 = (((1 : ℝ) / 2 : ℝ) : EReal) := by
  simp [Ideal.ofBits, Ideal.ieee, -EReal.coe_mul]; norm_num

/-- Summing `w · ∑ (value)²` over `3125` tiles of `640` points, the values being coerced reals
`d n` at the flat index `n = 640 t + l` and `w` a coerced real, is `∑ₙ w · (d n)²` over all points. -/
theorem tiles_sum (d : Fin 2000000 → ℝ) (c : ℝ) (w : EReal) (hw : w = (c : EReal))
    (dv : ℕ → Fin 640 → EReal)
    (hdv : ∀ t (ht : t < 3125) (l : Fin 640), dv t l = ((d ⟨t * 640 + l, by omega⟩ : ℝ) : EReal)) :
    ∑ t ∈ range 3125, w * ∑ l : Fin 640, dv t l * dv t l
      = 0 + ∑ n : Fin 2000000, w * (((d n : ℝ) : EReal) * ((d n : ℝ) : EReal)) := by
  subst hw
  rw [zero_add]
  -- the values at a flat natural index, zero past the end
  let dN : ℕ → ℝ := fun m => if h : m < 2000000 then d ⟨m, h⟩ else 0
  have hdN : ∀ n : Fin 2000000, dN n = d n := fun n => dif_pos n.isLt
  have hdv' : ∀ t, t < 3125 → ∀ l : Fin 640, dv t l = ((dN (t * 640 + l) : ℝ) : EReal) := by
    intro t ht l
    have hlt : t * 640 + (l : ℕ) < 2000000 := by omega
    rw [hdv t ht l]
    show _ = (((if h : t * 640 + (l : ℕ) < 2000000 then d ⟨t * 640 + l, h⟩ else 0 : ℝ)) : EReal)
    rw [dif_pos hlt]
  calc ∑ t ∈ range 3125, (c : EReal) * ∑ l : Fin 640, dv t l * dv t l
      = ∑ t ∈ range 3125,
          ((c * ∑ l ∈ range 640, dN (t * 640 + l) * dN (t * 640 + l) : ℝ) : EReal) := by
        refine Finset.sum_congr rfl fun t ht => ?_
        have ht' : t < 3125 := Finset.mem_range.mp ht
        rw [← Fin.sum_univ_eq_sum_range (fun l => dN (t * 640 + l) * dN (t * 640 + l)) 640,
          EReal.coe_mul, coe_fintype_sum]
        refine congrArg ((c : EReal) * ·) (Finset.sum_congr rfl fun l _ => ?_)
        rw [hdv' t ht' l, EReal.coe_mul]
    _ = ((∑ t ∈ range 3125, c * ∑ l ∈ range 640, dN (t * 640 + l) * dN (t * 640 + l) : ℝ) : EReal) :=
        (coe_finset_sum _ _).symm
    _ = ((∑ n ∈ range (3125 * 640), c * (dN n * dN n) : ℝ) : EReal) := by
        rw [sum_tiles_mul c (fun m => dN m * dN m) 3125 640]
    _ = ((∑ n : Fin 2000000, c * (d n * d n) : ℝ) : EReal) := by
        rw [show (3125 * 640 : ℕ) = 2000000 by norm_num,
          ← Fin.sum_univ_eq_sum_range (fun m => c * (dN m * dN m)) 2000000]
        refine congrArg (fun r : ℝ => (r : EReal)) (Finset.sum_congr rfl fun n _ => ?_)
        rw [hdN n]
    _ = ∑ n : Fin 2000000, (c : EReal) * (((d n : ℝ) : EReal) * ((d n : ℝ) : EReal)) := by
        rw [coe_fintype_sum]
        simp only [EReal.coe_mul]

/-! ## The bridge: from the running total to one sum over all points -/

/-- The per-point value in its extended-real spelling: the three-axis sum of the extended-real hat
weights at the positions `Pv t l a` (point `l` of tile `t`, axis `a`) against the grid values `Gv`. -/
def dvE (Pv : ℕ → Fin 640 → Fin 3 → EReal) (Gv : Fin 64 → Fin 64 → Fin 64 → EReal) (t : ℕ) (l : Fin 640) :
    EReal :=
  ∑ i : Fin 64, hatE (Pv t l 0) i * ∑ j : Fin 64, hatE (Pv t l 1) j *
    ∑ k : Fin 64, Gv i j k * hatE (Pv t l 2) k

/-- When the positions and the grid values are coerced reals, the per-point value is the coercion
of the real hat-weight sample at the point's flat index `640 t + l`. -/
theorem dvE_coe (P : Fin 2000000 → Fin 3 → ℝ) (G : Fin 64 → Fin 64 → Fin 64 → ℝ)
    (Pv : ℕ → Fin 640 → Fin 3 → EReal) (Gv : Fin 64 → Fin 64 → Fin 64 → EReal)
    (hP : ∀ t (ht : t < 3125) (l : Fin 640) (a : Fin 3),
      Pv t l a = ((P ⟨t * 640 + l, by omega⟩ a : ℝ) : EReal))
    (hG : ∀ i j k, Gv i j k = ((G i j k : ℝ) : EReal))
    (t : ℕ) (ht : t < 3125) (l : Fin 640) :
    dvE Pv Gv t l
      = ((∑ i : Fin 64, hat (P ⟨t * 640 + l, by omega⟩ 0) i * ∑ j : Fin 64, hat (P ⟨t * 640 + l, by omega⟩ 1) j *
        ∑ k : Fin 64, G i j k * hat (P ⟨t * 640 + l, by omega⟩ 2) k : ℝ) : EReal) := by
  unfold dvE
  rw [hP t ht l 0, hP t ht l 1, hP t ht l 2]
  simp only [hG, hatE_coe]
  exact hatSum_coe G _ _ _

/-- A running total over `3125` tiles whose increments are `w · ∑ (value)²`, the values coerced
reals `d n` at the flat index: the last total is `0 + ∑ₙ w · (d n)²`. -/
theorem acc_eq (d : Fin 2000000 → ℝ) (c : ℝ) (w : EReal) (hw : w = (c : EReal))
    (dv : ℕ → Fin 640 → EReal)
    (hdv : ∀ t (ht : t < 3125) (l : Fin 640), dv t l = ((d ⟨t * 640 + l, by omega⟩ : ℝ) : EReal))
    (acc T : ℕ → EReal) (hT : ∀ t, t < 3125 → T t = w * ∑ l : Fin 640, dv t l * dv t l)
    (h0 : acc 0 = 0 + T 0) (hs : ∀ t, acc (t + 1) = acc t + T (t + 1)) :
    acc 3124 = 0 + ∑ n : Fin 2000000, w * (((d n : ℝ) : EReal) * ((d n : ℝ) : EReal)) := by
  have h : acc 3124 = ∑ s ∈ range 3125, T s := fold_eq_sum acc T h0 hs 3124
  rw [h, ← tiles_sum d c w hw dv hdv]
  exact Finset.sum_congr rfl fun t ht => hT t (Finset.mem_range.mp ht)

/-- **The bridge.**  Positions `Pv` and grid values `Gv` that are coerced reals `P`, `G`; increments
`T t = w · ∑ₗ (dvE Pv Gv t l)²` with `w` a coerced real; a running total from `0 + T 0`: the last
total is `0 + ∑ₙ w · (sampleₙ)²` with `sampleₙ` the coerced real hat-weight sum at point `n`. -/
theorem bridge (P : Fin 2000000 → Fin 3 → ℝ) (G : Fin 64 → Fin 64 → Fin 64 → ℝ) (c : ℝ) (w : EReal)
    (hw : w = (c : EReal))
    (Pv : ℕ → Fin 640 → Fin 3 → EReal) (Gv : Fin 64 → Fin 64 → Fin 64 → EReal)
    (hP : ∀ t (ht : t < 3125) (l : Fin 640) (a : Fin 3),
      Pv t l a = ((P ⟨t * 640 + l, by omega⟩ a : ℝ) : EReal))
    (hG : ∀ i j k, Gv i j k = ((G i j k : ℝ) : EReal))
    (acc T : ℕ → EReal)
    (hT : ∀ t, t < 3125 → T t = w * ∑ l : Fin 640, dvE Pv Gv t l * dvE Pv Gv t l)
    (h0 : acc 0 = 0 + T 0) (hs : ∀ t, acc (t + 1) = acc t + T (t + 1)) :
    acc 3124 = 0 + ∑ n : Fin 2000000, w *
      (((∑ i : Fin 64, hat (P n 0) i * ∑ j : Fin 64, hat (P n 1) j *
        ∑ k : Fin 64, G i j k * hat (P n 2) k : ℝ) : EReal)
        * ((∑ i : Fin 64, hat (P n 0) i * ∑ j : Fin 64, hat (P n 1) j *
        ∑ k : Fin 64, G i j k * hat (P n 2) k : ℝ) : EReal)) :=
  acc_eq (fun n => ∑ i : Fin 64, hat (P n 0) i * ∑ j : Fin 64, hat (P n 1) j *
        ∑ k : Fin 64, G i j k * hat (P n 2) k) c w hw (dvE Pv Gv)
    (fun t ht l => dvE_coe P G Pv Gv hP hG t ht l) acc T hT h0 hs

end Cert.DistBridge
-- ==== Proof.DistMeet.lean ====
import proofs.«152542_j63075889709151_1_alg».proof.Proof.RefDist
import proofs.«152542_j63075889709151_1_alg».proof.Proof.DistBridge

/-!
# The two distance-field totals meet

The reference's distance-field loss (the sum over all points of one half the squared trilinear
sample) and the running total of a computation that visits the points tile by tile, sampling by hat
weights: on finite inputs in the domain they are the same extended real.
-/

noncomputable section

namespace Cert.DistMeet

open Idealize.ShloMosaic Idealize.ShloMosaic.ValueIdx
open Cert.HatInterp Cert.RefDist Cert.DistBridge
open Cert.ReferenceIdeal Cert.ReferenceIdeal.Gen Cert.ReferenceIdeal.ReadP

/-- The per-point value in the tiled layout: `X t a l` is coordinate `a` of point `l` of tile `t`
(not yet scaled by `63`) and `Gm (64 i + j) k` the grid value at node `(i, j, k)`. -/
def dvK (X : ℕ → Fin 3 → Fin 640 → EReal) (Gm : Fin 4096 → Fin 64 → EReal) (t : ℕ) (l : Fin 640) : EReal :=
  ∑ i : Fin 64, hatE (X t 0 l * ((63 : ℝ) : EReal)) i * ∑ j : Fin 64, hatE (X t 1 l * ((63 : ℝ) : EReal)) j *
    ∑ k : Fin 64, Gm ⟨i * 64 + j, by omega⟩ k * hatE (X t 2 l * ((63 : ℝ) : EReal)) k

/-- `dvK` is `dvE` at the scaled positions and the re-indexed grid. -/
theorem dvK_eq (X : ℕ → Fin 3 → Fin 640 → EReal) (Gm : Fin 4096 → Fin 64 → EReal) (t : ℕ) (l : Fin 640) :
    dvK X Gm t l
      = dvE (fun t l a => X t a l * ((63 : ℝ) : EReal)) (fun i j k => Gm ⟨i * 64 + j, by omega⟩ k) t l :=
  rfl

/-- **The meeting.**  `x`, `g`: the reference's point and grid arrays, finite, the points in
`[0, 1)`.  `X`, `Gm`: the same values in the tiled layout.  A running total `acc` that starts at
`0 + T 0` and adds `T (t + 1)`, where `T t` is one half (as the program's constant word) times the
sum of the squared per-point values of tile `t`: its value after the last of the `3125` tiles is
the reference's distance-field loss. -/
theorem acc_eq_reference
    {x : (⟨S2000000x3, .f32⟩ : BufTy).Contents (Elt Ideal)} {g : (⟨S64x64x64, .f32⟩ : BufTy).Contents (Elt Ideal)}
    (hfin : ∀ i, ∃ r : ℝ, x i = (r : EReal)) (hdom : ∀ i (r : ℝ), x i = (r : EReal) → 0 ≤ r ∧ r < 1)
    (hg : ∀ i, ∃ r : ℝ, g i = (r : EReal))
    (X : ℕ → Fin 3 → Fin 640 → EReal) (Gm : Fin 4096 → Fin 64 → EReal)
    (hX : ∀ t (ht : t < 3125) (l : Fin 640) (a : Fin 3), X t a l = x (ix2 ⟨t * 640 + l, by omega⟩ a))
    (hGm : ∀ i j k : Fin 64, Gm ⟨i * 64 + j, by omega⟩ k = g (ix3 i j k))
    (acc T : ℕ → EReal)
    (hT : ∀ t, t < 3125 →
      T t = Ideal.ofBits .f32 0x3F000000#32 * ∑ l : Fin 640, dvK X Gm t l * dvK X Gm t l)
    (h0 : acc 0 = 0 + T 0) (hs : ∀ t, acc (t + 1) = acc t + T (t + 1)) (i : S_.Idx) :
    acc 3124 = 0 + ∑ n : Fin 2000000, Ideal.ofBits .f32 0x3F000000#32 * (D x g n * D x g n)
      ∧ acc 3124 = val_main_v293 (F := Ideal) x g i := by
  have hP : ∀ t (ht : t < 3125) (l : Fin 640) (a : Fin 3),
      (fun (t : ℕ) (l : Fin 640) (a : Fin 3) => X t a l * ((63 : ℝ) : EReal)) t l a
        = ((pos x ⟨t * 640 + l, by omega⟩ a : ℝ) : EReal) := by
    intro t ht l a
    obtain ⟨hx, _⟩ := pos_spec hfin hdom ⟨t * 640 + l, by omega⟩ a
    show X t a l * ((63 : ℝ) : EReal) = (((x (ix2 ⟨t * 640 + l, _⟩ a)).toReal * 63 : ℝ) : EReal)
    rw [hX t ht l a, EReal.coe_mul, ← hx]
  have hG : ∀ i j k : Fin 64, (fun (i j k : Fin 64) => Gm ⟨i * 64 + j, by omega⟩ k) i j k
      = ((gridR g i j k : ℝ) : EReal) := by
    intro i j k
    obtain ⟨r, hr⟩ := hg (ix3 i j k)
    show Gm ⟨i * 64 + j, _⟩ k = (((g (ix3 i j k)).toReal : ℝ) : EReal)
    rw [hGm i j k, hr, EReal.toReal_coe]
  have key := bridge (pos x) (gridR g) (1 / 2) _ ofBits_half _ _ hP hG acc T hT h0 hs
  refine ⟨key, ?_⟩
  rw [val_main_v293_at hfin hdom hg i]
  exact key

end Cert.DistMeet
-- ==== Proof.LibAccFold.lean ====
/-
  GENERAL LEMMA (no program, no shape: Mathlib's extended reals only). A running sum as a total sequence. The accumulator a region keeps is known only at its grid points n < N, where it
  starts from z + T 0 and gains T (n + 1) at each step; the sequence defined by those two equations on all of ℕ agrees
  with it at every grid point, so facts proved about the total sequence (its closed sum) transfer.
-/
import Mathlib.Data.EReal.Basic

namespace Cert.AccFold

/-- The sequence with first term `z + T 0` and increments `T (n + 1)`. -/
noncomputable def accOf (z : EReal) (T : ℕ → EReal) : ℕ → EReal
  | 0 => z + T 0
  | n + 1 => accOf z T n + T (n + 1)

@[simp] theorem accOf_zero (z : EReal) (T : ℕ → EReal) : accOf z T 0 = z + T 0 := rfl
@[simp] theorem accOf_succ (z : EReal) (T : ℕ → EReal) (n : ℕ) : accOf z T (n + 1) = accOf z T n + T (n + 1) := rfl

/-- A family given at the points below `N` that starts and steps the same way is the total sequence there. -/
theorem eq_accOf {N : ℕ} (a : (n : ℕ) → n < N → EReal) (z : EReal) (T : ℕ → EReal)
    (h0 : ∀ h : 0 < N, a 0 h = z + T 0)
    (hs : ∀ (n : ℕ) (h : n + 1 < N), a (n + 1) h = a n (Nat.lt_of_succ_lt h) + T (n + 1)) :
    ∀ (n : ℕ) (h : n < N), a n h = accOf z T n := by
  intro n
  induction n with
  | zero => intro h; exact h0 h
  | succ n ih => intro h; rw [hs n h, ih (Nat.lt_of_succ_lt h)]; rfl

end Cert.AccFold
-- ==== Proof.KI.DistHalf.lean ====
/-
  The distance-field region's scalar, in terms of @main's arguments. After its 3125 grid points the region's 1×1 output
  holds the running sum 0 + T 0 + … + T 3124, where T t is one half of the sum over tile t's 640 vertices of the
  squared hat-weighted sample of the grid at the vertex; a block entry is an entry of the transposed vertex array or of
  the grid laid out as a matrix, i.e. of the argument arrays; so the running sum is the reference's distance-field loss.
-/
import proofs.«152542_j63075889709151_1_alg».proof.Proof.KI.R0Value
import proofs.«152542_j63075889709151_1_alg».proof.Proof.KI.Glue0
import proofs.«152542_j63075889709151_1_alg».proof.Proof.DistMeet
import proofs.«152542_j63075889709151_1_alg».proof.Proof.LibAccFold

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.AccFold Cert.DistBridge Cert.DistMeet

/-- The reset payload at its one index is zero. -/
theorem k0_pay2_at : k0_pay2 (F := Ideal) (ix2 0 0) = 0 := by
  unfold k0_pay2
  rw [shapeCast_self]
  exact Ideal.ofBits_zero_f32

/-- A vertex's hat-weighted sample of the grid, from a vertex block and the grid block (the tile's per-lane value). -/
def dvBlk (x0 : Vec Ideal S3x640 .f32) (x1 : Vec Ideal S4096x64 .bf16) (l : Fin 640) : EReal :=
  ∑ i : Fin 64, hatE (x0 (ix2 0 l) * ((63 : ℝ) : EReal)) i * ∑ j : Fin 64, hatE (x0 (ix2 1 l) * ((63 : ℝ) : EReal)) j *
    ∑ k : Fin 64, x1 (ix2 (⟨i * 64 + j, by omega⟩ : Fin 4096) k) * hatE (x0 (ix2 2 l) * ((63 : ℝ) : EReal)) k

/-- What one grid point does to the accumulator, as a statement about the body's composed payloads. -/
def TileLaw : Prop :=
  ∀ (x0 : Vec Ideal S3x640 .f32) (x1 : Vec Ideal S4096x64 .bf16) (acc : Vec Ideal S1x1 .f32),
    step0 (F := Ideal) x0 x1 acc (ix2 0 0)
      = acc (ix2 0 0) + Ideal.ofBits .f32 0x3F000000#32 * ∑ l : Fin 640, dvBlk x0 x1 l * dvBlk x0 x1 l

variable (m : (ℓ : Loc nD τ sig) → Buf (Elt Ideal) ℓ) (ρ : Dev nD → PrngReg) (c : Dev nD)

/-- The vertex array and the grid on core `c`. -/
abbrev xDist : (⟨Cert.ReferenceIdeal.S2000000x3, .f32⟩ : BufTy).Contents (Elt Ideal) := m ((c : Thread nD τ).loc main_arg0)
abbrev gDist : (⟨Cert.ReferenceIdeal.S64x64x64, .f32⟩ : BufTy).Contents (Elt Ideal) := m ((c : Thread nD τ).loc main_arg3)

theorem N0_pos : 0 < cfg0.N := by rw [show cfg0.N = 3125 from N_0]; decide
theorem lt0_3124 : 3124 < cfg0.N := by rw [show cfg0.N = 3125 from N_0]; decide

/-- The vertex blocks as a total function of the point's number, and the grid block (the same at every point). -/
def X0 (t : ℕ) (a : Fin 3) (l : Fin 640) : EReal := if h : t < cfg0.N then iblk0 (F := Ideal) (E1 m ρ) c 0 ⟨t, h⟩ (ix2 a l) else 0
def Gm0 (r : Fin 4096) (k : Fin 64) : EReal := iblk0 (F := Ideal) (E1 m ρ) c 1 ⟨0, N0_pos⟩ (ix2 r k)
/-- Tile `t`'s term. -/
def TT0 (t : ℕ) : EReal :=
  Ideal.ofBits .f32 0x3F000000#32 * ∑ l : Fin 640, dvK (X0 m ρ c) (Gm0 m ρ c) t l * dvK (X0 m ρ c) (Gm0 m ρ c) t l

/-- The per-lane value of the blocks at point `t` is `dvK` of the total families. -/
theorem dvBlk_eq (t : Fin cfg0.N) (l : Fin 640) :
    dvBlk (iblk0 (F := Ideal) (E1 m ρ) c 0 t) (iblk0 (F := Ideal) (E1 m ρ) c 1 t) l = dvK (X0 m ρ c) (Gm0 m ρ c) t.val l := by
  unfold dvBlk dvK X0 Gm0
  simp only [dif_pos t.isLt, Fin.eta, iblk0_1_apply]

/-- One grid point adds its tile's term. -/
theorem step0_at (hlaw : TileLaw) (t : Fin cfg0.N) (acc : Vec Ideal S1x1 .f32) :
    step0 (F := Ideal) (iblk0 (E1 m ρ) c 0 t) (iblk0 (E1 m ρ) c 1 t) acc (ix2 0 0) = acc (ix2 0 0) + TT0 m ρ c t.val := by
  rw [hlaw]
  unfold TT0
  simp only [dvBlk_eq]

/-- THE DISTANCE HALF: what the distance-field region returns is the reference's reduced distance-field loss. -/
theorem dist_scalar [Cert.ReferenceIdeal.Facts] (hlaw : TileLaw)
    (hfin : ∀ i, ∃ r : ℝ, xDist m c i = (r : EReal)) (hdom : ∀ i (r : ℝ), xDist m c i = (r : EReal) → 0 ≤ r ∧ r < 1)
    (hg : ∀ i, ∃ r : ℝ, gDist m c i = (r : EReal)) (i : Cert.ReferenceIdeal.S_.Idx) :
    (outsAt0 (F := Ideal) (E1 m ρ) c 3124 lt0_3124).1 (ix2 0 0)
      = Cert.ReferenceIdeal.ReadP.val_main_v293 (F := Ideal) (xDist m c) (gDist m c) i := by
  have hN : cfg0.N = 3125 := N_0
  rw [outsAt0_fst_eq_snd]
  have hacc := eq_accOf (N := cfg0.N) (fun n h => (outsAt0 (F := Ideal) (E1 m ρ) c n h).2 (ix2 0 0)) 0 (TT0 m ρ c)
    (fun h => by rw [outsAt0_zero]; show step0 (F := Ideal) _ _ _ (ix2 0 0) = _; rw [step0_at m ρ c hlaw ⟨0, h⟩, k0_pay2_at])
    (fun n h => by rw [outsAt0_succ]; show step0 (F := Ideal) _ _ _ (ix2 0 0) = _; rw [step0_at m ρ c hlaw ⟨n + 1, h⟩])
    3124 lt0_3124
  refine hacc.trans ?_
  refine (acc_eq_reference (x := xDist m c) (g := gDist m c) hfin hdom hg (X0 m ρ c) (Gm0 m ρ c) ?_ ?_
    (accOf 0 (TT0 m ρ c)) (TT0 m ρ c) (fun _ _ => rfl) rfl (fun _ => rfl) i).2
  · intro t ht l a
    have h : t < cfg0.N := by rw [hN]; exact ht
    unfold X0
    rw [dif_pos h]
    exact vblock_arg m ρ c ⟨t, h⟩ a l
  · intro i j k
    exact gblock_arg m ρ c ⟨0, N0_pos⟩ i j k

end Cert.KernelIdeal.Hand

end
-- ==== Proof.KI.Tile0.lean ====
/- One grid point of the distance-field kernel, at the ideal values: the value its last store writes.
   Per lane `l` (one vertex) the kernel scales the three coordinates by 63, builds the hat weights
   `max (1 - |g - p|) 0` of the second and third axes at the 64 grid lines `g`, contracts the third axis by one matrix
   product of the 4096 x 64 grid matrix with the third axis's weights, and then, for each of the 64 grid lines of the first
   axis in turn, adds that line's weight times the second-axis weighted sum of the line's band of 64 rows of the product;
   the tile's term is one half of the sum over the 640 lanes of the squares, added to the running accumulator.
   Here: every pure stage read at one lane as an expression of extended reals (`pay…_lane`), the stages composed in the
   order the program threads them (`C_…_lane`: after the iterations done so far the per-lane value is the left-nested
   sum `((0 + T₀) + T₁) + …` of the iterations' terms), the 64 grid-line literals as the numbers they denote (`lit…`), and
   the whole (`outV_eq`, `tile_value`): the stored value is the accumulator plus one half of `∑ l, dv l * dv l`, with
   `dv l` the three-axis sum `∑ i, hat (63 x) i * ∑ j, hat (63 y) j * ∑ k, G (64 i + j) k * hat (63 z) k`. -/
import proofs.«152542_j63075889709151_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«152542_j63075889709151_1_alg».proof.Proof.DistBridge

noncomputable section

namespace Cert.KernelIdeal.Tile0

open Cert.KernelIdeal Cert.KernelIdeal.Gen
open Idealize.ShloMosaic Idealize.ShloMosaic.ValueIdx
open scoped BigOperators

/-! ## Reading the vector operations at an index -/

/-- A 32-bit word read as an f32 literal at the ideal instance. -/
abbrev lw (b : BitVec 32) : EReal := Scalar.ofBits (F := Ideal) .f32 b

/-- The row of the 4096-row matrix that row `j` of the 64-row band starting at `off` is. -/
def rowOff (off : ℕ) (j : Fin 64) : Fin 4096 := ⟨(off + j.val) % 4096, Nat.mod_lt _ (by norm_num)⟩

theorem absf_apply {s : Shape} {φ : FTy} (a : FVec Ideal s φ) (i : s.Idx) : absf a i = max (a i) (-(a i)) := rfl

/-- A band of 64 rows of the 4096-row matrix, read at (j, l), is the matrix at row `off + j`. -/
theorem sliceRead (off : ℕ) (c : FVec Ideal S4096x640 .f32) (h : S4096x640.Slices ![off, 0] S64x640) (j : Fin 64) (l : Fin 640) :
    extractStridedSlice S64x640 ![off, 0] c h (ix2 j l) = c (ix2 (rowOff off j) l) :=
  slice2_axis0_apply off c h j l (rowOff off j) (by
    have h0 : off + 64 ≤ 4096 := h.2 0
    have hj := j.isLt
    show (off + j.val) % 4096 = off + j.val
    exact Nat.mod_eq_of_lt (by omega))

/-- The index a sum over the 64 rows reads at row `k` of lane `l`. -/
theorem liftRead (h : S64x640.Reduces [0] S640) (l : Fin 640) (k : Fin (S64x640.size 0)) :
    h.lift (ix1 l) k = ix2 (n0 := 64) (n1 := 640) k l := by
  funext a; match a with | ⟨0, _⟩ => rfl | ⟨1, _⟩ => rfl

def hatW (one zero g p : EReal) : EReal := max (one - max (g - p) (-(g - p))) zero
def hatA (one zero a : EReal) : EReal := max (one - a) zero
def absD (g p : EReal) : EReal := max (g - p) (-(g - p))
def innerAt (a : FVec Ideal S64x640 .f32) (c : FVec Ideal S4096x640 .f32) (off : ℕ) (l : Fin 640) : EReal :=
  ∑ j : Fin 64, a (ix2 j l) * c (ix2 (rowOff off j) l)
def dotJ (a b : FVec Ideal S64x640 .f32) (l : Fin 640) : EReal := ∑ j : Fin 64, a (ix2 j l) * b (ix2 j l)

/-- The sum over the 64 rows, read at lane l. -/
theorem redRead (m : FVec Ideal S64x640 .f32) (h : S64x640.Reduces [0] S640) (hφ : FTy.f32 = FTy.f32 ∨ FTy.f32 = FTy.bf16)
    (hacc : (0x00000000#32 : BitVec 32) = 0x00000000#32) (l : Fin 640) :
    multiReduction (F := Ideal) .add [0] S640 m 0x00000000#32 h hφ hacc (ix1 l) = ∑ j : Fin 64, m (ix2 j l) := by
  refine (Ideal.multiReduction_add_single m 0x00000000#32 h hφ hacc (ix1 l)).trans ?_
  refine Finset.sum_congr rfl fun j _ => congrArg m ?_
  funext a; match a with | ⟨0, _⟩ => rfl | ⟨1, _⟩ => rfl

/-! ## The first part: coordinates, the two weight tables, the matrix product -/

/-- A column `[a, 1]` broadcast over `b` lanes reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The row counter converted to a float is the row number. -/
theorem pay4_read (j : Fin 64) : k0_pay4 (F := Ideal) (ix2 j (0 : Fin 1)) = (((j.val : ℕ) : ℝ) : EReal) := by
  unfold k0_pay4
  show (((iota .tc S64x1 32 [0] iota_S64x1_d0_w32 (ix2 j (0 : Fin 1))).toInt : ℝ) : EReal) = _
  rw [iota_single_apply]
  show (((BitVec.ofNat 32 j.val).toInt : ℝ) : EReal) = _
  have hj := j.isLt
  have e : (BitVec.ofNat 32 j.val).toInt = (j.val : ℤ) := by
    rw [BitVec.toInt_eq_toNat_cond, BitVec.toNat_ofNat, Nat.mod_eq_of_lt (by omega)]
    split
    · rfl
    · omega
  rw [e, Int.cast_natCast]

theorem pay3_lane (v3 : FVec Ideal S1x640 .f32) (l : Fin 640) :
    k0_pay3 (F := Ideal) v3 (ix2 0 l) = v3 (ix2 0 l) * lw 0x427C0000#32 := by
  unfold k0_pay3
  simp only [shapeCast_self, mulf_apply, broadcast_apply, lw]

theorem pay5_lane (v7 : FVec Ideal S1x640 .f32) (j : Fin 64) (l : Fin 640) :
    k0_pay5 (F := Ideal) v7 (ix2 j l)
      = hatW (lw 0x3F800000#32) (lw 0x00000000#32) (((j.val : ℕ) : ℝ) : EReal) (v7 (ix2 0 l) * lw 0x427C0000#32) := by
  unfold k0_pay5
  simp only [shapeCast_self, mulf_apply, subf_apply, maximumf_apply, absf_apply, broadcast_apply,
    broadcastTo_a1_ab_apply, broadcastTo_1b_ab_apply, pay4_read, hatW, lw]

theorem pay7_lane (l : Fin 640) : k0_pay7 (F := Ideal) (ix2 0 l) = lw 0x00000000#32 := rfl

theorem pay8_lane (v11 : FVec Ideal S1x640 .f32) (v34 : FVec Ideal S4096x64 .bf16) (j : Fin 64) (l : Fin 640) :
    k0_pay8 (F := Ideal) v11 v34 (ix2 j l) = k0_pay6 (F := Ideal) v11 v34 (ix2 (rowOff 0 j) l) := by
  unfold k0_pay8
  exact sliceRead 0 _ _ j l

/-- The matrix product read at (r, l): the row of the matrix against the third axis's weights. -/
theorem pay6_lane (v11 : FVec Ideal S1x640 .f32) (v34 : FVec Ideal S4096x64 .bf16) (r : Fin 4096) (l : Fin 640) :
    k0_pay6 (F := Ideal) v11 v34 (ix2 r l)
      = ∑ k : Fin 64, v34 (ix2 r k)
          * hatW (lw 0x3F800000#32) (lw 0x00000000#32) (((k.val : ℕ) : ℝ) : EReal) (v11 (ix2 0 l) * lw 0x427C0000#32) := by
  have e : k0_pay6 (F := Ideal) v11 v34
      = FloatOps.matmul dot_S4096x64_S64x640_S4096x640_1_0_0_1_n_n none (shapeCast S4096x64 v34 shapeCasts_S4096x64_S4096x64)
          (truncf .bf16 (k0_pay5 (F := Ideal) v11) bitsLt_bf16_f32) (constant (F := Ideal) S4096x640 .f32 0x00000000#32) := rfl
  rw [e, Ideal.matmul_constant_zero_apply, ← Equiv.sum_comp (contrEquiv1 dot_S4096x64_S64x640_S4096x640_1_0_0_1_n_n 64 rfl rfl).symm]
  refine Finset.sum_congr rfl fun c _ => ?_
  have c2 := contrEquiv1_symm_val dot_S4096x64_S64x640_S4096x640_1_0_0_1_n_n 64 rfl rfl c
  have l2 : (dot_S4096x64_S64x640_S4096x640_1_0_0_1_n_n).lhsIdx (ix2 r l) ((contrEquiv1 dot_S4096x64_S64x640_S4096x640_1_0_0_1_n_n 64 rfl rfl).symm c) = ix2 r c := by
    funext ax; apply Fin.ext
    match ax with
    | ⟨0, _⟩ => simp [DotDims.lhsIdx, dot_S4096x64_S64x640_S4096x640_1_0_0_1_n_n]; rfl
    | ⟨1, _⟩ => simp [DotDims.lhsIdx, dot_S4096x64_S64x640_S4096x640_1_0_0_1_n_n]; exact c2
  have r2 : (dot_S4096x64_S64x640_S4096x640_1_0_0_1_n_n).rhsIdx (ix2 r l) ((contrEquiv1 dot_S4096x64_S64x640_S4096x640_1_0_0_1_n_n 64 rfl rfl).symm c) = ix2 c l := by
    funext ax; apply Fin.ext
    match ax with
    | ⟨0, _⟩ => simp [DotDims.rhsIdx, dot_S4096x64_S64x640_S4096x640_1_0_0_1_n_n]; exact c2
    | ⟨1, _⟩ => simp [DotDims.rhsIdx, dot_S4096x64_S64x640_S4096x640_1_0_0_1_n_n]; rfl
  rw [l2, r2, shapeCast_self, truncf_apply, pay5_lane]

/-! ## The last step: the square, the lane sum, the accumulation -/

theorem liftRead1 (h : S1x640.Reduces [1] S1) (u : Fin 1) (k : Fin (S1x640.size 1)) :
    h.lift (ix1 u) k = ix2 (n0 := 1) (n1 := 640) u k := by
  funext a; match a with | ⟨0, _⟩ => rfl | ⟨1, _⟩ => rfl

/-- The sum over the 640 lanes, read at its one index. -/
theorem redRead1 (m : FVec Ideal S1x640 .f32) (h : S1x640.Reduces [1] S1) (hφ : FTy.f32 = FTy.f32 ∨ FTy.f32 = FTy.bf16)
    (hacc : (0x00000000#32 : BitVec 32) = 0x00000000#32) (u : Fin 1) :
    multiReduction (F := Ideal) .add [1] S1 m 0x00000000#32 h hφ hacc (ix1 u) = ∑ l : Fin 640, m (ix2 u l) := by
  refine (Ideal.multiReduction_add_single m 0x00000000#32 h hφ hacc (ix1 u)).trans ?_
  exact Finset.sum_congr rfl fun k _ => congrArg m (liftRead1 h u k)

theorem pay1_lane (v856 v860 v863 : FVec Ideal S1x640 .f32) (cst_268 : EReal) (v875 : FVec Ideal S1x1 .f32) :
    k0_pay1 (F := Ideal) v856 v860 v863 cst_268 v875 (ix2 0 0)
      = v875 (ix2 0 0) + lw 0x3F000000#32
          * ∑ l : Fin 640, (v856 (ix2 0 l) + hatA cst_268 (lw 0x00000000#32) (v863 (ix2 0 l)) * v860 (ix2 0 l))
              * (v856 (ix2 0 l) + hatA cst_268 (lw 0x00000000#32) (v863 (ix2 0 l)) * v860 (ix2 0 l)) := by
  unfold k0_pay1
  simp only [shapeCast_self, addf_apply, mulf_apply, broadcast_apply, shapeCast_a_1a_apply]
  rw [redRead1]
  simp only [addf_apply, mulf_apply, subf_apply, maximumf_apply, broadcast_apply, hatA, lw]

/-! ## The 64 grid-line literals -/

theorem lw_zero : lw 0x00000000#32 = (0 : EReal) := by simp [lw, Ideal.ofBits, Ideal.ieee]
theorem lw_one : lw 0x3F800000#32 = (1 : EReal) := by
  simp [lw, Ideal.ofBits, Ideal.ieee] <;> norm_cast <;> norm_num
theorem lit0 : lw 0x00000000#32 = (((0 : ℕ) : ℝ) : EReal) := by
  simp [lw, Ideal.ofBits, Ideal.ieee] <;> norm_cast <;> norm_num
theorem lit1 : lw 0x3F800000#32 = (((1 : ℕ) : ℝ) : EReal) := by
  simp [lw, Ideal.ofBits, Ideal.ieee] <;> norm_cast <;> norm_num
theorem lit2 : lw 0x40000000#32 = (((2 : ℕ) : ℝ) : EReal) := by
  simp [lw, Ideal.ofBits, Ideal.ieee] <;> norm_cast <;> norm_num
theorem lit3 : lw 0x40400000#32 = (((3 : ℕ) : ℝ) : EReal) := by
  simp [lw, Ideal.ofBits, Ideal.ieee] <;> norm_cast <;> norm_num
theorem lit4 : lw 0x40800000#32 = (((4 : ℕ) : ℝ) : EReal) := by
  simp [lw, Ideal.ofBits, Ideal.ieee] <;> norm_cast <;> norm_num
theorem lit5 : lw 0x40A00000#32 = (((5 : ℕ) : ℝ) : EReal) := by
  simp [lw, Ideal.ofBits, Ideal.ieee] <;> norm_cast <;> norm_num
theorem lit6 : lw 0x40C00000#32 = (((6 : ℕ) : ℝ) : EReal) := by
  simp [lw, Ideal.ofBits, Ideal.ieee] <;> norm_cast <;> norm_num
theorem lit7 : lw 0x40E00000#32 = (((7 : ℕ) : ℝ) : EReal) := by
  simp [lw, Ideal.ofBits, Ideal.ieee] <;> norm_cast <;> norm_num
theorem lit8 : lw 0x41000000#32 = (((8 : ℕ) : ℝ) : EReal) := by
  simp [lw, Ideal.ofBits, Ideal.ieee] <;> norm_cast <;> norm_num
theorem lit9 : lw 0x41100000#32 = (((9 : ℕ) : ℝ) : EReal) := by
  simp [lw, Ideal.ofBits, Ideal.ieee] <;> norm_cast <;> norm_num
theorem lit10 : lw 0x41200000#32 = (((10 : ℕ) : ℝ) : EReal) := by
  simp [lw, Ideal.ofBits, Ideal.ieee] <;> norm_cast <;> norm_num
theorem lit11 : lw 0x41300000#32 = (((11 : ℕ) : ℝ) : EReal) := by
  simp [lw, Ideal.ofBits, Ideal.ieee] <;> norm_cast <;> norm_num
theorem lit12 : lw 0x41400000#32 = (((12 : ℕ) : ℝ) : EReal) := by
  simp [lw, Ideal.ofBits, Ideal.ieee] <;> norm_cast <;> norm_num
theorem lit13 : lw 0x41500000#32 = (((13 : ℕ) : ℝ) : EReal) := by
  simp [lw, Ideal.ofBits, Ideal.ieee] <;> norm_cast <;> norm_num
theorem lit14 : lw 0x41600000#32 = (((14 : ℕ) : ℝ) : EReal) := by
  simp [lw, Ideal.ofBits, Ideal.ieee] <;> norm_cast <;> norm_num
theorem lit15 : lw 0x41700000#32 = (((15 : ℕ) : ℝ) : EReal) := by
  simp [lw, Ideal.ofBits, Ideal.ieee] <;> norm_cast <;> norm_num
theorem lit16 : lw 0x41800000#32 = (((16 : ℕ) : ℝ) : EReal) := by
  simp [lw, Ideal.ofBits, Ideal.ieee] <;> norm_cast <;> norm_num
theorem lit17 : lw 0x41880000#32 = (((17 : ℕ) : ℝ) : EReal) := by
  simp [lw, Ideal.ofBits, Ideal.ieee] <;> norm_cast <;> norm_num
theorem lit18 : lw 0x41900000#32 = (((18 : ℕ) : ℝ) : EReal) := by
  simp [lw, Ideal.ofBits, Ideal.ieee] <;> norm_cast <;> norm_num
theorem lit19 : lw 0x41980000#32 = (((19 : ℕ) : ℝ) : EReal) := by
  simp [lw, Ideal.ofBits, Ideal.ieee] <;> norm_cast <;> norm_num
theorem lit20 : lw 0x41A00000#32 = (((20 : ℕ) : ℝ) : EReal) := by
  simp [lw, Ideal.ofBits, Ideal.ieee] <;> norm_cast <;> norm_num
theorem lit21 : lw 0x41A80000#32 = (((21 : ℕ) : ℝ) : EReal) := by
  simp [lw, Ideal.ofBits, Ideal.ieee] <;> norm_cast <;> norm_num
theorem lit22 : lw 0x41B00000#32 = (((22 : ℕ) : ℝ) : EReal) := by
  simp [lw, Ideal.ofBits, Ideal.ieee] <;> norm_cast <;> norm_num
theorem lit23 : lw 0x41B80000#32 = (((23 : ℕ) : ℝ) : EReal) := by
  simp [lw, Ideal.ofBits, Ideal.ieee] <;> norm_cast <;> norm_num
theorem lit24 : lw 0x41C00000#32 = (((24 : ℕ) : ℝ) : EReal) := by
  simp [lw, Ideal.ofBits, Ideal.ieee] <;> norm_cast <;> norm_num
theorem lit25 : lw 0x41C80000#32 = (((25 : ℕ) : ℝ) : EReal) := by
  simp [lw, Ideal.ofBits, Ideal.ieee] <;> norm_cast <;> norm_num
theorem lit26 : lw 0x41D00000#32 = (((26 : ℕ) : ℝ) : EReal) := by
  simp [lw, Ideal.ofBits, Ideal.ieee] <;> norm_cast <;> norm_num
theorem lit27 : lw 0x41D80000#32 = (((27 : ℕ) : ℝ) : EReal) := by
  simp [lw, Ideal.ofBits, Ideal.ieee] <;> norm_cast <;> norm_num
theorem lit28 : lw 0x41E00000#32 = (((28 : ℕ) : ℝ) : EReal) := by
  simp [lw, Ideal.ofBits, Ideal.ieee] <;> norm_cast <;> norm_num
theorem lit29 : lw 0x41E80000#32 = (((29 : ℕ) : ℝ) : EReal) := by
  simp [lw, Ideal.ofBits, Ideal.ieee] <;> norm_cast <;> norm_num
theorem lit30 : lw 0x41F00000#32 = (((30 : ℕ) : ℝ) : EReal) := by
  simp [lw, Ideal.ofBits, Ideal.ieee] <;> norm_cast <;> norm_num
theorem lit31 : lw 0x41F80000#32 = (((31 : ℕ) : ℝ) : EReal) := by
  simp [lw, Ideal.ofBits, Ideal.ieee] <;> norm_cast <;> norm_num
theorem lit32 : lw 0x42000000#32 = (((32 : ℕ) : ℝ) : EReal) := by
  simp [lw, Ideal.ofBits, Ideal.ieee] <;> norm_cast <;> norm_num
theorem lit33 : lw 0x42040000#32 = (((33 : ℕ) : ℝ) : EReal) := by
  simp [lw, Ideal.ofBits, Ideal.ieee] <;> norm_cast <;> norm_num
theorem lit34 : lw 0x42080000#32 = (((34 : ℕ) : ℝ) : EReal) := by
  simp [lw, Ideal.ofBits, Ideal.ieee] <;> norm_cast <;> norm_num
theorem lit35 : lw 0x420C0000#32 = (((35 : ℕ) : ℝ) : EReal) := by
  simp [lw, Ideal.ofBits, Ideal.ieee] <;> norm_cast <;> norm_num
theorem lit36 : lw 0x42100000#32 = (((36 : ℕ) : ℝ) : EReal) := by
  simp [lw, Ideal.ofBits, Ideal.ieee] <;> norm_cast <;> norm_num
theorem lit37 : lw 0x42140000#32 = (((37 : ℕ) : ℝ) : EReal) := by
  simp [lw, Ideal.ofBits, Ideal.ieee] <;> norm_cast <;> norm_num
theorem lit38 : lw 0x42180000#32 = (((38 : ℕ) : ℝ) : EReal) := by
  simp [lw, Ideal.ofBits, Ideal.ieee] <;> norm_cast <;> norm_num
theorem lit39 : lw 0x421C0000#32 = (((39 : ℕ) : ℝ) : EReal) := by
  simp [lw, Ideal.ofBits, Ideal.ieee] <;> norm_cast <;> norm_num
theorem lit40 : lw 0x42200000#32 = (((40 : ℕ) : ℝ) : EReal) := by
  simp [lw, Ideal.ofBits, Ideal.ieee] <;> norm_cast <;> norm_num
theorem lit41 : lw 0x42240000#32 = (((41 : ℕ) : ℝ) : EReal) := by
  simp [lw, Ideal.ofBits, Ideal.ieee] <;> norm_cast <;> norm_num
theorem lit42 : lw 0x42280000#32 = (((42 : ℕ) : ℝ) : EReal) := by
  simp [lw, Ideal.ofBits, Ideal.ieee] <;> norm_cast <;> norm_num
theorem lit43 : lw 0x422C0000#32 = (((43 : ℕ) : ℝ) : EReal) := by
  simp [lw, Ideal.ofBits, Ideal.ieee] <;> norm_cast <;> norm_num
theorem lit44 : lw 0x42300000#32 = (((44 : ℕ) : ℝ) : EReal) := by
  simp [lw, Ideal.ofBits, Ideal.ieee] <;> norm_cast <;> norm_num
theorem lit45 : lw 0x42340000#32 = (((45 : ℕ) : ℝ) : EReal) := by
  simp [lw, Ideal.ofBits, Ideal.ieee] <;> norm_cast <;> norm_num
theorem lit46 : lw 0x42380000#32 = (((46 : ℕ) : ℝ) : EReal) := by
  simp [lw, Ideal.ofBits, Ideal.ieee] <;> norm_cast <;> norm_num
theorem lit47 : lw 0x423C0000#32 = (((47 : ℕ) : ℝ) : EReal) := by
  simp [lw, Ideal.ofBits, Ideal.ieee] <;> norm_cast <;> norm_num
theorem lit48 : lw 0x42400000#32 = (((48 : ℕ) : ℝ) : EReal) := by
  simp [lw, Ideal.ofBits, Ideal.ieee] <;> norm_cast <;> norm_num
theorem lit49 : lw 0x42440000#32 = (((49 : ℕ) : ℝ) : EReal) := by
  simp [lw, Ideal.ofBits, Ideal.ieee] <;> norm_cast <;> norm_num
theorem lit50 : lw 0x42480000#32 = (((50 : ℕ) : ℝ) : EReal) := by
  simp [lw, Ideal.ofBits, Ideal.ieee] <;> norm_cast <;> norm_num
theorem lit51 : lw 0x424C0000#32 = (((51 : ℕ) : ℝ) : EReal) := by
  simp [lw, Ideal.ofBits, Ideal.ieee] <;> norm_cast <;> norm_num
theorem lit52 : lw 0x42500000#32 = (((52 : ℕ) : ℝ) : EReal) := by
  simp [lw, Ideal.ofBits, Ideal.ieee] <;> norm_cast <;> norm_num
theorem lit53 : lw 0x42540000#32 = (((53 : ℕ) : ℝ) : EReal) := by
  simp [lw, Ideal.ofBits, Ideal.ieee] <;> norm_cast <;> norm_num
theorem lit54 : lw 0x42580000#32 = (((54 : ℕ) : ℝ) : EReal) := by
  simp [lw, Ideal.ofBits, Ideal.ieee] <;> norm_cast <;> norm_num
theorem lit55 : lw 0x425C0000#32 = (((55 : ℕ) : ℝ) : EReal) := by
  simp [lw, Ideal.ofBits, Ideal.ieee] <;> norm_cast <;> norm_num
theorem lit56 : lw 0x42600000#32 = (((56 : ℕ) : ℝ) : EReal) := by
  simp [lw, Ideal.ofBits, Ideal.ieee] <;> norm_cast <;> norm_num
theorem lit57 : lw 0x42640000#32 = (((57 : ℕ) : ℝ) : EReal) := by
  simp [lw, Ideal.ofBits, Ideal.ieee] <;> norm_cast <;> norm_num
theorem lit58 : lw 0x42680000#32 = (((58 : ℕ) : ℝ) : EReal) := by
  simp [lw, Ideal.ofBits, Ideal.ieee] <;> norm_cast <;> norm_num
theorem lit59 : lw 0x426C0000#32 = (((59 : ℕ) : ℝ) : EReal) := by
  simp [lw, Ideal.ofBits, Ideal.ieee] <;> norm_cast <;> norm_num
theorem lit60 : lw 0x42700000#32 = (((60 : ℕ) : ℝ) : EReal) := by
  simp [lw, Ideal.ofBits, Ideal.ieee] <;> norm_cast <;> norm_num
theorem lit61 : lw 0x42740000#32 = (((61 : ℕ) : ℝ) : EReal) := by
  simp [lw, Ideal.ofBits, Ideal.ieee] <;> norm_cast <;> norm_num
theorem lit62 : lw 0x42780000#32 = (((62 : ℕ) : ℝ) : EReal) := by
  simp [lw, Ideal.ofBits, Ideal.ieee] <;> norm_cast <;> norm_num
theorem lit63 : lw 0x427C0000#32 = (((63 : ℕ) : ℝ) : EReal) := by
  simp [lw, Ideal.ofBits, Ideal.ieee] <;> norm_cast <;> norm_num

/-! ## Each later payload read at a lane, over its own parameters -/

theorem pay9_lane (v6 : FVec Ideal S1x640 .f32) (v24 : FVec Ideal S64x640 .f32) (v36 : FVec Ideal S4096x640 .f32) (v37 : FVec Ideal S1x640 .f32) (v38 : FVec Ideal S64x640 .f32) (l : Fin 640) :
    k0_pay9 (F := Ideal) v6 v24 v36 v37 v38 (ix2 0 l) =
      (((v37 (ix2 0 l)) + ((hatW (lw 0x3F800000#32) (lw 0x00000000#32) (lw 0x00000000#32) (v6 (ix2 0 l))) * (dotJ v24 v38 l))) + ((hatW (lw 0x3F800000#32) (lw 0x00000000#32) (lw 0x3F800000#32) (v6 (ix2 0 l))) * (innerAt v24 v36 64 l))) + ((hatW (lw 0x3F800000#32) (lw 0x00000000#32) (lw 0x40000000#32) (v6 (ix2 0 l))) * (innerAt v24 v36 128 l)) := by
  unfold k0_pay9
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay10_lane (v24 : FVec Ideal S64x640 .f32) (v36 : FVec Ideal S4096x640 .f32) (l : Fin 640) :
    k0_pay10 (F := Ideal) v24 v36 (ix2 0 l) =
      innerAt v24 v36 192 l := by
  unfold k0_pay10
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay11_lane (v6 : FVec Ideal S1x640 .f32) (l : Fin 640) :
    k0_pay11 (F := Ideal) v6 (ix2 0 l) =
      absD (lw 0x40400000#32) (v6 (ix2 0 l)) := by
  unfold k0_pay11
  try simp only [addf_apply, mulf_apply, subf_apply, maximumf_apply, absf_apply, broadcast_apply, shapeCast_a_1a_apply]
  try simp only [mulf_apply, sliceRead, hatW, hatA, absD, innerAt, dotJ, lw]
  first | done | rfl

theorem pay12_lane (v6 : FVec Ideal S1x640 .f32) (v24 : FVec Ideal S64x640 .f32) (v36 : FVec Ideal S4096x640 .f32) (v76 : FVec Ideal S1x640 .f32) (v80 : FVec Ideal S1x640 .f32) (v83 : FVec Ideal S1x640 .f32) (cst_28 : EReal) (l : Fin 640) :
    k0_pay12 (F := Ideal) v6 v24 v36 v76 v80 v83 cst_28 (ix2 0 l) =
      ((((v76 (ix2 0 l)) + ((hatA (cst_28) (lw 0x00000000#32) (v83 (ix2 0 l))) * (v80 (ix2 0 l)))) + ((hatW (lw 0x3F800000#32) (lw 0x00000000#32) (lw 0x40800000#32) (v6 (ix2 0 l))) * (innerAt v24 v36 256 l))) + ((hatW (lw 0x3F800000#32) (lw 0x00000000#32) (lw 0x40A00000#32) (v6 (ix2 0 l))) * (innerAt v24 v36 320 l))) + ((hatW (lw 0x3F800000#32) (lw 0x00000000#32) (lw 0x40C00000#32) (v6 (ix2 0 l))) * (innerAt v24 v36 384 l)) := by
  unfold k0_pay12
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay13_lane (v24 : FVec Ideal S64x640 .f32) (v36 : FVec Ideal S4096x640 .f32) (j : Fin 64) (l : Fin 640) :
    k0_pay13 (F := Ideal) v24 v36 (ix2 j l) =
      (v24 (ix2 j l)) * (v36 (ix2 (rowOff 448 j) l)) := by
  unfold k0_pay13
  try simp only [addf_apply, mulf_apply, subf_apply, maximumf_apply, absf_apply, broadcast_apply, shapeCast_a_1a_apply]
  try simp only [mulf_apply, sliceRead, hatW, hatA, absD, innerAt, dotJ, lw]
  first | done | rfl

theorem pay14_lane (v6 : FVec Ideal S1x640 .f32) (v24 : FVec Ideal S64x640 .f32) (v36 : FVec Ideal S4096x640 .f32) (v128 : FVec Ideal S1x640 .f32) (v130 : FVec Ideal S64x640 .f32) (l : Fin 640) :
    k0_pay14 (F := Ideal) v6 v24 v36 v128 v130 (ix2 0 l) =
      (((v128 (ix2 0 l)) + ((hatW (lw 0x3F800000#32) (lw 0x00000000#32) (lw 0x40E00000#32) (v6 (ix2 0 l))) * (∑ j : Fin 64, v130 (ix2 j l)))) + ((hatW (lw 0x3F800000#32) (lw 0x00000000#32) (lw 0x41000000#32) (v6 (ix2 0 l))) * (innerAt v24 v36 512 l))) + ((hatW (lw 0x3F800000#32) (lw 0x00000000#32) (lw 0x41100000#32) (v6 (ix2 0 l))) * (innerAt v24 v36 576 l)) := by
  unfold k0_pay14
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay15_lane (v24 : FVec Ideal S64x640 .f32) (v36 : FVec Ideal S4096x640 .f32) (l : Fin 640) :
    k0_pay15 (F := Ideal) v24 v36 (ix2 0 l) =
      innerAt v24 v36 640 l := by
  unfold k0_pay15
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay16_lane (v6 : FVec Ideal S1x640 .f32) (l : Fin 640) :
    k0_pay16 (F := Ideal) v6 (ix2 0 l) =
      absD (lw 0x41200000#32) (v6 (ix2 0 l)) := by
  unfold k0_pay16
  try simp only [addf_apply, mulf_apply, subf_apply, maximumf_apply, absf_apply, broadcast_apply, shapeCast_a_1a_apply]
  try simp only [mulf_apply, sliceRead, hatW, hatA, absD, innerAt, dotJ, lw]
  first | done | rfl

theorem pay17_lane  (l : Fin 640) :
    k0_pay17 (F := Ideal)  (ix2 0 l) =
      lw 0x3F800000#32 := by
  unfold k0_pay17
  try simp only [addf_apply, mulf_apply, subf_apply, maximumf_apply, absf_apply, broadcast_apply, shapeCast_a_1a_apply]
  try simp only [mulf_apply, sliceRead, hatW, hatA, absD, innerAt, dotJ, lw]
  first | done | rfl

theorem pay18_lane (v6 : FVec Ideal S1x640 .f32) (v24 : FVec Ideal S64x640 .f32) (v36 : FVec Ideal S4096x640 .f32) (v167 : FVec Ideal S1x640 .f32) (v171 : FVec Ideal S1x640 .f32) (v174 : FVec Ideal S1x640 .f32) (v175 : FVec Ideal S1x640 .f32) (l : Fin 640) :
    k0_pay18 (F := Ideal) v6 v24 v36 v167 v171 v174 v175 (ix2 0 l) =
      ((((v167 (ix2 0 l)) + ((hatA (v175 (ix2 0 l)) (lw 0x00000000#32) (v174 (ix2 0 l))) * (v171 (ix2 0 l)))) + ((hatW (lw 0x3F800000#32) (lw 0x00000000#32) (lw 0x41300000#32) (v6 (ix2 0 l))) * (innerAt v24 v36 704 l))) + ((hatW (lw 0x3F800000#32) (lw 0x00000000#32) (lw 0x41400000#32) (v6 (ix2 0 l))) * (innerAt v24 v36 768 l))) + ((hatW (lw 0x3F800000#32) (lw 0x00000000#32) (lw 0x41500000#32) (v6 (ix2 0 l))) * (innerAt v24 v36 832 l)) := by
  unfold k0_pay18
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay19_lane (v24 : FVec Ideal S64x640 .f32) (v36 : FVec Ideal S4096x640 .f32) (j : Fin 64) (l : Fin 640) :
    k0_pay19 (F := Ideal) v24 v36 (ix2 j l) =
      (v24 (ix2 j l)) * (v36 (ix2 (rowOff 896 j) l)) := by
  unfold k0_pay19
  try simp only [addf_apply, mulf_apply, subf_apply, maximumf_apply, absf_apply, broadcast_apply, shapeCast_a_1a_apply]
  try simp only [mulf_apply, sliceRead, hatW, hatA, absD, innerAt, dotJ, lw]
  first | done | rfl

theorem pay20_lane (v6 : FVec Ideal S1x640 .f32) (v24 : FVec Ideal S64x640 .f32) (v36 : FVec Ideal S4096x640 .f32) (v219 : FVec Ideal S1x640 .f32) (v221 : FVec Ideal S64x640 .f32) (l : Fin 640) :
    k0_pay20 (F := Ideal) v6 v24 v36 v219 v221 (ix2 0 l) =
      (((v219 (ix2 0 l)) + ((hatW (lw 0x3F800000#32) (lw 0x00000000#32) (lw 0x41600000#32) (v6 (ix2 0 l))) * (∑ j : Fin 64, v221 (ix2 j l)))) + ((hatW (lw 0x3F800000#32) (lw 0x00000000#32) (lw 0x41700000#32) (v6 (ix2 0 l))) * (innerAt v24 v36 960 l))) + ((hatW (lw 0x3F800000#32) (lw 0x00000000#32) (lw 0x41800000#32) (v6 (ix2 0 l))) * (innerAt v24 v36 1024 l)) := by
  unfold k0_pay20
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay21_lane (v24 : FVec Ideal S64x640 .f32) (v36 : FVec Ideal S4096x640 .f32) (l : Fin 640) :
    k0_pay21 (F := Ideal) v24 v36 (ix2 0 l) =
      innerAt v24 v36 1088 l := by
  unfold k0_pay21
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay22_lane (v6 : FVec Ideal S1x640 .f32) (l : Fin 640) :
    k0_pay22 (F := Ideal) v6 (ix2 0 l) =
      (lw 0x3F800000#32) - (absD (lw 0x41880000#32) (v6 (ix2 0 l))) := by
  unfold k0_pay22
  try simp only [addf_apply, mulf_apply, subf_apply, maximumf_apply, absf_apply, broadcast_apply, shapeCast_a_1a_apply]
  try simp only [mulf_apply, sliceRead, hatW, hatA, absD, innerAt, dotJ, lw]
  first | done | rfl

theorem pay23_lane (v6 : FVec Ideal S1x640 .f32) (v24 : FVec Ideal S64x640 .f32) (v36 : FVec Ideal S4096x640 .f32) (v258 : FVec Ideal S1x640 .f32) (v262 : FVec Ideal S1x640 .f32) (v267 : FVec Ideal S1x640 .f32) (l : Fin 640) :
    k0_pay23 (F := Ideal) v6 v24 v36 v258 v262 v267 (ix2 0 l) =
      ((((v258 (ix2 0 l)) + ((max (v267 (ix2 0 l)) (lw 0x00000000#32)) * (v262 (ix2 0 l)))) + ((hatW (lw 0x3F800000#32) (lw 0x00000000#32) (lw 0x41900000#32) (v6 (ix2 0 l))) * (innerAt v24 v36 1152 l))) + ((hatW (lw 0x3F800000#32) (lw 0x00000000#32) (lw 0x41980000#32) (v6 (ix2 0 l))) * (innerAt v24 v36 1216 l))) + ((hatW (lw 0x3F800000#32) (lw 0x00000000#32) (lw 0x41A00000#32) (v6 (ix2 0 l))) * (innerAt v24 v36 1280 l)) := by
  unfold k0_pay23
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay24_lane (v24 : FVec Ideal S64x640 .f32) (v36 : FVec Ideal S4096x640 .f32) (l : Fin 640) :
    k0_pay24 (F := Ideal) v24 v36 (ix1 l) =
      innerAt v24 v36 1344 l := by
  unfold k0_pay24
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay25_lane (v6 : FVec Ideal S1x640 .f32) (v24 : FVec Ideal S64x640 .f32) (v36 : FVec Ideal S4096x640 .f32) (v310 : FVec Ideal S1x640 .f32) (v313 : FVec Ideal S640 .f32) (l : Fin 640) :
    k0_pay25 (F := Ideal) v6 v24 v36 v310 v313 (ix2 0 l) =
      (((v310 (ix2 0 l)) + ((hatW (lw 0x3F800000#32) (lw 0x00000000#32) (lw 0x41A80000#32) (v6 (ix2 0 l))) * (v313 (ix1 l)))) + ((hatW (lw 0x3F800000#32) (lw 0x00000000#32) (lw 0x41B00000#32) (v6 (ix2 0 l))) * (innerAt v24 v36 1408 l))) + ((hatW (lw 0x3F800000#32) (lw 0x00000000#32) (lw 0x41B80000#32) (v6 (ix2 0 l))) * (innerAt v24 v36 1472 l)) := by
  unfold k0_pay25
  try simp only [addf_apply, mulf_apply, subf_apply, maximumf_apply, absf_apply, broadcast_apply, shapeCast_a_1a_apply]
  rw [redRead, redRead]
  try simp only [mulf_apply, sliceRead, hatW, hatA, absD, innerAt, dotJ, lw]
  first | done | rfl

theorem pay26_lane (v24 : FVec Ideal S64x640 .f32) (v36 : FVec Ideal S4096x640 .f32) (l : Fin 640) :
    k0_pay26 (F := Ideal) v24 v36 (ix2 0 l) =
      innerAt v24 v36 1536 l := by
  unfold k0_pay26
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay27_lane (v6 : FVec Ideal S1x640 .f32) (l : Fin 640) :
    k0_pay27 (F := Ideal) v6 (ix2 0 l) =
      (lw 0x3F800000#32) - (absD (lw 0x41C00000#32) (v6 (ix2 0 l))) := by
  unfold k0_pay27
  try simp only [addf_apply, mulf_apply, subf_apply, maximumf_apply, absf_apply, broadcast_apply, shapeCast_a_1a_apply]
  try simp only [mulf_apply, sliceRead, hatW, hatA, absD, innerAt, dotJ, lw]
  first | done | rfl

theorem pay28_lane (v6 : FVec Ideal S1x640 .f32) (v24 : FVec Ideal S64x640 .f32) (v36 : FVec Ideal S4096x640 .f32) (v349 : FVec Ideal S1x640 .f32) (v353 : FVec Ideal S1x640 .f32) (v358 : FVec Ideal S1x640 .f32) (cst_113 : EReal) (l : Fin 640) :
    k0_pay28 (F := Ideal) v6 v24 v36 v349 v353 v358 cst_113 (ix2 0 l) =
      ((((v349 (ix2 0 l)) + ((max (v358 (ix2 0 l)) (cst_113)) * (v353 (ix2 0 l)))) + ((hatW (lw 0x3F800000#32) (lw 0x00000000#32) (lw 0x41C80000#32) (v6 (ix2 0 l))) * (innerAt v24 v36 1600 l))) + ((hatW (lw 0x3F800000#32) (lw 0x00000000#32) (lw 0x41D00000#32) (v6 (ix2 0 l))) * (innerAt v24 v36 1664 l))) + ((hatW (lw 0x3F800000#32) (lw 0x00000000#32) (lw 0x41D80000#32) (v6 (ix2 0 l))) * (innerAt v24 v36 1728 l)) := by
  unfold k0_pay28
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay29_lane (v24 : FVec Ideal S64x640 .f32) (v36 : FVec Ideal S4096x640 .f32) (l : Fin 640) :
    k0_pay29 (F := Ideal) v24 v36 (ix2 0 l) =
      innerAt v24 v36 1792 l := by
  unfold k0_pay29
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay30_lane (v6 : FVec Ideal S1x640 .f32) (v24 : FVec Ideal S64x640 .f32) (v36 : FVec Ideal S4096x640 .f32) (v401 : FVec Ideal S1x640 .f32) (v405 : FVec Ideal S1x640 .f32) (l : Fin 640) :
    k0_pay30 (F := Ideal) v6 v24 v36 v401 v405 (ix2 0 l) =
      (((v401 (ix2 0 l)) + ((hatW (lw 0x3F800000#32) (lw 0x00000000#32) (lw 0x41E00000#32) (v6 (ix2 0 l))) * (v405 (ix2 0 l)))) + ((hatW (lw 0x3F800000#32) (lw 0x00000000#32) (lw 0x41E80000#32) (v6 (ix2 0 l))) * (innerAt v24 v36 1856 l))) + ((hatW (lw 0x3F800000#32) (lw 0x00000000#32) (lw 0x41F00000#32) (v6 (ix2 0 l))) * (innerAt v24 v36 1920 l)) := by
  unfold k0_pay30
  try simp only [addf_apply, mulf_apply, subf_apply, maximumf_apply, absf_apply, broadcast_apply, shapeCast_a_1a_apply]
  rw [redRead, redRead]
  try simp only [mulf_apply, sliceRead, hatW, hatA, absD, innerAt, dotJ, lw]
  first | done | rfl

theorem pay31_lane (v24 : FVec Ideal S64x640 .f32) (v36 : FVec Ideal S4096x640 .f32) (l : Fin 640) :
    k0_pay31 (F := Ideal) v24 v36 (ix2 0 l) =
      innerAt v24 v36 1984 l := by
  unfold k0_pay31
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay32_lane (v6 : FVec Ideal S1x640 .f32) (l : Fin 640) :
    k0_pay32 (F := Ideal) v6 (ix2 0 l) =
      (lw 0x3F800000#32) - (absD (lw 0x41F80000#32) (v6 (ix2 0 l))) := by
  unfold k0_pay32
  try simp only [addf_apply, mulf_apply, subf_apply, maximumf_apply, absf_apply, broadcast_apply, shapeCast_a_1a_apply]
  try simp only [mulf_apply, sliceRead, hatW, hatA, absD, innerAt, dotJ, lw]
  first | done | rfl

theorem pay33_lane  (l : Fin 640) :
    k0_pay33 (F := Ideal)  (ix2 0 l) =
      lw 0x00000000#32 := by
  unfold k0_pay33
  try simp only [addf_apply, mulf_apply, subf_apply, maximumf_apply, absf_apply, broadcast_apply, shapeCast_a_1a_apply]
  try simp only [mulf_apply, sliceRead, hatW, hatA, absD, innerAt, dotJ, lw]
  first | done | rfl

theorem pay34_lane (v6 : FVec Ideal S1x640 .f32) (v24 : FVec Ideal S64x640 .f32) (v36 : FVec Ideal S4096x640 .f32) (v440 : FVec Ideal S1x640 .f32) (v444 : FVec Ideal S1x640 .f32) (v449 : FVec Ideal S1x640 .f32) (v450 : FVec Ideal S1x640 .f32) (l : Fin 640) :
    k0_pay34 (F := Ideal) v6 v24 v36 v440 v444 v449 v450 (ix2 0 l) =
      ((((v440 (ix2 0 l)) + ((max (v449 (ix2 0 l)) (v450 (ix2 0 l))) * (v444 (ix2 0 l)))) + ((hatW (lw 0x3F800000#32) (lw 0x00000000#32) (lw 0x42000000#32) (v6 (ix2 0 l))) * (innerAt v24 v36 2048 l))) + ((hatW (lw 0x3F800000#32) (lw 0x00000000#32) (lw 0x42040000#32) (v6 (ix2 0 l))) * (innerAt v24 v36 2112 l))) + ((hatW (lw 0x3F800000#32) (lw 0x00000000#32) (lw 0x42080000#32) (v6 (ix2 0 l))) * (innerAt v24 v36 2176 l)) := by
  unfold k0_pay34
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay35_lane (v24 : FVec Ideal S64x640 .f32) (v36 : FVec Ideal S4096x640 .f32) (l : Fin 640) :
    k0_pay35 (F := Ideal) v24 v36 (ix2 0 l) =
      innerAt v24 v36 2240 l := by
  unfold k0_pay35
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay36_lane (v6 : FVec Ideal S1x640 .f32) (v24 : FVec Ideal S64x640 .f32) (v36 : FVec Ideal S4096x640 .f32) (v492 : FVec Ideal S1x640 .f32) (v496 : FVec Ideal S1x640 .f32) (cst_155 : EReal) (l : Fin 640) :
    k0_pay36 (F := Ideal) v6 v24 v36 v492 v496 cst_155 (ix2 0 l) =
      (((v492 (ix2 0 l)) + ((hatW (lw 0x3F800000#32) (lw 0x00000000#32) (cst_155) (v6 (ix2 0 l))) * (v496 (ix2 0 l)))) + ((hatW (lw 0x3F800000#32) (lw 0x00000000#32) (lw 0x42100000#32) (v6 (ix2 0 l))) * (innerAt v24 v36 2304 l))) + ((hatW (lw 0x3F800000#32) (lw 0x00000000#32) (lw 0x42140000#32) (v6 (ix2 0 l))) * (innerAt v24 v36 2368 l)) := by
  unfold k0_pay36
  try simp only [addf_apply, mulf_apply, subf_apply, maximumf_apply, absf_apply, broadcast_apply, shapeCast_a_1a_apply]
  rw [redRead, redRead]
  try simp only [mulf_apply, sliceRead, hatW, hatA, absD, innerAt, dotJ, lw]
  first | done | rfl

theorem pay37_lane (v24 : FVec Ideal S64x640 .f32) (v36 : FVec Ideal S4096x640 .f32) (l : Fin 640) :
    k0_pay37 (F := Ideal) v24 v36 (ix2 0 l) =
      innerAt v24 v36 2432 l := by
  unfold k0_pay37
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay38_lane (v6 : FVec Ideal S1x640 .f32) (l : Fin 640) :
    k0_pay38 (F := Ideal) v6 (ix2 0 l) =
      hatW (lw 0x3F800000#32) (lw 0x00000000#32) (lw 0x42180000#32) (v6 (ix2 0 l)) := by
  unfold k0_pay38
  try simp only [addf_apply, mulf_apply, subf_apply, maximumf_apply, absf_apply, broadcast_apply, shapeCast_a_1a_apply]
  try simp only [mulf_apply, sliceRead, hatW, hatA, absD, innerAt, dotJ, lw]
  first | done | rfl

theorem pay39_lane (v6 : FVec Ideal S1x640 .f32) (v24 : FVec Ideal S64x640 .f32) (v36 : FVec Ideal S4096x640 .f32) (v531 : FVec Ideal S1x640 .f32) (v535 : FVec Ideal S1x640 .f32) (v542 : FVec Ideal S1x640 .f32) (l : Fin 640) :
    k0_pay39 (F := Ideal) v6 v24 v36 v531 v535 v542 (ix2 0 l) =
      ((((v531 (ix2 0 l)) + ((v542 (ix2 0 l)) * (v535 (ix2 0 l)))) + ((hatW (lw 0x3F800000#32) (lw 0x00000000#32) (lw 0x421C0000#32) (v6 (ix2 0 l))) * (innerAt v24 v36 2496 l))) + ((hatW (lw 0x3F800000#32) (lw 0x00000000#32) (lw 0x42200000#32) (v6 (ix2 0 l))) * (innerAt v24 v36 2560 l))) + ((hatW (lw 0x3F800000#32) (lw 0x00000000#32) (lw 0x42240000#32) (v6 (ix2 0 l))) * (innerAt v24 v36 2624 l)) := by
  unfold k0_pay39
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay40_lane (v24 : FVec Ideal S64x640 .f32) (v36 : FVec Ideal S4096x640 .f32) (l : Fin 640) :
    k0_pay40 (F := Ideal) v24 v36 (ix2 0 l) =
      innerAt v24 v36 2688 l := by
  unfold k0_pay40
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay41_lane  (l : Fin 640) :
    k0_pay41 (F := Ideal)  (ix2 0 l) =
      lw 0x42280000#32 := by
  unfold k0_pay41
  try simp only [addf_apply, mulf_apply, subf_apply, maximumf_apply, absf_apply, broadcast_apply, shapeCast_a_1a_apply]
  try simp only [mulf_apply, sliceRead, hatW, hatA, absD, innerAt, dotJ, lw]
  first | done | rfl

theorem pay42_lane (v6 : FVec Ideal S1x640 .f32) (v24 : FVec Ideal S64x640 .f32) (v36 : FVec Ideal S4096x640 .f32) (v583 : FVec Ideal S1x640 .f32) (v587 : FVec Ideal S1x640 .f32) (v588 : FVec Ideal S1x640 .f32) (l : Fin 640) :
    k0_pay42 (F := Ideal) v6 v24 v36 v583 v587 v588 (ix2 0 l) =
      (((v583 (ix2 0 l)) + ((hatW (lw 0x3F800000#32) (lw 0x00000000#32) (v588 (ix2 0 l)) (v6 (ix2 0 l))) * (v587 (ix2 0 l)))) + ((hatW (lw 0x3F800000#32) (lw 0x00000000#32) (lw 0x422C0000#32) (v6 (ix2 0 l))) * (innerAt v24 v36 2752 l))) + ((hatW (lw 0x3F800000#32) (lw 0x00000000#32) (lw 0x42300000#32) (v6 (ix2 0 l))) * (innerAt v24 v36 2816 l)) := by
  unfold k0_pay42
  try simp only [addf_apply, mulf_apply, subf_apply, maximumf_apply, absf_apply, broadcast_apply, shapeCast_a_1a_apply]
  rw [redRead, redRead]
  try simp only [mulf_apply, sliceRead, hatW, hatA, absD, innerAt, dotJ, lw]
  first | done | rfl

theorem pay43_lane (v6 : FVec Ideal S1x640 .f32) (v24 : FVec Ideal S64x640 .f32) (v36 : FVec Ideal S4096x640 .f32) (l : Fin 640) :
    k0_pay43 (F := Ideal) v6 v24 v36 (ix2 0 l) =
      (hatW (lw 0x3F800000#32) (lw 0x00000000#32) (lw 0x42340000#32) (v6 (ix2 0 l))) * (innerAt v24 v36 2880 l) := by
  unfold k0_pay43
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay44_lane (v6 : FVec Ideal S1x640 .f32) (v24 : FVec Ideal S64x640 .f32) (v36 : FVec Ideal S4096x640 .f32) (v622 : FVec Ideal S1x640 .f32) (v634 : FVec Ideal S1x640 .f32) (l : Fin 640) :
    k0_pay44 (F := Ideal) v6 v24 v36 v622 v634 (ix2 0 l) =
      ((((v622 (ix2 0 l)) + (v634 (ix2 0 l))) + ((hatW (lw 0x3F800000#32) (lw 0x00000000#32) (lw 0x42380000#32) (v6 (ix2 0 l))) * (innerAt v24 v36 2944 l))) + ((hatW (lw 0x3F800000#32) (lw 0x00000000#32) (lw 0x423C0000#32) (v6 (ix2 0 l))) * (innerAt v24 v36 3008 l))) + ((hatW (lw 0x3F800000#32) (lw 0x00000000#32) (lw 0x42400000#32) (v6 (ix2 0 l))) * (innerAt v24 v36 3072 l)) := by
  unfold k0_pay44
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay45_lane (v24 : FVec Ideal S64x640 .f32) (v36 : FVec Ideal S4096x640 .f32) (l : Fin 640) :
    k0_pay45 (F := Ideal) v24 v36 (ix2 0 l) =
      innerAt v24 v36 3136 l := by
  unfold k0_pay45
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay46_lane (v6 : FVec Ideal S1x640 .f32) (l : Fin 640) :
    k0_pay46 (F := Ideal) v6 (ix2 0 l) =
      (lw 0x42440000#32) - (v6 (ix2 0 l)) := by
  unfold k0_pay46
  try simp only [addf_apply, mulf_apply, subf_apply, maximumf_apply, absf_apply, broadcast_apply, shapeCast_a_1a_apply]
  try simp only [mulf_apply, sliceRead, hatW, hatA, absD, innerAt, dotJ, lw]
  first | done | rfl

theorem pay47_lane (v6 : FVec Ideal S1x640 .f32) (v24 : FVec Ideal S64x640 .f32) (v36 : FVec Ideal S4096x640 .f32) (v674 : FVec Ideal S1x640 .f32) (v678 : FVec Ideal S1x640 .f32) (v680 : FVec Ideal S1x640 .f32) (l : Fin 640) :
    k0_pay47 (F := Ideal) v6 v24 v36 v674 v678 v680 (ix2 0 l) =
      ((((v674 (ix2 0 l)) + ((hatA (lw 0x3F800000#32) (lw 0x00000000#32) (max (v680 (ix2 0 l)) (-(v680 (ix2 0 l))))) * (v678 (ix2 0 l)))) + ((hatW (lw 0x3F800000#32) (lw 0x00000000#32) (lw 0x42480000#32) (v6 (ix2 0 l))) * (innerAt v24 v36 3200 l))) + ((hatW (lw 0x3F800000#32) (lw 0x00000000#32) (lw 0x424C0000#32) (v6 (ix2 0 l))) * (innerAt v24 v36 3264 l))) + ((hatW (lw 0x3F800000#32) (lw 0x00000000#32) (lw 0x42500000#32) (v6 (ix2 0 l))) * (innerAt v24 v36 3328 l)) := by
  unfold k0_pay47
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay48_lane (v6 : FVec Ideal S1x640 .f32) (v24 : FVec Ideal S64x640 .f32) (v36 : FVec Ideal S4096x640 .f32) (v726 : FVec Ideal S1x640 .f32) (l : Fin 640) :
    k0_pay48 (F := Ideal) v6 v24 v36 v726 (ix2 0 l) =
      (((v726 (ix2 0 l)) + ((hatW (lw 0x3F800000#32) (lw 0x00000000#32) (lw 0x42540000#32) (v6 (ix2 0 l))) * (innerAt v24 v36 3392 l))) + ((hatW (lw 0x3F800000#32) (lw 0x00000000#32) (lw 0x42580000#32) (v6 (ix2 0 l))) * (innerAt v24 v36 3456 l))) + ((hatW (lw 0x3F800000#32) (lw 0x00000000#32) (lw 0x425C0000#32) (v6 (ix2 0 l))) * (innerAt v24 v36 3520 l)) := by
  unfold k0_pay48
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay49_lane (v24 : FVec Ideal S64x640 .f32) (v36 : FVec Ideal S4096x640 .f32) (l : Fin 640) :
    k0_pay49 (F := Ideal) v24 v36 (ix2 0 l) =
      innerAt v24 v36 3584 l := by
  unfold k0_pay49
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay50_lane (v6 : FVec Ideal S1x640 .f32) (l : Fin 640) :
    k0_pay50 (F := Ideal) v6 (ix2 0 l) =
      absD (lw 0x42600000#32) (v6 (ix2 0 l)) := by
  unfold k0_pay50
  try simp only [addf_apply, mulf_apply, subf_apply, maximumf_apply, absf_apply, broadcast_apply, shapeCast_a_1a_apply]
  try simp only [mulf_apply, sliceRead, hatW, hatA, absD, innerAt, dotJ, lw]
  first | done | rfl

theorem pay51_lane (v6 : FVec Ideal S1x640 .f32) (v24 : FVec Ideal S64x640 .f32) (v36 : FVec Ideal S4096x640 .f32) (v765 : FVec Ideal S1x640 .f32) (v769 : FVec Ideal S1x640 .f32) (v772 : FVec Ideal S1x640 .f32) (l : Fin 640) :
    k0_pay51 (F := Ideal) v6 v24 v36 v765 v769 v772 (ix2 0 l) =
      ((((v765 (ix2 0 l)) + ((hatA (lw 0x3F800000#32) (lw 0x00000000#32) (v772 (ix2 0 l))) * (v769 (ix2 0 l)))) + ((hatW (lw 0x3F800000#32) (lw 0x00000000#32) (lw 0x42640000#32) (v6 (ix2 0 l))) * (innerAt v24 v36 3648 l))) + ((hatW (lw 0x3F800000#32) (lw 0x00000000#32) (lw 0x42680000#32) (v6 (ix2 0 l))) * (innerAt v24 v36 3712 l))) + ((hatW (lw 0x3F800000#32) (lw 0x00000000#32) (lw 0x426C0000#32) (v6 (ix2 0 l))) * (innerAt v24 v36 3776 l)) := by
  unfold k0_pay51
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay52_lane (v36 : FVec Ideal S4096x640 .f32) (j : Fin 64) (l : Fin 640) :
    k0_pay52 (F := Ideal) v36 (ix2 j l) =
      v36 (ix2 (rowOff 3840 j) l) := by
  unfold k0_pay52
  try simp only [addf_apply, mulf_apply, subf_apply, maximumf_apply, absf_apply, broadcast_apply, shapeCast_a_1a_apply]
  try simp only [mulf_apply, sliceRead, hatW, hatA, absD, innerAt, dotJ, lw]
  first | done | rfl

theorem pay53_lane (v6 : FVec Ideal S1x640 .f32) (v24 : FVec Ideal S64x640 .f32) (v36 : FVec Ideal S4096x640 .f32) (v817 : FVec Ideal S1x640 .f32) (v818 : FVec Ideal S64x640 .f32) (l : Fin 640) :
    k0_pay53 (F := Ideal) v6 v24 v36 v817 v818 (ix2 0 l) =
      (((v817 (ix2 0 l)) + ((hatW (lw 0x3F800000#32) (lw 0x00000000#32) (lw 0x42700000#32) (v6 (ix2 0 l))) * (dotJ v24 v818 l))) + ((hatW (lw 0x3F800000#32) (lw 0x00000000#32) (lw 0x42740000#32) (v6 (ix2 0 l))) * (innerAt v24 v36 3904 l))) + ((hatW (lw 0x3F800000#32) (lw 0x00000000#32) (lw 0x42780000#32) (v6 (ix2 0 l))) * (innerAt v24 v36 3968 l)) := by
  unfold k0_pay53
  try simp only [addf_apply, mulf_apply, subf_apply, maximumf_apply, absf_apply, broadcast_apply, shapeCast_a_1a_apply]
  rw [redRead, redRead, redRead]
  try simp only [mulf_apply, sliceRead, hatW, hatA, absD, innerAt, dotJ, lw]
  first | done | rfl

theorem pay54_lane (v24 : FVec Ideal S64x640 .f32) (v36 : FVec Ideal S4096x640 .f32) (l : Fin 640) :
    k0_pay54 (F := Ideal) v24 v36 (ix2 0 l) =
      innerAt v24 v36 4032 l := by
  unfold k0_pay54
  try simp only [addf_apply, mulf_apply, subf_apply, maximumf_apply, absf_apply, broadcast_apply, shapeCast_a_1a_apply]
  rw [redRead]
  try simp only [mulf_apply, sliceRead, hatW, hatA, absD, innerAt, dotJ, lw]
  first | done | rfl

theorem pay55_lane (v6 : FVec Ideal S1x640 .f32) (l : Fin 640) :
    k0_pay55 (F := Ideal) v6 (ix2 0 l) =
      absD (lw 0x427C0000#32) (v6 (ix2 0 l)) := by
  unfold k0_pay55
  try simp only [addf_apply, mulf_apply, subf_apply, maximumf_apply, absf_apply, broadcast_apply, shapeCast_a_1a_apply]
  try simp only [mulf_apply, sliceRead, hatW, hatA, absD, innerAt, dotJ, lw]
  first | done | rfl

/-! ## The chain of values the kernel's parts thread, over the three loaded coordinate rows and the loaded matrix -/

/-- One iteration's term: the first axis's weight at grid line `w` times the band's inner sum. -/
def T (v6 : FVec Ideal S1x640 .f32) (v24 : FVec Ideal S64x640 .f32) (v36 : FVec Ideal S4096x640 .f32) (w : BitVec 32) (off : ℕ)
    (l : Fin 640) : EReal :=
  hatW (lw 0x3F800000#32) (lw 0x00000000#32) (lw w) (v6 (ix2 0 l)) * innerAt v24 v36 off l

def V6 (v3 : FVec Ideal S1x640 .f32) : FVec Ideal S1x640 .f32 := k0_pay3 (F := Ideal) v3
def V24 (v7 : FVec Ideal S1x640 .f32) : FVec Ideal S64x640 .f32 := k0_pay5 (F := Ideal) v7
def V36 (v11 : FVec Ideal S1x640 .f32) (v34 : FVec Ideal S4096x64 .bf16) : FVec Ideal S4096x640 .f32 := k0_pay6 (F := Ideal) v11 v34
def C_v37 (v3 v7 v11 : FVec Ideal S1x640 .f32) (v34 : FVec Ideal S4096x64 .bf16) : FVec Ideal S1x640 .f32 := k0_pay7 (F := Ideal)
theorem C_v37_lane (v3 v7 v11 : FVec Ideal S1x640 .f32) (v34 : FVec Ideal S4096x64 .bf16) (l : Fin 640) : C_v37 v3 v7 v11 v34 (ix2 0 l) = lw 0x00000000#32 := rfl

def C_v38 (v3 v7 v11 : FVec Ideal S1x640 .f32) (v34 : FVec Ideal S4096x64 .bf16) : FVec Ideal S64x640 .f32 := k0_pay8 (F := Ideal) v11 v34
theorem C_v38_lane (v3 v7 v11 : FVec Ideal S1x640 .f32) (v34 : FVec Ideal S4096x64 .bf16) (j : Fin 64) (l : Fin 640) : C_v38 v3 v7 v11 v34 (ix2 j l) = (V36 v11 v34) (ix2 (rowOff 0 j) l) := by
  unfold C_v38 V36
  exact pay8_lane v11 v34 j l

def C_v76 (v3 v7 v11 : FVec Ideal S1x640 .f32) (v34 : FVec Ideal S4096x64 .bf16) : FVec Ideal S1x640 .f32 :=
  k0_pay9 (F := Ideal) (V6 v3) (V24 v7) (V36 v11 v34) (C_v37 v3 v7 v11 v34) (C_v38 v3 v7 v11 v34)
theorem C_v76_lane (v3 v7 v11 : FVec Ideal S1x640 .f32) (v34 : FVec Ideal S4096x64 .bf16) (l : Fin 640) :
    C_v76 v3 v7 v11 v34 (ix2 0 l) =
      (((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l) := by
  unfold C_v76
  rw [pay9_lane]
  try simp only [C_v37_lane, C_v38_lane, T, hatW, hatA, absD, innerAt, dotJ]
  first | done | rfl

def C_v80 (v3 v7 v11 : FVec Ideal S1x640 .f32) (v34 : FVec Ideal S4096x64 .bf16) : FVec Ideal S1x640 .f32 :=
  k0_pay10 (F := Ideal) (V24 v7) (V36 v11 v34)
theorem C_v80_lane (v3 v7 v11 : FVec Ideal S1x640 .f32) (v34 : FVec Ideal S4096x64 .bf16) (l : Fin 640) :
    C_v80 v3 v7 v11 v34 (ix2 0 l) =
      innerAt (V24 v7) (V36 v11 v34) 192 l := by
  unfold C_v80
  rw [pay10_lane]
  try simp only [T, hatW, hatA, absD, innerAt, dotJ]
  first | done | rfl

def C_v83 (v3 v7 v11 : FVec Ideal S1x640 .f32) (v34 : FVec Ideal S4096x64 .bf16) : FVec Ideal S1x640 .f32 :=
  k0_pay11 (F := Ideal) (V6 v3)
theorem C_v83_lane (v3 v7 v11 : FVec Ideal S1x640 .f32) (v34 : FVec Ideal S4096x64 .bf16) (l : Fin 640) :
    C_v83 v3 v7 v11 v34 (ix2 0 l) =
      absD (lw 0x40400000#32) ((V6 v3) (ix2 0 l)) := by
  unfold C_v83
  rw [pay11_lane]
  try simp only [T, hatW, hatA, absD, innerAt, dotJ]
  first | done | rfl

def C_v128 (v3 v7 v11 : FVec Ideal S1x640 .f32) (v34 : FVec Ideal S4096x64 .bf16) : FVec Ideal S1x640 .f32 :=
  k0_pay12 (F := Ideal) (V6 v3) (V24 v7) (V36 v11 v34) (C_v76 v3 v7 v11 v34) (C_v80 v3 v7 v11 v34) (C_v83 v3 v7 v11 v34) (lw 0x3F800000#32)
theorem C_v128_lane (v3 v7 v11 : FVec Ideal S1x640 .f32) (v34 : FVec Ideal S4096x64 .bf16) (l : Fin 640) :
    C_v128 v3 v7 v11 v34 (ix2 0 l) =
      (((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l) := by
  unfold C_v128
  rw [pay12_lane]
  try simp only [C_v76_lane, C_v80_lane, C_v83_lane, T, hatW, hatA, absD, innerAt, dotJ]
  first | done | rfl

def C_v130 (v3 v7 v11 : FVec Ideal S1x640 .f32) (v34 : FVec Ideal S4096x64 .bf16) : FVec Ideal S64x640 .f32 :=
  k0_pay13 (F := Ideal) (V24 v7) (V36 v11 v34)
theorem C_v130_lane (v3 v7 v11 : FVec Ideal S1x640 .f32) (v34 : FVec Ideal S4096x64 .bf16) (j : Fin 64) (l : Fin 640) :
    C_v130 v3 v7 v11 v34 (ix2 j l) =
      ((V24 v7) (ix2 j l)) * ((V36 v11 v34) (ix2 (rowOff 448 j) l)) := by
  unfold C_v130
  rw [pay13_lane]
  try simp only [T, hatW, hatA, absD, innerAt, dotJ]
  first | done | rfl

def C_v167 (v3 v7 v11 : FVec Ideal S1x640 .f32) (v34 : FVec Ideal S4096x64 .bf16) : FVec Ideal S1x640 .f32 :=
  k0_pay14 (F := Ideal) (V6 v3) (V24 v7) (V36 v11 v34) (C_v128 v3 v7 v11 v34) (C_v130 v3 v7 v11 v34)
theorem C_v167_lane (v3 v7 v11 : FVec Ideal S1x640 .f32) (v34 : FVec Ideal S4096x64 .bf16) (l : Fin 640) :
    C_v167 v3 v7 v11 v34 (ix2 0 l) =
      ((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l) := by
  unfold C_v167
  rw [pay14_lane]
  try simp only [C_v128_lane, C_v130_lane, T, hatW, hatA, absD, innerAt, dotJ]
  first | done | rfl

def C_v171 (v3 v7 v11 : FVec Ideal S1x640 .f32) (v34 : FVec Ideal S4096x64 .bf16) : FVec Ideal S1x640 .f32 :=
  k0_pay15 (F := Ideal) (V24 v7) (V36 v11 v34)
theorem C_v171_lane (v3 v7 v11 : FVec Ideal S1x640 .f32) (v34 : FVec Ideal S4096x64 .bf16) (l : Fin 640) :
    C_v171 v3 v7 v11 v34 (ix2 0 l) =
      innerAt (V24 v7) (V36 v11 v34) 640 l := by
  unfold C_v171
  rw [pay15_lane]
  try simp only [T, hatW, hatA, absD, innerAt, dotJ]
  first | done | rfl

def C_v174 (v3 v7 v11 : FVec Ideal S1x640 .f32) (v34 : FVec Ideal S4096x64 .bf16) : FVec Ideal S1x640 .f32 :=
  k0_pay16 (F := Ideal) (V6 v3)
theorem C_v174_lane (v3 v7 v11 : FVec Ideal S1x640 .f32) (v34 : FVec Ideal S4096x64 .bf16) (l : Fin 640) :
    C_v174 v3 v7 v11 v34 (ix2 0 l) =
      absD (lw 0x41200000#32) ((V6 v3) (ix2 0 l)) := by
  unfold C_v174
  rw [pay16_lane]
  try simp only [T, hatW, hatA, absD, innerAt, dotJ]
  first | done | rfl

def C_v175 (v3 v7 v11 : FVec Ideal S1x640 .f32) (v34 : FVec Ideal S4096x64 .bf16) : FVec Ideal S1x640 .f32 :=
  k0_pay17 (F := Ideal)
theorem C_v175_lane (v3 v7 v11 : FVec Ideal S1x640 .f32) (v34 : FVec Ideal S4096x64 .bf16) (l : Fin 640) :
    C_v175 v3 v7 v11 v34 (ix2 0 l) =
      lw 0x3F800000#32 := by
  unfold C_v175
  rw [pay17_lane]
  try simp only [T, hatW, hatA, absD, innerAt, dotJ]
  first | done | rfl

def C_v219 (v3 v7 v11 : FVec Ideal S1x640 .f32) (v34 : FVec Ideal S4096x64 .bf16) : FVec Ideal S1x640 .f32 :=
  k0_pay18 (F := Ideal) (V6 v3) (V24 v7) (V36 v11 v34) (C_v167 v3 v7 v11 v34) (C_v171 v3 v7 v11 v34) (C_v174 v3 v7 v11 v34) (C_v175 v3 v7 v11 v34)
theorem C_v219_lane (v3 v7 v11 : FVec Ideal S1x640 .f32) (v34 : FVec Ideal S4096x64 .bf16) (l : Fin 640) :
    C_v219 v3 v7 v11 v34 (ix2 0 l) =
      ((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l) := by
  unfold C_v219
  rw [pay18_lane]
  try simp only [C_v167_lane, C_v171_lane, C_v174_lane, C_v175_lane, T, hatW, hatA, absD, innerAt, dotJ]
  first | done | rfl

def C_v221 (v3 v7 v11 : FVec Ideal S1x640 .f32) (v34 : FVec Ideal S4096x64 .bf16) : FVec Ideal S64x640 .f32 :=
  k0_pay19 (F := Ideal) (V24 v7) (V36 v11 v34)
theorem C_v221_lane (v3 v7 v11 : FVec Ideal S1x640 .f32) (v34 : FVec Ideal S4096x64 .bf16) (j : Fin 64) (l : Fin 640) :
    C_v221 v3 v7 v11 v34 (ix2 j l) =
      ((V24 v7) (ix2 j l)) * ((V36 v11 v34) (ix2 (rowOff 896 j) l)) := by
  unfold C_v221
  rw [pay19_lane]
  try simp only [T, hatW, hatA, absD, innerAt, dotJ]
  first | done | rfl

def C_v258 (v3 v7 v11 : FVec Ideal S1x640 .f32) (v34 : FVec Ideal S4096x64 .bf16) : FVec Ideal S1x640 .f32 :=
  k0_pay20 (F := Ideal) (V6 v3) (V24 v7) (V36 v11 v34) (C_v219 v3 v7 v11 v34) (C_v221 v3 v7 v11 v34)
theorem C_v258_lane (v3 v7 v11 : FVec Ideal S1x640 .f32) (v34 : FVec Ideal S4096x64 .bf16) (l : Fin 640) :
    C_v258 v3 v7 v11 v34 (ix2 0 l) =
      (((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l) := by
  unfold C_v258
  rw [pay20_lane]
  try simp only [C_v219_lane, C_v221_lane, T, hatW, hatA, absD, innerAt, dotJ]
  first | done | rfl

def C_v262 (v3 v7 v11 : FVec Ideal S1x640 .f32) (v34 : FVec Ideal S4096x64 .bf16) : FVec Ideal S1x640 .f32 :=
  k0_pay21 (F := Ideal) (V24 v7) (V36 v11 v34)
theorem C_v262_lane (v3 v7 v11 : FVec Ideal S1x640 .f32) (v34 : FVec Ideal S4096x64 .bf16) (l : Fin 640) :
    C_v262 v3 v7 v11 v34 (ix2 0 l) =
      innerAt (V24 v7) (V36 v11 v34) 1088 l := by
  unfold C_v262
  rw [pay21_lane]
  try simp only [T, hatW, hatA, absD, innerAt, dotJ]
  first | done | rfl

def C_v267 (v3 v7 v11 : FVec Ideal S1x640 .f32) (v34 : FVec Ideal S4096x64 .bf16) : FVec Ideal S1x640 .f32 :=
  k0_pay22 (F := Ideal) (V6 v3)
theorem C_v267_lane (v3 v7 v11 : FVec Ideal S1x640 .f32) (v34 : FVec Ideal S4096x64 .bf16) (l : Fin 640) :
    C_v267 v3 v7 v11 v34 (ix2 0 l) =
      (lw 0x3F800000#32) - (absD (lw 0x41880000#32) ((V6 v3) (ix2 0 l))) := by
  unfold C_v267
  rw [pay22_lane]
  try simp only [T, hatW, hatA, absD, innerAt, dotJ]
  first | done | rfl

def C_v310 (v3 v7 v11 : FVec Ideal S1x640 .f32) (v34 : FVec Ideal S4096x64 .bf16) : FVec Ideal S1x640 .f32 :=
  k0_pay23 (F := Ideal) (V6 v3) (V24 v7) (V36 v11 v34) (C_v258 v3 v7 v11 v34) (C_v262 v3 v7 v11 v34) (C_v267 v3 v7 v11 v34)
theorem C_v310_lane (v3 v7 v11 : FVec Ideal S1x640 .f32) (v34 : FVec Ideal S4096x64 .bf16) (l : Fin 640) :
    C_v310 v3 v7 v11 v34 (ix2 0 l) =
      (((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l) := by
  unfold C_v310
  rw [pay23_lane]
  try simp only [C_v258_lane, C_v262_lane, C_v267_lane, T, hatW, hatA, absD, innerAt, dotJ]
  first | done | rfl

def C_v313 (v3 v7 v11 : FVec Ideal S1x640 .f32) (v34 : FVec Ideal S4096x64 .bf16) : FVec Ideal S640 .f32 :=
  k0_pay24 (F := Ideal) (V24 v7) (V36 v11 v34)
theorem C_v313_lane (v3 v7 v11 : FVec Ideal S1x640 .f32) (v34 : FVec Ideal S4096x64 .bf16) (l : Fin 640) :
    C_v313 v3 v7 v11 v34 (ix1 l) =
      innerAt (V24 v7) (V36 v11 v34) 1344 l := by
  unfold C_v313
  rw [pay24_lane]
  try simp only [T, hatW, hatA, absD, innerAt, dotJ]
  first | done | rfl

def C_v349 (v3 v7 v11 : FVec Ideal S1x640 .f32) (v34 : FVec Ideal S4096x64 .bf16) : FVec Ideal S1x640 .f32 :=
  k0_pay25 (F := Ideal) (V6 v3) (V24 v7) (V36 v11 v34) (C_v310 v3 v7 v11 v34) (C_v313 v3 v7 v11 v34)
theorem C_v349_lane (v3 v7 v11 : FVec Ideal S1x640 .f32) (v34 : FVec Ideal S4096x64 .bf16) (l : Fin 640) :
    C_v349 v3 v7 v11 v34 (ix2 0 l) =
      ((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l) := by
  unfold C_v349
  rw [pay25_lane]
  try simp only [C_v310_lane, C_v313_lane, T, hatW, hatA, absD, innerAt, dotJ]
  first | done | rfl

def C_v353 (v3 v7 v11 : FVec Ideal S1x640 .f32) (v34 : FVec Ideal S4096x64 .bf16) : FVec Ideal S1x640 .f32 :=
  k0_pay26 (F := Ideal) (V24 v7) (V36 v11 v34)
theorem C_v353_lane (v3 v7 v11 : FVec Ideal S1x640 .f32) (v34 : FVec Ideal S4096x64 .bf16) (l : Fin 640) :
    C_v353 v3 v7 v11 v34 (ix2 0 l) =
      innerAt (V24 v7) (V36 v11 v34) 1536 l := by
  unfold C_v353
  rw [pay26_lane]
  try simp only [T, hatW, hatA, absD, innerAt, dotJ]
  first | done | rfl

def C_v358 (v3 v7 v11 : FVec Ideal S1x640 .f32) (v34 : FVec Ideal S4096x64 .bf16) : FVec Ideal S1x640 .f32 :=
  k0_pay27 (F := Ideal) (V6 v3)
theorem C_v358_lane (v3 v7 v11 : FVec Ideal S1x640 .f32) (v34 : FVec Ideal S4096x64 .bf16) (l : Fin 640) :
    C_v358 v3 v7 v11 v34 (ix2 0 l) =
      (lw 0x3F800000#32) - (absD (lw 0x41C00000#32) ((V6 v3) (ix2 0 l))) := by
  unfold C_v358
  rw [pay27_lane]
  try simp only [T, hatW, hatA, absD, innerAt, dotJ]
  first | done | rfl

def C_v401 (v3 v7 v11 : FVec Ideal S1x640 .f32) (v34 : FVec Ideal S4096x64 .bf16) : FVec Ideal S1x640 .f32 :=
  k0_pay28 (F := Ideal) (V6 v3) (V24 v7) (V36 v11 v34) (C_v349 v3 v7 v11 v34) (C_v353 v3 v7 v11 v34) (C_v358 v3 v7 v11 v34) (lw 0x00000000#32)
theorem C_v401_lane (v3 v7 v11 : FVec Ideal S1x640 .f32) (v34 : FVec Ideal S4096x64 .bf16) (l : Fin 640) :
    C_v401 v3 v7 v11 v34 (ix2 0 l) =
      ((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l) := by
  unfold C_v401
  rw [pay28_lane]
  try simp only [C_v349_lane, C_v353_lane, C_v358_lane, T, hatW, hatA, absD, innerAt, dotJ]
  first | done | rfl

def C_v405 (v3 v7 v11 : FVec Ideal S1x640 .f32) (v34 : FVec Ideal S4096x64 .bf16) : FVec Ideal S1x640 .f32 :=
  k0_pay29 (F := Ideal) (V24 v7) (V36 v11 v34)
theorem C_v405_lane (v3 v7 v11 : FVec Ideal S1x640 .f32) (v34 : FVec Ideal S4096x64 .bf16) (l : Fin 640) :
    C_v405 v3 v7 v11 v34 (ix2 0 l) =
      innerAt (V24 v7) (V36 v11 v34) 1792 l := by
  unfold C_v405
  rw [pay29_lane]
  try simp only [T, hatW, hatA, absD, innerAt, dotJ]
  first | done | rfl

def C_v440 (v3 v7 v11 : FVec Ideal S1x640 .f32) (v34 : FVec Ideal S4096x64 .bf16) : FVec Ideal S1x640 .f32 :=
  k0_pay30 (F := Ideal) (V6 v3) (V24 v7) (V36 v11 v34) (C_v401 v3 v7 v11 v34) (C_v405 v3 v7 v11 v34)
theorem C_v440_lane (v3 v7 v11 : FVec Ideal S1x640 .f32) (v34 : FVec Ideal S4096x64 .bf16) (l : Fin 640) :
    C_v440 v3 v7 v11 v34 (ix2 0 l) =
      (((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l) := by
  unfold C_v440
  rw [pay30_lane]
  try simp only [C_v401_lane, C_v405_lane, T, hatW, hatA, absD, innerAt, dotJ]
  first | done | rfl

def C_v444 (v3 v7 v11 : FVec Ideal S1x640 .f32) (v34 : FVec Ideal S4096x64 .bf16) : FVec Ideal S1x640 .f32 :=
  k0_pay31 (F := Ideal) (V24 v7) (V36 v11 v34)
theorem C_v444_lane (v3 v7 v11 : FVec Ideal S1x640 .f32) (v34 : FVec Ideal S4096x64 .bf16) (l : Fin 640) :
    C_v444 v3 v7 v11 v34 (ix2 0 l) =
      innerAt (V24 v7) (V36 v11 v34) 1984 l := by
  unfold C_v444
  rw [pay31_lane]
  try simp only [T, hatW, hatA, absD, innerAt, dotJ]
  first | done | rfl

def C_v449 (v3 v7 v11 : FVec Ideal S1x640 .f32) (v34 : FVec Ideal S4096x64 .bf16) : FVec Ideal S1x640 .f32 :=
  k0_pay32 (F := Ideal) (V6 v3)
theorem C_v449_lane (v3 v7 v11 : FVec Ideal S1x640 .f32) (v34 : FVec Ideal S4096x64 .bf16) (l : Fin 640) :
    C_v449 v3 v7 v11 v34 (ix2 0 l) =
      (lw 0x3F800000#32) - (absD (lw 0x41F80000#32) ((V6 v3) (ix2 0 l))) := by
  unfold C_v449
  rw [pay32_lane]
  try simp only [T, hatW, hatA, absD, innerAt, dotJ]
  first | done | rfl

def C_v450 (v3 v7 v11 : FVec Ideal S1x640 .f32) (v34 : FVec Ideal S4096x64 .bf16) : FVec Ideal S1x640 .f32 :=
  k0_pay33 (F := Ideal)
theorem C_v450_lane (v3 v7 v11 : FVec Ideal S1x640 .f32) (v34 : FVec Ideal S4096x64 .bf16) (l : Fin 640) :
    C_v450 v3 v7 v11 v34 (ix2 0 l) =
      lw 0x00000000#32 := by
  unfold C_v450
  rw [pay33_lane]
  try simp only [T, hatW, hatA, absD, innerAt, dotJ]
  first | done | rfl

def C_v492 (v3 v7 v11 : FVec Ideal S1x640 .f32) (v34 : FVec Ideal S4096x64 .bf16) : FVec Ideal S1x640 .f32 :=
  k0_pay34 (F := Ideal) (V6 v3) (V24 v7) (V36 v11 v34) (C_v440 v3 v7 v11 v34) (C_v444 v3 v7 v11 v34) (C_v449 v3 v7 v11 v34) (C_v450 v3 v7 v11 v34)
theorem C_v492_lane (v3 v7 v11 : FVec Ideal S1x640 .f32) (v34 : FVec Ideal S4096x64 .bf16) (l : Fin 640) :
    C_v492 v3 v7 v11 v34 (ix2 0 l) =
      (((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l) := by
  unfold C_v492
  rw [pay34_lane]
  try simp only [C_v440_lane, C_v444_lane, C_v449_lane, C_v450_lane, T, hatW, hatA, absD, innerAt, dotJ]
  first | done | rfl

def C_v496 (v3 v7 v11 : FVec Ideal S1x640 .f32) (v34 : FVec Ideal S4096x64 .bf16) : FVec Ideal S1x640 .f32 :=
  k0_pay35 (F := Ideal) (V24 v7) (V36 v11 v34)
theorem C_v496_lane (v3 v7 v11 : FVec Ideal S1x640 .f32) (v34 : FVec Ideal S4096x64 .bf16) (l : Fin 640) :
    C_v496 v3 v7 v11 v34 (ix2 0 l) =
      innerAt (V24 v7) (V36 v11 v34) 2240 l := by
  unfold C_v496
  rw [pay35_lane]
  try simp only [T, hatW, hatA, absD, innerAt, dotJ]
  first | done | rfl

def C_v531 (v3 v7 v11 : FVec Ideal S1x640 .f32) (v34 : FVec Ideal S4096x64 .bf16) : FVec Ideal S1x640 .f32 :=
  k0_pay36 (F := Ideal) (V6 v3) (V24 v7) (V36 v11 v34) (C_v492 v3 v7 v11 v34) (C_v496 v3 v7 v11 v34) (lw 0x420C0000#32)
theorem C_v531_lane (v3 v7 v11 : FVec Ideal S1x640 .f32) (v34 : FVec Ideal S4096x64 .bf16) (l : Fin 640) :
    C_v531 v3 v7 v11 v34 (ix2 0 l) =
      ((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l) := by
  unfold C_v531
  rw [pay36_lane]
  try simp only [C_v492_lane, C_v496_lane, T, hatW, hatA, absD, innerAt, dotJ]
  first | done | rfl

def C_v535 (v3 v7 v11 : FVec Ideal S1x640 .f32) (v34 : FVec Ideal S4096x64 .bf16) : FVec Ideal S1x640 .f32 :=
  k0_pay37 (F := Ideal) (V24 v7) (V36 v11 v34)
theorem C_v535_lane (v3 v7 v11 : FVec Ideal S1x640 .f32) (v34 : FVec Ideal S4096x64 .bf16) (l : Fin 640) :
    C_v535 v3 v7 v11 v34 (ix2 0 l) =
      innerAt (V24 v7) (V36 v11 v34) 2432 l := by
  unfold C_v535
  rw [pay37_lane]
  try simp only [T, hatW, hatA, absD, innerAt, dotJ]
  first | done | rfl

def C_v542 (v3 v7 v11 : FVec Ideal S1x640 .f32) (v34 : FVec Ideal S4096x64 .bf16) : FVec Ideal S1x640 .f32 :=
  k0_pay38 (F := Ideal) (V6 v3)
theorem C_v542_lane (v3 v7 v11 : FVec Ideal S1x640 .f32) (v34 : FVec Ideal S4096x64 .bf16) (l : Fin 640) :
    C_v542 v3 v7 v11 v34 (ix2 0 l) =
      hatW (lw 0x3F800000#32) (lw 0x00000000#32) (lw 0x42180000#32) ((V6 v3) (ix2 0 l)) := by
  unfold C_v542
  rw [pay38_lane]
  try simp only [T, hatW, hatA, absD, innerAt, dotJ]
  first | done | rfl

def C_v583 (v3 v7 v11 : FVec Ideal S1x640 .f32) (v34 : FVec Ideal S4096x64 .bf16) : FVec Ideal S1x640 .f32 :=
  k0_pay39 (F := Ideal) (V6 v3) (V24 v7) (V36 v11 v34) (C_v531 v3 v7 v11 v34) (C_v535 v3 v7 v11 v34) (C_v542 v3 v7 v11 v34)
theorem C_v583_lane (v3 v7 v11 : FVec Ideal S1x640 .f32) (v34 : FVec Ideal S4096x64 .bf16) (l : Fin 640) :
    C_v583 v3 v7 v11 v34 (ix2 0 l) =
      ((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l) := by
  unfold C_v583
  rw [pay39_lane]
  try simp only [C_v531_lane, C_v535_lane, C_v542_lane, T, hatW, hatA, absD, innerAt, dotJ]
  first | done | rfl

def C_v587 (v3 v7 v11 : FVec Ideal S1x640 .f32) (v34 : FVec Ideal S4096x64 .bf16) : FVec Ideal S1x640 .f32 :=
  k0_pay40 (F := Ideal) (V24 v7) (V36 v11 v34)
theorem C_v587_lane (v3 v7 v11 : FVec Ideal S1x640 .f32) (v34 : FVec Ideal S4096x64 .bf16) (l : Fin 640) :
    C_v587 v3 v7 v11 v34 (ix2 0 l) =
      innerAt (V24 v7) (V36 v11 v34) 2688 l := by
  unfold C_v587
  rw [pay40_lane]
  try simp only [T, hatW, hatA, absD, innerAt, dotJ]
  first | done | rfl

def C_v588 (v3 v7 v11 : FVec Ideal S1x640 .f32) (v34 : FVec Ideal S4096x64 .bf16) : FVec Ideal S1x640 .f32 :=
  k0_pay41 (F := Ideal)
theorem C_v588_lane (v3 v7 v11 : FVec Ideal S1x640 .f32) (v34 : FVec Ideal S4096x64 .bf16) (l : Fin 640) :
    C_v588 v3 v7 v11 v34 (ix2 0 l) =
      lw 0x42280000#32 := by
  unfold C_v588
  rw [pay41_lane]
  try simp only [T, hatW, hatA, absD, innerAt, dotJ]
  first | done | rfl

def C_v622 (v3 v7 v11 : FVec Ideal S1x640 .f32) (v34 : FVec Ideal S4096x64 .bf16) : FVec Ideal S1x640 .f32 :=
  k0_pay42 (F := Ideal) (V6 v3) (V24 v7) (V36 v11 v34) (C_v583 v3 v7 v11 v34) (C_v587 v3 v7 v11 v34) (C_v588 v3 v7 v11 v34)
theorem C_v622_lane (v3 v7 v11 : FVec Ideal S1x640 .f32) (v34 : FVec Ideal S4096x64 .bf16) (l : Fin 640) :
    C_v622 v3 v7 v11 v34 (ix2 0 l) =
      (((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l) := by
  unfold C_v622
  rw [pay42_lane]
  try simp only [C_v583_lane, C_v587_lane, C_v588_lane, T, hatW, hatA, absD, innerAt, dotJ]
  first | done | rfl

def C_v634 (v3 v7 v11 : FVec Ideal S1x640 .f32) (v34 : FVec Ideal S4096x64 .bf16) : FVec Ideal S1x640 .f32 :=
  k0_pay43 (F := Ideal) (V6 v3) (V24 v7) (V36 v11 v34)
theorem C_v634_lane (v3 v7 v11 : FVec Ideal S1x640 .f32) (v34 : FVec Ideal S4096x64 .bf16) (l : Fin 640) :
    C_v634 v3 v7 v11 v34 (ix2 0 l) =
      T (V6 v3) (V24 v7) (V36 v11 v34) 0x42340000#32 2880 l := by
  unfold C_v634
  rw [pay43_lane]
  try simp only [T, hatW, hatA, absD, innerAt, dotJ]
  first | done | rfl

def C_v674 (v3 v7 v11 : FVec Ideal S1x640 .f32) (v34 : FVec Ideal S4096x64 .bf16) : FVec Ideal S1x640 .f32 :=
  k0_pay44 (F := Ideal) (V6 v3) (V24 v7) (V36 v11 v34) (C_v622 v3 v7 v11 v34) (C_v634 v3 v7 v11 v34)
theorem C_v674_lane (v3 v7 v11 : FVec Ideal S1x640 .f32) (v34 : FVec Ideal S4096x64 .bf16) (l : Fin 640) :
    C_v674 v3 v7 v11 v34 (ix2 0 l) =
      (((((((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l)) + (T (V6 v3) (V24 v7) (V36 v11 v34) 0x42340000#32 2880 l)) + (T (V6 v3) (V24 v7) (V36 v11 v34) 0x42380000#32 2944 l)) + (T (V6 v3) (V24 v7) (V36 v11 v34) 0x423C0000#32 3008 l)) + (T (V6 v3) (V24 v7) (V36 v11 v34) 0x42400000#32 3072 l) := by
  unfold C_v674
  rw [pay44_lane]
  try simp only [C_v622_lane, C_v634_lane, T, hatW, hatA, absD, innerAt, dotJ]
  first | done | rfl

def C_v678 (v3 v7 v11 : FVec Ideal S1x640 .f32) (v34 : FVec Ideal S4096x64 .bf16) : FVec Ideal S1x640 .f32 :=
  k0_pay45 (F := Ideal) (V24 v7) (V36 v11 v34)
theorem C_v678_lane (v3 v7 v11 : FVec Ideal S1x640 .f32) (v34 : FVec Ideal S4096x64 .bf16) (l : Fin 640) :
    C_v678 v3 v7 v11 v34 (ix2 0 l) =
      innerAt (V24 v7) (V36 v11 v34) 3136 l := by
  unfold C_v678
  rw [pay45_lane]
  try simp only [T, hatW, hatA, absD, innerAt, dotJ]
  first | done | rfl

def C_v680 (v3 v7 v11 : FVec Ideal S1x640 .f32) (v34 : FVec Ideal S4096x64 .bf16) : FVec Ideal S1x640 .f32 :=
  k0_pay46 (F := Ideal) (V6 v3)
theorem C_v680_lane (v3 v7 v11 : FVec Ideal S1x640 .f32) (v34 : FVec Ideal S4096x64 .bf16) (l : Fin 640) :
    C_v680 v3 v7 v11 v34 (ix2 0 l) =
      (lw 0x42440000#32) - ((V6 v3) (ix2 0 l)) := by
  unfold C_v680
  rw [pay46_lane]
  try simp only [T, hatW, hatA, absD, innerAt, dotJ]
  first | done | rfl

def C_v726 (v3 v7 v11 : FVec Ideal S1x640 .f32) (v34 : FVec Ideal S4096x64 .bf16) : FVec Ideal S1x640 .f32 :=
  k0_pay47 (F := Ideal) (V6 v3) (V24 v7) (V36 v11 v34) (C_v674 v3 v7 v11 v34) (C_v678 v3 v7 v11 v34) (C_v680 v3 v7 v11 v34)
theorem C_v726_lane (v3 v7 v11 : FVec Ideal S1x640 .f32) (v34 : FVec Ideal S4096x64 .bf16) (l : Fin 640) :
    C_v726 v3 v7 v11 v34 (ix2 0 l) =
      (((((((((((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l)) + (T (V6 v3) (V24 v7) (V36 v11 v34) 0x42340000#32 2880 l)) + (T (V6 v3) (V24 v7) (V36 v11 v34) 0x42380000#32 2944 l)) + (T (V6 v3) (V24 v7) (V36 v11 v34) 0x423C0000#32 3008 l)) + (T (V6 v3) (V24 v7) (V36 v11 v34) 0x42400000#32 3072 l)) + (T (V6 v3) (V24 v7) (V36 v11 v34) 0x42440000#32 3136 l)) + (T (V6 v3) (V24 v7) (V36 v11 v34) 0x42480000#32 3200 l)) + (T (V6 v3) (V24 v7) (V36 v11 v34) 0x424C0000#32 3264 l)) + (T (V6 v3) (V24 v7) (V36 v11 v34) 0x42500000#32 3328 l) := by
  unfold C_v726
  rw [pay47_lane]
  try simp only [C_v674_lane, C_v678_lane, C_v680_lane, T, hatW, hatA, absD, innerAt, dotJ]
  first | done | rfl

def C_v765 (v3 v7 v11 : FVec Ideal S1x640 .f32) (v34 : FVec Ideal S4096x64 .bf16) : FVec Ideal S1x640 .f32 :=
  k0_pay48 (F := Ideal) (V6 v3) (V24 v7) (V36 v11 v34) (C_v726 v3 v7 v11 v34)
theorem C_v765_lane (v3 v7 v11 : FVec Ideal S1x640 .f32) (v34 : FVec Ideal S4096x64 .bf16) (l : Fin 640) :
    C_v765 v3 v7 v11 v34 (ix2 0 l) =
      ((((((((((((((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l)) + (T (V6 v3) (V24 v7) (V36 v11 v34) 0x42340000#32 2880 l)) + (T (V6 v3) (V24 v7) (V36 v11 v34) 0x42380000#32 2944 l)) + (T (V6 v3) (V24 v7) (V36 v11 v34) 0x423C0000#32 3008 l)) + (T (V6 v3) (V24 v7) (V36 v11 v34) 0x42400000#32 3072 l)) + (T (V6 v3) (V24 v7) (V36 v11 v34) 0x42440000#32 3136 l)) + (T (V6 v3) (V24 v7) (V36 v11 v34) 0x42480000#32 3200 l)) + (T (V6 v3) (V24 v7) (V36 v11 v34) 0x424C0000#32 3264 l)) + (T (V6 v3) (V24 v7) (V36 v11 v34) 0x42500000#32 3328 l)) + (T (V6 v3) (V24 v7) (V36 v11 v34) 0x42540000#32 3392 l)) + (T (V6 v3) (V24 v7) (V36 v11 v34) 0x42580000#32 3456 l)) + (T (V6 v3) (V24 v7) (V36 v11 v34) 0x425C0000#32 3520 l) := by
  unfold C_v765
  rw [pay48_lane]
  try simp only [C_v726_lane, T, hatW, hatA, absD, innerAt, dotJ]
  first | done | rfl

def C_v769 (v3 v7 v11 : FVec Ideal S1x640 .f32) (v34 : FVec Ideal S4096x64 .bf16) : FVec Ideal S1x640 .f32 :=
  k0_pay49 (F := Ideal) (V24 v7) (V36 v11 v34)
theorem C_v769_lane (v3 v7 v11 : FVec Ideal S1x640 .f32) (v34 : FVec Ideal S4096x64 .bf16) (l : Fin 640) :
    C_v769 v3 v7 v11 v34 (ix2 0 l) =
      innerAt (V24 v7) (V36 v11 v34) 3584 l := by
  unfold C_v769
  rw [pay49_lane]
  try simp only [T, hatW, hatA, absD, innerAt, dotJ]
  first | done | rfl

def C_v772 (v3 v7 v11 : FVec Ideal S1x640 .f32) (v34 : FVec Ideal S4096x64 .bf16) : FVec Ideal S1x640 .f32 :=
  k0_pay50 (F := Ideal) (V6 v3)
theorem C_v772_lane (v3 v7 v11 : FVec Ideal S1x640 .f32) (v34 : FVec Ideal S4096x64 .bf16) (l : Fin 640) :
    C_v772 v3 v7 v11 v34 (ix2 0 l) =
      absD (lw 0x42600000#32) ((V6 v3) (ix2 0 l)) := by
  unfold C_v772
  rw [pay50_lane]
  try simp only [T, hatW, hatA, absD, innerAt, dotJ]
  first | done | rfl

def C_v817 (v3 v7 v11 : FVec Ideal S1x640 .f32) (v34 : FVec Ideal S4096x64 .bf16) : FVec Ideal S1x640 .f32 :=
  k0_pay51 (F := Ideal) (V6 v3) (V24 v7) (V36 v11 v34) (C_v765 v3 v7 v11 v34) (C_v769 v3 v7 v11 v34) (C_v772 v3 v7 v11 v34)
theorem C_v817_lane (v3 v7 v11 : FVec Ideal S1x640 .f32) (v34 : FVec Ideal S4096x64 .bf16) (l : Fin 640) :
    C_v817 v3 v7 v11 v34 (ix2 0 l) =
      ((((((((((((((((((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l)) + (T (V6 v3) (V24 v7) (V36 v11 v34) 0x42340000#32 2880 l)) + (T (V6 v3) (V24 v7) (V36 v11 v34) 0x42380000#32 2944 l)) + (T (V6 v3) (V24 v7) (V36 v11 v34) 0x423C0000#32 3008 l)) + (T (V6 v3) (V24 v7) (V36 v11 v34) 0x42400000#32 3072 l)) + (T (V6 v3) (V24 v7) (V36 v11 v34) 0x42440000#32 3136 l)) + (T (V6 v3) (V24 v7) (V36 v11 v34) 0x42480000#32 3200 l)) + (T (V6 v3) (V24 v7) (V36 v11 v34) 0x424C0000#32 3264 l)) + (T (V6 v3) (V24 v7) (V36 v11 v34) 0x42500000#32 3328 l)) + (T (V6 v3) (V24 v7) (V36 v11 v34) 0x42540000#32 3392 l)) + (T (V6 v3) (V24 v7) (V36 v11 v34) 0x42580000#32 3456 l)) + (T (V6 v3) (V24 v7) (V36 v11 v34) 0x425C0000#32 3520 l)) + (T (V6 v3) (V24 v7) (V36 v11 v34) 0x42600000#32 3584 l)) + (T (V6 v3) (V24 v7) (V36 v11 v34) 0x42640000#32 3648 l)) + (T (V6 v3) (V24 v7) (V36 v11 v34) 0x42680000#32 3712 l)) + (T (V6 v3) (V24 v7) (V36 v11 v34) 0x426C0000#32 3776 l) := by
  unfold C_v817
  rw [pay51_lane]
  try simp only [C_v765_lane, C_v769_lane, C_v772_lane, T, hatW, hatA, absD, innerAt, dotJ]
  first | done | rfl

def C_v818 (v3 v7 v11 : FVec Ideal S1x640 .f32) (v34 : FVec Ideal S4096x64 .bf16) : FVec Ideal S64x640 .f32 :=
  k0_pay52 (F := Ideal) (V36 v11 v34)
theorem C_v818_lane (v3 v7 v11 : FVec Ideal S1x640 .f32) (v34 : FVec Ideal S4096x64 .bf16) (j : Fin 64) (l : Fin 640) :
    C_v818 v3 v7 v11 v34 (ix2 j l) =
      (V36 v11 v34) (ix2 (rowOff 3840 j) l) := by
  unfold C_v818
  rw [pay52_lane]
  try simp only [T, hatW, hatA, absD, innerAt, dotJ]
  first | done | rfl

def C_v856 (v3 v7 v11 : FVec Ideal S1x640 .f32) (v34 : FVec Ideal S4096x64 .bf16) : FVec Ideal S1x640 .f32 :=
  k0_pay53 (F := Ideal) (V6 v3) (V24 v7) (V36 v11 v34) (C_v817 v3 v7 v11 v34) (C_v818 v3 v7 v11 v34)
theorem C_v856_lane (v3 v7 v11 : FVec Ideal S1x640 .f32) (v34 : FVec Ideal S4096x64 .bf16) (l : Fin 640) :
    C_v856 v3 v7 v11 v34 (ix2 0 l) =
      (((((((((((((((((((((((((((((((((((((((((((((((((((((((((((((((lw 0x00000000#32) + (T (V6 v3) (V24 v7) (V36 v11 v34) 0x00000000#32 0 l)) + (T (V6 v3) (V24 v7) (V36 v11 v34) 0x3F800000#32 64 l)) + (T (V6 v3) (V24 v7) (V36 v11 v34) 0x40000000#32 128 l)) + (T (V6 v3) (V24 v7) (V36 v11 v34) 0x40400000#32 192 l)) + (T (V6 v3) (V24 v7) (V36 v11 v34) 0x40800000#32 256 l)) + (T (V6 v3) (V24 v7) (V36 v11 v34) 0x40A00000#32 320 l)) + (T (V6 v3) (V24 v7) (V36 v11 v34) 0x40C00000#32 384 l)) + (T (V6 v3) (V24 v7) (V36 v11 v34) 0x40E00000#32 448 l)) + (T (V6 v3) (V24 v7) (V36 v11 v34) 0x41000000#32 512 l)) + (T (V6 v3) (V24 v7) (V36 v11 v34) 0x41100000#32 576 l)) + (T (V6 v3) (V24 v7) (V36 v11 v34) 0x41200000#32 640 l)) + (T (V6 v3) (V24 v7) (V36 v11 v34) 0x41300000#32 704 l)) + (T (V6 v3) (V24 v7) (V36 v11 v34) 0x41400000#32 768 l)) + (T (V6 v3) (V24 v7) (V36 v11 v34) 0x41500000#32 832 l)) + (T (V6 v3) (V24 v7) (V36 v11 v34) 0x41600000#32 896 l)) + (T (V6 v3) (V24 v7) (V36 v11 v34) 0x41700000#32 960 l)) + (T (V6 v3) (V24 v7) (V36 v11 v34) 0x41800000#32 1024 l)) + (T (V6 v3) (V24 v7) (V36 v11 v34) 0x41880000#32 1088 l)) + (T (V6 v3) (V24 v7) (V36 v11 v34) 0x41900000#32 1152 l)) + (T (V6 v3) (V24 v7) (V36 v11 v34) 0x41980000#32 1216 l)) + (T (V6 v3) (V24 v7) (V36 v11 v34) 0x41A00000#32 1280 l)) + (T (V6 v3) (V24 v7) (V36 v11 v34) 0x41A80000#32 1344 l)) + (T (V6 v3) (V24 v7) (V36 v11 v34) 0x41B00000#32 1408 l)) + (T (V6 v3) (V24 v7) (V36 v11 v34) 0x41B80000#32 1472 l)) + (T (V6 v3) (V24 v7) (V36 v11 v34) 0x41C00000#32 1536 l)) + (T (V6 v3) (V24 v7) (V36 v11 v34) 0x41C80000#32 1600 l)) + (T (V6 v3) (V24 v7) (V36 v11 v34) 0x41D00000#32 1664 l)) + (T (V6 v3) (V24 v7) (V36 v11 v34) 0x41D80000#32 1728 l)) + (T (V6 v3) (V24 v7) (V36 v11 v34) 0x41E00000#32 1792 l)) + (T (V6 v3) (V24 v7) (V36 v11 v34) 0x41E80000#32 1856 l)) + (T (V6 v3) (V24 v7) (V36 v11 v34) 0x41F00000#32 1920 l)) + (T (V6 v3) (V24 v7) (V36 v11 v34) 0x41F80000#32 1984 l)) + (T (V6 v3) (V24 v7) (V36 v11 v34) 0x42000000#32 2048 l)) + (T (V6 v3) (V24 v7) (V36 v11 v34) 0x42040000#32 2112 l)) + (T (V6 v3) (V24 v7) (V36 v11 v34) 0x42080000#32 2176 l)) + (T (V6 v3) (V24 v7) (V36 v11 v34) 0x420C0000#32 2240 l)) + (T (V6 v3) (V24 v7) (V36 v11 v34) 0x42100000#32 2304 l)) + (T (V6 v3) (V24 v7) (V36 v11 v34) 0x42140000#32 2368 l)) + (T (V6 v3) (V24 v7) (V36 v11 v34) 0x42180000#32 2432 l)) + (T (V6 v3) (V24 v7) (V36 v11 v34) 0x421C0000#32 2496 l)) + (T (V6 v3) (V24 v7) (V36 v11 v34) 0x42200000#32 2560 l)) + (T (V6 v3) (V24 v7) (V36 v11 v34) 0x42240000#32 2624 l)) + (T (V6 v3) (V24 v7) (V36 v11 v34) 0x42280000#32 2688 l)) + (T (V6 v3) (V24 v7) (V36 v11 v34) 0x422C0000#32 2752 l)) + (T (V6 v3) (V24 v7) (V36 v11 v34) 0x42300000#32 2816 l)) + (T (V6 v3) (V24 v7) (V36 v11 v34) 0x42340000#32 2880 l)) + (T (V6 v3) (V24 v7) (V36 v11 v34) 0x42380000#32 2944 l)) + (T (V6 v3) (V24 v7) (V36 v11 v34) 0x423C0000#32 3008 l)) + (T (V6 v3) (V24 v7) (V36 v11 v34) 0x42400000#32 3072 l)) + (T (V6 v3) (V24 v7) (V36 v11 v34) 0x42440000#32 3136 l)) + (T (V6 v3) (V24 v7) (V36 v11 v34) 0x42480000#32 3200 l)) + (T (V6 v3) (V24 v7) (V36 v11 v34) 0x424C0000#32 3264 l)) + (T (V6 v3) (V24 v7) (V36 v11 v34) 0x42500000#32 3328 l)) + (T (V6 v3) (V24 v7) (V36 v11 v34) 0x42540000#32 3392 l)) + (T (V6 v3) (V24 v7) (V36 v11 v34) 0x42580000#32 3456 l)) + (T (V6 v3) (V24 v7) (V36 v11 v34) 0x425C0000#32 3520 l)) + (T (V6 v3) (V24 v7) (V36 v11 v34) 0x42600000#32 3584 l)) + (T (V6 v3) (V24 v7) (V36 v11 v34) 0x42640000#32 3648 l)) + (T (V6 v3) (V24 v7) (V36 v11 v34) 0x42680000#32 3712 l)) + (T (V6 v3) (V24 v7) (V36 v11 v34) 0x426C0000#32 3776 l)) + (T (V6 v3) (V24 v7) (V36 v11 v34) 0x42700000#32 3840 l)) + (T (V6 v3) (V24 v7) (V36 v11 v34) 0x42740000#32 3904 l)) + (T (V6 v3) (V24 v7) (V36 v11 v34) 0x42780000#32 3968 l) := by
  unfold C_v856
  rw [pay53_lane]
  try simp only [C_v817_lane, C_v818_lane, T, hatW, hatA, absD, innerAt, dotJ]
  first | done | rfl

def C_v860 (v3 v7 v11 : FVec Ideal S1x640 .f32) (v34 : FVec Ideal S4096x64 .bf16) : FVec Ideal S1x640 .f32 :=
  k0_pay54 (F := Ideal) (V24 v7) (V36 v11 v34)
theorem C_v860_lane (v3 v7 v11 : FVec Ideal S1x640 .f32) (v34 : FVec Ideal S4096x64 .bf16) (l : Fin 640) :
    C_v860 v3 v7 v11 v34 (ix2 0 l) =
      innerAt (V24 v7) (V36 v11 v34) 4032 l := by
  unfold C_v860
  rw [pay54_lane]
  try simp only [T, hatW, hatA, absD, innerAt, dotJ]
  first | done | rfl

def C_v863 (v3 v7 v11 : FVec Ideal S1x640 .f32) (v34 : FVec Ideal S4096x64 .bf16) : FVec Ideal S1x640 .f32 :=
  k0_pay55 (F := Ideal) (V6 v3)
theorem C_v863_lane (v3 v7 v11 : FVec Ideal S1x640 .f32) (v34 : FVec Ideal S4096x64 .bf16) (l : Fin 640) :
    C_v863 v3 v7 v11 v34 (ix2 0 l) =
      absD (lw 0x427C0000#32) ((V6 v3) (ix2 0 l)) := by
  unfold C_v863
  rw [pay55_lane]
  try simp only [T, hatW, hatA, absD, innerAt, dotJ]
  first | done | rfl

/-! ## The whole tile: the 64 iterations, the square, the lane sum -/

open Cert.DistBridge (hatE)

/-- The per-lane value after all 64 iterations, as the program accumulates it. -/
def dvalW (v6 : FVec Ideal S1x640 .f32) (v24 : FVec Ideal S64x640 .f32) (v36 : FVec Ideal S4096x640 .f32) (l : Fin 640) : EReal :=
  ((((((((((((((((((((((((((((((((((((((((((((((((((((((((((((((((lw 0x00000000#32) + T v6 v24 v36 0x00000000#32 0 l) + T v6 v24 v36 0x3F800000#32 64 l) + T v6 v24 v36 0x40000000#32 128 l) + T v6 v24 v36 0x40400000#32 192 l) + T v6 v24 v36 0x40800000#32 256 l) + T v6 v24 v36 0x40A00000#32 320 l) + T v6 v24 v36 0x40C00000#32 384 l) + T v6 v24 v36 0x40E00000#32 448 l) + T v6 v24 v36 0x41000000#32 512 l) + T v6 v24 v36 0x41100000#32 576 l) + T v6 v24 v36 0x41200000#32 640 l) + T v6 v24 v36 0x41300000#32 704 l) + T v6 v24 v36 0x41400000#32 768 l) + T v6 v24 v36 0x41500000#32 832 l) + T v6 v24 v36 0x41600000#32 896 l) + T v6 v24 v36 0x41700000#32 960 l) + T v6 v24 v36 0x41800000#32 1024 l) + T v6 v24 v36 0x41880000#32 1088 l) + T v6 v24 v36 0x41900000#32 1152 l) + T v6 v24 v36 0x41980000#32 1216 l) + T v6 v24 v36 0x41A00000#32 1280 l) + T v6 v24 v36 0x41A80000#32 1344 l) + T v6 v24 v36 0x41B00000#32 1408 l) + T v6 v24 v36 0x41B80000#32 1472 l) + T v6 v24 v36 0x41C00000#32 1536 l) + T v6 v24 v36 0x41C80000#32 1600 l) + T v6 v24 v36 0x41D00000#32 1664 l) + T v6 v24 v36 0x41D80000#32 1728 l) + T v6 v24 v36 0x41E00000#32 1792 l) + T v6 v24 v36 0x41E80000#32 1856 l) + T v6 v24 v36 0x41F00000#32 1920 l) + T v6 v24 v36 0x41F80000#32 1984 l) + T v6 v24 v36 0x42000000#32 2048 l) + T v6 v24 v36 0x42040000#32 2112 l) + T v6 v24 v36 0x42080000#32 2176 l) + T v6 v24 v36 0x420C0000#32 2240 l) + T v6 v24 v36 0x42100000#32 2304 l) + T v6 v24 v36 0x42140000#32 2368 l) + T v6 v24 v36 0x42180000#32 2432 l) + T v6 v24 v36 0x421C0000#32 2496 l) + T v6 v24 v36 0x42200000#32 2560 l) + T v6 v24 v36 0x42240000#32 2624 l) + T v6 v24 v36 0x42280000#32 2688 l) + T v6 v24 v36 0x422C0000#32 2752 l) + T v6 v24 v36 0x42300000#32 2816 l) + T v6 v24 v36 0x42340000#32 2880 l) + T v6 v24 v36 0x42380000#32 2944 l) + T v6 v24 v36 0x423C0000#32 3008 l) + T v6 v24 v36 0x42400000#32 3072 l) + T v6 v24 v36 0x42440000#32 3136 l) + T v6 v24 v36 0x42480000#32 3200 l) + T v6 v24 v36 0x424C0000#32 3264 l) + T v6 v24 v36 0x42500000#32 3328 l) + T v6 v24 v36 0x42540000#32 3392 l) + T v6 v24 v36 0x42580000#32 3456 l) + T v6 v24 v36 0x425C0000#32 3520 l) + T v6 v24 v36 0x42600000#32 3584 l) + T v6 v24 v36 0x42640000#32 3648 l) + T v6 v24 v36 0x42680000#32 3712 l) + T v6 v24 v36 0x426C0000#32 3776 l) + T v6 v24 v36 0x42700000#32 3840 l) + T v6 v24 v36 0x42740000#32 3904 l) + T v6 v24 v36 0x42780000#32 3968 l) + T v6 v24 v36 0x427C0000#32 4032 l

/-- What the tile stores: the last payload over the composed stage values. -/
def outV (v3 v7 v11 : FVec Ideal S1x640 .f32) (v34 : FVec Ideal S4096x64 .bf16) (acc : FVec Ideal S1x1 .f32) : FVec Ideal S1x1 .f32 :=
  k0_pay1 (F := Ideal) (C_v856 v3 v7 v11 v34) (C_v860 v3 v7 v11 v34) (C_v863 v3 v7 v11 v34) (lw 0x3F800000#32) acc

theorem lw63 : lw 0x427C0000#32 = ((63 : ℝ) : EReal) := by rw [lit63]; norm_num

/-- Iteration `i`'s term in the mathematics' spelling (the band's rows through `rowOff`). -/
def tE (v3 v7 v11 : FVec Ideal S1x640 .f32) (v34 : FVec Ideal S4096x64 .bf16) (l : Fin 640) (i : ℕ) : EReal :=
  hatE (v3 (ix2 0 l) * ((63 : ℝ) : EReal)) i
    * ∑ j : Fin 64, hatE (v7 (ix2 0 l) * ((63 : ℝ) : EReal)) j
        * ∑ k : Fin 64, v34 (ix2 (rowOff (i * 64) j) k) * hatE (v11 (ix2 0 l) * ((63 : ℝ) : EReal)) k

theorem T_eq (v3 v7 v11 : FVec Ideal S1x640 .f32) (v34 : FVec Ideal S4096x64 .bf16) (l : Fin 640) (w : BitVec 32) (i : ℕ) (hw : lw w = (((i : ℕ) : ℝ) : EReal)) :
    T (V6 v3) (V24 v7) (V36 v11 v34) w (i * 64) l = tE v3 v7 v11 v34 l i := by
  have h6 : V6 v3 (ix2 0 l) = v3 (ix2 0 l) * ((63 : ℝ) : EReal) := by unfold V6; rw [pay3_lane, lw63]
  unfold T tE innerAt hatW
  rw [hw, lw_one, lw_zero, h6]
  refine congrArg₂ (· * ·) rfl (Finset.sum_congr rfl fun j _ => ?_)
  unfold V24 V36
  rw [pay5_lane, pay6_lane]
  simp only [hatW, lw_one, lw_zero, lw63]
  rfl

theorem rowOff_eq (i j : Fin 64) : rowOff (i.val * 64) j = ⟨i.val * 64 + j.val, by omega⟩ :=
  Fin.ext (Nat.mod_eq_of_lt (by have := i.isLt; have := j.isLt; omega))

/-- The per-lane value in the mathematics' spelling: the three-axis sum of hat weights against the matrix. -/
def dvR (v3 v7 v11 : FVec Ideal S1x640 .f32) (v34 : FVec Ideal S4096x64 .bf16) (l : Fin 640) : EReal :=
  ∑ i : Fin 64, hatE (v3 (ix2 0 l) * ((63 : ℝ) : EReal)) i
    * ∑ j : Fin 64, hatE (v7 (ix2 0 l) * ((63 : ℝ) : EReal)) j
        * ∑ k : Fin 64, v34 (ix2 ⟨i.val * 64 + j.val, by omega⟩ k) * hatE (v11 (ix2 0 l) * ((63 : ℝ) : EReal)) k

theorem dvR_eq_range (v3 v7 v11 : FVec Ideal S1x640 .f32) (v34 : FVec Ideal S4096x64 .bf16) (l : Fin 640) : dvR v3 v7 v11 v34 l = ∑ i ∈ Finset.range 64, tE v3 v7 v11 v34 l i := by
  rw [← Fin.sum_univ_eq_sum_range (fun i => tE v3 v7 v11 v34 l i) 64]
  unfold dvR tE
  refine Finset.sum_congr rfl fun i _ => ?_
  refine congrArg₂ (· * ·) rfl (Finset.sum_congr rfl fun j _ => ?_)
  rw [rowOff_eq i j]

set_option maxRecDepth 65536 in
theorem dvalW_eq (v3 v7 v11 : FVec Ideal S1x640 .f32) (v34 : FVec Ideal S4096x64 .bf16) (l : Fin 640) : dvalW (V6 v3) (V24 v7) (V36 v11 v34) l = dvR v3 v7 v11 v34 l := by
  unfold dvalW
  rw [show T (V6 v3) (V24 v7) (V36 v11 v34) 0x00000000#32 0 l = tE v3 v7 v11 v34 l 0 from T_eq v3 v7 v11 v34 l 0x00000000#32 0 lit0,
    show T (V6 v3) (V24 v7) (V36 v11 v34) 0x3F800000#32 64 l = tE v3 v7 v11 v34 l 1 from T_eq v3 v7 v11 v34 l 0x3F800000#32 1 lit1,
    show T (V6 v3) (V24 v7) (V36 v11 v34) 0x40000000#32 128 l = tE v3 v7 v11 v34 l 2 from T_eq v3 v7 v11 v34 l 0x40000000#32 2 lit2,
    show T (V6 v3) (V24 v7) (V36 v11 v34) 0x40400000#32 192 l = tE v3 v7 v11 v34 l 3 from T_eq v3 v7 v11 v34 l 0x40400000#32 3 lit3,
    show T (V6 v3) (V24 v7) (V36 v11 v34) 0x40800000#32 256 l = tE v3 v7 v11 v34 l 4 from T_eq v3 v7 v11 v34 l 0x40800000#32 4 lit4,
    show T (V6 v3) (V24 v7) (V36 v11 v34) 0x40A00000#32 320 l = tE v3 v7 v11 v34 l 5 from T_eq v3 v7 v11 v34 l 0x40A00000#32 5 lit5,
    show T (V6 v3) (V24 v7) (V36 v11 v34) 0x40C00000#32 384 l = tE v3 v7 v11 v34 l 6 from T_eq v3 v7 v11 v34 l 0x40C00000#32 6 lit6,
    show T (V6 v3) (V24 v7) (V36 v11 v34) 0x40E00000#32 448 l = tE v3 v7 v11 v34 l 7 from T_eq v3 v7 v11 v34 l 0x40E00000#32 7 lit7,
    show T (V6 v3) (V24 v7) (V36 v11 v34) 0x41000000#32 512 l = tE v3 v7 v11 v34 l 8 from T_eq v3 v7 v11 v34 l 0x41000000#32 8 lit8,
    show T (V6 v3) (V24 v7) (V36 v11 v34) 0x41100000#32 576 l = tE v3 v7 v11 v34 l 9 from T_eq v3 v7 v11 v34 l 0x41100000#32 9 lit9,
    show T (V6 v3) (V24 v7) (V36 v11 v34) 0x41200000#32 640 l = tE v3 v7 v11 v34 l 10 from T_eq v3 v7 v11 v34 l 0x41200000#32 10 lit10,
    show T (V6 v3) (V24 v7) (V36 v11 v34) 0x41300000#32 704 l = tE v3 v7 v11 v34 l 11 from T_eq v3 v7 v11 v34 l 0x41300000#32 11 lit11,
    show T (V6 v3) (V24 v7) (V36 v11 v34) 0x41400000#32 768 l = tE v3 v7 v11 v34 l 12 from T_eq v3 v7 v11 v34 l 0x41400000#32 12 lit12,
    show T (V6 v3) (V24 v7) (V36 v11 v34) 0x41500000#32 832 l = tE v3 v7 v11 v34 l 13 from T_eq v3 v7 v11 v34 l 0x41500000#32 13 lit13,
    show T (V6 v3) (V24 v7) (V36 v11 v34) 0x41600000#32 896 l = tE v3 v7 v11 v34 l 14 from T_eq v3 v7 v11 v34 l 0x41600000#32 14 lit14,
    show T (V6 v3) (V24 v7) (V36 v11 v34) 0x41700000#32 960 l = tE v3 v7 v11 v34 l 15 from T_eq v3 v7 v11 v34 l 0x41700000#32 15 lit15,
    show T (V6 v3) (V24 v7) (V36 v11 v34) 0x41800000#32 1024 l = tE v3 v7 v11 v34 l 16 from T_eq v3 v7 v11 v34 l 0x41800000#32 16 lit16,
    show T (V6 v3) (V24 v7) (V36 v11 v34) 0x41880000#32 1088 l = tE v3 v7 v11 v34 l 17 from T_eq v3 v7 v11 v34 l 0x41880000#32 17 lit17,
    show T (V6 v3) (V24 v7) (V36 v11 v34) 0x41900000#32 1152 l = tE v3 v7 v11 v34 l 18 from T_eq v3 v7 v11 v34 l 0x41900000#32 18 lit18,
    show T (V6 v3) (V24 v7) (V36 v11 v34) 0x41980000#32 1216 l = tE v3 v7 v11 v34 l 19 from T_eq v3 v7 v11 v34 l 0x41980000#32 19 lit19,
    show T (V6 v3) (V24 v7) (V36 v11 v34) 0x41A00000#32 1280 l = tE v3 v7 v11 v34 l 20 from T_eq v3 v7 v11 v34 l 0x41A00000#32 20 lit20,
    show T (V6 v3) (V24 v7) (V36 v11 v34) 0x41A80000#32 1344 l = tE v3 v7 v11 v34 l 21 from T_eq v3 v7 v11 v34 l 0x41A80000#32 21 lit21,
    show T (V6 v3) (V24 v7) (V36 v11 v34) 0x41B00000#32 1408 l = tE v3 v7 v11 v34 l 22 from T_eq v3 v7 v11 v34 l 0x41B00000#32 22 lit22,
    show T (V6 v3) (V24 v7) (V36 v11 v34) 0x41B80000#32 1472 l = tE v3 v7 v11 v34 l 23 from T_eq v3 v7 v11 v34 l 0x41B80000#32 23 lit23,
    show T (V6 v3) (V24 v7) (V36 v11 v34) 0x41C00000#32 1536 l = tE v3 v7 v11 v34 l 24 from T_eq v3 v7 v11 v34 l 0x41C00000#32 24 lit24,
    show T (V6 v3) (V24 v7) (V36 v11 v34) 0x41C80000#32 1600 l = tE v3 v7 v11 v34 l 25 from T_eq v3 v7 v11 v34 l 0x41C80000#32 25 lit25,
    show T (V6 v3) (V24 v7) (V36 v11 v34) 0x41D00000#32 1664 l = tE v3 v7 v11 v34 l 26 from T_eq v3 v7 v11 v34 l 0x41D00000#32 26 lit26,
    show T (V6 v3) (V24 v7) (V36 v11 v34) 0x41D80000#32 1728 l = tE v3 v7 v11 v34 l 27 from T_eq v3 v7 v11 v34 l 0x41D80000#32 27 lit27,
    show T (V6 v3) (V24 v7) (V36 v11 v34) 0x41E00000#32 1792 l = tE v3 v7 v11 v34 l 28 from T_eq v3 v7 v11 v34 l 0x41E00000#32 28 lit28,
    show T (V6 v3) (V24 v7) (V36 v11 v34) 0x41E80000#32 1856 l = tE v3 v7 v11 v34 l 29 from T_eq v3 v7 v11 v34 l 0x41E80000#32 29 lit29,
    show T (V6 v3) (V24 v7) (V36 v11 v34) 0x41F00000#32 1920 l = tE v3 v7 v11 v34 l 30 from T_eq v3 v7 v11 v34 l 0x41F00000#32 30 lit30,
    show T (V6 v3) (V24 v7) (V36 v11 v34) 0x41F80000#32 1984 l = tE v3 v7 v11 v34 l 31 from T_eq v3 v7 v11 v34 l 0x41F80000#32 31 lit31,
    show T (V6 v3) (V24 v7) (V36 v11 v34) 0x42000000#32 2048 l = tE v3 v7 v11 v34 l 32 from T_eq v3 v7 v11 v34 l 0x42000000#32 32 lit32,
    show T (V6 v3) (V24 v7) (V36 v11 v34) 0x42040000#32 2112 l = tE v3 v7 v11 v34 l 33 from T_eq v3 v7 v11 v34 l 0x42040000#32 33 lit33,
    show T (V6 v3) (V24 v7) (V36 v11 v34) 0x42080000#32 2176 l = tE v3 v7 v11 v34 l 34 from T_eq v3 v7 v11 v34 l 0x42080000#32 34 lit34,
    show T (V6 v3) (V24 v7) (V36 v11 v34) 0x420C0000#32 2240 l = tE v3 v7 v11 v34 l 35 from T_eq v3 v7 v11 v34 l 0x420C0000#32 35 lit35,
    show T (V6 v3) (V24 v7) (V36 v11 v34) 0x42100000#32 2304 l = tE v3 v7 v11 v34 l 36 from T_eq v3 v7 v11 v34 l 0x42100000#32 36 lit36,
    show T (V6 v3) (V24 v7) (V36 v11 v34) 0x42140000#32 2368 l = tE v3 v7 v11 v34 l 37 from T_eq v3 v7 v11 v34 l 0x42140000#32 37 lit37,
    show T (V6 v3) (V24 v7) (V36 v11 v34) 0x42180000#32 2432 l = tE v3 v7 v11 v34 l 38 from T_eq v3 v7 v11 v34 l 0x42180000#32 38 lit38,
    show T (V6 v3) (V24 v7) (V36 v11 v34) 0x421C0000#32 2496 l = tE v3 v7 v11 v34 l 39 from T_eq v3 v7 v11 v34 l 0x421C0000#32 39 lit39,
    show T (V6 v3) (V24 v7) (V36 v11 v34) 0x42200000#32 2560 l = tE v3 v7 v11 v34 l 40 from T_eq v3 v7 v11 v34 l 0x42200000#32 40 lit40,
    show T (V6 v3) (V24 v7) (V36 v11 v34) 0x42240000#32 2624 l = tE v3 v7 v11 v34 l 41 from T_eq v3 v7 v11 v34 l 0x42240000#32 41 lit41,
    show T (V6 v3) (V24 v7) (V36 v11 v34) 0x42280000#32 2688 l = tE v3 v7 v11 v34 l 42 from T_eq v3 v7 v11 v34 l 0x42280000#32 42 lit42,
    show T (V6 v3) (V24 v7) (V36 v11 v34) 0x422C0000#32 2752 l = tE v3 v7 v11 v34 l 43 from T_eq v3 v7 v11 v34 l 0x422C0000#32 43 lit43,
    show T (V6 v3) (V24 v7) (V36 v11 v34) 0x42300000#32 2816 l = tE v3 v7 v11 v34 l 44 from T_eq v3 v7 v11 v34 l 0x42300000#32 44 lit44,
    show T (V6 v3) (V24 v7) (V36 v11 v34) 0x42340000#32 2880 l = tE v3 v7 v11 v34 l 45 from T_eq v3 v7 v11 v34 l 0x42340000#32 45 lit45,
    show T (V6 v3) (V24 v7) (V36 v11 v34) 0x42380000#32 2944 l = tE v3 v7 v11 v34 l 46 from T_eq v3 v7 v11 v34 l 0x42380000#32 46 lit46,
    show T (V6 v3) (V24 v7) (V36 v11 v34) 0x423C0000#32 3008 l = tE v3 v7 v11 v34 l 47 from T_eq v3 v7 v11 v34 l 0x423C0000#32 47 lit47,
    show T (V6 v3) (V24 v7) (V36 v11 v34) 0x42400000#32 3072 l = tE v3 v7 v11 v34 l 48 from T_eq v3 v7 v11 v34 l 0x42400000#32 48 lit48,
    show T (V6 v3) (V24 v7) (V36 v11 v34) 0x42440000#32 3136 l = tE v3 v7 v11 v34 l 49 from T_eq v3 v7 v11 v34 l 0x42440000#32 49 lit49,
    show T (V6 v3) (V24 v7) (V36 v11 v34) 0x42480000#32 3200 l = tE v3 v7 v11 v34 l 50 from T_eq v3 v7 v11 v34 l 0x42480000#32 50 lit50,
    show T (V6 v3) (V24 v7) (V36 v11 v34) 0x424C0000#32 3264 l = tE v3 v7 v11 v34 l 51 from T_eq v3 v7 v11 v34 l 0x424C0000#32 51 lit51,
    show T (V6 v3) (V24 v7) (V36 v11 v34) 0x42500000#32 3328 l = tE v3 v7 v11 v34 l 52 from T_eq v3 v7 v11 v34 l 0x42500000#32 52 lit52,
    show T (V6 v3) (V24 v7) (V36 v11 v34) 0x42540000#32 3392 l = tE v3 v7 v11 v34 l 53 from T_eq v3 v7 v11 v34 l 0x42540000#32 53 lit53,
    show T (V6 v3) (V24 v7) (V36 v11 v34) 0x42580000#32 3456 l = tE v3 v7 v11 v34 l 54 from T_eq v3 v7 v11 v34 l 0x42580000#32 54 lit54,
    show T (V6 v3) (V24 v7) (V36 v11 v34) 0x425C0000#32 3520 l = tE v3 v7 v11 v34 l 55 from T_eq v3 v7 v11 v34 l 0x425C0000#32 55 lit55,
    show T (V6 v3) (V24 v7) (V36 v11 v34) 0x42600000#32 3584 l = tE v3 v7 v11 v34 l 56 from T_eq v3 v7 v11 v34 l 0x42600000#32 56 lit56,
    show T (V6 v3) (V24 v7) (V36 v11 v34) 0x42640000#32 3648 l = tE v3 v7 v11 v34 l 57 from T_eq v3 v7 v11 v34 l 0x42640000#32 57 lit57,
    show T (V6 v3) (V24 v7) (V36 v11 v34) 0x42680000#32 3712 l = tE v3 v7 v11 v34 l 58 from T_eq v3 v7 v11 v34 l 0x42680000#32 58 lit58,
    show T (V6 v3) (V24 v7) (V36 v11 v34) 0x426C0000#32 3776 l = tE v3 v7 v11 v34 l 59 from T_eq v3 v7 v11 v34 l 0x426C0000#32 59 lit59,
    show T (V6 v3) (V24 v7) (V36 v11 v34) 0x42700000#32 3840 l = tE v3 v7 v11 v34 l 60 from T_eq v3 v7 v11 v34 l 0x42700000#32 60 lit60,
    show T (V6 v3) (V24 v7) (V36 v11 v34) 0x42740000#32 3904 l = tE v3 v7 v11 v34 l 61 from T_eq v3 v7 v11 v34 l 0x42740000#32 61 lit61,
    show T (V6 v3) (V24 v7) (V36 v11 v34) 0x42780000#32 3968 l = tE v3 v7 v11 v34 l 62 from T_eq v3 v7 v11 v34 l 0x42780000#32 62 lit62,
    show T (V6 v3) (V24 v7) (V36 v11 v34) 0x427C0000#32 4032 l = tE v3 v7 v11 v34 l 63 from T_eq v3 v7 v11 v34 l 0x427C0000#32 63 lit63]
  rw [dvR_eq_range, lw_zero]
  simp only [Finset.sum_range_succ, Finset.sum_range_zero]

/-- **The tile's value.** The stored accumulator is the old one plus one half of the lane sum of the squared per-lane values. -/
theorem outV_eq (v3 v7 v11 : FVec Ideal S1x640 .f32) (v34 : FVec Ideal S4096x64 .bf16) (acc : FVec Ideal S1x1 .f32) :
    outV v3 v7 v11 v34 acc (ix2 0 0)
      = acc (ix2 0 0) + Ideal.ofBits .f32 0x3F000000#32 * ∑ l : Fin 640, dvR v3 v7 v11 v34 l * dvR v3 v7 v11 v34 l := by
  unfold outV
  rw [pay1_lane]
  refine congrArg (acc (ix2 0 0) + ·) (congrArg (lw 0x3F000000#32 * ·) (Finset.sum_congr rfl fun l _ => ?_))
  have hD : C_v856 v3 v7 v11 v34 (ix2 0 l) + hatA (lw 0x3F800000#32) (lw 0x00000000#32) (C_v863 v3 v7 v11 v34 (ix2 0 l)) * C_v860 v3 v7 v11 v34 (ix2 0 l)
      = dvalW (V6 v3) (V24 v7) (V36 v11 v34) l := by
    rw [C_v856_lane, C_v860_lane, C_v863_lane]
    simp only [dvalW, T, hatW, hatA, absD]
  rw [hD, dvalW_eq]

/-! ## The same over the vertex block: the three rows are the block's rows -/

/-- Row `a` of the 3x640 block, loaded as a 1x640 vector, read at lane `l`. -/
theorem ld_row (x0 : Vec Ideal S3x640 .f32) (a : ℕ) (ha : a < 3)
    (inb : ∀ b, (![a, 0] : Fin 2 → Nat) b + S1x640.size b ≤ S3x640.size b) (l : Fin 640) :
    View.ld x0 (Rect.unit (s := S3x640) ![a, 0] S1x640.size inb) (ix2 (0 : Fin 1) l) = x0 (ix2 ⟨a, ha⟩ l) := by
  show x0 ((Rect.unit (s := S3x640) ![a, 0] S1x640.size inb).idx (ix2 (0 : Fin 1) l)) = _
  refine congrArg x0 (funext fun b => Fin.ext ?_)
  match b with
  | ⟨0, _⟩ => show a + 1 * 0 = a; omega
  | ⟨1, _⟩ => show 0 + 1 * l.val = l.val; omega

/-- The three coordinate rows of a vertex block. -/
abbrev row0 (x0 : Vec Ideal S3x640 .f32) : FVec Ideal S1x640 .f32 :=
  View.ld x0 (Rect.unit (s := S3x640) ![0, 0] S1x640.size inb_S3x640_S1x640_0_0)
abbrev row1 (x0 : Vec Ideal S3x640 .f32) : FVec Ideal S1x640 .f32 :=
  View.ld x0 (Rect.unit (s := S3x640) ![1, 0] S1x640.size inb_S3x640_S1x640_1_0)
abbrev row2 (x0 : Vec Ideal S3x640 .f32) : FVec Ideal S1x640 .f32 :=
  View.ld x0 (Rect.unit (s := S3x640) ![2, 0] S1x640.size inb_S3x640_S1x640_2_0)

theorem row0_lane (x0 : Vec Ideal S3x640 .f32) (l : Fin 640) : row0 x0 (ix2 0 l) = x0 (ix2 0 l) :=
  ld_row x0 0 (by norm_num) _ l
theorem row1_lane (x0 : Vec Ideal S3x640 .f32) (l : Fin 640) : row1 x0 (ix2 0 l) = x0 (ix2 1 l) :=
  ld_row x0 1 (by norm_num) _ l
theorem row2_lane (x0 : Vec Ideal S3x640 .f32) (l : Fin 640) : row2 x0 (ix2 0 l) = x0 (ix2 2 l) :=
  ld_row x0 2 (by norm_num) _ l

/-- The per-point value of lane `l` of a tile: the three-axis sum of the hat weights at 63 times the vertex's
    coordinates against the grid matrix (row `i * 64 + j`, column `k` holds the grid value at `(i, j, k)`). -/
def dv (x0 : Vec Ideal S3x640 .f32) (x1 : Vec Ideal S4096x64 .bf16) (l : Fin 640) : EReal :=
  ∑ i : Fin 64, hatE (x0 (ix2 0 l) * ((63 : ℝ) : EReal)) i
    * ∑ j : Fin 64, hatE (x0 (ix2 1 l) * ((63 : ℝ) : EReal)) j
        * ∑ k : Fin 64, x1 (ix2 ⟨i.val * 64 + j.val, by omega⟩ k) * hatE (x0 (ix2 2 l) * ((63 : ℝ) : EReal)) k

theorem dvR_rows (x0 : Vec Ideal S3x640 .f32) (x1 : Vec Ideal S4096x64 .bf16) (l : Fin 640) :
    dvR (row0 x0) (row1 x0) (row2 x0) x1 l = dv x0 x1 l := by
  unfold dvR dv
  rw [row0_lane, row1_lane, row2_lane]

/-- **One grid point's step.** With the three rows of the vertex block `x0` and the grid matrix `x1` loaded, the value
    the tile stores is the accumulator plus one half of the sum over the 640 lanes of the squared per-point values. -/
theorem tile_value (x0 : Vec Ideal S3x640 .f32) (x1 : Vec Ideal S4096x64 .bf16) (acc : FVec Ideal S1x1 .f32) :
    outV (row0 x0) (row1 x0) (row2 x0) x1 acc (ix2 0 0)
      = acc (ix2 0 0) + Ideal.ofBits .f32 0x3F000000#32 * ∑ l : Fin 640, dv x0 x1 l * dv x0 x1 l := by
  rw [outV_eq]
  simp only [dvR_rows]

end Cert.KernelIdeal.Tile0

end
-- ==== Proof.KI.TileLaw.lean ====
/-
  One grid point of the distance-field kernel adds its tile's term to the accumulator: the composed payloads the frame
  run threads through the body are, term for term, the chain whose value at the one index was computed lane by lane.
-/
import proofs.«152542_j63075889709151_1_alg».proof.Proof.KI.DistHalf
import proofs.«152542_j63075889709151_1_alg».proof.Proof.KI.Tile0

set_option maxRecDepth 65536

noncomputable section

namespace Cert.KernelIdeal.Hand

open Cert.KernelIdeal Cert.KernelIdeal.Gen
open Idealize.ShloMosaic Idealize.ShloMosaic.ValueIdx

/-- The accumulator's step as the frame run finds it is the chain of payloads, composed in program order. -/
theorem step0_eq (x0 : Vec Ideal S3x640 .f32) (x1 : Vec Ideal S4096x64 .bf16) (acc : Vec Ideal S1x1 .f32) :
    step0 (F := Ideal) x0 x1 acc = Tile0.outV (Tile0.row0 x0) (Tile0.row1 x0) (Tile0.row2 x0) x1 acc := rfl

/-- The tile law. -/
theorem tileLaw : TileLaw := fun x0 x1 acc => by
  rw [step0_eq]
  exact Tile0.tile_value x0 x1 acc

end Cert.KernelIdeal.Hand

end
-- ==== Proof.KI.R1Value.lean ====
/- Region 1: the VALUE of what each case of the edge-term kernel leaves in the output window's buffer and in the carried
   scratch, as closed equations over the skeleton's payloads, and from them the accumulation as one explicit step from
   point to point. -/
import proofs.«152542_j63075889709151_1_alg».proof.Proof.KI.R1Body
import Idealize.ShloMosaic.Lib.Pipeline.Value

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: the VALUE of what each case leaves, over the skeleton's payloads -/

/-- The zero offsets of every access of the body, as a function. -/
theorem r1_hz : (![0, 0] : Fin 2 → Nat) = fun _ => 0 := funext fun a => by fin_cases a <;> rfl

/-- A load through the whole-shape rectangle at zero offsets of what a list of stores left whose LAST store is through
    that rectangle reads that store's payload, whatever the earlier stores were (the running sum read back after it was
    stored over the zero). -/
theorem r1_readCov_cons_unit_zero {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- CASE B's scratch (every point after the first): the body leaves, in the scratch holding `xs0`, the sum payload of
    the three input blocks and `xs0` — its one covering store's payload, whose loads read the whole buffers. -/
theorem sout1_B_0_eq (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) :
    sout1_B_0 c i arg1 harg1 arg2 harg2 arg3 harg3 arg4 harg4 arg5 harg5 hc0 x0 x1 x2 xs0 = k1_pay2 x0 x1 x2 xs0 := by
  unfold sout1_B_0
  rw [View.read_writes_eq_canon _ _ _ (scover1_B_0 c i arg1 harg1 arg2 harg2 arg3 harg3 arg4 harg4 arg5 harg5 hc0 x0 x1 x2 xs0)]
  unfold kernelRun1_B
  dsimp only
  sl_unfold_words
  rw [View.canon_unit_zero (S := S1x1) r1_hz]
  simp only [View.readAt_eq_ld, harg1.read_unread, harg2.read_unread, harg3.read_unread, harg5.read_unread, View.ld_unit_zero (S := S3x80000) r1_hz, View.ld_unit_zero (S := S1x80000) r1_hz, View.ld_unit_zero (S := S1x1) r1_hz]

/-- CASE B's output: the body stores into the output window what it reads back from the scratch after that store — the
    same sum. -/
theorem out1_B_3_eq (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : ¬cond1_0 i)
    (x0 : Vec F S3x80000 .f32) (x1 : Vec F S3x80000 .f32) (x2 : Vec F S1x80000 .f32) (xs0 : Vec F S1x1 .f32) :
    out1_B_3 c i arg1 harg1 arg2 harg2 arg3 harg3 arg4 harg4 arg5 harg5 hc0 x0 x1 x2 xs0 = k1_pay2 x0 x1 x2 xs0 := by
  unfold out1_B_3
  rw [View.read_writes_eq_canon _ _ _ (cover1_B_3 c i arg1 harg1 arg2 harg2 arg3 harg3 arg4 harg4 arg5 harg5 hc0 x0 x1 x2 xs0)]
  unfold kernelRun1_B
  dsimp only
  sl_unfold_words
  rw [View.canon_unit_zero (S := S1x1) r1_hz, View.readCov_unit_zero (S := S1x1) _ r1_hz]
  simp only [View.readAt_eq_ld, harg1.read_unread, harg2.read_unread, harg3.read_unread, harg5.read_unread, View.ld_unit_zero (S := S3x80000) r1_hz, View.ld_unit_zero (S := S1x80000) r1_hz, View.ld_unit_zero (S := S1x1) r1_hz]

/-- CASE A's scratch (the first point): the body stores the zero payload, reads it back, and leaves the sum payload of the
    three input blocks and that zero — the read-back is a covered load of the first store. -/
theorem sout1_A_0_eq (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) :
    sout1_A_0 c i arg1 harg1 arg2 harg2 arg3 harg3 arg4 harg4 arg5 harg5 hc0 x0 x1 x2 = k1_pay2 x0 x1 x2 (k1_pay1 (F := F)) := by
  unfold sout1_A_0
  rw [View.read_writes_eq_canon _ _ _ (scover1_A_0 c i arg1 harg1 arg2 harg2 arg3 harg3 arg4 harg4 arg5 harg5 hc0 x0 x1 x2)]
  unfold kernelRun1_A
  dsimp only
  sl_unfold_words
  rw [View.canon_cons_unit_zero (S := S1x1) r1_hz, View.readCov_unit_zero (S := S1x1) _ r1_hz]
  simp only [View.readAt_eq_ld, harg1.read_unread, harg2.read_unread, harg3.read_unread, View.ld_unit_zero (S := S3x80000) r1_hz, View.ld_unit_zero (S := S1x80000) r1_hz, View.ld_unit_zero (S := S1x1) r1_hz]

/-- CASE A's output: what the body reads back from the scratch after its two stores — the same sum. -/
theorem out1_A_3_eq (c : Dev nD) (i : grid1.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (hc0 : cond1_0 i)
    (x0 : Vec F S3x80000 .f32) (x1 : Vec F S3x80000 .f32) (x2 : Vec F S1x80000 .f32) :
    out1_A_3 c i arg1 harg1 arg2 harg2 arg3 harg3 arg4 harg4 arg5 harg5 hc0 x0 x1 x2 = k1_pay2 x0 x1 x2 (k1_pay1 (F := F)) := by
  unfold out1_A_3
  rw [View.read_writes_eq_canon _ _ _ (cover1_A_3 c i arg1 harg1 arg2 harg2 arg3 harg3 arg4 harg4 arg5 harg5 hc0 x0 x1 x2)]
  unfold kernelRun1_A
  dsimp only
  sl_unfold_words
  rw [View.canon_unit_zero (S := S1x1) r1_hz, r1_readCov_cons_unit_zero (S := S1x1) _ r1_hz, View.readCov_unit_zero (S := S1x1) _ r1_hz]
  simp only [View.readAt_eq_ld, harg1.read_unread, harg2.read_unread, harg3.read_unread, View.ld_unit_zero (S := S3x80000) r1_hz, View.ld_unit_zero (S := S1x80000) r1_hz, View.ld_unit_zero (S := S1x1) r1_hz]

/-! ## The accumulation as ONE explicit step -/

/-- One point's step: from the running sum `s` the point before left, the sum payload of point `t`'s three input
    blocks and `s` (the payload adds the tile's term to `s`). -/
def step1 (c : Dev nD) (t : Fin cfg1.N) (s : Vec F S1x1 .f32) : Vec F S1x1 .f32 :=
  k1_pay2 (iblk1 V c 0 t) (iblk1 V c 1 t) (iblk1 V c 2 t) s

/-- After the first point both the output window's buffer and the scratch hold the step from the zero payload. -/
theorem outsAt1_zero (c : Dev nD) (h : 0 < cfg1.N) :
    outsAt1 V c 0 h = (step1 V c ⟨0, h⟩ (k1_pay1 (F := F)), step1 V c ⟨0, h⟩ (k1_pay1 (F := F))) := by
  rw [show outsAt1 V c 0 h = outsAt1 V c (⟨0, h⟩ : Fin cfg1.N).val (⟨0, h⟩ : Fin cfg1.N).isLt from rfl,
    outsAt1_A V c ⟨0, h⟩ (Nat.zero_mod _), out1_A_3_eq, sout1_A_0_eq]
  rfl

/-- After point `n + 1` both hold the step from what point `n` left in the scratch. -/
theorem outsAt1_succ (c : Dev nD) (n : ℕ) (h : n + 1 < cfg1.N) :
    outsAt1 V c (n + 1) h = (step1 V c ⟨n + 1, h⟩ (outsAt1 V c n (Nat.lt_of_succ_lt h)).2, step1 V c ⟨n + 1, h⟩ (outsAt1 V c n (Nat.lt_of_succ_lt h)).2) := by
  have hN : cfg1.N = 75 := N_1
  have hB : ¬(⟨n + 1, h⟩ : Fin cfg1.N).val % 75 = 0 := by dsimp only; omega
  rw [show outsAt1 V c (n + 1) h = outsAt1 V c (⟨n + 1, h⟩ : Fin cfg1.N).val (⟨n + 1, h⟩ : Fin cfg1.N).isLt from rfl,
    outsAt1_B V c ⟨n + 1, h⟩ hB, out1_B_3_eq, sout1_B_0_eq]
  rfl

end Cert.KernelIdeal.Hand

end
-- ==== Proof.KI.Tile1.lean ====
/- The edge-term kernel's two stored values read at their one index, in the extended reals: the reset payload is the zero
   word; the sum payload is what the scratch held plus the tile's term — one half of the sum over the tile's 80000 edges
   of the squared residual (the edge's length, the square root of its squared length plus a small constant, minus its
   rest length). Float literals stay words; only the reductions' neutral zero is evaluated. -/
import proofs.«152542_j63075889709151_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile1

open Cert.KernelIdeal Cert.KernelIdeal.Gen
open Idealize.ShloMosaic Idealize.ShloMosaic.ValueIdx

/-! ## The tile's term, in the extended reals -/

/-- Edge `l`'s squared length in a tile: the zero word plus the sum over the three coordinates of the squared difference
    of the two endpoint blocks. -/
def edgeSq (v3 v5 : Vec Ideal S3x80000 .f32) (l : Fin 80000) : EReal :=
  Ideal.ofBits .f32 0x00000000#32 + ∑ c : Fin 3, (v3 (ix2 c l) - v5 (ix2 c l)) * (v3 (ix2 c l) - v5 (ix2 c l))

/-- Edge `l`'s residual: the square root of its squared length plus the epsilon word, minus its rest length. -/
def edgeRes (v3 v5 : Vec Ideal S3x80000 .f32) (v14 : Vec Ideal S1x80000 .f32) (l : Fin 80000) : EReal :=
  Ideal.sqrt (edgeSq v3 v5 l + Ideal.ofBits .f32 0x2B8CBCCC#32) - v14 (ix2 0 l)

/-- The tile's term: the one-half word times (the zero word plus the sum over the tile's 80000 edges of the squared
    residual). -/
def tileTerm (v3 v5 : Vec Ideal S3x80000 .f32) (v14 : Vec Ideal S1x80000 .f32) : EReal :=
  Ideal.ofBits .f32 0x3F000000#32 * (Ideal.ofBits .f32 0x00000000#32 + ∑ l : Fin 80000, edgeRes v3 v5 v14 l * edgeRes v3 v5 v14 l)

/-! ## Indices -/

/-- The reduced index `l` with coordinate row `k` put back is (k, l). -/
theorem lift_rows (h : S3x80000.Reduces [0] S80000) (l : Fin 80000) (k : Fin (S3x80000.size 0)) :
    h.lift (ix1 l) k = ix2 (⟨k.val, k.isLt⟩ : Fin 3) l := by
  funext c; apply Fin.ext
  fin_cases c <;> rfl

/-- The reduced index 0 with lane `k` put back is (0, k). -/
theorem lift_lanes (h : S1x80000.Reduces [1] S1) (k : Fin (S1x80000.size 1)) :
    h.lift (ix1 (0 : Fin 1)) k = ix2 (0 : Fin 1) (⟨k.val, k.isLt⟩ : Fin 80000) := by
  funext c; apply Fin.ext
  fin_cases c <;> rfl

/-- An index of the [1, n] shape without its leading unit coordinate. -/
theorem tail_ix2 {n : Nat} (a : Fin 1) (b : Fin n) : (fun d : Fin 1 => (ix2 a b : (⟨2, ![1, n]⟩ : Shape).Idx) d.succ) = ix1 b := by
  funext d; match d with | ⟨0, _⟩ => rfl

/-! ## The two lane sums, read at an index -/

/-- The elementwise square root at an index. -/
theorem sqrt_apply {s : Shape} {φ : FTy} (a : FVec Ideal s φ) (i : s.Idx) : sqrt a i = Ideal.sqrt (a i) := rfl

/-- The sum over the three coordinate rows, at edge `l`. -/
theorem sum_rows (src : FVec Ideal S3x80000 .f32) (h : S3x80000.Reduces [0] S80000) (hφ : FKind.Formats .f32)
    (hacc : (0x00000000#32 : BitVec 32) = 0x00000000#32) (l : Fin 80000) :
    multiReduction .add [0] S80000 src 0x00000000#32 h hφ hacc (ix1 l) = ∑ c : Fin 3, src (ix2 c l) := by
  refine (Ideal.multiReduction_add_single src 0x00000000#32 h hφ hacc (ix1 l)).trans ?_
  exact Finset.sum_congr rfl fun k _ => congrArg src (lift_rows h l k)

/-- The sum over the tile's 80000 lanes. -/
theorem sum_lanes (src : FVec Ideal S1x80000 .f32) (h : S1x80000.Reduces [1] S1) (hφ : FKind.Formats .f32)
    (hacc : (0x00000000#32 : BitVec 32) = 0x00000000#32) :
    multiReduction .add [1] S1 src 0x00000000#32 h hφ hacc (ix1 0) = ∑ l : Fin 80000, src (ix2 0 l) := by
  refine (Ideal.multiReduction_add_single src 0x00000000#32 h hφ hacc (ix1 0)).trans ?_
  exact Finset.sum_congr rfl fun k _ => congrArg src (lift_lanes h k)

/-! ## The two payloads at their one index -/

variable (v3 v5 : Vec Ideal S3x80000 .f32) (v14 : Vec Ideal S1x80000 .f32) (v22 : Vec Ideal S1x1 .f32)

/-- The reset payload is the zero word. -/
theorem k1_pay1_apply : k1_pay1 (F := Ideal) (ix2 0 0) = Ideal.ofBits .f32 0x00000000#32 := by
  unfold k1_pay1
  rw [shapeCast_self]
  rfl

/-- The sum payload at its one index: what the scratch held plus the tile's term. -/
theorem k1_pay2_apply : k1_pay2 (F := Ideal) v3 v5 v14 v22 (ix2 0 0) = v22 (ix2 0 0) + tileTerm v3 v5 v14 := by
  unfold k1_pay2
  simp only [shapeCast_self]
  rw [addf_apply, mulf_apply, broadcast_apply, shapeCast_addUnit_apply, tail_ix2, sum_lanes]
  unfold tileTerm
  rw [Ideal.ofBits_zero_f32, zero_add]
  refine congrArg (fun x => v22 (ix2 0 0) + FloatOps.ofBits (F := Ideal) FTy.f32 0x3F000000#32 * x) (Finset.sum_congr rfl fun l _ => ?_)
  rw [mulf_apply, subf_apply, sqrt_apply, addf_apply, broadcast_apply, shapeCast_addUnit_apply, tail_ix2, sum_rows]
  simp only [mulf_apply, subf_apply]
  unfold edgeRes edgeSq
  rw [Ideal.ofBits_zero_f32, zero_add]
  rfl

/-- The same, with the tile's term written out. -/
theorem k1_pay2_apply_expanded : k1_pay2 (F := Ideal) v3 v5 v14 v22 (ix2 0 0)
    = v22 (ix2 0 0) + Ideal.ofBits .f32 0x3F000000#32 * (Ideal.ofBits .f32 0x00000000#32 + ∑ l : Fin 80000,
        ((Ideal.sqrt ((Ideal.ofBits .f32 0x00000000#32 + ∑ c : Fin 3, (v3 (ix2 c l) - v5 (ix2 c l)) * (v3 (ix2 c l) - v5 (ix2 c l))) + Ideal.ofBits .f32 0x2B8CBCCC#32) - v14 (ix2 0 l))
          * (Ideal.sqrt ((Ideal.ofBits .f32 0x00000000#32 + ∑ c : Fin 3, (v3 (ix2 c l) - v5 (ix2 c l)) * (v3 (ix2 c l) - v5 (ix2 c l))) + Ideal.ofBits .f32 0x2B8CBCCC#32) - v14 (ix2 0 l)))) :=
  k1_pay2_apply v3 v5 v14 v22

end Cert.KernelIdeal.Tile1

end
-- ==== Proof.KI.R1Acc.lean ====
/- Region 1: the accumulation point by point — after every point the output window's buffer holds what the scratch
   holds, and, in the extended reals, the scratch's one element after a point is what it held after the point before
   (the zero word, at the first point) plus that point's tile term. -/
import proofs.«152542_j63075889709151_1_alg».proof.Proof.KI.R1Value
import proofs.«152542_j63075889709151_1_alg».proof.Proof.KI.Tile1

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: the accumulation, point by point -/

/-- After every point the output window's buffer holds what the scratch holds: the body stores into the output window
    the accumulator it has just written. -/
theorem outsAt1_fst_eq_snd (c : Dev nD) : ∀ (n : ℕ) (h : n < cfg1.N), (outsAt1 V c n h).1 = (outsAt1 V c n h).2
  | 0, h => by rw [outsAt1_zero]
  | n + 1, h => by rw [outsAt1_succ]

section AtIdeal
open Idealize.ShloMosaic.ValueIdx

-- the region's entry contents at the ideal values
variable (W : (c : Dev nD) → (b : Ref sig .tc) → Buf (Elt Ideal) ((c : Thread nD τ).loc b))

/-- Point `t`'s term: the tile's term of the three input blocks there. -/
def T1 (c : Dev nD) (t : Fin cfg1.N) : EReal :=
  Tile1.tileTerm (iblk1 W c 0 t) (iblk1 W c 1 t) (iblk1 W c 2 t)

/-- After the first point the accumulator holds the zero word plus that point's term. -/
theorem acc1_zero (c : Dev nD) (h : 0 < cfg1.N) :
    (outsAt1 W c 0 h).2 (ix2 0 0) = Ideal.ofBits .f32 0x00000000#32 + T1 W c ⟨0, h⟩ := by
  rw [outsAt1_zero]
  show k1_pay2 (F := Ideal) (iblk1 W c 0 ⟨0, h⟩) (iblk1 W c 1 ⟨0, h⟩) (iblk1 W c 2 ⟨0, h⟩) (k1_pay1 (F := Ideal)) (ix2 0 0) = _
  rw [Tile1.k1_pay2_apply, Tile1.k1_pay1_apply]
  rfl

/-- After point `n + 1` it holds what it held after point `n` plus that point's term. -/
theorem acc1_succ (c : Dev nD) (n : ℕ) (h : n + 1 < cfg1.N) :
    (outsAt1 W c (n + 1) h).2 (ix2 0 0) = (outsAt1 W c n (Nat.lt_of_succ_lt h)).2 (ix2 0 0) + T1 W c ⟨n + 1, h⟩ := by
  rw [outsAt1_succ]
  show k1_pay2 (F := Ideal) (iblk1 W c 0 ⟨n + 1, h⟩) (iblk1 W c 1 ⟨n + 1, h⟩) (iblk1 W c 2 ⟨n + 1, h⟩) (outsAt1 W c n (Nat.lt_of_succ_lt h)).2 (ix2 0 0) = _
  rw [Tile1.k1_pay2_apply]
  rfl

end AtIdeal

end Cert.KernelIdeal.Hand

end
-- ==== Proof.KI.R1Final.lean ====
/- Region 1: the 1x1 result array after the run is what the output window's buffer held after the last grid point — the one
   point that writes the block back, whose block is the whole array. -/
import proofs.«152542_j63075889709151_1_alg».proof.Proof.KI.R1Value

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The result array after the run -/

/-- Output window 3's block index is (0, 0) at every point (its index map is constant). -/
theorem index1_3 (t : Fin cfg1.N) : (fun a => win1_3.index t a * main_v26.ty.shape.size a) = fun _ => 0 :=
  funext fun a => by fin_cases a <;> rfl

/-- The one write-back, at the last point `n`, writes what the output window's buffer held after it: block (0, 0) of the
    1x1 array read through zero offsets is the array. (Stated at a variable last point, so that the accumulation is
    never unfolded at a numeral.) -/
theorem flushedLast1_eq (c : Dev nD) (n : ℕ) (hn : n + 1 = cfg1.N) (t : Fin cfg1.N) (hf : (cfg1.win 3).flush t = true) :
    (dat1 V c).flushed 3 t
      = ((cfg1.win 3).blk t).view.read (Elt F) ((outsAt1 V c n (by omega)).1 : Buf (Elt F) ((c : Thread nD τ).loc main_v26)) := by
  have hN : cfg1.N = 75 := N_1
  have htn : t.val = n := by have := (flush1_3 t).mp hf; have := t.isLt; omega
  obtain ⟨tv, ht⟩ := t
  dsimp only at htn
  subst htn
  show (cfg1.win 3).cut (grid1.coords ⟨tv, ht⟩) ((dat1 V c).after 3 ⟨tv, ht⟩) = _
  rw [after1_3]
  exact (Memref.read_access_unit_zero (Elt F) main_v26 (index1_3 ⟨tv, ht⟩) (fun a => by rw [congrFun (index1_3 ⟨tv, ht⟩) a]; simp) _).symm

/-- So the result array ends holding what the output window's buffer held after the last point `n`: that point's block
    covers the array. -/
theorem finalLast1 (c : Dev nD) (n : ℕ) (hn : n + 1 = cfg1.N) :
    (dat1 V c).arrAt 3 cfg1.N = (outsAt1 V c n (by omega)).1 := by
  have hN : cfg1.N = 75 := N_1
  have hlt : n < cfg1.N := by omega
  refine (dat1 V c).arrAt_eq_of_cover 3 _ (flushedLast1_eq V c n hn) fun i =>
    ⟨⟨n, hlt⟩, (flush1_3 ⟨n, hlt⟩).mpr (by dsimp only; omega), ?_⟩
  show i ∈ ((View.whole main_v26).slice (win1_3.rect ⟨n, hlt⟩)).set
  rw [View.set_slice_whole, Rect.mem_set_unit]
  intro a
  have h0 : (i 0 : Nat) < 1 := (i 0).isLt
  have h1 : (i 1 : Nat) < 1 := (i 1).isLt
  match a with
  | ⟨0, _⟩ => show win1_3.index ⟨n, hlt⟩ 0 * win1_3.size 0 ≤ (i 0 : Nat) ∧ (i 0 : Nat) < win1_3.index ⟨n, hlt⟩ 0 * win1_3.size 0 + win1_3.xsize (grid1.coords ⟨n, hlt⟩) 0
              rw [show win1_3.index ⟨n, hlt⟩ 0 * win1_3.size 0 = 0 from rfl, show win1_3.xsize (grid1.coords ⟨n, hlt⟩) 0 = 1 from rfl]; omega
  | ⟨1, _⟩ => show win1_3.index ⟨n, hlt⟩ 1 * win1_3.size 1 ≤ (i 1 : Nat) ∧ (i 1 : Nat) < win1_3.index ⟨n, hlt⟩ 1 * win1_3.size 1 + win1_3.xsize (grid1.coords ⟨n, hlt⟩) 1
              rw [show win1_3.index ⟨n, hlt⟩ 1 * win1_3.size 1 = 0 from rfl, show win1_3.xsize (grid1.coords ⟨n, hlt⟩) 1 = 1 from rfl]; omega

/-- Point 74 is a point of the grid (the last one). -/
theorem lt1_74 : 74 < cfg1.N := by rw [show cfg1.N = 75 from N_1]; decide

/-- The last grid point. -/
def t1_74 : Fin cfg1.N := ⟨74, lt1_74⟩

/-- The 1x1 result array after the run is what the output window's buffer held after point 74. -/
theorem final1 (c : Dev nD) : (dat1 V c).arrAt 3 cfg1.N = (outsAt1 V c 74 lt1_74).1 :=
  finalLast1 V c 74 (by rw [show cfg1.N = 75 from N_1])

end Cert.KernelIdeal.Hand

end
-- ==== Proof.EdgeRow.lean ====
import Idealize.ShloMosaic.Lib.ValueIdx
import Idealize.ShloMosaic.Lib.Pipeline.Value
import Idealize.ShloMosaic.Lib.ValueLayout
import Idealize.ShloMosaic.Lib.IdealHost

/-!
# Taking rows of a two-dimensional array at an array of index words

An edge list names each end point of an edge by a 32-bit index word into an array of points with
three coordinates.  Both programs read a point's coordinates the same way: a negative word is
first moved up by the number of points, and the gather then reads the word as a signed integer and
clamps it into the range of rows.  This file names that row (row) and reads a gather of whole
rows (offset axis 1, collapsed axis 0, index vector on axis 1 of an [M, 1] array of words) at an
index: element (e, c) is the operand at (clamped word e, c).
-/

noncomputable section

namespace Cert.EdgeRead

open Idealize.ShloMosaic Idealize.ShloMosaic.ValueIdx

/-- The index word after the wrap of negative indices: a word below zero (signed) is moved up by
    the number of points, 2000000; any other word is kept. -/
def wrap (w : BitVec 32) : BitVec 32 :=
  Scalar.select (IntOp.cmpi .slt w 0#32) (IntOp.addi w 2000000#32) w

/-- The row of the point array an index word names: the wrapped word read as a signed integer and
    clamped into the rows 0 … 1999999. -/
def row (w : BitVec 32) : Fin 2000000 :=
  ⟨min (wrap w).toInt.toNat (2000000 - 1), by omega⟩

section Rows
variable {α : Type}

/-- The dimension numbers of a gather of whole rows: operand [N, C], index words [M, 1], result
    [M, C]; their conditions wf are decided on a program's literal shapes. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of whole rows read at (e, c): the operand at row idx[e, 0], read signed and
    clamped into [0, N − 1], and column c. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowsDims N M C wf) x idx (ix2 e c)
      = x (ix2 ⟨min (idx (ix2 e 0)).toInt.toNat (N - 1), by omega⟩ c) := by
  unfold Host.gather
  congr 1
  funext a
  refine Fin.ext ?_
  show (rowsDims N M C wf).start (ix2 e c) idx a + (rowsDims N M C wf).batchCoord (ix2 e c) a
      + (rowsDims N M C wf).offCoord (ix2 e c) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨0, by omega⟩ : Fin 2) ∈ (rowsDims N M C wf).startIndexMap from List.mem_singleton.mpr rfl)]
    have hsi : (rowsDims N M C wf).siIdx (ix2 e c) ⟨List.idxOf (⟨0, by omega⟩ : Fin 2) (rowsDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hstart : (rowsDims N M C wf).start (ix2 e c) idx ⟨1, by omega⟩ = 0 := by
      unfold GatherDims.start
      rw [dif_neg (fun h => absurd (congrArg Fin.val (List.mem_singleton.mp h)) Nat.one_ne_zero)]
    have hoff : (rowsDims N M C wf).offCoord (ix2 e c) ⟨1, by omega⟩ = c.val := by
      unfold GatherDims.offCoord
      rw [dif_pos ((GatherDims.mem_sKept _ _).mpr ⟨fun h => absurd (congrArg Fin.val (List.mem_singleton.mp h)) Nat.one_ne_zero, List.not_mem_nil⟩)]
      rfl
    rw [hstart, hoff]
    simp only [Nat.zero_add]

end Rows

section Ends
variable {α : Type} {M : Nat}

/-- Column k of an [M, 2] edge list as a flat array of index words, each negative word moved up
    by the number of points: the slice of the column, flattened, compared with zero, and the
    select between the word plus 2000000 and the word. -/
def colWords (k : Nat) (E : IVec ⟨2, ![M, 2]⟩ 32)
    (sl : (⟨2, ![M, 2]⟩ : Shape).Slices ![0, k] ⟨2, ![M, 1]⟩)
    (sc : (⟨2, ![M, 1]⟩ : Shape).ShapeCasts ⟨1, ![M]⟩)
    (b0 : (⟨0, ![]⟩ : Shape).BroadcastsInDim ⟨1, ![M]⟩ ![]) : IVec ⟨1, ![M]⟩ 32 :=
  select
    (cmpi .slt (shapeCast ⟨1, ![M]⟩ (extractStridedSlice ⟨2, ![M, 1]⟩ ![0, k] E sl) sc)
      (broadcastInDim ⟨1, ![M]⟩ ![] b0 (constantI ⟨0, ![]⟩ 32 0#32)))
    (addi (shapeCast ⟨1, ![M]⟩ (extractStridedSlice ⟨2, ![M, 1]⟩ ![0, k] E sl) sc)
      (broadcastInDim ⟨1, ![M]⟩ ![] b0 (constantI ⟨0, ![]⟩ 32 2000000#32)))
    (shapeCast ⟨1, ![M]⟩ (extractStridedSlice ⟨2, ![M, 1]⟩ ![0, k] E sl) sc)

/-- The wrapped word of edge e in column k. -/
theorem colWords_apply (k : Nat) (hk : k < 2) (E : IVec ⟨2, ![M, 2]⟩ 32)
    (sl : (⟨2, ![M, 2]⟩ : Shape).Slices ![0, k] ⟨2, ![M, 1]⟩)
    (sc : (⟨2, ![M, 1]⟩ : Shape).ShapeCasts ⟨1, ![M]⟩)
    (b0 : (⟨0, ![]⟩ : Shape).BroadcastsInDim ⟨1, ![M]⟩ ![]) (e : Fin M) :
    colWords k E sl sc b0 (ix1 e) = wrap (E (ix2 e ⟨k, hk⟩)) := by
  have hcol : shapeCast ⟨1, ![M]⟩ (extractStridedSlice ⟨2, ![M, 1]⟩ ![0, k] E sl) sc (ix1 e)
      = E (ix2 e ⟨k, hk⟩) := by
    rw [shapeCast_apply _ sc (ix1 e) (ix2 e (0 : Fin 1)) (by
      rw [Shape.rowMajor_val_two, Shape.rowMajor_val_one]
      show e.val * 1 + 0 = e.val
      omega)]
    exact slice2_axis1_apply k E sl e 0 ⟨k, hk⟩ (by show k = k + 0; omega)
  show Scalar.select
      (IntOp.cmpi .slt (shapeCast ⟨1, ![M]⟩ (extractStridedSlice ⟨2, ![M, 1]⟩ ![0, k] E sl) sc (ix1 e))
        (broadcastInDim ⟨1, ![M]⟩ ![] b0 (constantI ⟨0, ![]⟩ 32 0#32) (ix1 e)))
      (IntOp.addi (shapeCast ⟨1, ![M]⟩ (extractStridedSlice ⟨2, ![M, 1]⟩ ![0, k] E sl) sc (ix1 e))
        (broadcastInDim ⟨1, ![M]⟩ ![] b0 (constantI ⟨0, ![]⟩ 32 2000000#32) (ix1 e)))
      (shapeCast ⟨1, ![M]⟩ (extractStridedSlice ⟨2, ![M, 1]⟩ ![0, k] E sl) sc (ix1 e)) = _
  rw [hcol, broadcastInDim_scalar_apply, broadcastInDim_scalar_apply]
  rfl

/-- The end points named by column k of the edge list: for each edge the row of the point array
    its wrapped word names, an [M, 3] array. -/
def endRows (k : Nat) (x : (⟨2, ![2000000, 3]⟩ : Shape).Idx → α) (E : IVec ⟨2, ![M, 2]⟩ 32)
    (sl : (⟨2, ![M, 2]⟩ : Shape).Slices ![0, k] ⟨2, ![M, 1]⟩)
    (sc : (⟨2, ![M, 1]⟩ : Shape).ShapeCasts ⟨1, ![M]⟩)
    (b0 : (⟨0, ![]⟩ : Shape).BroadcastsInDim ⟨1, ![M]⟩ ![])
    (b1 : (⟨1, ![M]⟩ : Shape).BroadcastsInDim ⟨2, ![M, 1]⟩ ![0])
    (wf : GatherDims.WF ⟨2, ![2000000, 3]⟩ ⟨2, ![M, 1]⟩ ⟨2, ![M, 3]⟩ [1] [0] [] [0] [] 1 ![1, 3]) :
    (⟨2, ![M, 3]⟩ : Shape).Idx → α :=
  Host.gather (rowsDims 2000000 M 3 wf) x (broadcastInDim ⟨2, ![M, 1]⟩ ![0] b1 (colWords k E sl sc b0))

/-- Coordinate c of the end point of edge e named by column k: the point array at the row the
    index word names. -/
theorem endRows_apply (k : Nat) (hk : k < 2) (x : (⟨2, ![2000000, 3]⟩ : Shape).Idx → α)
    (E : IVec ⟨2, ![M, 2]⟩ 32)
    (sl : (⟨2, ![M, 2]⟩ : Shape).Slices ![0, k] ⟨2, ![M, 1]⟩)
    (sc : (⟨2, ![M, 1]⟩ : Shape).ShapeCasts ⟨1, ![M]⟩)
    (b0 : (⟨0, ![]⟩ : Shape).BroadcastsInDim ⟨1, ![M]⟩ ![])
    (b1 : (⟨1, ![M]⟩ : Shape).BroadcastsInDim ⟨2, ![M, 1]⟩ ![0])
    (wf : GatherDims.WF ⟨2, ![2000000, 3]⟩ ⟨2, ![M, 1]⟩ ⟨2, ![M, 3]⟩ [1] [0] [] [0] [] 1 ![1, 3])
    (e : Fin M) (c : Fin 3) :
    endRows k x E sl sc b0 b1 wf (ix2 e c) = x (ix2 (row (E (ix2 e ⟨k, hk⟩))) c) := by
  have hw : broadcastInDim ⟨2, ![M, 1]⟩ ![0] b1 (colWords k E sl sc b0) (ix2 e (0 : Fin 1))
      = wrap (E (ix2 e ⟨k, hk⟩)) := by
    rw [broadcastInDim_apply _ b1 _ (ix2 e (0 : Fin 1)) (ix1 e) (fun a => match a with
      | ⟨0, _⟩ => by
        show e.val = if M = 1 then 0 else e.val
        have := e.isLt
        split <;> omega)]
    exact colWords_apply k hk E sl sc b0 e
  unfold endRows
  rw [gather_rows_apply (by decide)]
  refine congrArg x (congrArg (fun r => ix2 r c) (Fin.ext ?_))
  show min (broadcastInDim ⟨2, ![M, 1]⟩ ![0] b1 (colWords k E sl sc b0) (ix2 e (0 : Fin 1))).toInt.toNat (2000000 - 1)
      = min (wrap (E (ix2 e ⟨k, hk⟩))).toInt.toNat (2000000 - 1)
  rw [hw]

end Ends

end Cert.EdgeRead

end
-- ==== Proof.EdgeKernel.lean ====
import proofs.«152542_j63075889709151_1_alg».proof.Proof.Gen.KernelIdeal.Launch
import proofs.«152542_j63075889709151_1_alg».proof.Proof.EdgeRow
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout

/-!
# What the kernel program hands to its second kernel call

Between its two kernel calls the program gathers, for every edge, the two end points from the point
array, lays each set of end points out coordinate-major, and reshapes the rest lengths to one row.
Read at an index, the two gathered arrays are the point array at the row the edge's index word
names (the same row the reference reads), and the row of rest lengths is the rest-length array.
-/

noncomputable section

namespace Cert.EdgeKernel

open Idealize.ShloMosaic Idealize.ShloMosaic.ValueIdx Idealize.ShloMosaic.StableHlo
open Cert.KernelIdeal Cert.KernelIdeal.Gen Cert.EdgeRead

variable {F : FTy → Type} [FloatOps F]

/-- The program's gather is the gather of whole rows of the [2000000, 3] point array at a
    [6000000, 1] array of index words. -/
theorem gather_eq :
    gather_S2000000x3_S6000000x1_S6000000x3_1_0_n_n_0_1_13
      = rowsDims 2000000 6000000 3 gather_S2000000x3_S6000000x1_S6000000x3_1_0_n_n_0_1_13_wf := rfl

/-- The end points named by column k of the edge list, gathered from the point array and laid
    out coordinate-major: a [3, 6000000] array. -/
def ends (k : Nat) (sl : S6000000x2.Slices ![0, k] S6000000x1) (x : FVec F S2000000x3 .f32)
    (E : IVec S6000000x2 32) : FVec F S3x6000000 .f32 :=
  transpose S3x6000000 [1, 0]
    (endRows k x E sl shapeCasts_S6000000x1_S6000000 bcast_S_S6000000 bcast_S6000000_S6000000x1_0
      gather_S2000000x3_S6000000x1_S6000000x3_1_0_n_n_0_1_13_wf)
    transposes_S6000000x3_S3x6000000_1_0

/-- Coordinate c of the end point of edge e named by column k. -/
theorem ends_apply (k : Nat) (hk : k < 2) (sl : S6000000x2.Slices ![0, k] S6000000x1)
    (x : FVec F S2000000x3 .f32) (E : IVec S6000000x2 32) (c : Fin 3) (e : Fin 6000000) :
    ends k sl x E (ix2 c e) = x (ix2 (row (E (ix2 e ⟨k, hk⟩))) c) := by
  unfold ends
  rw [transpose_apply _ _ transposes_S6000000x3_S3x6000000_1_0 (ix2 c e) (ix2 e c)
    (fun b => match b with | ⟨0, _⟩ => rfl | ⟨1, _⟩ => rfl)]
  exact endRows_apply k hk x E sl _ _ _ _ e c

/-! ## What the host operations between the two kernel calls leave in the staged buffers -/

/-- The first end points of the edges, coordinate-major. -/
theorem after_v23 (W : Valuation τ sig (Elt F)) :
    StableHlo.after hostOps1 W (Proc.devRef .tc main_v23)
      = ends 0 slices_S6000000x2_S6000000x1_0_0 (W (Proc.devRef .tc main_arg0)) (W (Proc.devRef .tc main_arg2)) := by
  show StableHlo.after hostOps1 W (Proc.devRef .tc main_v23) = _
  after_results
  rfl

/-- The second end points of the edges, coordinate-major. -/
theorem after_v24 (W : Valuation τ sig (Elt F)) :
    StableHlo.after hostOps1 W (Proc.devRef .tc main_v24)
      = ends 1 slices_S6000000x2_S6000000x1_0_1 (W (Proc.devRef .tc main_arg0)) (W (Proc.devRef .tc main_arg2)) := by
  show StableHlo.after hostOps1 W (Proc.devRef .tc main_v24) = _
  after_results
  rfl

/-- The rest lengths as one row. -/
theorem after_v25 (W : Valuation τ sig (Elt F)) :
    StableHlo.after hostOps1 W (Proc.devRef .tc main_v25)
      = shapeCast S1x6000000 (W (Proc.devRef .tc main_arg4)) shapeCasts_S6000000_S1x6000000 := by
  show StableHlo.after hostOps1 W (Proc.devRef .tc main_v25) = _
  after_results
  rfl

/-- The first kernel call's [1, 1] result as a scalar. -/
theorem after_v4 (W : Valuation τ sig (Elt F)) :
    StableHlo.after hostOps1 W (Proc.devRef .tc main_v4)
      = shapeCast S_ (W (Proc.devRef .tc main_v3)) shapeCasts_S1x1_S_ := by
  show StableHlo.after hostOps1 W (Proc.devRef .tc main_v4) = _
  after_results
  rfl

/-! ## The staged buffers read at an index -/

theorem after_v23_apply (W : Valuation τ sig (Elt F)) (c : Fin 3) (e : Fin 6000000) :
    StableHlo.after hostOps1 W (Proc.devRef .tc main_v23) (ix2 c e)
      = W (Proc.devRef .tc main_arg0) (ix2 (row (W (Proc.devRef .tc main_arg2) (ix2 e 0))) c) := by
  rw [after_v23]
  exact ends_apply 0 (by decide) _ _ _ c e

theorem after_v24_apply (W : Valuation τ sig (Elt F)) (c : Fin 3) (e : Fin 6000000) :
    StableHlo.after hostOps1 W (Proc.devRef .tc main_v24) (ix2 c e)
      = W (Proc.devRef .tc main_arg0) (ix2 (row (W (Proc.devRef .tc main_arg2) (ix2 e 1))) c) := by
  rw [after_v24]
  exact ends_apply 1 (by decide) _ _ _ c e

theorem after_v25_apply (W : Valuation τ sig (Elt F)) (u : Fin 1) (e : Fin 6000000) :
    StableHlo.after hostOps1 W (Proc.devRef .tc main_v25) (ix2 u e)
      = W (Proc.devRef .tc main_arg4) (ix1 e) := by
  rw [after_v25]
  exact shapeCast_a_1a_apply _ shapeCasts_S6000000_S1x6000000 u e

end Cert.EdgeKernel

end
-- ==== Proof.KI.Glue1.lean ====
/-
  What the edge region's three input arrays hold, in terms of @main's arguments: the second stretch of host operations
  gathers, for every edge, the two end-point vertices (rows of the vertex array chosen by the edge's two index words,
  a negative word wrapped once and the result clamped into range), transposes them to [3, 6000000], and reshapes the
  rest lengths to [1, 6000000]; block `t` of each is its columns `80000·t …`.
-/
import proofs.«152542_j63075889709151_1_alg».proof.Proof.KI.Launch
import proofs.«152542_j63075889709151_1_alg».proof.Proof.EdgeKernel
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.EdgeRead Cert.EdgeKernel

variable {F : FTy → Type} [FloatOps F]
variable (m : (ℓ : Loc nD τ sig) → Buf (Elt F) ℓ) (ρ : Dev nD → PrngReg)

/-! ## The arguments are still as launched when the second stretch runs -/

theorem B2_main_arg0 (c : Dev nD) : B2 m ρ c (Proc.devRef .tc main_arg0) = m ((c : Thread nD τ).loc main_arg0) :=
  calc B2 m ρ c (Proc.devRef .tc main_arg0)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem B2_main_arg2 (c : Dev nD) : B2 m ρ c (Proc.devRef .tc main_arg2) = m ((c : Thread nD τ).loc main_arg2) :=
  calc B2 m ρ c (Proc.devRef .tc main_arg2)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem B2_main_arg4 (c : Dev nD) : B2 m ρ c (Proc.devRef .tc main_arg4) = m ((c : Thread nD τ).loc main_arg4) :=
  calc B2 m ρ c (Proc.devRef .tc main_arg4)
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-! ## The three arrays at an index -/

/-- Row `a`, column `e` of the first gathered array is coordinate `a` of edge `e`'s first end point. -/
theorem B3_v23_apply (c : Dev nD) (a : Fin 3) (e : Fin 6000000) :
    B3 m ρ c (Proc.devRef .tc main_v23) (ix2 a e)
      = m ((c : Thread nD τ).loc main_arg0) (ix2 (row (m ((c : Thread nD τ).loc main_arg2) (ix2 e 0))) a) := by
  show StableHlo.after hostOps1 (B2 m ρ c) (Proc.devRef .tc main_v23) (ix2 a e) = _
  rw [after_v23_apply, B2_main_arg0, B2_main_arg2]

/-- … of the second, of its second end point. -/
theorem B3_v24_apply (c : Dev nD) (a : Fin 3) (e : Fin 6000000) :
    B3 m ρ c (Proc.devRef .tc main_v24) (ix2 a e)
      = m ((c : Thread nD τ).loc main_arg0) (ix2 (row (m ((c : Thread nD τ).loc main_arg2) (ix2 e 1))) a) := by
  show StableHlo.after hostOps1 (B2 m ρ c) (Proc.devRef .tc main_v24) (ix2 a e) = _
  rw [after_v24_apply, B2_main_arg0, B2_main_arg2]

/-- Column `e` of the reshaped rest lengths is edge `e`'s rest length. -/
theorem B3_v25_apply (c : Dev nD) (u : Fin 1) (e : Fin 6000000) :
    B3 m ρ c (Proc.devRef .tc main_v25) (ix2 u e) = m ((c : Thread nD τ).loc main_arg4) (ix1 e) := by
  show StableHlo.after hostOps1 (B2 m ρ c) (Proc.devRef .tc main_v25) (ix2 u e) = _
  rw [after_v25_apply, B2_main_arg4]

/-! ## The windows' blocks -/

/-- The three input windows' index maps over the grid: block `t` is columns `80000·t …`, rows all. -/
theorem idxF1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- Edge number `80000·t + l`, for a grid point `t` and a lane `l`. -/
abbrev edgeOf (t : Fin cfg1.N) (l : Fin 80000) : Fin 6000000 :=
  ⟨t.val * 80000 + l.val, by have := t.isLt; have h : cfg1.N = 75 := N_1; omega⟩

variable (V : (c : Dev nD) → (b : Ref sig .tc) → Buf (Elt F) ((c : Thread nD τ).loc b))

theorem iblk1_0_apply (c : Dev nD) (t : Fin cfg1.N) (a : Fin 3) (l : Fin 80000) :
    iblk1 V c 0 t (ix2 a l) = V c main_v23 (ix2 a (edgeOf t l)) := by
  unfold iblk1
  show V c main_v23 (((cfg1.win 0).blk t).view.emb (ix2 a l)) = _
  refine congrArg (V c main_v23) (funext fun d => Fin.ext ?_)
  obtain ⟨e0, e1, e2, e3, e4, e5⟩ := idxF1 t
  match d with
  | ⟨0, _⟩ => show win1_0.index t (0 : Fin 2) * 3 + 1 * a.val = a.val; omega
  | ⟨1, _⟩ => show win1_0.index t (1 : Fin 2) * 80000 + 1 * l.val = t.val * 80000 + l.val; omega

theorem iblk1_1_apply (c : Dev nD) (t : Fin cfg1.N) (a : Fin 3) (l : Fin 80000) :
    iblk1 V c 1 t (ix2 a l) = V c main_v24 (ix2 a (edgeOf t l)) := by
  unfold iblk1
  show V c main_v24 (((cfg1.win 1).blk t).view.emb (ix2 a l)) = _
  refine congrArg (V c main_v24) (funext fun d => Fin.ext ?_)
  obtain ⟨e0, e1, e2, e3, e4, e5⟩ := idxF1 t
  match d with
  | ⟨0, _⟩ => show win1_1.index t (0 : Fin 2) * 3 + 1 * a.val = a.val; omega
  | ⟨1, _⟩ => show win1_1.index t (1 : Fin 2) * 80000 + 1 * l.val = t.val * 80000 + l.val; omega

theorem iblk1_2_apply (c : Dev nD) (t : Fin cfg1.N) (u : Fin 1) (l : Fin 80000) :
    iblk1 V c 2 t (ix2 u l) = V c main_v25 (ix2 u (edgeOf t l)) := by
  unfold iblk1
  show V c main_v25 (((cfg1.win 2).blk t).view.emb (ix2 u l)) = _
  refine congrArg (V c main_v25) (funext fun d => Fin.ext ?_)
  obtain ⟨e0, e1, e2, e3, e4, e5⟩ := idxF1 t
  match d with
  | ⟨0, _⟩ => show win1_2.index t (0 : Fin 2) * 1 + 1 * u.val = u.val; omega
  | ⟨1, _⟩ => show win1_2.index t (1 : Fin 2) * 80000 + 1 * l.val = t.val * 80000 + l.val; omega

/-! ## In terms of @main's arguments -/

theorem eblock0_arg (c : Dev nD) (t : Fin cfg1.N) (a : Fin 3) (l : Fin 80000) :
    iblk1 (E3 m ρ) c 0 t (ix2 a l)
      = m ((c : Thread nD τ).loc main_arg0) (ix2 (row (m ((c : Thread nD τ).loc main_arg2) (ix2 (edgeOf t l) 0))) a) :=
  (iblk1_0_apply (E3 m ρ) c t a l).trans (B3_v23_apply m ρ c a _)

theorem eblock1_arg (c : Dev nD) (t : Fin cfg1.N) (a : Fin 3) (l : Fin 80000) :
    iblk1 (E3 m ρ) c 1 t (ix2 a l)
      = m ((c : Thread nD τ).loc main_arg0) (ix2 (row (m ((c : Thread nD τ).loc main_arg2) (ix2 (edgeOf t l) 1))) a) :=
  (iblk1_1_apply (E3 m ρ) c t a l).trans (B3_v24_apply m ρ c a _)

theorem eblock2_arg (c : Dev nD) (t : Fin cfg1.N) (u : Fin 1) (l : Fin 80000) :
    iblk1 (E3 m ρ) c 2 t (ix2 u l) = m ((c : Thread nD τ).loc main_arg4) (ix1 (edgeOf t l)) :=
  (iblk1_2_apply (E3 m ρ) c t u l).trans (B3_v25_apply m ρ c u _)

end Cert.KernelIdeal.Hand

end
-- ==== Proof.EdgeDefs.lean ====
import proofs.«152542_j63075889709151_1_alg».proof.Proof.EdgeRow
import Idealize.ShloMosaic.Lib.ValueIdx
import Idealize.ShloMosaic.PureOps.Ideal.Laws

/-!
# The spring energy of an edge

For edge e with end points v0 = V[E[e, 0]] and v1 = V[E[e, 1]] (the rows of the point array the two
index words of e name), the edge's energy is one half of the square of the deviation of its
regularised length, sqrt (Σ over the three coordinates of (v0 − v1)², plus a small constant), from its
rest length.  The constants are the programs' 32-bit words, read as extended reals.
-/

noncomputable section

namespace Cert.EdgeRead

open scoped BigOperators
open Idealize.ShloMosaic Idealize.ShloMosaic.ValueIdx

/-- Coordinate c of the difference of the two end points of edge e. -/
def edgeDiff (x : FVec Ideal ⟨2, ![2000000, 3]⟩ .f32) (E : IVec ⟨2, ![6000000, 2]⟩ 32) (e : Fin 6000000)
    (c : Fin 3) : EReal :=
  x (ix2 (row (E (ix2 e 0))) c) - x (ix2 (row (E (ix2 e 1))) c)

/-- The regularised length of edge e: the square root of the sum, from the sum's initial value, of
    the squared coordinate differences, plus the small constant the programs add under the root. -/
def edgeLen (x : FVec Ideal ⟨2, ![2000000, 3]⟩ .f32) (E : IVec ⟨2, ![6000000, 2]⟩ 32) (e : Fin 6000000) : EReal :=
  Ideal.sqrt ((Ideal.ofBits .f32 0x00000000#32 + ∑ c : Fin 3, edgeDiff x E e c * edgeDiff x E e c)
    + Ideal.ofBits .f32 0x2B8CBCCC#32)

/-- The square of the deviation of edge e's length from its rest length. -/
def edgeQ (x : FVec Ideal ⟨2, ![2000000, 3]⟩ .f32) (E : IVec ⟨2, ![6000000, 2]⟩ 32)
    (r : FVec Ideal ⟨1, ![6000000]⟩ .f32) (e : Fin 6000000) : EReal :=
  (edgeLen x E e - r (ix1 e)) * (edgeLen x E e - r (ix1 e))

/-- The spring energy of edge e: one half of the square of its length's deviation from the rest
    length. -/
def edgeLoss (x : FVec Ideal ⟨2, ![2000000, 3]⟩ .f32) (E : IVec ⟨2, ![6000000, 2]⟩ 32)
    (r : FVec Ideal ⟨1, ![6000000]⟩ .f32) (e : Fin 6000000) : EReal :=
  Ideal.ofBits .f32 0x3F000000#32 * edgeQ x E r e

/-- The spring energy with the square written out. -/
theorem edgeLoss_def (x : FVec Ideal ⟨2, ![2000000, 3]⟩ .f32) (E : IVec ⟨2, ![6000000, 2]⟩ 32)
    (r : FVec Ideal ⟨1, ![6000000]⟩ .f32) (e : Fin 6000000) :
    edgeLoss x E r e
      = Ideal.ofBits .f32 0x3F000000#32 * ((edgeLen x E e - r (ix1 e)) * (edgeLen x E e - r (ix1 e))) := rfl

/-- A sum over the indices of a one-axis shape is the sum over the coordinate. -/
theorem sum_idx1 {A : Type*} [AddCommMonoid A] {n : Nat} (f : (⟨1, ![n]⟩ : Shape).Idx → A) :
    ∑ j, f j = ∑ a : Fin n, f (ix1 a) :=
  (Fintype.sum_equiv ⟨fun a => ix1 a, fun j => j 0, fun _ => rfl, fun j => (eq_ix1 j).symm⟩
    (fun a => f (ix1 a)) f fun _ => rfl).symm

end Cert.EdgeRead

end
-- ==== Proof.EdgeBridge.lean ====
import proofs.«152542_j63075889709151_1_alg».proof.Proof.EdgeDefs
import proofs.«152542_j63075889709151_1_alg».proof.Proof.DistBridge
import Idealize.ShloMosaic.Lib.ValueIdx
import Idealize.ShloMosaic.PureOps.Ideal.Laws

/-!
# From the kernel's running total over tiles to one sum over all edges

The second kernel call visits the 6000000 edges in 75 tiles of 80000 and keeps a running total: it
starts from zero plus the first tile's term and adds one tile's term per step, the term of a tile
being one half of the sum over the tile's edges of the squared deviation of the edge's length from
its rest length.  At a real point array and real rest lengths every squared deviation is a real
number (the radicand is a sum of squares plus a constant that is not negative, so the root is the
real root), one half distributes over the finite sums, and regrouping the tiles gives the sum over
all edges of the spring energies.
-/

noncomputable section

namespace Cert.EdgeBridge

open scoped BigOperators
open Idealize.ShloMosaic Idealize.ShloMosaic.ValueIdx
open Cert.EdgeRead Cert.DistBridge Cert.HatInterp
open Finset

/-! ## The edge quantities at real arguments are real -/

/-- The small constant under the root is a real number that is not negative. -/
theorem ofBits_eps : ∃ v : ℝ, 0 ≤ v ∧ Ideal.ofBits .f32 0x2B8CBCCC#32 = (v : EReal) := by
  simp [Ideal.ofBits, Ideal.ieee, -EReal.coe_mul]

/-- The root of a real number that is not negative is the real root. -/
theorem sqrt_coe_of_nonneg {v : ℝ} (hv : 0 ≤ v) : Ideal.sqrt (v : EReal) = ((Real.sqrt v : ℝ) : EReal) := by
  rw [Ideal.sqrt_coe, if_neg (not_lt.mpr hv)]

/-- At a real point array and real rest lengths the squared deviation of every edge is a real
    number. -/
theorem edgeQ_coe (x : FVec Ideal ⟨2, ![2000000, 3]⟩ .f32) (E : IVec ⟨2, ![6000000, 2]⟩ 32)
    (r : FVec Ideal ⟨1, ![6000000]⟩ .f32)
    (hx : ∀ i, ∃ v : ℝ, x i = (v : EReal)) (hr : ∀ i, ∃ v : ℝ, r i = (v : EReal)) :
    ∃ q : Fin 6000000 → ℝ, ∀ e, edgeQ x E r e = ((q e : ℝ) : EReal) := by
  choose X hX using hx
  choose R hR using hr
  obtain ⟨ε, hε, heps⟩ := ofBits_eps
  refine ⟨fun e =>
    (Real.sqrt ((∑ c : Fin 3, (X (ix2 (row (E (ix2 e 0))) c) - X (ix2 (row (E (ix2 e 1))) c))
        * (X (ix2 (row (E (ix2 e 0))) c) - X (ix2 (row (E (ix2 e 1))) c))) + ε) - R (ix1 e))
    * (Real.sqrt ((∑ c : Fin 3, (X (ix2 (row (E (ix2 e 0))) c) - X (ix2 (row (E (ix2 e 1))) c))
        * (X (ix2 (row (E (ix2 e 0))) c) - X (ix2 (row (E (ix2 e 1))) c))) + ε) - R (ix1 e)), fun e => ?_⟩
  have hd : ∀ c : Fin 3, edgeDiff x E e c * edgeDiff x E e c
      = (((X (ix2 (row (E (ix2 e 0))) c) - X (ix2 (row (E (ix2 e 1))) c))
        * (X (ix2 (row (E (ix2 e 0))) c) - X (ix2 (row (E (ix2 e 1))) c)) : ℝ) : EReal) := by
    intro c
    unfold edgeDiff
    rw [hX, hX, ← EReal.coe_sub, ← EReal.coe_mul]
  have hnn : 0 ≤ (∑ c : Fin 3, (X (ix2 (row (E (ix2 e 0))) c) - X (ix2 (row (E (ix2 e 1))) c))
        * (X (ix2 (row (E (ix2 e 0))) c) - X (ix2 (row (E (ix2 e 1))) c))) + ε :=
    add_nonneg (Finset.sum_nonneg fun c _ => mul_self_nonneg _) hε
  have hlen : edgeLen x E e
      = ((Real.sqrt ((∑ c : Fin 3, (X (ix2 (row (E (ix2 e 0))) c) - X (ix2 (row (E (ix2 e 1))) c))
        * (X (ix2 (row (E (ix2 e 0))) c) - X (ix2 (row (E (ix2 e 1))) c))) + ε) : ℝ) : EReal) := by
    unfold edgeLen
    rw [Ideal.ofBits_zero_f32, zero_add, heps, Finset.sum_congr rfl fun c _ => hd c, ← coe_fintype_sum,
      ← EReal.coe_add, sqrt_coe_of_nonneg hnn]
  unfold edgeQ
  rw [hlen, hR, ← EReal.coe_sub, ← EReal.coe_mul]

/-! ## Regrouping the edges by tile -/

/-- Summing c · ∑ (value) over 75 tiles of 80000 edges, the values being coerced reals q n at the
    flat index n = 80000 t + l, is ∑ₙ c · q n over all edges. -/
theorem tiles_sum (q : Fin 6000000 → ℝ) (c : ℝ) (w : EReal) (hw : w = (c : EReal))
    (qv : ℕ → Fin 80000 → EReal)
    (hqv : ∀ t (ht : t < 75) (l : Fin 80000), qv t l = ((q ⟨t * 80000 + l, by omega⟩ : ℝ) : EReal)) :
    ∑ t ∈ range 75, w * (0 + ∑ l : Fin 80000, qv t l) = ∑ n : Fin 6000000, w * ((q n : ℝ) : EReal) := by
  subst hw
  calc ∑ t ∈ range 75, (c : EReal) * (0 + ∑ l : Fin 80000, qv t l)
      = ∑ t : Fin 75, (c : EReal) * (0 + ∑ l : Fin 80000, qv t l) :=
        Finset.sum_range fun t => (c : EReal) * (0 + ∑ l : Fin 80000, qv t l)
    _ = ∑ t : Fin 75, ((c * ∑ l : Fin 80000, q ⟨(t : ℕ) * 80000 + l, tile_index_lt t l⟩ : ℝ) : EReal) := by
        refine Finset.sum_congr rfl fun t _ => ?_
        rw [zero_add, EReal.coe_mul, coe_fintype_sum]
        exact congrArg ((c : EReal) * ·) (Finset.sum_congr rfl fun l _ => hqv t t.isLt l)
    _ = ((∑ t : Fin 75, c * ∑ l : Fin 80000, q ⟨(t : ℕ) * 80000 + l, tile_index_lt t l⟩ : ℝ) : EReal) :=
        (coe_fintype_sum _).symm
    _ = ((∑ n : Fin 6000000, c * q n : ℝ) : EReal) :=
        congrArg (fun s : ℝ => (s : EReal)) (sum_fin_tiles_mul (T := 75) (B := 80000) c q)
    _ = ∑ n : Fin 6000000, (c : EReal) * ((q n : ℝ) : EReal) := by
        rw [coe_fintype_sum]
        simp only [EReal.coe_mul]

/-! ## The bridge: from the running total to one sum over all edges -/

/-- **The edge bridge.**  A running total over the 75 tiles that starts from the zero word plus the
    first tile's term and gains one tile's term per step, the term of tile t being one half of
    (the zero word plus the sum over the tile's 80000 edges of the squared deviations): at a real
    point array and real rest lengths the last total is the zero word plus the sum of the spring
    energies of all edges. -/
theorem bridge (x : FVec Ideal ⟨2, ![2000000, 3]⟩ .f32) (E : IVec ⟨2, ![6000000, 2]⟩ 32)
    (r : FVec Ideal ⟨1, ![6000000]⟩ .f32)
    (hx : ∀ i, ∃ v : ℝ, x i = (v : EReal)) (hr : ∀ i, ∃ v : ℝ, r i = (v : EReal))
    (qv : ℕ → Fin 80000 → EReal)
    (hqv : ∀ t (ht : t < 75) (l : Fin 80000), qv t l = edgeQ x E r ⟨t * 80000 + l, by omega⟩)
    (acc T : ℕ → EReal)
    (hT : ∀ t, t < 75 → T t = Ideal.ofBits .f32 0x3F000000#32
      * (Ideal.ofBits .f32 0x00000000#32 + ∑ l : Fin 80000, qv t l))
    (h0 : acc 0 = Ideal.ofBits .f32 0x00000000#32 + T 0) (hs : ∀ t, acc (t + 1) = acc t + T (t + 1)) :
    acc 74 = Ideal.ofBits .f32 0x00000000#32 + ∑ e : Fin 6000000, edgeLoss x E r e := by
  obtain ⟨q, hq⟩ := edgeQ_coe x E r hx hr
  rw [Ideal.ofBits_zero_f32] at h0 hT ⊢
  have h : acc 74 = ∑ s ∈ range 75, T s := fold_eq_sum acc T h0 hs 74
  rw [h, zero_add]
  calc ∑ s ∈ range 75, T s
      = ∑ t ∈ range 75, Ideal.ofBits .f32 0x3F000000#32 * (0 + ∑ l : Fin 80000, qv t l) :=
        Finset.sum_congr rfl fun t ht => hT t (Finset.mem_range.mp ht)
    _ = ∑ n : Fin 6000000, Ideal.ofBits .f32 0x3F000000#32 * ((q n : ℝ) : EReal) :=
        tiles_sum q _ _ ofBits_half qv fun t ht l => (hqv t ht l).trans (hq _)
    _ = ∑ e : Fin 6000000, edgeLoss x E r e :=
        Finset.sum_congr rfl fun e _ => by unfold edgeLoss; rw [hq e]

end Cert.EdgeBridge

end
-- ==== Proof.KI.EdgeHalf.lean ====
/-
  The edge region's scalar, in terms of @main's arguments. After its 75 grid points the region's 1×1 output holds the
  running sum 0 + T 0 + T 1 + … + T 74, where T t is one half of (0 plus) the sum over tile t's 80000 edges of the
  squared deviation of the edge's regularised length from its rest length; each block entry is an entry of the gathered
  end-point arrays, i.e. of the argument arrays; regrouping the 75 × 80000 terms as one sum over the 6000000 edges and
  moving the one half inside (every term is a real number when the vertex coordinates and rest lengths are) gives the
  sum of the per-edge spring energies.
-/
import proofs.«152542_j63075889709151_1_alg».proof.Proof.KI.R1Acc
import proofs.«152542_j63075889709151_1_alg».proof.Proof.KI.R1Final
import proofs.«152542_j63075889709151_1_alg».proof.Proof.KI.Glue1
import proofs.«152542_j63075889709151_1_alg».proof.Proof.EdgeBridge
import proofs.«152542_j63075889709151_1_alg».proof.Proof.LibAccFold

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.EdgeRead Cert.AccFold

variable (m : (ℓ : Loc nD τ sig) → Buf (Elt Ideal) ℓ) (ρ : Dev nD → PrngReg) (c : Dev nD)

/-- The vertex array, the edge array and the rest lengths on core `c`, at their literal shapes. -/
abbrev xOf : FVec Ideal ⟨2, ![2000000, 3]⟩ .f32 := m ((c : Thread nD τ).loc main_arg0)
abbrev eOf : IVec ⟨2, ![6000000, 2]⟩ 32 := m ((c : Thread nD τ).loc main_arg2)
abbrev rOf : FVec Ideal ⟨1, ![6000000]⟩ .f32 := m ((c : Thread nD τ).loc main_arg4)

/-- Edge `l` of tile `t`: its residual is its regularised length minus its rest length, read off the arguments. -/
theorem edgeRes_block (t : Fin cfg1.N) (l : Fin 80000) :
    Tile1.edgeRes (iblk1 (E3 m ρ) c 0 t) (iblk1 (E3 m ρ) c 1 t) (iblk1 (E3 m ρ) c 2 t) l
      = edgeLen (xOf m c) (eOf m c) (edgeOf t l) - rOf m c (ix1 (edgeOf t l)) := by
  unfold Tile1.edgeRes Tile1.edgeSq edgeLen edgeDiff
  simp only [eblock0_arg, eblock1_arg, eblock2_arg]

/-- Tile `t`'s term, and its lanes' squared residuals, as total functions of the point's number (zero past the grid). -/
def TT1 (t : ℕ) : EReal := if h : t < cfg1.N then T1 (E3 m ρ) c ⟨t, h⟩ else 0
def qv1 (t : ℕ) (l : Fin 80000) : EReal :=
  if h : t < cfg1.N then
    Tile1.edgeRes (iblk1 (E3 m ρ) c 0 ⟨t, h⟩) (iblk1 (E3 m ρ) c 1 ⟨t, h⟩) (iblk1 (E3 m ρ) c 2 ⟨t, h⟩) l
      * Tile1.edgeRes (iblk1 (E3 m ρ) c 0 ⟨t, h⟩) (iblk1 (E3 m ρ) c 1 ⟨t, h⟩) (iblk1 (E3 m ρ) c 2 ⟨t, h⟩) l
  else 0

/-- THE EDGE HALF: what the edge region returns is the zero word plus the sum over all edges of the spring energies. -/
theorem edge_scalar (hx : ∀ i, ∃ v : ℝ, xOf m c i = (v : EReal)) (hr : ∀ i, ∃ v : ℝ, rOf m c i = (v : EReal)) :
    (outsAt1 (F := Ideal) (E3 m ρ) c 74 lt1_74).1 (ix2 0 0)
      = Ideal.ofBits .f32 0x00000000#32 + ∑ e : Fin 6000000, edgeLoss (xOf m c) (eOf m c) (rOf m c) e := by
  have hN : cfg1.N = 75 := N_1
  rw [outsAt1_fst_eq_snd]
  have hacc := eq_accOf (N := cfg1.N) (fun n h => (outsAt1 (F := Ideal) (E3 m ρ) c n h).2 (ix2 0 0))
    (Ideal.ofBits .f32 0x00000000#32) (TT1 m ρ c)
    (fun h => by rw [acc1_zero]; simp only [TT1, dif_pos h])
    (fun n h => by rw [acc1_succ]; simp only [TT1, dif_pos h]) 74 lt1_74
  refine hacc.trans ?_
  refine Cert.EdgeBridge.bridge (xOf m c) (eOf m c) (rOf m c) hx hr (qv1 m ρ c) ?_ (accOf _ (TT1 m ρ c)) (TT1 m ρ c) ?_ rfl (fun _ => rfl)
  · intro t ht l
    have h : t < cfg1.N := by rw [hN]; exact ht
    simp only [qv1, dif_pos h]
    rw [edgeRes_block]
    rfl
  · intro t ht
    have h : t < cfg1.N := by rw [hN]; exact ht
    simp only [TT1, qv1, dif_pos h]
    rfl

end Cert.KernelIdeal.Hand

end
-- ==== Proof.KI.Result.lean ====
/-
  The scalar @main returns, at the ideal instance: the last stretch of host operations reshapes each region's 1×1 output
  array to a scalar and adds the two, so at its one index the returned buffer is the sum of the two arrays' entries.
-/
import proofs.«152542_j63075889709151_1_alg».proof.Proof.KI.Launch
import Idealize.ShloMosaic.Lib.ValueIdx
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- A 1×1 array reshaped to a scalar, read at the scalar's one index, is its one entry. -/
theorem scalar_of_1x1 {α : Type} (X : S1x1.Idx → α) : shapeCast S_ X shapeCasts_S1x1_S_ ix0 = X (ix2 0 0) :=
  shapeCast_apply _ _ _ _ (by rw [Shape.rowMajor_val_two]; rfl)

variable (m : (ℓ : Loc nD τ sig) → Buf (Elt Ideal) ℓ) (ρ : Dev nD → PrngReg)

/-- The returned scalar at the ideal instance: the sum of the two regions' 1×1 output arrays' entries. -/
theorem B5_result_at (c : Dev nD) (X0 X1 : S1x1.Idx → EReal)
    (h0 : (dat0 (F := Ideal) (E1 m ρ) c).arrAt 2 cfg0.N = X0) (h1 : (dat1 (F := Ideal) (E3 m ρ) c).arrAt 3 cfg1.N = X1) :
    B5 (F := Ideal) m ρ c (Proc.devRef .tc main_v28) ix0 = X0 (ix2 0 0) + X1 (ix2 0 0) := by
  rw [B5_result, h0, h1]
  show FloatOps.addf (F := Ideal) (shapeCast S_ X0 shapeCasts_S1x1_S_ ix0) (shapeCast S_ X1 shapeCasts_S1x1_S_ ix0) = _
  rw [scalar_of_1x1, scalar_of_1x1]
  rfl

end Cert.KernelIdeal.Hand

end
-- ==== Proof.PreDecode.lean ====
/-
  What the precondition says entry by entry, at the ideal instance. The printed predicate is a conjunction of five
  whole-array tests — |src_V| < +inf, |dist_grid| < +inf, |rest_len| < +inf, src_V ≥ 0, src_V < 1 — each an
  and-reduction of an elementwise comparison; it is all ones exactly when every compared entry passes. An extended
  real whose absolute value max x (−x) is below +inf is a real number, so: every vertex coordinate is a real in
  [0, 1), every grid value and every rest length is a real.
-/
import proofs.«152542_j63075889709151_1_alg».proof.Pre_finite_inputs
import proofs.«152542_j63075889709151_1_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.PreDecode

open Idealize.ShloMosaic Cert.Pre_finite_inputs

instance : Subsingleton S_.Idx := ⟨fun a b => funext fun d => d.elim0⟩

variable [hF : Cert.Pre_finite_inputs.Facts]

/-- The f32 word of +inf denotes +inf; the words of 1.0 and 0.0 denote 1 and 0. -/
theorem ofBits_inf : Ideal.ofBits .f32 0x7F800000#32 = ⊤ := by simp [Ideal.ofBits, Ideal.ieee]
theorem ofBits_one : Ideal.ofBits .f32 0x3F800000#32 = ((1 : ℝ) : EReal) := by
  simp [Ideal.ofBits, Ideal.ieee]
  rw [← EReal.coe_mul]
  norm_num
theorem ofBits_zero : Ideal.ofBits .f32 0x00000000#32 = ((0 : ℝ) : EReal) := by
  simp [Ideal.ofBits, Ideal.ieee]

/-- A comparison that answers one is the order fact it tests. -/
theorem lt_of_cmp_olt {x y : EReal} (h : Ideal.cmp .olt x y = 1#1) : x < y := by
  unfold Ideal.cmp at h
  by_contra hn
  simp [hn] at h
theorem le_of_cmp_oge {x y : EReal} (h : Ideal.cmp .oge x y = 1#1) : y ≤ x := by
  unfold Ideal.cmp at h
  by_contra hn
  simp [hn] at h

/-- An extended real whose absolute value is below +inf is a real number. -/
theorem real_of_abs_lt_top (x : EReal) (h : max x (-x) < ⊤) : ∃ v : ℝ, x = (v : EReal) := by
  induction x using EReal.rec with
  | bot => simp at h
  | coe v => exact ⟨v, rfl⟩
  | top => simp at h

/-- THE DECODE. If the precondition's predicate is all ones then every vertex coordinate is a real number in [0, 1)
    and every grid value and every rest length is a real number. -/
theorem decode (x : FVec Ideal S2000000x3 .f32) (a1 : IVec S4000000x3 32) (a2 : IVec S6000000x2 32)
    (g : FVec Ideal S64x64x64 .f32) (r : FVec Ideal S6000000 .f32)
    (h : fn (F := Ideal) x a1 a2 g r = fun _ => 1#1) :
    (∀ i, ∃ v : ℝ, x i = (v : EReal) ∧ 0 ≤ v ∧ v < 1) ∧ (∀ i, ∃ v : ℝ, g i = (v : EReal)) ∧ (∀ i, ∃ v : ℝ, r i = (v : EReal)) := by
  have h0 := congrFun h ValueIdx.ix0
  dsimp only [fn, fn_part1, andi] at h0
  simp only [IntOp.andi_eq_one] at h0
  obtain ⟨⟨⟨⟨hx, hg⟩, hr⟩, hlo⟩, hhi⟩ := h0
  have e1 := fun i => Host.reduce_andi_all _ _ _ _ _ hx i
  have e2 := fun i => Host.reduce_andi_all _ _ _ _ _ hg i
  have e3 := fun i => Host.reduce_andi_all _ _ _ _ _ hr i
  have e4 := fun i => Host.reduce_andi_all _ _ _ _ _ hlo i
  have e5 := fun i => Host.reduce_andi_all _ _ _ _ _ hhi i
  dsimp only [cmpf, Host.absf, broadcastInDim, constant] at e1 e2 e3 e4 e5
  refine ⟨fun i => ?_, fun i => ?_, fun i => ?_⟩
  · obtain ⟨v, hv⟩ := real_of_abs_lt_top (x i) (by
      have := lt_of_cmp_olt (show Ideal.cmp .olt (max (x i) (-(x i))) (Ideal.ofBits .f32 0x7F800000#32) = 1#1 from e1 i)
      rwa [ofBits_inf] at this)
    have hlo' := le_of_cmp_oge (show Ideal.cmp .oge (x i) (Ideal.ofBits .f32 0x00000000#32) = 1#1 from e4 i)
    have hhi' := lt_of_cmp_olt (show Ideal.cmp .olt (x i) (Ideal.ofBits .f32 0x3F800000#32) = 1#1 from e5 i)
    rw [ofBits_zero, hv, EReal.coe_le_coe_iff] at hlo'
    rw [ofBits_one, hv, EReal.coe_lt_coe_iff] at hhi'
    exact ⟨v, hv, hlo', hhi'⟩
  · exact real_of_abs_lt_top (g i) (by
      have := lt_of_cmp_olt (show Ideal.cmp .olt (max (g i) (-(g i))) (Ideal.ofBits .f32 0x7F800000#32) = 1#1 from e2 i)
      rwa [ofBits_inf] at this)
  · exact real_of_abs_lt_top (r i) (by
      have := lt_of_cmp_olt (show Ideal.cmp .olt (max (r i) (-(r i))) (Ideal.ofBits .f32 0x7F800000#32) = 1#1 from e3 i)
      rwa [ofBits_inf] at this)

end Cert.PreDecode

end
-- ==== Proof.EdgeRead.lean ====
import proofs.«152542_j63075889709151_1_alg».proof.Proof.RefReadP
import proofs.«152542_j63075889709151_1_alg».proof.Proof.EdgeRow
import proofs.«152542_j63075889709151_1_alg».proof.Proof.EdgeDefs
import Idealize.ShloMosaic.Lib.ValueIdx
import Idealize.ShloMosaic.Lib.IdealHost
import Idealize.ShloMosaic.Lib.Pipeline.Value
import Idealize.ShloMosaic.PureOps.Ideal.Laws

/-!
# The reference's edge term, read at an index

For edge e with end points v0 = V[E[e, 0]] and v1 = V[E[e, 1]] the reference computes
one half of (sqrt (Σ over the three coordinates of (v0 − v1)², plus a small constant) − rest length)²
and sums it over the edges.  Its two gathers read the point array at the row each index word names,
the same row the kernel program's gathers read; the per-edge array at e is then the spring energy
of e, and the reduction is the initial value plus the sum of the spring energies.
-/

noncomputable section

namespace Cert.EdgeRead

open scoped BigOperators
open Idealize.ShloMosaic Idealize.ShloMosaic.ValueIdx
open Cert.ReferenceIdeal Cert.ReferenceIdeal.Gen Cert.ReferenceIdeal.ReadP

section Gathers
variable {F : FTy → Type} [FloatOps F]

/-- The reference's first gather is the rows named by column 0 of the edge list. -/
theorem ref_v273_eq (x : FVec F S2000000x3 .f32) (E : IVec S6000000x2 32) :
    val_main_v273 (F := F) x E
      = endRows 0 x E slices_S6000000x2_S6000000x1_0_0 shapeCasts_S6000000x1_S6000000 bcast_S_S6000000
          bcast_S6000000_S6000000x1_0 gather_S2000000x3_S6000000x1_S6000000x3_1_0_n_n_0_1_13_wf := rfl

/-- The reference's second gather is the rows named by column 1 of the edge list. -/
theorem ref_v282_eq (x : FVec F S2000000x3 .f32) (E : IVec S6000000x2 32) :
    val_main_v282 (F := F) x E
      = endRows 1 x E slices_S6000000x2_S6000000x1_0_1 shapeCasts_S6000000x1_S6000000 bcast_S_S6000000
          bcast_S6000000_S6000000x1_0 gather_S2000000x3_S6000000x1_S6000000x3_1_0_n_n_0_1_13_wf := rfl

/-- Coordinate c of the first end point of edge e. -/
theorem ref_v273_apply (x : FVec F S2000000x3 .f32) (E : IVec S6000000x2 32) (e : Fin 6000000) (c : Fin 3) :
    val_main_v273 (F := F) x E (ix2 e c) = x (ix2 (row (E (ix2 e 0))) c) := by
  rw [ref_v273_eq]
  exact endRows_apply 0 (by decide) x E _ _ _ _ _ e c

/-- Coordinate c of the second end point of edge e. -/
theorem ref_v282_apply (x : FVec F S2000000x3 .f32) (E : IVec S6000000x2 32) (e : Fin 6000000) (c : Fin 3) :
    val_main_v282 (F := F) x E (ix2 e c) = x (ix2 (row (E (ix2 e 1))) c) := by
  rw [ref_v282_eq]
  exact endRows_apply 1 (by decide) x E _ _ _ _ _ e c

end Gathers

/-! ## The edge term at the ideal instance -/

section Loss

/-- The reference's per-edge array at edge e is the spring energy of e. -/
theorem ref_v292_apply (x : FVec Ideal S2000000x3 .f32) (E : IVec S6000000x2 32) (r : FVec Ideal S6000000 .f32)
    (e : Fin 6000000) :
    val_main_v292 (F := Ideal) x E r (ix1 e) = edgeLoss x E r e := by
  have hsum : ∑ k : Fin 3, val_main_v284 (F := Ideal) x E (idx_main_v285 (ix1 e) k)
      = ∑ c : Fin 3, edgeDiff x E e c * edgeDiff x E e c := by
    refine Finset.sum_congr rfl fun c _ => ?_
    have hi : idx_main_v285 (ix1 e) c = ix2 e c := by
      funext a
      match a with
      | ⟨0, _⟩ => rfl
      | ⟨1, _⟩ => rfl
    rw [hi, val_main_v284_apply, val_main_v283_apply, ref_v273_apply, ref_v282_apply]
    rfl
  rw [val_main_v292_apply, val_main_v291_apply, val_main_cst_87_apply, val_main_v290_apply,
    val_main_v289_apply, val_main_v288_apply, val_main_v287_apply, val_main_v285_apply,
    val_main_v286_apply, val_main_cst_86_apply, val_main_cst_85_apply, hsum]
  rfl

/-- The reference's per-edge array as a function of the edge. -/
theorem ref_v292_eq (x : FVec Ideal S2000000x3 .f32) (E : IVec S6000000x2 32) (r : FVec Ideal S6000000 .f32) :
    val_main_v292 (F := Ideal) x E r = fun i => edgeLoss x E r (i 0) := by
  funext i
  rw [eq_ix1 i]
  exact ref_v292_apply x E r (i 0)

/-- The reference's edge total: the sum's initial value plus the spring energies of all edges. -/
theorem ref_v294_apply (x : FVec Ideal S2000000x3 .f32) (E : IVec S6000000x2 32) (r : FVec Ideal S6000000 .f32)
    (i : S_.Idx) :
    val_main_v294 (F := Ideal) x E r i
      = Ideal.ofBits .f32 0x00000000#32 + ∑ e : Fin 6000000, edgeLoss x E r e := by
  rw [val_main_v294_apply, val_main_cst_89_apply, sum_idx1]
  exact congrArg (_ + ·) (Finset.sum_congr rfl fun e _ => ref_v292_apply x E r e)

end Loss

end Cert.EdgeRead

end
-- ==== Proof.Final.lean ====
/-
  The two programs return the same number. Under the precondition every vertex coordinate is a real number in [0, 1) and
  every grid value and rest length is a real number. The kernel program's returned scalar is the sum of its two regions'
  scalars: the distance-field region's is the reference's reduced distance-field loss (hat weights equal trilinear
  interpolation on that domain), the edge region's is the reference's reduced edge loss (the same gathers, the same
  arithmetic, tiled); the reference adds the same two numbers.
-/
import proofs.«152542_j63075889709151_1_alg».proof.Defs
import proofs.«152542_j63075889709151_1_alg».proof.Proof.Gen.Pre_finite_inputs
import proofs.«152542_j63075889709151_1_alg».proof.Proof.Gen.ReferenceIdeal
import proofs.«152542_j63075889709151_1_alg».proof.Proof.KI.DistHalf
import proofs.«152542_j63075889709151_1_alg».proof.Proof.KI.EdgeHalf
import proofs.«152542_j63075889709151_1_alg».proof.Proof.KI.Result
import proofs.«152542_j63075889709151_1_alg».proof.Proof.PreDecode
import proofs.«152542_j63075889709151_1_alg».proof.Proof.EdgeRead

set_option maxRecDepth 16384

noncomputable section

namespace Cert.Final

open Cert.KernelIdeal Cert.KernelIdeal.Gen Cert.KernelIdeal.Hand
open Idealize.ShloMosaic Idealize.ShloMosaic.TcCoe Idealize.ShloMosaic.ValueIdx
open Idealize.SL Idealize.SL.Sem

-- the join never looks inside the point-by-point recursions: keep the unifier from opening them at the last point's numeral
attribute [local irreducible] outsAt0 outsAt1

/-- THE RESULT. On every core, under the precondition, the buffer the kernel program returns holds the reference's last
    stage of the same arguments. -/
theorem result_eq (hlaw : TileLaw) (m : (ℓ : Loc nD τ sig) → Buf (Elt Ideal) ℓ) (ρ : Dev nD → PrngReg)
    (hpre : Cert.Pre_KernelIdeal (hPre_finite_inputs := Cert.Pre_finite_inputs.Gen.facts) m) (c : Dev nD) :
    B5 (F := Ideal) m ρ c (Proc.devRef .tc main_v28)
      = Cert.ReferenceIdeal.ReadP.val_main_v295 (F := Ideal)
          (m ((c : Thread nD τ).loc main_arg0)) (m ((c : Thread nD τ).loc main_arg2))
          (m ((c : Thread nD τ).loc main_arg3)) (m ((c : Thread nD τ).loc main_arg4)) := by
  haveI := Cert.ReferenceIdeal.Gen.facts
  haveI := Cert.Pre_finite_inputs.Gen.facts
  obtain ⟨hx, hg, hr⟩ := Cert.PreDecode.decode _ _ _ _ _ (hpre c)
  have hfin : ∀ i, ∃ r : ℝ, xDist m c i = (r : EReal) := fun i => let ⟨v, hv, _, _⟩ := hx i; ⟨v, hv⟩
  have hdom : ∀ i (r : ℝ), xDist m c i = (r : EReal) → 0 ≤ r ∧ r < 1 := fun i r hr' => by
    obtain ⟨v, hv, h0, h1⟩ := hx i
    have : (v : EReal) = (r : EReal) := hv.symm.trans hr'
    rw [EReal.coe_eq_coe_iff] at this
    subst this
    exact ⟨h0, h1⟩
  have hd := dist_scalar m ρ c hlaw hfin hdom hg ix0
  have he := (edge_scalar m ρ c (fun i => let ⟨v, hv, _, _⟩ := hx i; ⟨v, hv⟩) hr).trans
    (Cert.EdgeRead.ref_v294_apply (xOf m c) (eOf m c) (rOf m c) ix0).symm
  have h0 := final0 (F := Ideal) (E1 m ρ) c 3124 (by rw [show cfg0.N = 3125 from N_0])
  have h1 := final1 (F := Ideal) (E3 m ρ) c
  revert hd he h0 h1
  generalize (outsAt0 (F := Ideal) (E1 m ρ) c 3124 lt0_3124).1 = G0
  generalize (outsAt1 (F := Ideal) (E3 m ρ) c 74 lt1_74).1 = G1
  intro hd he h0 h1
  funext i
  obtain rfl := eq_ix0 i
  rw [B5_result_at m ρ c G0 G1 h0 h1, Cert.ReferenceIdeal.ReadP.val_main_v295_apply]
  show (G0 (ix2 0 0) : EReal) + G1 (ix2 0 0) = _ + _
  rw [hd, he]

end Cert.Final

end
-- ==== Proof.RefRunOps.lean ====
import proofs.«152542_j63075889709151_1_alg».proof.Proof.RefReadP
import Idealize.ShloMosaic.Lib.StableHlo.Run

/-!
# The reference's run: the operations

The reference program as the list of its 393 array operations, the list cut into consecutive pieces, and the
side conditions of the run: the program is the list run in order, every operation touches device arrays only and
determines all that it writes.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 16000000 in
/-- @main's 393 operations, in order (a called function's operations stand in its call's place, spelt `TRef.…`). -/
abbrev ops : List (HloOp τ sig (Elt F)) :=
  [ nullary main_cst (constant S_ .f32 0x427C0000#32),
    unary main_cst main_v0 (broadcastInDim S2000000x3 ![] bcast_S_S2000000x3 : (⟨S_, .f32⟩ : BufTy).Contents (Elt F) → (⟨S2000000x3, .f32⟩ : BufTy).Contents (Elt F)),
    binary main_arg0 main_v0 main_v1 (mulf : (⟨S2000000x3, .f32⟩ : BufTy).Contents (Elt F) → (⟨S2000000x3, .f32⟩ : BufTy).Contents (Elt F) → (⟨S2000000x3, .f32⟩ : BufTy).Contents (Elt F)),
    unary main_v1 main_v2 (Host.floor : (⟨S2000000x3, .f32⟩ : BufTy).Contents (Elt F) → (⟨S2000000x3, .f32⟩ : BufTy).Contents (Elt F)),
    unary main_v2 main_v3 (fptosi 32 : (⟨S2000000x3, .f32⟩ : BufTy).Contents (Elt F) → (⟨S2000000x3, .i32⟩ : BufTy).Contents (Elt F)),
    nullary main_c (constantI S_ 32 0#32),
    nullary main_c_0 (constantI S_ 32 62#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2000000x3, .i32⟩) main_call0_v1) (broadcastInDim S2000000x3 ![] bcast_S_S2000000x3),
    TRef.binary (TRef.of (T := ⟨S2000000x3, .i32⟩) main_call0_v1) (TRef.of (T := ⟨S2000000x3, .i32⟩) main_v3) (TRef.of (T := ⟨S2000000x3, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S2000000x3, .i32⟩) main_call0_v4) (broadcastInDim S2000000x3 ![] bcast_S_S2000000x3),
    TRef.binary (TRef.of (T := ⟨S2000000x3, .i32⟩) main_call0_v4) (TRef.of (T := ⟨S2000000x3, .i32⟩) main_call0_v2) (TRef.of (T := ⟨S2000000x3, .i32⟩) main_v4) minsi,
    unary main_v4 main_v5 (sitofp .f32 : (⟨S2000000x3, .i32⟩ : BufTy).Contents (Elt F) → (⟨S2000000x3, .f32⟩ : BufTy).Contents (Elt F)),
    binary main_v1 main_v5 main_v6 (subf : (⟨S2000000x3, .f32⟩ : BufTy).Contents (Elt F) → (⟨S2000000x3, .f32⟩ : BufTy).Contents (Elt F) → (⟨S2000000x3, .f32⟩ : BufTy).Contents (Elt F)),
    unary main_v4 main_v7 ((extractStridedSlice S2000000x1 ![0, 0] · slices_S2000000x3_S2000000x1_0_0) : (⟨S2000000x3, .i32⟩ : BufTy).Contents (Elt F) → (⟨S2000000x1, .i32⟩ : BufTy).Contents (Elt F)),
    reshape main_v7 main_v8 rfl shapeCasts_S2000000x1_S2000000,
    unary main_v4 main_v9 ((extractStridedSlice S2000000x1 ![0, 1] · slices_S2000000x3_S2000000x1_0_1) : (⟨S2000000x3, .i32⟩ : BufTy).Contents (Elt F) → (⟨S2000000x1, .i32⟩ : BufTy).Contents (Elt F)),
    reshape main_v9 main_v10 rfl shapeCasts_S2000000x1_S2000000,
    unary main_v4 main_v11 ((extractStridedSlice S2000000x1 ![0, 2] · slices_S2000000x3_S2000000x1_0_2) : (⟨S2000000x3, .i32⟩ : BufTy).Contents (Elt F) → (⟨S2000000x1, .i32⟩ : BufTy).Contents (Elt F)),
    reshape main_v11 main_v12 rfl shapeCasts_S2000000x1_S2000000,
    unary main_v6 main_v13 ((extractStridedSlice S2000000x1 ![0, 0] · slices_S2000000x3_S2000000x1_0_0) : (⟨S2000000x3, .f32⟩ : BufTy).Contents (Elt F) → (⟨S2000000x1, .f32⟩ : BufTy).Contents (Elt F)),
    reshape main_v13 main_v14 rfl shapeCasts_S2000000x1_S2000000,
    unary main_v6 main_v15 ((extractStridedSlice S2000000x1 ![0, 1] · slices_S2000000x3_S2000000x1_0_1) : (⟨S2000000x3, .f32⟩ : BufTy).Contents (Elt F) → (⟨S2000000x1, .f32⟩ : BufTy).Contents (Elt F)),
    reshape main_v15 main_v16 rfl shapeCasts_S2000000x1_S2000000,
    unary main_v6 main_v17 ((extractStridedSlice S2000000x1 ![0, 2] · slices_S2000000x3_S2000000x1_0_2) : (⟨S2000000x3, .f32⟩ : BufTy).Contents (Elt F) → (⟨S2000000x1, .f32⟩ : BufTy).Contents (Elt F)),
    reshape main_v17 main_v18 rfl shapeCasts_S2000000x1_S2000000,
    nullary main_c_1 (constantI S_ 32 0#32),
    unary main_c_1 main_v19 (broadcastInDim S2000000 ![] bcast_S_S2000000 : (⟨S_, .i32⟩ : BufTy).Contents (Elt F) → (⟨S2000000, .i32⟩ : BufTy).Contents (Elt F)),
    binary main_v8 main_v19 main_v20 (addi : (⟨S2000000, .i32⟩ : BufTy).Contents (Elt F) → (⟨S2000000, .i32⟩ : BufTy).Contents (Elt F) → (⟨S2000000, .i32⟩ : BufTy).Contents (Elt F)),
    nullary main_c_2 (constantI S_ 32 0#32),
    unary main_c_2 main_v21 (broadcastInDim S2000000 ![] bcast_S_S2000000 : (⟨S_, .i32⟩ : BufTy).Contents (Elt F) → (⟨S2000000, .i32⟩ : BufTy).Contents (Elt F)),
    binary main_v10 main_v21 main_v22 (addi : (⟨S2000000, .i32⟩ : BufTy).Contents (Elt F) → (⟨S2000000, .i32⟩ : BufTy).Contents (Elt F) → (⟨S2000000, .i32⟩ : BufTy).Contents (Elt F)),
    nullary main_c_3 (constantI S_ 32 0#32),
    unary main_c_3 main_v23 (broadcastInDim S2000000 ![] bcast_S_S2000000 : (⟨S_, .i32⟩ : BufTy).Contents (Elt F) → (⟨S2000000, .i32⟩ : BufTy).Contents (Elt F)),
    binary main_v12 main_v23 main_v24 (addi : (⟨S2000000, .i32⟩ : BufTy).Contents (Elt F) → (⟨S2000000, .i32⟩ : BufTy).Contents (Elt F) → (⟨S2000000, .i32⟩ : BufTy).Contents (Elt F)),
    nullary main_c_4 (constantI S_ 32 0#32),
    unary main_c_4 main_v25 (broadcastInDim S2000000 ![] bcast_S_S2000000 : (⟨S_, .i32⟩ : BufTy).Contents (Elt F) → (⟨S2000000, .i32⟩ : BufTy).Contents (Elt F)),
    binary main_v20 main_v25 main_v26 (cmpi .slt : (⟨S2000000, .i32⟩ : BufTy).Contents (Elt F) → (⟨S2000000, .i32⟩ : BufTy).Contents (Elt F) → (⟨S2000000, .i1⟩ : BufTy).Contents (Elt F)),
    nullary main_c_5 (constantI S_ 32 64#32),
    unary main_c_5 main_v27 (broadcastInDim S2000000 ![] bcast_S_S2000000 : (⟨S_, .i32⟩ : BufTy).Contents (Elt F) → (⟨S2000000, .i32⟩ : BufTy).Contents (Elt F)),
    binary main_v20 main_v27 main_v28 (addi : (⟨S2000000, .i32⟩ : BufTy).Contents (Elt F) → (⟨S2000000, .i32⟩ : BufTy).Contents (Elt F) → (⟨S2000000, .i32⟩ : BufTy).Contents (Elt F)),
    ternary main_v26 main_v28 main_v20 main_v29 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_6 (constantI S_ 32 0#32),
    unary main_c_6 main_v30 (broadcastInDim S2000000 ![] bcast_S_S2000000 : (⟨S_, .i32⟩ : BufTy).Contents (Elt F) → (⟨S2000000, .i32⟩ : BufTy).Contents (Elt F)),
    binary main_v22 main_v30 main_v31 (cmpi .slt : (⟨S2000000, .i32⟩ : BufTy).Contents (Elt F) → (⟨S2000000, .i32⟩ : BufTy).Contents (Elt F) → (⟨S2000000, .i1⟩ : BufTy).Contents (Elt F)),
    nullary main_c_7 (constantI S_ 32 64#32),
    unary main_c_7 main_v32 (broadcastInDim S2000000 ![] bcast_S_S2000000 : (⟨S_, .i32⟩ : BufTy).Contents (Elt F) → (⟨S2000000, .i32⟩ : BufTy).Contents (Elt F)),
    binary main_v22 main_v32 main_v33 (addi : (⟨S2000000, .i32⟩ : BufTy).Contents (Elt F) → (⟨S2000000, .i32⟩ : BufTy).Contents (Elt F) → (⟨S2000000, .i32⟩ : BufTy).Contents (Elt F)),
    ternary main_v31 main_v33 main_v22 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_8 (constantI S_ 32 0#32),
    unary main_c_8 main_v35 (broadcastInDim S2000000 ![] bcast_S_S2000000 : (⟨S_, .i32⟩ : BufTy).Contents (Elt F) → (⟨S2000000, .i32⟩ : BufTy).Contents (Elt F)),
    binary main_v24 main_v35 main_v36 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 64#32),
    unary main_c_9 main_v37 (broadcastInDim S2000000 ![] bcast_S_S2000000 : (⟨S_, .i32⟩ : BufTy).Contents (Elt F) → (⟨S2000000, .i32⟩ : BufTy).Contents (Elt F)),
    binary main_v24 main_v37 main_v38 (addi : (⟨S2000000, .i32⟩ : BufTy).Contents (Elt F) → (⟨S2000000, .i32⟩ : BufTy).Contents (Elt F) → (⟨S2000000, .i32⟩ : BufTy).Contents (Elt F)),
    ternary main_v36 main_v38 main_v24 main_v39 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v29 main_v40 (broadcastInDim S2000000x1 ![0] bcast_S2000000_S2000000x1_0 : (⟨S2000000, .i32⟩ : BufTy).Contents (Elt F) → (⟨S2000000x1, .i32⟩ : BufTy).Contents (Elt F)),
    unary main_v34 main_v41 (broadcastInDim S2000000x1 ![0] bcast_S2000000_S2000000x1_0 : (⟨S2000000, .i32⟩ : BufTy).Contents (Elt F) → (⟨S2000000x1, .i32⟩ : BufTy).Contents (Elt F)),
    unary main_v39 main_v42 (broadcastInDim S2000000x1 ![0] bcast_S2000000_S2000000x1_0 : (⟨S2000000, .i32⟩ : BufTy).Contents (Elt F) → (⟨S2000000x1, .i32⟩ : BufTy).Contents (Elt F)),
    nary ![main_v40, main_v41, main_v42] main_v43 (fun u => concatenate S2000000x3 1 [⟨S2000000x1, u 0⟩, ⟨S2000000x1, u 1⟩, ⟨S2000000x1, u 2⟩] concatenates_S2000000x1_S2000000x1_S2000000x1_S2000000x3_d1),
    binary main_arg3 main_v43 main_v44 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_10 (constant S_ .f32 0x3F800000#32),
    unary main_cst_10 main_v45 (broadcastInDim S2000000 ![] bcast_S_S2000000 : (⟨S_, .f32⟩ : BufTy).Contents (Elt F) → (⟨S2000000, .f32⟩ : BufTy).Contents (Elt F)),
    binary main_v45 main_v14 main_v46 (subf : (⟨S2000000, .f32⟩ : BufTy).Contents (Elt F) → (⟨S2000000, .f32⟩ : BufTy).Contents (Elt F) → (⟨S2000000, .f32⟩ : BufTy).Contents (Elt F)),
    binary main_v44 main_v46 main_v47 (mulf : (⟨S2000000, .f32⟩ : BufTy).Contents (Elt F) → (⟨S2000000, .f32⟩ : BufTy).Contents (Elt F) → (⟨S2000000, .f32⟩ : BufTy).Contents (Elt F)),
    nullary main_c_11 (constantI S_ 32 1#32),
    unary main_c_11 main_v48 (broadcastInDim S2000000 ![] bcast_S_S2000000 : (⟨S_, .i32⟩ : BufTy).Contents (Elt F) → (⟨S2000000, .i32⟩ : BufTy).Contents (Elt F)),
    binary main_v8 main_v48 main_v49 (addi : (⟨S2000000, .i32⟩ : BufTy).Contents (Elt F) → (⟨S2000000, .i32⟩ : BufTy).Contents (Elt F) → (⟨S2000000, .i32⟩ : BufTy).Contents (Elt F)),
    nullary main_c_12 (constantI S_ 32 0#32),
    unary main_c_12 main_v50 (broadcastInDim S2000000 ![] bcast_S_S2000000 : (⟨S_, .i32⟩ : BufTy).Contents (Elt F) → (⟨S2000000, .i32⟩ : BufTy).Contents (Elt F)),
    binary main_v10 main_v50 main_v51 (addi : (⟨S2000000, .i32⟩ : BufTy).Contents (Elt F) → (⟨S2000000, .i32⟩ : BufTy).Contents (Elt F) → (⟨S2000000, .i32⟩ : BufTy).Contents (Elt F)),
    nullary main_c_13 (constantI S_ 32 0#32),
    unary main_c_13 main_v52 (broadcastInDim S2000000 ![] bcast_S_S2000000 : (⟨S_, .i32⟩ : BufTy).Contents (Elt F) → (⟨S2000000, .i32⟩ : BufTy).Contents (Elt F)),
    binary main_v12 main_v52 main_v53 (addi : (⟨S2000000, .i32⟩ : BufTy).Contents (Elt F) → (⟨S2000000, .i32⟩ : BufTy).Contents (Elt F) → (⟨S2000000, .i32⟩ : BufTy).Contents (Elt F)),
    nullary main_c_14 (constantI S_ 32 0#32),
    unary main_c_14 main_v54 (broadcastInDim S2000000 ![] bcast_S_S2000000 : (⟨S_, .i32⟩ : BufTy).Contents (Elt F) → (⟨S2000000, .i32⟩ : BufTy).Contents (Elt F)),
    binary main_v49 main_v54 main_v55 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 64#32),
    unary main_c_15 main_v56 (broadcastInDim S2000000 ![] bcast_S_S2000000 : (⟨S_, .i32⟩ : BufTy).Contents (Elt F) → (⟨S2000000, .i32⟩ : BufTy).Contents (Elt F)),
    binary main_v49 main_v56 main_v57 (addi : (⟨S2000000, .i32⟩ : BufTy).Contents (Elt F) → (⟨S2000000, .i32⟩ : BufTy).Contents (Elt F) → (⟨S2000000, .i32⟩ : BufTy).Contents (Elt F)),
    ternary main_v55 main_v57 main_v49 main_v58 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_16 (constantI S_ 32 0#32),
    unary main_c_16 main_v59 (broadcastInDim S2000000 ![] bcast_S_S2000000 : (⟨S_, .i32⟩ : BufTy).Contents (Elt F) → (⟨S2000000, .i32⟩ : BufTy).Contents (Elt F)),
    binary main_v51 main_v59 main_v60 (cmpi .slt : (⟨S2000000, .i32⟩ : BufTy).Contents (Elt F) → (⟨S2000000, .i32⟩ : BufTy).Contents (Elt F) → (⟨S2000000, .i1⟩ : BufTy).Contents (Elt F)),
    nullary main_c_17 (constantI S_ 32 64#32),
    unary main_c_17 main_v61 (broadcastInDim S2000000 ![] bcast_S_S2000000 : (⟨S_, .i32⟩ : BufTy).Contents (Elt F) → (⟨S2000000, .i32⟩ : BufTy).Contents (Elt F)),
    binary main_v51 main_v61 main_v62 (addi : (⟨S2000000, .i32⟩ : BufTy).Contents (Elt F) → (⟨S2000000, .i32⟩ : BufTy).Contents (Elt F) → (⟨S2000000, .i32⟩ : BufTy).Contents (Elt F)),
    ternary main_v60 main_v62 main_v51 main_v63 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_18 (constantI S_ 32 0#32),
    unary main_c_18 main_v64 (broadcastInDim S2000000 ![] bcast_S_S2000000 : (⟨S_, .i32⟩ : BufTy).Contents (Elt F) → (⟨S2000000, .i32⟩ : BufTy).Contents (Elt F)),
    binary main_v53 main_v64 main_v65 (cmpi .slt : (⟨S2000000, .i32⟩ : BufTy).Contents (Elt F) → (⟨S2000000, .i32⟩ : BufTy).Contents (Elt F) → (⟨S2000000, .i1⟩ : BufTy).Contents (Elt F)),
    nullary main_c_19 (constantI S_ 32 64#32),
    unary main_c_19 main_v66 (broadcastInDim S2000000 ![] bcast_S_S2000000 : (⟨S_, .i32⟩ : BufTy).Contents (Elt F) → (⟨S2000000, .i32⟩ : BufTy).Contents (Elt F)),
    binary main_v53 main_v66 main_v67 (addi : (⟨S2000000, .i32⟩ : BufTy).Contents (Elt F) → (⟨S2000000, .i32⟩ : BufTy).Contents (Elt F) → (⟨S2000000, .i32⟩ : BufTy).Contents (Elt F)),
    ternary main_v65 main_v67 main_v53 main_v68 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v58 main_v69 (broadcastInDim S2000000x1 ![0] bcast_S2000000_S2000000x1_0 : (⟨S2000000, .i32⟩ : BufTy).Contents (Elt F) → (⟨S2000000x1, .i32⟩ : BufTy).Contents (Elt F)),
    unary main_v63 main_v70 (broadcastInDim S2000000x1 ![0] bcast_S2000000_S2000000x1_0 : (⟨S2000000, .i32⟩ : BufTy).Contents (Elt F) → (⟨S2000000x1, .i32⟩ : BufTy).Contents (Elt F)),
    unary main_v68 main_v71 (broadcastInDim S2000000x1 ![0] bcast_S2000000_S2000000x1_0 : (⟨S2000000, .i32⟩ : BufTy).Contents (Elt F) → (⟨S2000000x1, .i32⟩ : BufTy).Contents (Elt F)),
    nary ![main_v69, main_v70, main_v71] main_v72 (fun u => concatenate S2000000x3 1 [⟨S2000000x1, u 0⟩, ⟨S2000000x1, u 1⟩, ⟨S2000000x1, u 2⟩] concatenates_S2000000x1_S2000000x1_S2000000x1_S2000000x3_d1),
    binary main_arg3 main_v72 main_v73 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v73 main_v14 main_v74 (mulf : (⟨S2000000, .f32⟩ : BufTy).Contents (Elt F) → (⟨S2000000, .f32⟩ : BufTy).Contents (Elt F) → (⟨S2000000, .f32⟩ : BufTy).Contents (Elt F)),
    binary main_v47 main_v74 main_v75 (addf : (⟨S2000000, .f32⟩ : BufTy).Contents (Elt F) → (⟨S2000000, .f32⟩ : BufTy).Contents (Elt F) → (⟨S2000000, .f32⟩ : BufTy).Contents (Elt F)),
    nullary main_c_20 (constantI S_ 32 0#32),
    unary main_c_20 main_v76 (broadcastInDim S2000000 ![] bcast_S_S2000000 : (⟨S_, .i32⟩ : BufTy).Contents (Elt F) → (⟨S2000000, .i32⟩ : BufTy).Contents (Elt F)),
    binary main_v8 main_v76 main_v77 (addi : (⟨S2000000, .i32⟩ : BufTy).Contents (Elt F) → (⟨S2000000, .i32⟩ : BufTy).Contents (Elt F) → (⟨S2000000, .i32⟩ : BufTy).Contents (Elt F)),
    nullary main_c_21 (constantI S_ 32 0#32),
    unary main_c_21 main_v78 (broadcastInDim S2000000 ![] bcast_S_S2000000 : (⟨S_, .i32⟩ : BufTy).Contents (Elt F) → (⟨S2000000, .i32⟩ : BufTy).Contents (Elt F)),
    binary main_v10 main_v78 main_v79 (addi : (⟨S2000000, .i32⟩ : BufTy).Contents (Elt F) → (⟨S2000000, .i32⟩ : BufTy).Contents (Elt F) → (⟨S2000000, .i32⟩ : BufTy).Contents (Elt F)),
    nullary main_c_22 (constantI S_ 32 1#32),
    unary main_c_22 main_v80 (broadcastInDim S2000000 ![] bcast_S_S2000000 : (⟨S_, .i32⟩ : BufTy).Contents (Elt F) → (⟨S2000000, .i32⟩ : BufTy).Contents (Elt F)),
    binary main_v12 main_v80 main_v81 (addi : (⟨S2000000, .i32⟩ : BufTy).Contents (Elt F) → (⟨S2000000, .i32⟩ : BufTy).Contents (Elt F) → (⟨S2000000, .i32⟩ : BufTy).Contents (Elt F)),
    nullary main_c_23 (constantI S_ 32 0#32),
    unary main_c_23 main_v82 (broadcastInDim S2000000 ![] bcast_S_S2000000 : (⟨S_, .i32⟩ : BufTy).Contents (Elt F) → (⟨S2000000, .i32⟩ : BufTy).Contents (Elt F)),
    binary main_v77 main_v82 main_v83 (cmpi .slt : (⟨S2000000, .i32⟩ : BufTy).Contents (Elt F) → (⟨S2000000, .i32⟩ : BufTy).Contents (Elt F) → (⟨S2000000, .i1⟩ : BufTy).Contents (Elt F)),
    nullary main_c_24 (constantI S_ 32 64#32),
    unary main_c_24 main_v84 (broadcastInDim S2000000 ![] bcast_S_S2000000 : (⟨S_, .i32⟩ : BufTy).Contents (Elt F) → (⟨S2000000, .i32⟩ : BufTy).Contents (Elt F)),
    binary main_v77 main_v84 main_v85 (addi : (⟨S2000000, .i32⟩ : BufTy).Contents (Elt F) → (⟨S2000000, .i32⟩ : BufTy).Contents (Elt F) → (⟨S2000000, .i32⟩ : BufTy).Contents (Elt F)),
    ternary main_v83 main_v85 main_v77 main_v86 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_25 (constantI S_ 32 0#32),
    unary main_c_25 main_v87 (broadcastInDim S2000000 ![] bcast_S_S2000000 : (⟨S_, .i32⟩ : BufTy).Contents (Elt F) → (⟨S2000000, .i32⟩ : BufTy).Contents (Elt F)),
    binary main_v79 main_v87 main_v88 (cmpi .slt : (⟨S2000000, .i32⟩ : BufTy).Contents (Elt F) → (⟨S2000000, .i32⟩ : BufTy).Contents (Elt F) → (⟨S2000000, .i1⟩ : BufTy).Contents (Elt F)),
    nullary main_c_26 (constantI S_ 32 64#32),
    unary main_c_26 main_v89 (broadcastInDim S2000000 ![] bcast_S_S2000000 : (⟨S_, .i32⟩ : BufTy).Contents (Elt F) → (⟨S2000000, .i32⟩ : BufTy).Contents (Elt F)),
    binary main_v79 main_v89 main_v90 (addi : (⟨S2000000, .i32⟩ : BufTy).Contents (Elt F) → (⟨S2000000, .i32⟩ : BufTy).Contents (Elt F) → (⟨S2000000, .i32⟩ : BufTy).Contents (Elt F)),
    ternary main_v88 main_v90 main_v79 main_v91 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_27 (constantI S_ 32 0#32),
    unary main_c_27 main_v92 (broadcastInDim S2000000 ![] bcast_S_S2000000 : (⟨S_, .i32⟩ : BufTy).Contents (Elt F) → (⟨S2000000, .i32⟩ : BufTy).Contents (Elt F)),
    binary main_v81 main_v92 main_v93 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 64#32),
    unary main_c_28 main_v94 (broadcastInDim S2000000 ![] bcast_S_S2000000 : (⟨S_, .i32⟩ : BufTy).Contents (Elt F) → (⟨S2000000, .i32⟩ : BufTy).Contents (Elt F)),
    binary main_v81 main_v94 main_v95 (addi : (⟨S2000000, .i32⟩ : BufTy).Contents (Elt F) → (⟨S2000000, .i32⟩ : BufTy).Contents (Elt F) → (⟨S2000000, .i32⟩ : BufTy).Contents (Elt F)),
    ternary main_v93 main_v95 main_v81 main_v96 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v86 main_v97 (broadcastInDim S2000000x1 ![0] bcast_S2000000_S2000000x1_0 : (⟨S2000000, .i32⟩ : BufTy).Contents (Elt F) → (⟨S2000000x1, .i32⟩ : BufTy).Contents (Elt F)),
    unary main_v91 main_v98 (broadcastInDim S2000000x1 ![0] bcast_S2000000_S2000000x1_0 : (⟨S2000000, .i32⟩ : BufTy).Contents (Elt F) → (⟨S2000000x1, .i32⟩ : BufTy).Contents (Elt F)),
    unary main_v96 main_v99 (broadcastInDim S2000000x1 ![0] bcast_S2000000_S2000000x1_0 : (⟨S2000000, .i32⟩ : BufTy).Contents (Elt F) → (⟨S2000000x1, .i32⟩ : BufTy).Contents (Elt F)),
    nary ![main_v97, main_v98, main_v99] main_v100 (fun u => concatenate S2000000x3 1 [⟨S2000000x1, u 0⟩, ⟨S2000000x1, u 1⟩, ⟨S2000000x1, u 2⟩] concatenates_S2000000x1_S2000000x1_S2000000x1_S2000000x3_d1),
    binary main_arg3 main_v100 main_v101 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_29 (constant S_ .f32 0x3F800000#32),
    unary main_cst_29 main_v102 (broadcastInDim S2000000 ![] bcast_S_S2000000 : (⟨S_, .f32⟩ : BufTy).Contents (Elt F) → (⟨S2000000, .f32⟩ : BufTy).Contents (Elt F)),
    binary main_v102 main_v14 main_v103 (subf : (⟨S2000000, .f32⟩ : BufTy).Contents (Elt F) → (⟨S2000000, .f32⟩ : BufTy).Contents (Elt F) → (⟨S2000000, .f32⟩ : BufTy).Contents (Elt F)),
    binary main_v101 main_v103 main_v104 (mulf : (⟨S2000000, .f32⟩ : BufTy).Contents (Elt F) → (⟨S2000000, .f32⟩ : BufTy).Contents (Elt F) → (⟨S2000000, .f32⟩ : BufTy).Contents (Elt F)),
    nullary main_c_30 (constantI S_ 32 1#32),
    unary main_c_30 main_v105 (broadcastInDim S2000000 ![] bcast_S_S2000000 : (⟨S_, .i32⟩ : BufTy).Contents (Elt F) → (⟨S2000000, .i32⟩ : BufTy).Contents (Elt F)),
    binary main_v8 main_v105 main_v106 (addi : (⟨S2000000, .i32⟩ : BufTy).Contents (Elt F) → (⟨S2000000, .i32⟩ : BufTy).Contents (Elt F) → (⟨S2000000, .i32⟩ : BufTy).Contents (Elt F)),
    nullary main_c_31 (constantI S_ 32 0#32),
    unary main_c_31 main_v107 (broadcastInDim S2000000 ![] bcast_S_S2000000 : (⟨S_, .i32⟩ : BufTy).Contents (Elt F) → (⟨S2000000, .i32⟩ : BufTy).Contents (Elt F)),
    binary main_v10 main_v107 main_v108 (addi : (⟨S2000000, .i32⟩ : BufTy).Contents (Elt F) → (⟨S2000000, .i32⟩ : BufTy).Contents (Elt F) → (⟨S2000000, .i32⟩ : BufTy).Contents (Elt F)),
    nullary main_c_32 (constantI S_ 32 1#32),
    unary main_c_32 main_v109 (broadcastInDim S2000000 ![] bcast_S_S2000000 : (⟨S_, .i32⟩ : BufTy).Contents (Elt F) → (⟨S2000000, .i32⟩ : BufTy).Contents (Elt F)),
    binary main_v12 main_v109 main_v110 (addi : (⟨S2000000, .i32⟩ : BufTy).Contents (Elt F) → (⟨S2000000, .i32⟩ : BufTy).Contents (Elt F) → (⟨S2000000, .i32⟩ : BufTy).Contents (Elt F)),
    nullary main_c_33 (constantI S_ 32 0#32),
    unary main_c_33 main_v111 (broadcastInDim S2000000 ![] bcast_S_S2000000 : (⟨S_, .i32⟩ : BufTy).Contents (Elt F) → (⟨S2000000, .i32⟩ : BufTy).Contents (Elt F)),
    binary main_v106 main_v111 main_v112 (cmpi .slt : (⟨S2000000, .i32⟩ : BufTy).Contents (Elt F) → (⟨S2000000, .i32⟩ : BufTy).Contents (Elt F) → (⟨S2000000, .i1⟩ : BufTy).Contents (Elt F)),
    nullary main_c_34 (constantI S_ 32 64#32),
    unary main_c_34 main_v113 (broadcastInDim S2000000 ![] bcast_S_S2000000 : (⟨S_, .i32⟩ : BufTy).Contents (Elt F) → (⟨S2000000, .i32⟩ : BufTy).Contents (Elt F)),
    binary main_v106 main_v113 main_v114 (addi : (⟨S2000000, .i32⟩ : BufTy).Contents (Elt F) → (⟨S2000000, .i32⟩ : BufTy).Contents (Elt F) → (⟨S2000000, .i32⟩ : BufTy).Contents (Elt F)),
    ternary main_v112 main_v114 main_v106 main_v115 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_35 (constantI S_ 32 0#32),
    unary main_c_35 main_v116 (broadcastInDim S2000000 ![] bcast_S_S2000000 : (⟨S_, .i32⟩ : BufTy).Contents (Elt F) → (⟨S2000000, .i32⟩ : BufTy).Contents (Elt F)),
    binary main_v108 main_v116 main_v117 (cmpi .slt : (⟨S2000000, .i32⟩ : BufTy).Contents (Elt F) → (⟨S2000000, .i32⟩ : BufTy).Contents (Elt F) → (⟨S2000000, .i1⟩ : BufTy).Contents (Elt F)),
    nullary main_c_36 (constantI S_ 32 64#32),
    unary main_c_36 main_v118 (broadcastInDim S2000000 ![] bcast_S_S2000000 : (⟨S_, .i32⟩ : BufTy).Contents (Elt F) → (⟨S2000000, .i32⟩ : BufTy).Contents (Elt F)),
    binary main_v108 main_v118 main_v119 (addi : (⟨S2000000, .i32⟩ : BufTy).Contents (Elt F) → (⟨S2000000, .i32⟩ : BufTy).Contents (Elt F) → (⟨S2000000, .i32⟩ : BufTy).Contents (Elt F)),
    ternary main_v117 main_v119 main_v108 main_v120 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_37 (constantI S_ 32 0#32),
    unary main_c_37 main_v121 (broadcastInDim S2000000 ![] bcast_S_S2000000 : (⟨S_, .i32⟩ : BufTy).Contents (Elt F) → (⟨S2000000, .i32⟩ : BufTy).Contents (Elt F)),
    binary main_v110 main_v121 main_v122 (cmpi .slt : (⟨S2000000, .i32⟩ : BufTy).Contents (Elt F) → (⟨S2000000, .i32⟩ : BufTy).Contents (Elt F) → (⟨S2000000, .i1⟩ : BufTy).Contents (Elt F)),
    nullary main_c_38 (constantI S_ 32 64#32),
    unary main_c_38 main_v123 (broadcastInDim S2000000 ![] bcast_S_S2000000 : (⟨S_, .i32⟩ : BufTy).Contents (Elt F) → (⟨S2000000, .i32⟩ : BufTy).Contents (Elt F)),
    binary main_v110 main_v123 main_v124 (addi : (⟨S2000000, .i32⟩ : BufTy).Contents (Elt F) → (⟨S2000000, .i32⟩ : BufTy).Contents (Elt F) → (⟨S2000000, .i32⟩ : BufTy).Contents (Elt F)),
    ternary main_v122 main_v124 main_v110 main_v125 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v115 main_v126 (broadcastInDim S2000000x1 ![0] bcast_S2000000_S2000000x1_0 : (⟨S2000000, .i32⟩ : BufTy).Contents (Elt F) → (⟨S2000000x1, .i32⟩ : BufTy).Contents (Elt F)),
    unary main_v120 main_v127 (broadcastInDim S2000000x1 ![0] bcast_S2000000_S2000000x1_0 : (⟨S2000000, .i32⟩ : BufTy).Contents (Elt F) → (⟨S2000000x1, .i32⟩ : BufTy).Contents (Elt F)),
    unary main_v125 main_v128 (broadcastInDim S2000000x1 ![0] bcast_S2000000_S2000000x1_0 : (⟨S2000000, .i32⟩ : BufTy).Contents (Elt F) → (⟨S2000000x1, .i32⟩ : BufTy).Contents (Elt F)),
    nary ![main_v126, main_v127, main_v128] main_v129 (fun u => concatenate S2000000x3 1 [⟨S2000000x1, u 0⟩, ⟨S2000000x1, u 1⟩, ⟨S2000000x1, u 2⟩] concatenates_S2000000x1_S2000000x1_S2000000x1_S2000000x3_d1),
    binary main_arg3 main_v129 main_v130 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v130 main_v14 main_v131 (mulf : (⟨S2000000, .f32⟩ : BufTy).Contents (Elt F) → (⟨S2000000, .f32⟩ : BufTy).Contents (Elt F) → (⟨S2000000, .f32⟩ : BufTy).Contents (Elt F)),
    binary main_v104 main_v131 main_v132 (addf : (⟨S2000000, .f32⟩ : BufTy).Contents (Elt F) → (⟨S2000000, .f32⟩ : BufTy).Contents (Elt F) → (⟨S2000000, .f32⟩ : BufTy).Contents (Elt F)),
    nullary main_c_39 (constantI S_ 32 0#32),
    unary main_c_39 main_v133 (broadcastInDim S2000000 ![] bcast_S_S2000000 : (⟨S_, .i32⟩ : BufTy).Contents (Elt F) → (⟨S2000000, .i32⟩ : BufTy).Contents (Elt F)),
    binary main_v8 main_v133 main_v134 (addi : (⟨S2000000, .i32⟩ : BufTy).Contents (Elt F) → (⟨S2000000, .i32⟩ : BufTy).Contents (Elt F) → (⟨S2000000, .i32⟩ : BufTy).Contents (Elt F)),
    nullary main_c_40 (constantI S_ 32 1#32),
    unary main_c_40 main_v135 (broadcastInDim S2000000 ![] bcast_S_S2000000 : (⟨S_, .i32⟩ : BufTy).Contents (Elt F) → (⟨S2000000, .i32⟩ : BufTy).Contents (Elt F)),
    binary main_v10 main_v135 main_v136 (addi : (⟨S2000000, .i32⟩ : BufTy).Contents (Elt F) → (⟨S2000000, .i32⟩ : BufTy).Contents (Elt F) → (⟨S2000000, .i32⟩ : BufTy).Contents (Elt F)),
    nullary main_c_41 (constantI S_ 32 0#32),
    unary main_c_41 main_v137 (broadcastInDim S2000000 ![] bcast_S_S2000000 : (⟨S_, .i32⟩ : BufTy).Contents (Elt F) → (⟨S2000000, .i32⟩ : BufTy).Contents (Elt F)),
    binary main_v12 main_v137 main_v138 (addi : (⟨S2000000, .i32⟩ : BufTy).Contents (Elt F) → (⟨S2000000, .i32⟩ : BufTy).Contents (Elt F) → (⟨S2000000, .i32⟩ : BufTy).Contents (Elt F)),
    nullary main_c_42 (constantI S_ 32 0#32),
    unary main_c_42 main_v139 (broadcastInDim S2000000 ![] bcast_S_S2000000 : (⟨S_, .i32⟩ : BufTy).Contents (Elt F) → (⟨S2000000, .i32⟩ : BufTy).Contents (Elt F)),
    binary main_v134 main_v139 main_v140 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 64#32),
    unary main_c_43 main_v141 (broadcastInDim S2000000 ![] bcast_S_S2000000 : (⟨S_, .i32⟩ : BufTy).Contents (Elt F) → (⟨S2000000, .i32⟩ : BufTy).Contents (Elt F)),
    binary main_v134 main_v141 main_v142 (addi : (⟨S2000000, .i32⟩ : BufTy).Contents (Elt F) → (⟨S2000000, .i32⟩ : BufTy).Contents (Elt F) → (⟨S2000000, .i32⟩ : BufTy).Contents (Elt F)),
    ternary main_v140 main_v142 main_v134 main_v143 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_44 (constantI S_ 32 0#32),
    unary main_c_44 main_v144 (broadcastInDim S2000000 ![] bcast_S_S2000000 : (⟨S_, .i32⟩ : BufTy).Contents (Elt F) → (⟨S2000000, .i32⟩ : BufTy).Contents (Elt F)),
    binary main_v136 main_v144 main_v145 (cmpi .slt : (⟨S2000000, .i32⟩ : BufTy).Contents (Elt F) → (⟨S2000000, .i32⟩ : BufTy).Contents (Elt F) → (⟨S2000000, .i1⟩ : BufTy).Contents (Elt F)),
    nullary main_c_45 (constantI S_ 32 64#32),
    unary main_c_45 main_v146 (broadcastInDim S2000000 ![] bcast_S_S2000000 : (⟨S_, .i32⟩ : BufTy).Contents (Elt F) → (⟨S2000000, .i32⟩ : BufTy).Contents (Elt F)),
    binary main_v136 main_v146 main_v147 (addi : (⟨S2000000, .i32⟩ : BufTy).Contents (Elt F) → (⟨S2000000, .i32⟩ : BufTy).Contents (Elt F) → (⟨S2000000, .i32⟩ : BufTy).Contents (Elt F)),
    ternary main_v145 main_v147 main_v136 main_v148 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_46 (constantI S_ 32 0#32),
    unary main_c_46 main_v149 (broadcastInDim S2000000 ![] bcast_S_S2000000 : (⟨S_, .i32⟩ : BufTy).Contents (Elt F) → (⟨S2000000, .i32⟩ : BufTy).Contents (Elt F)),
    binary main_v138 main_v149 main_v150 (cmpi .slt : (⟨S2000000, .i32⟩ : BufTy).Contents (Elt F) → (⟨S2000000, .i32⟩ : BufTy).Contents (Elt F) → (⟨S2000000, .i1⟩ : BufTy).Contents (Elt F)),
    nullary main_c_47 (constantI S_ 32 64#32),
    unary main_c_47 main_v151 (broadcastInDim S2000000 ![] bcast_S_S2000000 : (⟨S_, .i32⟩ : BufTy).Contents (Elt F) → (⟨S2000000, .i32⟩ : BufTy).Contents (Elt F)),
    binary main_v138 main_v151 main_v152 (addi : (⟨S2000000, .i32⟩ : BufTy).Contents (Elt F) → (⟨S2000000, .i32⟩ : BufTy).Contents (Elt F) → (⟨S2000000, .i32⟩ : BufTy).Contents (Elt F)),
    ternary main_v150 main_v152 main_v138 main_v153 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v143 main_v154 (broadcastInDim S2000000x1 ![0] bcast_S2000000_S2000000x1_0 : (⟨S2000000, .i32⟩ : BufTy).Contents (Elt F) → (⟨S2000000x1, .i32⟩ : BufTy).Contents (Elt F)),
    unary main_v148 main_v155 (broadcastInDim S2000000x1 ![0] bcast_S2000000_S2000000x1_0 : (⟨S2000000, .i32⟩ : BufTy).Contents (Elt F) → (⟨S2000000x1, .i32⟩ : BufTy).Contents (Elt F)),
    unary main_v153 main_v156 (broadcastInDim S2000000x1 ![0] bcast_S2000000_S2000000x1_0 : (⟨S2000000, .i32⟩ : BufTy).Contents (Elt F) → (⟨S2000000x1, .i32⟩ : BufTy).Contents (Elt F)),
    nary ![main_v154, main_v155, main_v156] main_v157 (fun u => concatenate S2000000x3 1 [⟨S2000000x1, u 0⟩, ⟨S2000000x1, u 1⟩, ⟨S2000000x1, u 2⟩] concatenates_S2000000x1_S2000000x1_S2000000x1_S2000000x3_d1),
    binary main_arg3 main_v157 main_v158 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_48 (constant S_ .f32 0x3F800000#32),
    unary main_cst_48 main_v159 (broadcastInDim S2000000 ![] bcast_S_S2000000 : (⟨S_, .f32⟩ : BufTy).Contents (Elt F) → (⟨S2000000, .f32⟩ : BufTy).Contents (Elt F)),
    binary main_v159 main_v14 main_v160 (subf : (⟨S2000000, .f32⟩ : BufTy).Contents (Elt F) → (⟨S2000000, .f32⟩ : BufTy).Contents (Elt F) → (⟨S2000000, .f32⟩ : BufTy).Contents (Elt F)),
    binary main_v158 main_v160 main_v161 (mulf : (⟨S2000000, .f32⟩ : BufTy).Contents (Elt F) → (⟨S2000000, .f32⟩ : BufTy).Contents (Elt F) → (⟨S2000000, .f32⟩ : BufTy).Contents (Elt F)),
    nullary main_c_49 (constantI S_ 32 1#32),
    unary main_c_49 main_v162 (broadcastInDim S2000000 ![] bcast_S_S2000000 : (⟨S_, .i32⟩ : BufTy).Contents (Elt F) → (⟨S2000000, .i32⟩ : BufTy).Contents (Elt F)),
    binary main_v8 main_v162 main_v163 (addi : (⟨S2000000, .i32⟩ : BufTy).Contents (Elt F) → (⟨S2000000, .i32⟩ : BufTy).Contents (Elt F) → (⟨S2000000, .i32⟩ : BufTy).Contents (Elt F)),
    nullary main_c_50 (constantI S_ 32 1#32),
    unary main_c_50 main_v164 (broadcastInDim S2000000 ![] bcast_S_S2000000 : (⟨S_, .i32⟩ : BufTy).Contents (Elt F) → (⟨S2000000, .i32⟩ : BufTy).Contents (Elt F)),
    binary main_v10 main_v164 main_v165 (addi : (⟨S2000000, .i32⟩ : BufTy).Contents (Elt F) → (⟨S2000000, .i32⟩ : BufTy).Contents (Elt F) → (⟨S2000000, .i32⟩ : BufTy).Contents (Elt F)),
    nullary main_c_51 (constantI S_ 32 0#32),
    unary main_c_51 main_v166 (broadcastInDim S2000000 ![] bcast_S_S2000000 : (⟨S_, .i32⟩ : BufTy).Contents (Elt F) → (⟨S2000000, .i32⟩ : BufTy).Contents (Elt F)),
    binary main_v12 main_v166 main_v167 (addi : (⟨S2000000, .i32⟩ : BufTy).Contents (Elt F) → (⟨S2000000, .i32⟩ : BufTy).Contents (Elt F) → (⟨S2000000, .i32⟩ : BufTy).Contents (Elt F)),
    nullary main_c_52 (constantI S_ 32 0#32),
    unary main_c_52 main_v168 (broadcastInDim S2000000 ![] bcast_S_S2000000 : (⟨S_, .i32⟩ : BufTy).Contents (Elt F) → (⟨S2000000, .i32⟩ : BufTy).Contents (Elt F)),
    binary main_v163 main_v168 main_v169 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 64#32),
    unary main_c_53 main_v170 (broadcastInDim S2000000 ![] bcast_S_S2000000 : (⟨S_, .i32⟩ : BufTy).Contents (Elt F) → (⟨S2000000, .i32⟩ : BufTy).Contents (Elt F)),
    binary main_v163 main_v170 main_v171 (addi : (⟨S2000000, .i32⟩ : BufTy).Contents (Elt F) → (⟨S2000000, .i32⟩ : BufTy).Contents (Elt F) → (⟨S2000000, .i32⟩ : BufTy).Contents (Elt F)),
    ternary main_v169 main_v171 main_v163 main_v172 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_54 (constantI S_ 32 0#32),
    unary main_c_54 main_v173 (broadcastInDim S2000000 ![] bcast_S_S2000000 : (⟨S_, .i32⟩ : BufTy).Contents (Elt F) → (⟨S2000000, .i32⟩ : BufTy).Contents (Elt F)),
    binary main_v165 main_v173 main_v174 (cmpi .slt : (⟨S2000000, .i32⟩ : BufTy).Contents (Elt F) → (⟨S2000000, .i32⟩ : BufTy).Contents (Elt F) → (⟨S2000000, .i1⟩ : BufTy).Contents (Elt F)),
    nullary main_c_55 (constantI S_ 32 64#32),
    unary main_c_55 main_v175 (broadcastInDim S2000000 ![] bcast_S_S2000000 : (⟨S_, .i32⟩ : BufTy).Contents (Elt F) → (⟨S2000000, .i32⟩ : BufTy).Contents (Elt F)),
    binary main_v165 main_v175 main_v176 (addi : (⟨S2000000, .i32⟩ : BufTy).Contents (Elt F) → (⟨S2000000, .i32⟩ : BufTy).Contents (Elt F) → (⟨S2000000, .i32⟩ : BufTy).Contents (Elt F)),
    ternary main_v174 main_v176 main_v165 main_v177 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_56 (constantI S_ 32 0#32),
    unary main_c_56 main_v178 (broadcastInDim S2000000 ![] bcast_S_S2000000 : (⟨S_, .i32⟩ : BufTy).Contents (Elt F) → (⟨S2000000, .i32⟩ : BufTy).Contents (Elt F)),
    binary main_v167 main_v178 main_v179 (cmpi .slt : (⟨S2000000, .i32⟩ : BufTy).Contents (Elt F) → (⟨S2000000, .i32⟩ : BufTy).Contents (Elt F) → (⟨S2000000, .i1⟩ : BufTy).Contents (Elt F)),
    nullary main_c_57 (constantI S_ 32 64#32),
    unary main_c_57 main_v180 (broadcastInDim S2000000 ![] bcast_S_S2000000 : (⟨S_, .i32⟩ : BufTy).Contents (Elt F) → (⟨S2000000, .i32⟩ : BufTy).Contents (Elt F)),
    binary main_v167 main_v180 main_v181 (addi : (⟨S2000000, .i32⟩ : BufTy).Contents (Elt F) → (⟨S2000000, .i32⟩ : BufTy).Contents (Elt F) → (⟨S2000000, .i32⟩ : BufTy).Contents (Elt F)),
    ternary main_v179 main_v181 main_v167 main_v182 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v172 main_v183 (broadcastInDim S2000000x1 ![0] bcast_S2000000_S2000000x1_0 : (⟨S2000000, .i32⟩ : BufTy).Contents (Elt F) → (⟨S2000000x1, .i32⟩ : BufTy).Contents (Elt F)),
    unary main_v177 main_v184 (broadcastInDim S2000000x1 ![0] bcast_S2000000_S2000000x1_0 : (⟨S2000000, .i32⟩ : BufTy).Contents (Elt F) → (⟨S2000000x1, .i32⟩ : BufTy).Contents (Elt F)),
    unary main_v182 main_v185 (broadcastInDim S2000000x1 ![0] bcast_S2000000_S2000000x1_0 : (⟨S2000000, .i32⟩ : BufTy).Contents (Elt F) → (⟨S2000000x1, .i32⟩ : BufTy).Contents (Elt F)),
    nary ![main_v183, main_v184, main_v185] main_v186 (fun u => concatenate S2000000x3 1 [⟨S2000000x1, u 0⟩, ⟨S2000000x1, u 1⟩, ⟨S2000000x1, u 2⟩] concatenates_S2000000x1_S2000000x1_S2000000x1_S2000000x3_d1),
    binary main_arg3 main_v186 main_v187 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v187 main_v14 main_v188 (mulf : (⟨S2000000, .f32⟩ : BufTy).Contents (Elt F) → (⟨S2000000, .f32⟩ : BufTy).Contents (Elt F) → (⟨S2000000, .f32⟩ : BufTy).Contents (Elt F)),
    binary main_v161 main_v188 main_v189 (addf : (⟨S2000000, .f32⟩ : BufTy).Contents (Elt F) → (⟨S2000000, .f32⟩ : BufTy).Contents (Elt F) → (⟨S2000000, .f32⟩ : BufTy).Contents (Elt F)),
    nullary main_c_58 (constantI S_ 32 0#32),
    unary main_c_58 main_v190 (broadcastInDim S2000000 ![] bcast_S_S2000000 : (⟨S_, .i32⟩ : BufTy).Contents (Elt F) → (⟨S2000000, .i32⟩ : BufTy).Contents (Elt F)),
    binary main_v8 main_v190 main_v191 (addi : (⟨S2000000, .i32⟩ : BufTy).Contents (Elt F) → (⟨S2000000, .i32⟩ : BufTy).Contents (Elt F) → (⟨S2000000, .i32⟩ : BufTy).Contents (Elt F)),
    nullary main_c_59 (constantI S_ 32 1#32),
    unary main_c_59 main_v192 (broadcastInDim S2000000 ![] bcast_S_S2000000 : (⟨S_, .i32⟩ : BufTy).Contents (Elt F) → (⟨S2000000, .i32⟩ : BufTy).Contents (Elt F)),
    binary main_v10 main_v192 main_v193 (addi : (⟨S2000000, .i32⟩ : BufTy).Contents (Elt F) → (⟨S2000000, .i32⟩ : BufTy).Contents (Elt F) → (⟨S2000000, .i32⟩ : BufTy).Contents (Elt F)),
    nullary main_c_60 (constantI S_ 32 1#32),
    unary main_c_60 main_v194 (broadcastInDim S2000000 ![] bcast_S_S2000000 : (⟨S_, .i32⟩ : BufTy).Contents (Elt F) → (⟨S2000000, .i32⟩ : BufTy).Contents (Elt F)),
    binary main_v12 main_v194 main_v195 (addi : (⟨S2000000, .i32⟩ : BufTy).Contents (Elt F) → (⟨S2000000, .i32⟩ : BufTy).Contents (Elt F) → (⟨S2000000, .i32⟩ : BufTy).Contents (Elt F)),
    nullary main_c_61 (constantI S_ 32 0#32),
    unary main_c_61 main_v196 (broadcastInDim S2000000 ![] bcast_S_S2000000 : (⟨S_, .i32⟩ : BufTy).Contents (Elt F) → (⟨S2000000, .i32⟩ : BufTy).Contents (Elt F)),
    binary main_v191 main_v196 main_v197 (cmpi .slt : (⟨S2000000, .i32⟩ : BufTy).Contents (Elt F) → (⟨S2000000, .i32⟩ : BufTy).Contents (Elt F) → (⟨S2000000, .i1⟩ : BufTy).Contents (Elt F)),
    nullary main_c_62 (constantI S_ 32 64#32),
    unary main_c_62 main_v198 (broadcastInDim S2000000 ![] bcast_S_S2000000 : (⟨S_, .i32⟩ : BufTy).Contents (Elt F) → (⟨S2000000, .i32⟩ : BufTy).Contents (Elt F)),
    binary main_v191 main_v198 main_v199 (addi : (⟨S2000000, .i32⟩ : BufTy).Contents (Elt F) → (⟨S2000000, .i32⟩ : BufTy).Contents (Elt F) → (⟨S2000000, .i32⟩ : BufTy).Contents (Elt F)),
    ternary main_v197 main_v199 main_v191 main_v200 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_63 (constantI S_ 32 0#32),
    unary main_c_63 main_v201 (broadcastInDim S2000000 ![] bcast_S_S2000000 : (⟨S_, .i32⟩ : BufTy).Contents (Elt F) → (⟨S2000000, .i32⟩ : BufTy).Contents (Elt F)),
    binary main_v193 main_v201 main_v202 (cmpi .slt : (⟨S2000000, .i32⟩ : BufTy).Contents (Elt F) → (⟨S2000000, .i32⟩ : BufTy).Contents (Elt F) → (⟨S2000000, .i1⟩ : BufTy).Contents (Elt F)),
    nullary main_c_64 (constantI S_ 32 64#32),
    unary main_c_64 main_v203 (broadcastInDim S2000000 ![] bcast_S_S2000000 : (⟨S_, .i32⟩ : BufTy).Contents (Elt F) → (⟨S2000000, .i32⟩ : BufTy).Contents (Elt F)),
    binary main_v193 main_v203 main_v204 (addi : (⟨S2000000, .i32⟩ : BufTy).Contents (Elt F) → (⟨S2000000, .i32⟩ : BufTy).Contents (Elt F) → (⟨S2000000, .i32⟩ : BufTy).Contents (Elt F)),
    ternary main_v202 main_v204 main_v193 main_v205 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_65 (constantI S_ 32 0#32),
    unary main_c_65 main_v206 (broadcastInDim S2000000 ![] bcast_S_S2000000 : (⟨S_, .i32⟩ : BufTy).Contents (Elt F) → (⟨S2000000, .i32⟩ : BufTy).Contents (Elt F)),
    binary main_v195 main_v206 main_v207 (cmpi .slt : (⟨S2000000, .i32⟩ : BufTy).Contents (Elt F) → (⟨S2000000, .i32⟩ : BufTy).Contents (Elt F) → (⟨S2000000, .i1⟩ : BufTy).Contents (Elt F)),
    nullary main_c_66 (constantI S_ 32 64#32),
    unary main_c_66 main_v208 (broadcastInDim S2000000 ![] bcast_S_S2000000 : (⟨S_, .i32⟩ : BufTy).Contents (Elt F) → (⟨S2000000, .i32⟩ : BufTy).Contents (Elt F)),
    binary main_v195 main_v208 main_v209 (addi : (⟨S2000000, .i32⟩ : BufTy).Contents (Elt F) → (⟨S2000000, .i32⟩ : BufTy).Contents (Elt F) → (⟨S2000000, .i32⟩ : BufTy).Contents (Elt F)),
    ternary main_v207 main_v209 main_v195 main_v210 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v200 main_v211 (broadcastInDim S2000000x1 ![0] bcast_S2000000_S2000000x1_0 : (⟨S2000000, .i32⟩ : BufTy).Contents (Elt F) → (⟨S2000000x1, .i32⟩ : BufTy).Contents (Elt F)),
    unary main_v205 main_v212 (broadcastInDim S2000000x1 ![0] bcast_S2000000_S2000000x1_0 : (⟨S2000000, .i32⟩ : BufTy).Contents (Elt F) → (⟨S2000000x1, .i32⟩ : BufTy).Contents (Elt F)),
    unary main_v210 main_v213 (broadcastInDim S2000000x1 ![0] bcast_S2000000_S2000000x1_0 : (⟨S2000000, .i32⟩ : BufTy).Contents (Elt F) → (⟨S2000000x1, .i32⟩ : BufTy).Contents (Elt F)),
    nary ![main_v211, main_v212, main_v213] main_v214 (fun u => concatenate S2000000x3 1 [⟨S2000000x1, u 0⟩, ⟨S2000000x1, u 1⟩, ⟨S2000000x1, u 2⟩] concatenates_S2000000x1_S2000000x1_S2000000x1_S2000000x3_d1),
    binary main_arg3 main_v214 main_v215 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_67 (constant S_ .f32 0x3F800000#32),
    unary main_cst_67 main_v216 (broadcastInDim S2000000 ![] bcast_S_S2000000 : (⟨S_, .f32⟩ : BufTy).Contents (Elt F) → (⟨S2000000, .f32⟩ : BufTy).Contents (Elt F)),
    binary main_v216 main_v14 main_v217 (subf : (⟨S2000000, .f32⟩ : BufTy).Contents (Elt F) → (⟨S2000000, .f32⟩ : BufTy).Contents (Elt F) → (⟨S2000000, .f32⟩ : BufTy).Contents (Elt F)),
    binary main_v215 main_v217 main_v218 (mulf : (⟨S2000000, .f32⟩ : BufTy).Contents (Elt F) → (⟨S2000000, .f32⟩ : BufTy).Contents (Elt F) → (⟨S2000000, .f32⟩ : BufTy).Contents (Elt F)),
    nullary main_c_68 (constantI S_ 32 1#32),
    unary main_c_68 main_v219 (broadcastInDim S2000000 ![] bcast_S_S2000000 : (⟨S_, .i32⟩ : BufTy).Contents (Elt F) → (⟨S2000000, .i32⟩ : BufTy).Contents (Elt F)),
    binary main_v8 main_v219 main_v220 (addi : (⟨S2000000, .i32⟩ : BufTy).Contents (Elt F) → (⟨S2000000, .i32⟩ : BufTy).Contents (Elt F) → (⟨S2000000, .i32⟩ : BufTy).Contents (Elt F)),
    nullary main_c_69 (constantI S_ 32 1#32),
    unary main_c_69 main_v221 (broadcastInDim S2000000 ![] bcast_S_S2000000 : (⟨S_, .i32⟩ : BufTy).Contents (Elt F) → (⟨S2000000, .i32⟩ : BufTy).Contents (Elt F)),
    binary main_v10 main_v221 main_v222 (addi : (⟨S2000000, .i32⟩ : BufTy).Contents (Elt F) → (⟨S2000000, .i32⟩ : BufTy).Contents (Elt F) → (⟨S2000000, .i32⟩ : BufTy).Contents (Elt F)),
    nullary main_c_70 (constantI S_ 32 1#32),
    unary main_c_70 main_v223 (broadcastInDim S2000000 ![] bcast_S_S2000000 : (⟨S_, .i32⟩ : BufTy).Contents (Elt F) → (⟨S2000000, .i32⟩ : BufTy).Contents (Elt F)),
    binary main_v12 main_v223 main_v224 (addi : (⟨S2000000, .i32⟩ : BufTy).Contents (Elt F) → (⟨S2000000, .i32⟩ : BufTy).Contents (Elt F) → (⟨S2000000, .i32⟩ : BufTy).Contents (Elt F)),
    nullary main_c_71 (constantI S_ 32 0#32),
    unary main_c_71 main_v225 (broadcastInDim S2000000 ![] bcast_S_S2000000 : (⟨S_, .i32⟩ : BufTy).Contents (Elt F) → (⟨S2000000, .i32⟩ : BufTy).Contents (Elt F)),
    binary main_v220 main_v225 main_v226 (cmpi .slt : (⟨S2000000, .i32⟩ : BufTy).Contents (Elt F) → (⟨S2000000, .i32⟩ : BufTy).Contents (Elt F) → (⟨S2000000, .i1⟩ : BufTy).Contents (Elt F)),
    nullary main_c_72 (constantI S_ 32 64#32),
    unary main_c_72 main_v227 (broadcastInDim S2000000 ![] bcast_S_S2000000 : (⟨S_, .i32⟩ : BufTy).Contents (Elt F) → (⟨S2000000, .i32⟩ : BufTy).Contents (Elt F)),
    binary main_v220 main_v227 main_v228 (addi : (⟨S2000000, .i32⟩ : BufTy).Contents (Elt F) → (⟨S2000000, .i32⟩ : BufTy).Contents (Elt F) → (⟨S2000000, .i32⟩ : BufTy).Contents (Elt F)),
    ternary main_v226 main_v228 main_v220 main_v229 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_73 (constantI S_ 32 0#32),
    unary main_c_73 main_v230 (broadcastInDim S2000000 ![] bcast_S_S2000000 : (⟨S_, .i32⟩ : BufTy).Contents (Elt F) → (⟨S2000000, .i32⟩ : BufTy).Contents (Elt F)),
    binary main_v222 main_v230 main_v231 (cmpi .slt : (⟨S2000000, .i32⟩ : BufTy).Contents (Elt F) → (⟨S2000000, .i32⟩ : BufTy).Contents (Elt F) → (⟨S2000000, .i1⟩ : BufTy).Contents (Elt F)),
    nullary main_c_74 (constantI S_ 32 64#32),
    unary main_c_74 main_v232 (broadcastInDim S2000000 ![] bcast_S_S2000000 : (⟨S_, .i32⟩ : BufTy).Contents (Elt F) → (⟨S2000000, .i32⟩ : BufTy).Contents (Elt F)),
    binary main_v222 main_v232 main_v233 (addi : (⟨S2000000, .i32⟩ : BufTy).Contents (Elt F) → (⟨S2000000, .i32⟩ : BufTy).Contents (Elt F) → (⟨S2000000, .i32⟩ : BufTy).Contents (Elt F)),
    ternary main_v231 main_v233 main_v222 main_v234 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_75 (constantI S_ 32 0#32),
    unary main_c_75 main_v235 (broadcastInDim S2000000 ![] bcast_S_S2000000 : (⟨S_, .i32⟩ : BufTy).Contents (Elt F) → (⟨S2000000, .i32⟩ : BufTy).Contents (Elt F)),
    binary main_v224 main_v235 main_v236 (cmpi .slt : (⟨S2000000, .i32⟩ : BufTy).Contents (Elt F) → (⟨S2000000, .i32⟩ : BufTy).Contents (Elt F) → (⟨S2000000, .i1⟩ : BufTy).Contents (Elt F)),
    nullary main_c_76 (constantI S_ 32 64#32),
    unary main_c_76 main_v237 (broadcastInDim S2000000 ![] bcast_S_S2000000 : (⟨S_, .i32⟩ : BufTy).Contents (Elt F) → (⟨S2000000, .i32⟩ : BufTy).Contents (Elt F)),
    binary main_v224 main_v237 main_v238 (addi : (⟨S2000000, .i32⟩ : BufTy).Contents (Elt F) → (⟨S2000000, .i32⟩ : BufTy).Contents (Elt F) → (⟨S2000000, .i32⟩ : BufTy).Contents (Elt F)),
    ternary main_v236 main_v238 main_v224 main_v239 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v229 main_v240 (broadcastInDim S2000000x1 ![0] bcast_S2000000_S2000000x1_0 : (⟨S2000000, .i32⟩ : BufTy).Contents (Elt F) → (⟨S2000000x1, .i32⟩ : BufTy).Contents (Elt F)),
    unary main_v234 main_v241 (broadcastInDim S2000000x1 ![0] bcast_S2000000_S2000000x1_0 : (⟨S2000000, .i32⟩ : BufTy).Contents (Elt F) → (⟨S2000000x1, .i32⟩ : BufTy).Contents (Elt F)),
    unary main_v239 main_v242 (broadcastInDim S2000000x1 ![0] bcast_S2000000_S2000000x1_0 : (⟨S2000000, .i32⟩ : BufTy).Contents (Elt F) → (⟨S2000000x1, .i32⟩ : BufTy).Contents (Elt F)),
    nary ![main_v240, main_v241, main_v242] main_v243 (fun u => concatenate S2000000x3 1 [⟨S2000000x1, u 0⟩, ⟨S2000000x1, u 1⟩, ⟨S2000000x1, u 2⟩] concatenates_S2000000x1_S2000000x1_S2000000x1_S2000000x3_d1),
    binary main_arg3 main_v243 main_v244 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v244 main_v14 main_v245 (mulf : (⟨S2000000, .f32⟩ : BufTy).Contents (Elt F) → (⟨S2000000, .f32⟩ : BufTy).Contents (Elt F) → (⟨S2000000, .f32⟩ : BufTy).Contents (Elt F)),
    binary main_v218 main_v245 main_v246 (addf : (⟨S2000000, .f32⟩ : BufTy).Contents (Elt F) → (⟨S2000000, .f32⟩ : BufTy).Contents (Elt F) → (⟨S2000000, .f32⟩ : BufTy).Contents (Elt F)),
    nullary main_cst_77 (constant S_ .f32 0x3F800000#32),
    unary main_cst_77 main_v247 (broadcastInDim S2000000 ![] bcast_S_S2000000 : (⟨S_, .f32⟩ : BufTy).Contents (Elt F) → (⟨S2000000, .f32⟩ : BufTy).Contents (Elt F)),
    binary main_v247 main_v16 main_v248 (subf : (⟨S2000000, .f32⟩ : BufTy).Contents (Elt F) → (⟨S2000000, .f32⟩ : BufTy).Contents (Elt F) → (⟨S2000000, .f32⟩ : BufTy).Contents (Elt F)),
    binary main_v75 main_v248 main_v249 (mulf : (⟨S2000000, .f32⟩ : BufTy).Contents (Elt F) → (⟨S2000000, .f32⟩ : BufTy).Contents (Elt F) → (⟨S2000000, .f32⟩ : BufTy).Contents (Elt F)),
    binary main_v189 main_v16 main_v250 (mulf : (⟨S2000000, .f32⟩ : BufTy).Contents (Elt F) → (⟨S2000000, .f32⟩ : BufTy).Contents (Elt F) → (⟨S2000000, .f32⟩ : BufTy).Contents (Elt F)),
    binary main_v249 main_v250 main_v251 (addf : (⟨S2000000, .f32⟩ : BufTy).Contents (Elt F) → (⟨S2000000, .f32⟩ : BufTy).Contents (Elt F) → (⟨S2000000, .f32⟩ : BufTy).Contents (Elt F)),
    nullary main_cst_78 (constant S_ .f32 0x3F800000#32),
    unary main_cst_78 main_v252 (broadcastInDim S2000000 ![] bcast_S_S2000000 : (⟨S_, .f32⟩ : BufTy).Contents (Elt F) → (⟨S2000000, .f32⟩ : BufTy).Contents (Elt F)),
    binary main_v252 main_v16 main_v253 (subf : (⟨S2000000, .f32⟩ : BufTy).Contents (Elt F) → (⟨S2000000, .f32⟩ : BufTy).Contents (Elt F) → (⟨S2000000, .f32⟩ : BufTy).Contents (Elt F)),
    binary main_v132 main_v253 main_v254 (mulf : (⟨S2000000, .f32⟩ : BufTy).Contents (Elt F) → (⟨S2000000, .f32⟩ : BufTy).Contents (Elt F) → (⟨S2000000, .f32⟩ : BufTy).Contents (Elt F)),
    binary main_v246 main_v16 main_v255 (mulf : (⟨S2000000, .f32⟩ : BufTy).Contents (Elt F) → (⟨S2000000, .f32⟩ : BufTy).Contents (Elt F) → (⟨S2000000, .f32⟩ : BufTy).Contents (Elt F)),
    binary main_v254 main_v255 main_v256 (addf : (⟨S2000000, .f32⟩ : BufTy).Contents (Elt F) → (⟨S2000000, .f32⟩ : BufTy).Contents (Elt F) → (⟨S2000000, .f32⟩ : BufTy).Contents (Elt F)),
    nullary main_cst_79 (constant S_ .f32 0x3F800000#32),
    unary main_cst_79 main_v257 (broadcastInDim S2000000 ![] bcast_S_S2000000 : (⟨S_, .f32⟩ : BufTy).Contents (Elt F) → (⟨S2000000, .f32⟩ : BufTy).Contents (Elt F)),
    binary main_v257 main_v18 main_v258 (subf : (⟨S2000000, .f32⟩ : BufTy).Contents (Elt F) → (⟨S2000000, .f32⟩ : BufTy).Contents (Elt F) → (⟨S2000000, .f32⟩ : BufTy).Contents (Elt F)),
    binary main_v251 main_v258 main_v259 (mulf : (⟨S2000000, .f32⟩ : BufTy).Contents (Elt F) → (⟨S2000000, .f32⟩ : BufTy).Contents (Elt F) → (⟨S2000000, .f32⟩ : BufTy).Contents (Elt F)),
    binary main_v256 main_v18 main_v260 (mulf : (⟨S2000000, .f32⟩ : BufTy).Contents (Elt F) → (⟨S2000000, .f32⟩ : BufTy).Contents (Elt F) → (⟨S2000000, .f32⟩ : BufTy).Contents (Elt F)),
    binary main_v259 main_v260 main_v261 (addf : (⟨S2000000, .f32⟩ : BufTy).Contents (Elt F) → (⟨S2000000, .f32⟩ : BufTy).Contents (Elt F) → (⟨S2000000, .f32⟩ : BufTy).Contents (Elt F)),
    binary main_v261 main_v261 main_v262 (mulf : (⟨S2000000, .f32⟩ : BufTy).Contents (Elt F) → (⟨S2000000, .f32⟩ : BufTy).Contents (Elt F) → (⟨S2000000, .f32⟩ : BufTy).Contents (Elt F)),
    nullary main_cst_80 (constant S_ .f32 0x3F000000#32),
    unary main_cst_80 main_v263 (broadcastInDim S2000000 ![] bcast_S_S2000000 : (⟨S_, .f32⟩ : BufTy).Contents (Elt F) → (⟨S2000000, .f32⟩ : BufTy).Contents (Elt F)),
    binary main_v263 main_v262 main_v264 (mulf : (⟨S2000000, .f32⟩ : BufTy).Contents (Elt F) → (⟨S2000000, .f32⟩ : BufTy).Contents (Elt F) → (⟨S2000000, .f32⟩ : BufTy).Contents (Elt F)),
    unary main_arg2 main_v265 ((extractStridedSlice S6000000x1 ![0, 0] · slices_S6000000x2_S6000000x1_0_0) : (⟨S6000000x2, .i32⟩ : BufTy).Contents (Elt F) → (⟨S6000000x1, .i32⟩ : BufTy).Contents (Elt F)),
    reshape main_v265 main_v266 rfl shapeCasts_S6000000x1_S6000000,
    nullary main_c_81 (constantI S_ 32 0#32),
    unary main_c_81 main_v267 (broadcastInDim S6000000 ![] bcast_S_S6000000 : (⟨S_, .i32⟩ : BufTy).Contents (Elt F) → (⟨S6000000, .i32⟩ : BufTy).Contents (Elt F)),
    binary main_v266 main_v267 main_v268 (cmpi .slt : (⟨S6000000, .i32⟩ : BufTy).Contents (Elt F) → (⟨S6000000, .i32⟩ : BufTy).Contents (Elt F) → (⟨S6000000, .i1⟩ : BufTy).Contents (Elt F)),
    nullary main_c_82 (constantI S_ 32 2000000#32),
    unary main_c_82 main_v269 (broadcastInDim S6000000 ![] bcast_S_S6000000 : (⟨S_, .i32⟩ : BufTy).Contents (Elt F) → (⟨S6000000, .i32⟩ : BufTy).Contents (Elt F)),
    binary main_v266 main_v269 main_v270 (addi : (⟨S6000000, .i32⟩ : BufTy).Contents (Elt F) → (⟨S6000000, .i32⟩ : BufTy).Contents (Elt F) → (⟨S6000000, .i32⟩ : BufTy).Contents (Elt F)),
    ternary main_v268 main_v270 main_v266 main_v271 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v271 main_v272 (broadcastInDim S6000000x1 ![0] bcast_S6000000_S6000000x1_0 : (⟨S6000000, .i32⟩ : BufTy).Contents (Elt F) → (⟨S6000000x1, .i32⟩ : BufTy).Contents (Elt F)),
    binary main_arg0 main_v272 main_v273 ((fun x i => Host.gather gather_S2000000x3_S6000000x1_S6000000x3_1_0_n_n_0_1_13 x i) : (⟨S2000000x3, .f32⟩ : BufTy).Contents (Elt F) → (⟨S6000000x1, .i32⟩ : BufTy).Contents (Elt F) → (⟨S6000000x3, .f32⟩ : BufTy).Contents (Elt F)),
    unary main_arg2 main_v274 ((extractStridedSlice S6000000x1 ![0, 1] · slices_S6000000x2_S6000000x1_0_1) : (⟨S6000000x2, .i32⟩ : BufTy).Contents (Elt F) → (⟨S6000000x1, .i32⟩ : BufTy).Contents (Elt F)),
    reshape main_v274 main_v275 rfl shapeCasts_S6000000x1_S6000000,
    nullary main_c_83 (constantI S_ 32 0#32),
    unary main_c_83 main_v276 (broadcastInDim S6000000 ![] bcast_S_S6000000 : (⟨S_, .i32⟩ : BufTy).Contents (Elt F) → (⟨S6000000, .i32⟩ : BufTy).Contents (Elt F)),
    binary main_v275 main_v276 main_v277 (cmpi .slt : (⟨S6000000, .i32⟩ : BufTy).Contents (Elt F) → (⟨S6000000, .i32⟩ : BufTy).Contents (Elt F) → (⟨S6000000, .i1⟩ : BufTy).Contents (Elt F)),
    nullary main_c_84 (constantI S_ 32 2000000#32),
    unary main_c_84 main_v278 (broadcastInDim S6000000 ![] bcast_S_S6000000 : (⟨S_, .i32⟩ : BufTy).Contents (Elt F) → (⟨S6000000, .i32⟩ : BufTy).Contents (Elt F)),
    binary main_v275 main_v278 main_v279 (addi : (⟨S6000000, .i32⟩ : BufTy).Contents (Elt F) → (⟨S6000000, .i32⟩ : BufTy).Contents (Elt F) → (⟨S6000000, .i32⟩ : BufTy).Contents (Elt F)),
    ternary main_v277 main_v279 main_v275 main_v280 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v280 main_v281 (broadcastInDim S6000000x1 ![0] bcast_S6000000_S6000000x1_0 : (⟨S6000000, .i32⟩ : BufTy).Contents (Elt F) → (⟨S6000000x1, .i32⟩ : BufTy).Contents (Elt F)),
    binary main_arg0 main_v281 main_v282 ((fun x i => Host.gather gather_S2000000x3_S6000000x1_S6000000x3_1_0_n_n_0_1_13 x i) : (⟨S2000000x3, .f32⟩ : BufTy).Contents (Elt F) → (⟨S6000000x1, .i32⟩ : BufTy).Contents (Elt F) → (⟨S6000000x3, .f32⟩ : BufTy).Contents (Elt F)),
    binary main_v273 main_v282 main_v283 (subf : (⟨S6000000x3, .f32⟩ : BufTy).Contents (Elt F) → (⟨S6000000x3, .f32⟩ : BufTy).Contents (Elt F) → (⟨S6000000x3, .f32⟩ : BufTy).Contents (Elt F)),
    binary main_v283 main_v283 main_v284 (mulf : (⟨S6000000x3, .f32⟩ : BufTy).Contents (Elt F) → (⟨S6000000x3, .f32⟩ : BufTy).Contents (Elt F) → (⟨S6000000x3, .f32⟩ : BufTy).Contents (Elt F)),
    nullary main_cst_85 (constant S_ .f32 0x00000000#32),
    binary main_v284 main_cst_85 main_v285 ((fun x v => Host.reduceAdd x v reducesTo_S6000000x3_S6000000_d1 h_S_) : (⟨S6000000x3, .f32⟩ : BufTy).Contents (Elt F) → (⟨S_, .f32⟩ : BufTy).Contents (Elt F) → (⟨S6000000, .f32⟩ : BufTy).Contents (Elt F)),
    nullary main_cst_86 (constant S_ .f32 0x2B8CBCCC#32),
    unary main_cst_86 main_v286 (broadcastInDim S6000000 ![] bcast_S_S6000000 : (⟨S_, .f32⟩ : BufTy).Contents (Elt F) → (⟨S6000000, .f32⟩ : BufTy).Contents (Elt F)),
    binary main_v285 main_v286 main_v287 (addf : (⟨S6000000, .f32⟩ : BufTy).Contents (Elt F) → (⟨S6000000, .f32⟩ : BufTy).Contents (Elt F) → (⟨S6000000, .f32⟩ : BufTy).Contents (Elt F)),
    unary main_v287 main_v288 (Host.sqrt : (⟨S6000000, .f32⟩ : BufTy).Contents (Elt F) → (⟨S6000000, .f32⟩ : BufTy).Contents (Elt F)),
    binary main_v288 main_arg4 main_v289 (subf : (⟨S6000000, .f32⟩ : BufTy).Contents (Elt F) → (⟨S6000000, .f32⟩ : BufTy).Contents (Elt F) → (⟨S6000000, .f32⟩ : BufTy).Contents (Elt F)),
    binary main_v289 main_v289 main_v290 (mulf : (⟨S6000000, .f32⟩ : BufTy).Contents (Elt F) → (⟨S6000000, .f32⟩ : BufTy).Contents (Elt F) → (⟨S6000000, .f32⟩ : BufTy).Contents (Elt F)),
    nullary main_cst_87 (constant S_ .f32 0x3F000000#32),
    unary main_cst_87 main_v291 (broadcastInDim S6000000 ![] bcast_S_S6000000 : (⟨S_, .f32⟩ : BufTy).Contents (Elt F) → (⟨S6000000, .f32⟩ : BufTy).Contents (Elt F)),
    binary main_v291 main_v290 main_v292 (mulf : (⟨S6000000, .f32⟩ : BufTy).Contents (Elt F) → (⟨S6000000, .f32⟩ : BufTy).Contents (Elt F) → (⟨S6000000, .f32⟩ : BufTy).Contents (Elt F)),
    nullary main_cst_88 (constant S_ .f32 0x00000000#32),
    binary main_v264 main_cst_88 main_v293 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_89 (constant S_ .f32 0x00000000#32),
    binary main_v292 main_cst_89 main_v294 ((fun x v => Host.reduceAdd x v reducesTo_S6000000_S_d0 h_S_) : (⟨S6000000, .f32⟩ : BufTy).Contents (Elt F) → (⟨S_, .f32⟩ : BufTy).Contents (Elt F) → (⟨S_, .f32⟩ : BufTy).Contents (Elt F)),
    binary main_v293 main_v294 main_v295 (addf : (⟨S_, .f32⟩ : BufTy).Contents (Elt F) → (⟨S_, .f32⟩ : BufTy).Contents (Elt F) → (⟨S_, .f32⟩ : BufTy).Contents (Elt F)) ]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., binary_bufs_sub .., binary_bufs_sub ..⟩

set_option maxRecDepth 8192 in
set_option maxHeartbeats 4000000 in
/-- Operations 1 … 30 of @main. -/
abbrev ops0 : List (HloOp τ sig (Elt F)) :=
  [
    nullary main_cst (constant S_ .f32 0x427C0000#32),
    unary main_cst main_v0 (broadcastInDim S2000000x3 ![] bcast_S_S2000000x3 : (⟨S_, .f32⟩ : BufTy).Contents (Elt F) → (⟨S2000000x3, .f32⟩ : BufTy).Contents (Elt F)),
    binary main_arg0 main_v0 main_v1 (mulf : (⟨S2000000x3, .f32⟩ : BufTy).Contents (Elt F) → (⟨S2000000x3, .f32⟩ : BufTy).Contents (Elt F) → (⟨S2000000x3, .f32⟩ : BufTy).Contents (Elt F)),
    unary main_v1 main_v2 (Host.floor : (⟨S2000000x3, .f32⟩ : BufTy).Contents (Elt F) → (⟨S2000000x3, .f32⟩ : BufTy).Contents (Elt F)),
    unary main_v2 main_v3 (fptosi 32 : (⟨S2000000x3, .f32⟩ : BufTy).Contents (Elt F) → (⟨S2000000x3, .i32⟩ : BufTy).Contents (Elt F)),
    nullary main_c (constantI S_ 32 0#32),
    nullary main_c_0 (constantI S_ 32 62#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2000000x3, .i32⟩) main_call0_v1) (broadcastInDim S2000000x3 ![] bcast_S_S2000000x3),
    TRef.binary (TRef.of (T := ⟨S2000000x3, .i32⟩) main_call0_v1) (TRef.of (T := ⟨S2000000x3, .i32⟩) main_v3) (TRef.of (T := ⟨S2000000x3, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S2000000x3, .i32⟩) main_call0_v4) (broadcastInDim S2000000x3 ![] bcast_S_S2000000x3),
    TRef.binary (TRef.of (T := ⟨S2000000x3, .i32⟩) main_call0_v4) (TRef.of (T := ⟨S2000000x3, .i32⟩) main_call0_v2) (TRef.of (T := ⟨S2000000x3, .i32⟩) main_v4) minsi,
    unary main_v4 main_v5 (sitofp .f32 : (⟨S2000000x3, .i32⟩ : BufTy).Contents (Elt F) → (⟨S2000000x3, .f32⟩ : BufTy).Contents (Elt F)),
    binary main_v1 main_v5 main_v6 (subf : (⟨S2000000x3, .f32⟩ : BufTy).Contents (Elt F) → (⟨S2000000x3, .f32⟩ : BufTy).Contents (Elt F) → (⟨S2000000x3, .f32⟩ : BufTy).Contents (Elt F)),
    unary main_v4 main_v7 ((extractStridedSlice S2000000x1 ![0, 0] · slices_S2000000x3_S2000000x1_0_0) : (⟨S2000000x3, .i32⟩ : BufTy).Contents (Elt F) → (⟨S2000000x1, .i32⟩ : BufTy).Contents (Elt F)),
    reshape main_v7 main_v8 rfl shapeCasts_S2000000x1_S2000000,
    unary main_v4 main_v9 ((extractStridedSlice S2000000x1 ![0, 1] · slices_S2000000x3_S2000000x1_0_1) : (⟨S2000000x3, .i32⟩ : BufTy).Contents (Elt F) → (⟨S2000000x1, .i32⟩ : BufTy).Contents (Elt F)),
    reshape main_v9 main_v10 rfl shapeCasts_S2000000x1_S2000000,
    unary main_v4 main_v11 ((extractStridedSlice S2000000x1 ![0, 2] · slices_S2000000x3_S2000000x1_0_2) : (⟨S2000000x3, .i32⟩ : BufTy).Contents (Elt F) → (⟨S2000000x1, .i32⟩ : BufTy).Contents (Elt F)),
    reshape main_v11 main_v12 rfl shapeCasts_S2000000x1_S2000000,
    unary main_v6 main_v13 ((extractStridedSlice S2000000x1 ![0, 0] · slices_S2000000x3_S2000000x1_0_0) : (⟨S2000000x3, .f32⟩ : BufTy).Contents (Elt F) → (⟨S2000000x1, .f32⟩ : BufTy).Contents (Elt F)),
    reshape main_v13 main_v14 rfl shapeCasts_S2000000x1_S2000000,
    unary main_v6 main_v15 ((extractStridedSlice S2000000x1 ![0, 1] · slices_S2000000x3_S2000000x1_0_1) : (⟨S2000000x3, .f32⟩ : BufTy).Contents (Elt F) → (⟨S2000000x1, .f32⟩ : BufTy).Contents (Elt F)),
    reshape main_v15 main_v16 rfl shapeCasts_S2000000x1_S2000000,
    unary main_v6 main_v17 ((extractStridedSlice S2000000x1 ![0, 2] · slices_S2000000x3_S2000000x1_0_2) : (⟨S2000000x3, .f32⟩ : BufTy).Contents (Elt F) → (⟨S2000000x1, .f32⟩ : BufTy).Contents (Elt F)),
    reshape main_v17 main_v18 rfl shapeCasts_S2000000x1_S2000000,
    nullary main_c_1 (constantI S_ 32 0#32),
    unary main_c_1 main_v19 (broadcastInDim S2000000 ![] bcast_S_S2000000 : (⟨S_, .i32⟩ : BufTy).Contents (Elt F) → (⟨S2000000, .i32⟩ : BufTy).Contents (Elt F)),
    binary main_v8 main_v19 main_v20 (addi : (⟨S2000000, .i32⟩ : BufTy).Contents (Elt F) → (⟨S2000000, .i32⟩ : BufTy).Contents (Elt F) → (⟨S2000000, .i32⟩ : BufTy).Contents (Elt F)) ]

set_option maxRecDepth 8192 in
set_option maxHeartbeats 4000000 in
/-- Operations 31 … 60 of @main. -/
abbrev ops1 : List (HloOp τ sig (Elt F)) :=
  [
    nullary main_c_2 (constantI S_ 32 0#32),
    unary main_c_2 main_v21 (broadcastInDim S2000000 ![] bcast_S_S2000000 : (⟨S_, .i32⟩ : BufTy).Contents (Elt F) → (⟨S2000000, .i32⟩ : BufTy).Contents (Elt F)),
    binary main_v10 main_v21 main_v22 (addi : (⟨S2000000, .i32⟩ : BufTy).Contents (Elt F) → (⟨S2000000, .i32⟩ : BufTy).Contents (Elt F) → (⟨S2000000, .i32⟩ : BufTy).Contents (Elt F)),
    nullary main_c_3 (constantI S_ 32 0#32),
    unary main_c_3 main_v23 (broadcastInDim S2000000 ![] bcast_S_S2000000 : (⟨S_, .i32⟩ : BufTy).Contents (Elt F) → (⟨S2000000, .i32⟩ : BufTy).Contents (Elt F)),
    binary main_v12 main_v23 main_v24 (addi : (⟨S2000000, .i32⟩ : BufTy).Contents (Elt F) → (⟨S2000000, .i32⟩ : BufTy).Contents (Elt F) → (⟨S2000000, .i32⟩ : BufTy).Contents (Elt F)),
    nullary main_c_4 (constantI S_ 32 0#32),
    unary main_c_4 main_v25 (broadcastInDim S2000000 ![] bcast_S_S2000000 : (⟨S_, .i32⟩ : BufTy).Contents (Elt F) → (⟨S2000000, .i32⟩ : BufTy).Contents (Elt F)),
    binary main_v20 main_v25 main_v26 (cmpi .slt : (⟨S2000000, .i32⟩ : BufTy).Contents (Elt F) → (⟨S2000000, .i32⟩ : BufTy).Contents (Elt F) → (⟨S2000000, .i1⟩ : BufTy).Contents (Elt F)),
    nullary main_c_5 (constantI S_ 32 64#32),
    unary main_c_5 main_v27 (broadcastInDim S2000000 ![] bcast_S_S2000000 : (⟨S_, .i32⟩ : BufTy).Contents (Elt F) → (⟨S2000000, .i32⟩ : BufTy).Contents (Elt F)),
    binary main_v20 main_v27 main_v28 (addi : (⟨S2000000, .i32⟩ : BufTy).Contents (Elt F) → (⟨S2000000, .i32⟩ : BufTy).Contents (Elt F) → (⟨S2000000, .i32⟩ : BufTy).Contents (Elt F)),
    ternary main_v26 main_v28 main_v20 main_v29 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_6 (constantI S_ 32 0#32),
    unary main_c_6 main_v30 (broadcastInDim S2000000 ![] bcast_S_S2000000 : (⟨S_, .i32⟩ : BufTy).Contents (Elt F) → (⟨S2000000, .i32⟩ : BufTy).Contents (Elt F)),
    binary main_v22 main_v30 main_v31 (cmpi .slt : (⟨S2000000, .i32⟩ : BufTy).Contents (Elt F) → (⟨S2000000, .i32⟩ : BufTy).Contents (Elt F) → (⟨S2000000, .i1⟩ : BufTy).Contents (Elt F)),
    nullary main_c_7 (constantI S_ 32 64#32),
    unary main_c_7 main_v32 (broadcastInDim S2000000 ![] bcast_S_S2000000 : (⟨S_, .i32⟩ : BufTy).Contents (Elt F) → (⟨S2000000, .i32⟩ : BufTy).Contents (Elt F)),
    binary main_v22 main_v32 main_v33 (addi : (⟨S2000000, .i32⟩ : BufTy).Contents (Elt F) → (⟨S2000000, .i32⟩ : BufTy).Contents (Elt F) → (⟨S2000000, .i32⟩ : BufTy).Contents (Elt F)),
    ternary main_v31 main_v33 main_v22 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_8 (constantI S_ 32 0#32),
    unary main_c_8 main_v35 (broadcastInDim S2000000 ![] bcast_S_S2000000 : (⟨S_, .i32⟩ : BufTy).Contents (Elt F) → (⟨S2000000, .i32⟩ : BufTy).Contents (Elt F)),
    binary main_v24 main_v35 main_v36 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 64#32),
    unary main_c_9 main_v37 (broadcastInDim S2000000 ![] bcast_S_S2000000 : (⟨S_, .i32⟩ : BufTy).Contents (Elt F) → (⟨S2000000, .i32⟩ : BufTy).Contents (Elt F)),
    binary main_v24 main_v37 main_v38 (addi : (⟨S2000000, .i32⟩ : BufTy).Contents (Elt F) → (⟨S2000000, .i32⟩ : BufTy).Contents (Elt F) → (⟨S2000000, .i32⟩ : BufTy).Contents (Elt F)),
    ternary main_v36 main_v38 main_v24 main_v39 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v29 main_v40 (broadcastInDim S2000000x1 ![0] bcast_S2000000_S2000000x1_0 : (⟨S2000000, .i32⟩ : BufTy).Contents (Elt F) → (⟨S2000000x1, .i32⟩ : BufTy).Contents (Elt F)),
    unary main_v34 main_v41 (broadcastInDim S2000000x1 ![0] bcast_S2000000_S2000000x1_0 : (⟨S2000000, .i32⟩ : BufTy).Contents (Elt F) → (⟨S2000000x1, .i32⟩ : BufTy).Contents (Elt F)),
    unary main_v39 main_v42 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 61 … 61 of @main. -/
abbrev ops2 : List (HloOp τ sig (Elt F)) :=
  [
    nary ![main_v40, main_v41, main_v42] main_v43 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 62 … 91 of @main. -/
abbrev ops3 : List (HloOp τ sig (Elt F)) :=
  [
    binary main_arg3 main_v43 main_v44 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_10 (constant S_ .f32 0x3F800000#32),
    unary main_cst_10 main_v45 (broadcastInDim S2000000 ![] bcast_S_S2000000 : (⟨S_, .f32⟩ : BufTy).Contents (Elt F) → (⟨S2000000, .f32⟩ : BufTy).Contents (Elt F)),
    binary main_v45 main_v14 main_v46 (subf : (⟨S2000000, .f32⟩ : BufTy).Contents (Elt F) → (⟨S2000000, .f32⟩ : BufTy).Contents (Elt F) → (⟨S2000000, .f32⟩ : BufTy).Contents (Elt F)),
    binary main_v44 main_v46 main_v47 (mulf : (⟨S2000000, .f32⟩ : BufTy).Contents (Elt F) → (⟨S2000000, .f32⟩ : BufTy).Contents (Elt F) → (⟨S2000000, .f32⟩ : BufTy).Contents (Elt F)),
    nullary main_c_11 (constantI S_ 32 1#32),
    unary main_c_11 main_v48 (broadcastInDim S2000000 ![] bcast_S_S2000000 : (⟨S_, .i32⟩ : BufTy).Contents (Elt F) → (⟨S2000000, .i32⟩ : BufTy).Contents (Elt F)),
    binary main_v8 main_v48 main_v49 (addi : (⟨S2000000, .i32⟩ : BufTy).Contents (Elt F) → (⟨S2000000, .i32⟩ : BufTy).Contents (Elt F) → (⟨S2000000, .i32⟩ : BufTy).Contents (Elt F)),
    nullary main_c_12 (constantI S_ 32 0#32),
    unary main_c_12 main_v50 (broadcastInDim S2000000 ![] bcast_S_S2000000 : (⟨S_, .i32⟩ : BufTy).Contents (Elt F) → (⟨S2000000, .i32⟩ : BufTy).Contents (Elt F)),
    binary main_v10 main_v50 main_v51 (addi : (⟨S2000000, .i32⟩ : BufTy).Contents (Elt F) → (⟨S2000000, .i32⟩ : BufTy).Contents (Elt F) → (⟨S2000000, .i32⟩ : BufTy).Contents (Elt F)),
    nullary main_c_13 (constantI S_ 32 0#32),
    unary main_c_13 main_v52 (broadcastInDim S2000000 ![] bcast_S_S2000000 : (⟨S_, .i32⟩ : BufTy).Contents (Elt F) → (⟨S2000000, .i32⟩ : BufTy).Contents (Elt F)),
    binary main_v12 main_v52 main_v53 (addi : (⟨S2000000, .i32⟩ : BufTy).Contents (Elt F) → (⟨S2000000, .i32⟩ : BufTy).Contents (Elt F) → (⟨S2000000, .i32⟩ : BufTy).Contents (Elt F)),
    nullary main_c_14 (constantI S_ 32 0#32),
    unary main_c_14 main_v54 (broadcastInDim S2000000 ![] bcast_S_S2000000 : (⟨S_, .i32⟩ : BufTy).Contents (Elt F) → (⟨S2000000, .i32⟩ : BufTy).Contents (Elt F)),
    binary main_v49 main_v54 main_v55 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 64#32),
    unary main_c_15 main_v56 (broadcastInDim S2000000 ![] bcast_S_S2000000 : (⟨S_, .i32⟩ : BufTy).Contents (Elt F) → (⟨S2000000, .i32⟩ : BufTy).Contents (Elt F)),
    binary main_v49 main_v56 main_v57 (addi : (⟨S2000000, .i32⟩ : BufTy).Contents (Elt F) → (⟨S2000000, .i32⟩ : BufTy).Contents (Elt F) → (⟨S2000000, .i32⟩ : BufTy).Contents (Elt F)),
    ternary main_v55 main_v57 main_v49 main_v58 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_16 (constantI S_ 32 0#32),
    unary main_c_16 main_v59 (broadcastInDim S2000000 ![] bcast_S_S2000000 : (⟨S_, .i32⟩ : BufTy).Contents (Elt F) → (⟨S2000000, .i32⟩ : BufTy).Contents (Elt F)),
    binary main_v51 main_v59 main_v60 (cmpi .slt : (⟨S2000000, .i32⟩ : BufTy).Contents (Elt F) → (⟨S2000000, .i32⟩ : BufTy).Contents (Elt F) → (⟨S2000000, .i1⟩ : BufTy).Contents (Elt F)),
    nullary main_c_17 (constantI S_ 32 64#32),
    unary main_c_17 main_v61 (broadcastInDim S2000000 ![] bcast_S_S2000000 : (⟨S_, .i32⟩ : BufTy).Contents (Elt F) → (⟨S2000000, .i32⟩ : BufTy).Contents (Elt F)),
    binary main_v51 main_v61 main_v62 (addi : (⟨S2000000, .i32⟩ : BufTy).Contents (Elt F) → (⟨S2000000, .i32⟩ : BufTy).Contents (Elt F) → (⟨S2000000, .i32⟩ : BufTy).Contents (Elt F)),
    ternary main_v60 main_v62 main_v51 main_v63 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_18 (constantI S_ 32 0#32),
    unary main_c_18 main_v64 (broadcastInDim S2000000 ![] bcast_S_S2000000 : (⟨S_, .i32⟩ : BufTy).Contents (Elt F) → (⟨S2000000, .i32⟩ : BufTy).Contents (Elt F)) ]

set_option maxRecDepth 8192 in
set_option maxHeartbeats 4000000 in
/-- Operations 92 … 99 of @main. -/
abbrev ops4 : List (HloOp τ sig (Elt F)) :=
  [
    binary main_v53 main_v64 main_v65 (cmpi .slt : (⟨S2000000, .i32⟩ : BufTy).Contents (Elt F) → (⟨S2000000, .i32⟩ : BufTy).Contents (Elt F) → (⟨S2000000, .i1⟩ : BufTy).Contents (Elt F)),
    nullary main_c_19 (constantI S_ 32 64#32),
    unary main_c_19 main_v66 (broadcastInDim S2000000 ![] bcast_S_S2000000 : (⟨S_, .i32⟩ : BufTy).Contents (Elt F) → (⟨S2000000, .i32⟩ : BufTy).Contents (Elt F)),
    binary main_v53 main_v66 main_v67 (addi : (⟨S2000000, .i32⟩ : BufTy).Contents (Elt F) → (⟨S2000000, .i32⟩ : BufTy).Contents (Elt F) → (⟨S2000000, .i32⟩ : BufTy).Contents (Elt F)),
    ternary main_v65 main_v67 main_v53 main_v68 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v58 main_v69 (broadcastInDim S2000000x1 ![0] bcast_S2000000_S2000000x1_0 : (⟨S2000000, .i32⟩ : BufTy).Contents (Elt F) → (⟨S2000000x1, .i32⟩ : BufTy).Contents (Elt F)),
    unary main_v63 main_v70 (broadcastInDim S2000000x1 ![0] bcast_S2000000_S2000000x1_0 : (⟨S2000000, .i32⟩ : BufTy).Contents (Elt F) → (⟨S2000000x1, .i32⟩ : BufTy).Contents (Elt F)),
    unary main_v68 main_v71 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 100 … 100 of @main. -/
abbrev ops5 : List (HloOp τ sig (Elt F)) :=
  [
    nary ![main_v69, main_v70, main_v71] main_v72 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 101 … 130 of @main. -/
abbrev ops6 : List (HloOp τ sig (Elt F)) :=
  [
    binary main_arg3 main_v72 main_v73 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v73 main_v14 main_v74 (mulf : (⟨S2000000, .f32⟩ : BufTy).Contents (Elt F) → (⟨S2000000, .f32⟩ : BufTy).Contents (Elt F) → (⟨S2000000, .f32⟩ : BufTy).Contents (Elt F)),
    binary main_v47 main_v74 main_v75 (addf : (⟨S2000000, .f32⟩ : BufTy).Contents (Elt F) → (⟨S2000000, .f32⟩ : BufTy).Contents (Elt F) → (⟨S2000000, .f32⟩ : BufTy).Contents (Elt F)),
    nullary main_c_20 (constantI S_ 32 0#32),
    unary main_c_20 main_v76 (broadcastInDim S2000000 ![] bcast_S_S2000000 : (⟨S_, .i32⟩ : BufTy).Contents (Elt F) → (⟨S2000000, .i32⟩ : BufTy).Contents (Elt F)),
    binary main_v8 main_v76 main_v77 (addi : (⟨S2000000, .i32⟩ : BufTy).Contents (Elt F) → (⟨S2000000, .i32⟩ : BufTy).Contents (Elt F) → (⟨S2000000, .i32⟩ : BufTy).Contents (Elt F)),
    nullary main_c_21 (constantI S_ 32 0#32),
    unary main_c_21 main_v78 (broadcastInDim S2000000 ![] bcast_S_S2000000 : (⟨S_, .i32⟩ : BufTy).Contents (Elt F) → (⟨S2000000, .i32⟩ : BufTy).Contents (Elt F)),
    binary main_v10 main_v78 main_v79 (addi : (⟨S2000000, .i32⟩ : BufTy).Contents (Elt F) → (⟨S2000000, .i32⟩ : BufTy).Contents (Elt F) → (⟨S2000000, .i32⟩ : BufTy).Contents (Elt F)),
    nullary main_c_22 (constantI S_ 32 1#32),
    unary main_c_22 main_v80 (broadcastInDim S2000000 ![] bcast_S_S2000000 : (⟨S_, .i32⟩ : BufTy).Contents (Elt F) → (⟨S2000000, .i32⟩ : BufTy).Contents (Elt F)),
    binary main_v12 main_v80 main_v81 (addi : (⟨S2000000, .i32⟩ : BufTy).Contents (Elt F) → (⟨S2000000, .i32⟩ : BufTy).Contents (Elt F) → (⟨S2000000, .i32⟩ : BufTy).Contents (Elt F)),
    nullary main_c_23 (constantI S_ 32 0#32),
    unary main_c_23 main_v82 (broadcastInDim S2000000 ![] bcast_S_S2000000 : (⟨S_, .i32⟩ : BufTy).Contents (Elt F) → (⟨S2000000, .i32⟩ : BufTy).Contents (Elt F)),
    binary main_v77 main_v82 main_v83 (cmpi .slt : (⟨S2000000, .i32⟩ : BufTy).Contents (Elt F) → (⟨S2000000, .i32⟩ : BufTy).Contents (Elt F) → (⟨S2000000, .i1⟩ : BufTy).Contents (Elt F)),
    nullary main_c_24 (constantI S_ 32 64#32),
    unary main_c_24 main_v84 (broadcastInDim S2000000 ![] bcast_S_S2000000 : (⟨S_, .i32⟩ : BufTy).Contents (Elt F) → (⟨S2000000, .i32⟩ : BufTy).Contents (Elt F)),
    binary main_v77 main_v84 main_v85 (addi : (⟨S2000000, .i32⟩ : BufTy).Contents (Elt F) → (⟨S2000000, .i32⟩ : BufTy).Contents (Elt F) → (⟨S2000000, .i32⟩ : BufTy).Contents (Elt F)),
    ternary main_v83 main_v85 main_v77 main_v86 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_25 (constantI S_ 32 0#32),
    unary main_c_25 main_v87 (broadcastInDim S2000000 ![] bcast_S_S2000000 : (⟨S_, .i32⟩ : BufTy).Contents (Elt F) → (⟨S2000000, .i32⟩ : BufTy).Contents (Elt F)),
    binary main_v79 main_v87 main_v88 (cmpi .slt : (⟨S2000000, .i32⟩ : BufTy).Contents (Elt F) → (⟨S2000000, .i32⟩ : BufTy).Contents (Elt F) → (⟨S2000000, .i1⟩ : BufTy).Contents (Elt F)),
    nullary main_c_26 (constantI S_ 32 64#32),
    unary main_c_26 main_v89 (broadcastInDim S2000000 ![] bcast_S_S2000000 : (⟨S_, .i32⟩ : BufTy).Contents (Elt F) → (⟨S2000000, .i32⟩ : BufTy).Contents (Elt F)),
    binary main_v79 main_v89 main_v90 (addi : (⟨S2000000, .i32⟩ : BufTy).Contents (Elt F) → (⟨S2000000, .i32⟩ : BufTy).Contents (Elt F) → (⟨S2000000, .i32⟩ : BufTy).Contents (Elt F)),
    ternary main_v88 main_v90 main_v79 main_v91 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_27 (constantI S_ 32 0#32),
    unary main_c_27 main_v92 (broadcastInDim S2000000 ![] bcast_S_S2000000 : (⟨S_, .i32⟩ : BufTy).Contents (Elt F) → (⟨S2000000, .i32⟩ : BufTy).Contents (Elt F)),
    binary main_v81 main_v92 main_v93 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 64#32) ]

set_option maxRecDepth 8192 in
set_option maxHeartbeats 4000000 in
/-- Operations 131 … 136 of @main. -/
abbrev ops7 : List (HloOp τ sig (Elt F)) :=
  [
    unary main_c_28 main_v94 (broadcastInDim S2000000 ![] bcast_S_S2000000 : (⟨S_, .i32⟩ : BufTy).Contents (Elt F) → (⟨S2000000, .i32⟩ : BufTy).Contents (Elt F)),
    binary main_v81 main_v94 main_v95 (addi : (⟨S2000000, .i32⟩ : BufTy).Contents (Elt F) → (⟨S2000000, .i32⟩ : BufTy).Contents (Elt F) → (⟨S2000000, .i32⟩ : BufTy).Contents (Elt F)),
    ternary main_v93 main_v95 main_v81 main_v96 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v86 main_v97 (broadcastInDim S2000000x1 ![0] bcast_S2000000_S2000000x1_0 : (⟨S2000000, .i32⟩ : BufTy).Contents (Elt F) → (⟨S2000000x1, .i32⟩ : BufTy).Contents (Elt F)),
    unary main_v91 main_v98 (broadcastInDim S2000000x1 ![0] bcast_S2000000_S2000000x1_0 : (⟨S2000000, .i32⟩ : BufTy).Contents (Elt F) → (⟨S2000000x1, .i32⟩ : BufTy).Contents (Elt F)),
    unary main_v96 main_v99 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 137 … 137 of @main. -/
abbrev ops8 : List (HloOp τ sig (Elt F)) :=
  [
    nary ![main_v97, main_v98, main_v99] main_v100 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 138 … 167 of @main. -/
abbrev ops9 : List (HloOp τ sig (Elt F)) :=
  [
    binary main_arg3 main_v100 main_v101 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_29 (constant S_ .f32 0x3F800000#32),
    unary main_cst_29 main_v102 (broadcastInDim S2000000 ![] bcast_S_S2000000 : (⟨S_, .f32⟩ : BufTy).Contents (Elt F) → (⟨S2000000, .f32⟩ : BufTy).Contents (Elt F)),
    binary main_v102 main_v14 main_v103 (subf : (⟨S2000000, .f32⟩ : BufTy).Contents (Elt F) → (⟨S2000000, .f32⟩ : BufTy).Contents (Elt F) → (⟨S2000000, .f32⟩ : BufTy).Contents (Elt F)),
    binary main_v101 main_v103 main_v104 (mulf : (⟨S2000000, .f32⟩ : BufTy).Contents (Elt F) → (⟨S2000000, .f32⟩ : BufTy).Contents (Elt F) → (⟨S2000000, .f32⟩ : BufTy).Contents (Elt F)),
    nullary main_c_30 (constantI S_ 32 1#32),
    unary main_c_30 main_v105 (broadcastInDim S2000000 ![] bcast_S_S2000000 : (⟨S_, .i32⟩ : BufTy).Contents (Elt F) → (⟨S2000000, .i32⟩ : BufTy).Contents (Elt F)),
    binary main_v8 main_v105 main_v106 (addi : (⟨S2000000, .i32⟩ : BufTy).Contents (Elt F) → (⟨S2000000, .i32⟩ : BufTy).Contents (Elt F) → (⟨S2000000, .i32⟩ : BufTy).Contents (Elt F)),
    nullary main_c_31 (constantI S_ 32 0#32),
    unary main_c_31 main_v107 (broadcastInDim S2000000 ![] bcast_S_S2000000 : (⟨S_, .i32⟩ : BufTy).Contents (Elt F) → (⟨S2000000, .i32⟩ : BufTy).Contents (Elt F)),
    binary main_v10 main_v107 main_v108 (addi : (⟨S2000000, .i32⟩ : BufTy).Contents (Elt F) → (⟨S2000000, .i32⟩ : BufTy).Contents (Elt F) → (⟨S2000000, .i32⟩ : BufTy).Contents (Elt F)),
    nullary main_c_32 (constantI S_ 32 1#32),
    unary main_c_32 main_v109 (broadcastInDim S2000000 ![] bcast_S_S2000000 : (⟨S_, .i32⟩ : BufTy).Contents (Elt F) → (⟨S2000000, .i32⟩ : BufTy).Contents (Elt F)),
    binary main_v12 main_v109 main_v110 (addi : (⟨S2000000, .i32⟩ : BufTy).Contents (Elt F) → (⟨S2000000, .i32⟩ : BufTy).Contents (Elt F) → (⟨S2000000, .i32⟩ : BufTy).Contents (Elt F)),
    nullary main_c_33 (constantI S_ 32 0#32),
    unary main_c_33 main_v111 (broadcastInDim S2000000 ![] bcast_S_S2000000 : (⟨S_, .i32⟩ : BufTy).Contents (Elt F) → (⟨S2000000, .i32⟩ : BufTy).Contents (Elt F)),
    binary main_v106 main_v111 main_v112 (cmpi .slt : (⟨S2000000, .i32⟩ : BufTy).Contents (Elt F) → (⟨S2000000, .i32⟩ : BufTy).Contents (Elt F) → (⟨S2000000, .i1⟩ : BufTy).Contents (Elt F)),
    nullary main_c_34 (constantI S_ 32 64#32),
    unary main_c_34 main_v113 (broadcastInDim S2000000 ![] bcast_S_S2000000 : (⟨S_, .i32⟩ : BufTy).Contents (Elt F) → (⟨S2000000, .i32⟩ : BufTy).Contents (Elt F)),
    binary main_v106 main_v113 main_v114 (addi : (⟨S2000000, .i32⟩ : BufTy).Contents (Elt F) → (⟨S2000000, .i32⟩ : BufTy).Contents (Elt F) → (⟨S2000000, .i32⟩ : BufTy).Contents (Elt F)),
    ternary main_v112 main_v114 main_v106 main_v115 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_35 (constantI S_ 32 0#32),
    unary main_c_35 main_v116 (broadcastInDim S2000000 ![] bcast_S_S2000000 : (⟨S_, .i32⟩ : BufTy).Contents (Elt F) → (⟨S2000000, .i32⟩ : BufTy).Contents (Elt F)),
    binary main_v108 main_v116 main_v117 (cmpi .slt : (⟨S2000000, .i32⟩ : BufTy).Contents (Elt F) → (⟨S2000000, .i32⟩ : BufTy).Contents (Elt F) → (⟨S2000000, .i1⟩ : BufTy).Contents (Elt F)),
    nullary main_c_36 (constantI S_ 32 64#32),
    unary main_c_36 main_v118 (broadcastInDim S2000000 ![] bcast_S_S2000000 : (⟨S_, .i32⟩ : BufTy).Contents (Elt F) → (⟨S2000000, .i32⟩ : BufTy).Contents (Elt F)),
    binary main_v108 main_v118 main_v119 (addi : (⟨S2000000, .i32⟩ : BufTy).Contents (Elt F) → (⟨S2000000, .i32⟩ : BufTy).Contents (Elt F) → (⟨S2000000, .i32⟩ : BufTy).Contents (Elt F)),
    ternary main_v117 main_v119 main_v108 main_v120 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_37 (constantI S_ 32 0#32),
    unary main_c_37 main_v121 (broadcastInDim S2000000 ![] bcast_S_S2000000 : (⟨S_, .i32⟩ : BufTy).Contents (Elt F) → (⟨S2000000, .i32⟩ : BufTy).Contents (Elt F)) ]

set_option maxRecDepth 8192 in
set_option maxHeartbeats 4000000 in
/-- Operations 168 … 175 of @main. -/
abbrev ops10 : List (HloOp τ sig (Elt F)) :=
  [
    binary main_v110 main_v121 main_v122 (cmpi .slt : (⟨S2000000, .i32⟩ : BufTy).Contents (Elt F) → (⟨S2000000, .i32⟩ : BufTy).Contents (Elt F) → (⟨S2000000, .i1⟩ : BufTy).Contents (Elt F)),
    nullary main_c_38 (constantI S_ 32 64#32),
    unary main_c_38 main_v123 (broadcastInDim S2000000 ![] bcast_S_S2000000 : (⟨S_, .i32⟩ : BufTy).Contents (Elt F) → (⟨S2000000, .i32⟩ : BufTy).Contents (Elt F)),
    binary main_v110 main_v123 main_v124 (addi : (⟨S2000000, .i32⟩ : BufTy).Contents (Elt F) → (⟨S2000000, .i32⟩ : BufTy).Contents (Elt F) → (⟨S2000000, .i32⟩ : BufTy).Contents (Elt F)),
    ternary main_v122 main_v124 main_v110 main_v125 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v115 main_v126 (broadcastInDim S2000000x1 ![0] bcast_S2000000_S2000000x1_0 : (⟨S2000000, .i32⟩ : BufTy).Contents (Elt F) → (⟨S2000000x1, .i32⟩ : BufTy).Contents (Elt F)),
    unary main_v120 main_v127 (broadcastInDim S2000000x1 ![0] bcast_S2000000_S2000000x1_0 : (⟨S2000000, .i32⟩ : BufTy).Contents (Elt F) → (⟨S2000000x1, .i32⟩ : BufTy).Contents (Elt F)),
    unary main_v125 main_v128 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 176 … 176 of @main. -/
abbrev ops11 : List (HloOp τ sig (Elt F)) :=
  [
    nary ![main_v126, main_v127, main_v128] main_v129 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 177 … 206 of @main. -/
abbrev ops12 : List (HloOp τ sig (Elt F)) :=
  [
    binary main_arg3 main_v129 main_v130 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v130 main_v14 main_v131 (mulf : (⟨S2000000, .f32⟩ : BufTy).Contents (Elt F) → (⟨S2000000, .f32⟩ : BufTy).Contents (Elt F) → (⟨S2000000, .f32⟩ : BufTy).Contents (Elt F)),
    binary main_v104 main_v131 main_v132 (addf : (⟨S2000000, .f32⟩ : BufTy).Contents (Elt F) → (⟨S2000000, .f32⟩ : BufTy).Contents (Elt F) → (⟨S2000000, .f32⟩ : BufTy).Contents (Elt F)),
    nullary main_c_39 (constantI S_ 32 0#32),
    unary main_c_39 main_v133 (broadcastInDim S2000000 ![] bcast_S_S2000000 : (⟨S_, .i32⟩ : BufTy).Contents (Elt F) → (⟨S2000000, .i32⟩ : BufTy).Contents (Elt F)),
    binary main_v8 main_v133 main_v134 (addi : (⟨S2000000, .i32⟩ : BufTy).Contents (Elt F) → (⟨S2000000, .i32⟩ : BufTy).Contents (Elt F) → (⟨S2000000, .i32⟩ : BufTy).Contents (Elt F)),
    nullary main_c_40 (constantI S_ 32 1#32),
    unary main_c_40 main_v135 (broadcastInDim S2000000 ![] bcast_S_S2000000 : (⟨S_, .i32⟩ : BufTy).Contents (Elt F) → (⟨S2000000, .i32⟩ : BufTy).Contents (Elt F)),
    binary main_v10 main_v135 main_v136 (addi : (⟨S2000000, .i32⟩ : BufTy).Contents (Elt F) → (⟨S2000000, .i32⟩ : BufTy).Contents (Elt F) → (⟨S2000000, .i32⟩ : BufTy).Contents (Elt F)),
    nullary main_c_41 (constantI S_ 32 0#32),
    unary main_c_41 main_v137 (broadcastInDim S2000000 ![] bcast_S_S2000000 : (⟨S_, .i32⟩ : BufTy).Contents (Elt F) → (⟨S2000000, .i32⟩ : BufTy).Contents (Elt F)),
    binary main_v12 main_v137 main_v138 (addi : (⟨S2000000, .i32⟩ : BufTy).Contents (Elt F) → (⟨S2000000, .i32⟩ : BufTy).Contents (Elt F) → (⟨S2000000, .i32⟩ : BufTy).Contents (Elt F)),
    nullary main_c_42 (constantI S_ 32 0#32),
    unary main_c_42 main_v139 (broadcastInDim S2000000 ![] bcast_S_S2000000 : (⟨S_, .i32⟩ : BufTy).Contents (Elt F) → (⟨S2000000, .i32⟩ : BufTy).Contents (Elt F)),
    binary main_v134 main_v139 main_v140 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 64#32),
    unary main_c_43 main_v141 (broadcastInDim S2000000 ![] bcast_S_S2000000 : (⟨S_, .i32⟩ : BufTy).Contents (Elt F) → (⟨S2000000, .i32⟩ : BufTy).Contents (Elt F)),
    binary main_v134 main_v141 main_v142 (addi : (⟨S2000000, .i32⟩ : BufTy).Contents (Elt F) → (⟨S2000000, .i32⟩ : BufTy).Contents (Elt F) → (⟨S2000000, .i32⟩ : BufTy).Contents (Elt F)),
    ternary main_v140 main_v142 main_v134 main_v143 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_44 (constantI S_ 32 0#32),
    unary main_c_44 main_v144 (broadcastInDim S2000000 ![] bcast_S_S2000000 : (⟨S_, .i32⟩ : BufTy).Contents (Elt F) → (⟨S2000000, .i32⟩ : BufTy).Contents (Elt F)),
    binary main_v136 main_v144 main_v145 (cmpi .slt : (⟨S2000000, .i32⟩ : BufTy).Contents (Elt F) → (⟨S2000000, .i32⟩ : BufTy).Contents (Elt F) → (⟨S2000000, .i1⟩ : BufTy).Contents (Elt F)),
    nullary main_c_45 (constantI S_ 32 64#32),
    unary main_c_45 main_v146 (broadcastInDim S2000000 ![] bcast_S_S2000000 : (⟨S_, .i32⟩ : BufTy).Contents (Elt F) → (⟨S2000000, .i32⟩ : BufTy).Contents (Elt F)),
    binary main_v136 main_v146 main_v147 (addi : (⟨S2000000, .i32⟩ : BufTy).Contents (Elt F) → (⟨S2000000, .i32⟩ : BufTy).Contents (Elt F) → (⟨S2000000, .i32⟩ : BufTy).Contents (Elt F)),
    ternary main_v145 main_v147 main_v136 main_v148 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_46 (constantI S_ 32 0#32),
    unary main_c_46 main_v149 (broadcastInDim S2000000 ![] bcast_S_S2000000 : (⟨S_, .i32⟩ : BufTy).Contents (Elt F) → (⟨S2000000, .i32⟩ : BufTy).Contents (Elt F)),
    binary main_v138 main_v149 main_v150 (cmpi .slt : (⟨S2000000, .i32⟩ : BufTy).Contents (Elt F) → (⟨S2000000, .i32⟩ : BufTy).Contents (Elt F) → (⟨S2000000, .i1⟩ : BufTy).Contents (Elt F)),
    nullary main_c_47 (constantI S_ 32 64#32) ]

set_option maxRecDepth 8192 in
set_option maxHeartbeats 4000000 in
/-- Operations 207 … 212 of @main. -/
abbrev ops13 : List (HloOp τ sig (Elt F)) :=
  [
    unary main_c_47 main_v151 (broadcastInDim S2000000 ![] bcast_S_S2000000 : (⟨S_, .i32⟩ : BufTy).Contents (Elt F) → (⟨S2000000, .i32⟩ : BufTy).Contents (Elt F)),
    binary main_v138 main_v151 main_v152 (addi : (⟨S2000000, .i32⟩ : BufTy).Contents (Elt F) → (⟨S2000000, .i32⟩ : BufTy).Contents (Elt F) → (⟨S2000000, .i32⟩ : BufTy).Contents (Elt F)),
    ternary main_v150 main_v152 main_v138 main_v153 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v143 main_v154 (broadcastInDim S2000000x1 ![0] bcast_S2000000_S2000000x1_0 : (⟨S2000000, .i32⟩ : BufTy).Contents (Elt F) → (⟨S2000000x1, .i32⟩ : BufTy).Contents (Elt F)),
    unary main_v148 main_v155 (broadcastInDim S2000000x1 ![0] bcast_S2000000_S2000000x1_0 : (⟨S2000000, .i32⟩ : BufTy).Contents (Elt F) → (⟨S2000000x1, .i32⟩ : BufTy).Contents (Elt F)),
    unary main_v153 main_v156 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 213 … 213 of @main. -/
abbrev ops14 : List (HloOp τ sig (Elt F)) :=
  [
    nary ![main_v154, main_v155, main_v156] main_v157 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 214 … 243 of @main. -/
abbrev ops15 : List (HloOp τ sig (Elt F)) :=
  [
    binary main_arg3 main_v157 main_v158 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_48 (constant S_ .f32 0x3F800000#32),
    unary main_cst_48 main_v159 (broadcastInDim S2000000 ![] bcast_S_S2000000 : (⟨S_, .f32⟩ : BufTy).Contents (Elt F) → (⟨S2000000, .f32⟩ : BufTy).Contents (Elt F)),
    binary main_v159 main_v14 main_v160 (subf : (⟨S2000000, .f32⟩ : BufTy).Contents (Elt F) → (⟨S2000000, .f32⟩ : BufTy).Contents (Elt F) → (⟨S2000000, .f32⟩ : BufTy).Contents (Elt F)),
    binary main_v158 main_v160 main_v161 (mulf : (⟨S2000000, .f32⟩ : BufTy).Contents (Elt F) → (⟨S2000000, .f32⟩ : BufTy).Contents (Elt F) → (⟨S2000000, .f32⟩ : BufTy).Contents (Elt F)),
    nullary main_c_49 (constantI S_ 32 1#32),
    unary main_c_49 main_v162 (broadcastInDim S2000000 ![] bcast_S_S2000000 : (⟨S_, .i32⟩ : BufTy).Contents (Elt F) → (⟨S2000000, .i32⟩ : BufTy).Contents (Elt F)),
    binary main_v8 main_v162 main_v163 (addi : (⟨S2000000, .i32⟩ : BufTy).Contents (Elt F) → (⟨S2000000, .i32⟩ : BufTy).Contents (Elt F) → (⟨S2000000, .i32⟩ : BufTy).Contents (Elt F)),
    nullary main_c_50 (constantI S_ 32 1#32),
    unary main_c_50 main_v164 (broadcastInDim S2000000 ![] bcast_S_S2000000 : (⟨S_, .i32⟩ : BufTy).Contents (Elt F) → (⟨S2000000, .i32⟩ : BufTy).Contents (Elt F)),
    binary main_v10 main_v164 main_v165 (addi : (⟨S2000000, .i32⟩ : BufTy).Contents (Elt F) → (⟨S2000000, .i32⟩ : BufTy).Contents (Elt F) → (⟨S2000000, .i32⟩ : BufTy).Contents (Elt F)),
    nullary main_c_51 (constantI S_ 32 0#32),
    unary main_c_51 main_v166 (broadcastInDim S2000000 ![] bcast_S_S2000000 : (⟨S_, .i32⟩ : BufTy).Contents (Elt F) → (⟨S2000000, .i32⟩ : BufTy).Contents (Elt F)),
    binary main_v12 main_v166 main_v167 (addi : (⟨S2000000, .i32⟩ : BufTy).Contents (Elt F) → (⟨S2000000, .i32⟩ : BufTy).Contents (Elt F) → (⟨S2000000, .i32⟩ : BufTy).Contents (Elt F)),
    nullary main_c_52 (constantI S_ 32 0#32),
    unary main_c_52 main_v168 (broadcastInDim S2000000 ![] bcast_S_S2000000 : (⟨S_, .i32⟩ : BufTy).Contents (Elt F) → (⟨S2000000, .i32⟩ : BufTy).Contents (Elt F)),
    binary main_v163 main_v168 main_v169 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 64#32),
    unary main_c_53 main_v170 (broadcastInDim S2000000 ![] bcast_S_S2000000 : (⟨S_, .i32⟩ : BufTy).Contents (Elt F) → (⟨S2000000, .i32⟩ : BufTy).Contents (Elt F)),
    binary main_v163 main_v170 main_v171 (addi : (⟨S2000000, .i32⟩ : BufTy).Contents (Elt F) → (⟨S2000000, .i32⟩ : BufTy).Contents (Elt F) → (⟨S2000000, .i32⟩ : BufTy).Contents (Elt F)),
    ternary main_v169 main_v171 main_v163 main_v172 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_54 (constantI S_ 32 0#32),
    unary main_c_54 main_v173 (broadcastInDim S2000000 ![] bcast_S_S2000000 : (⟨S_, .i32⟩ : BufTy).Contents (Elt F) → (⟨S2000000, .i32⟩ : BufTy).Contents (Elt F)),
    binary main_v165 main_v173 main_v174 (cmpi .slt : (⟨S2000000, .i32⟩ : BufTy).Contents (Elt F) → (⟨S2000000, .i32⟩ : BufTy).Contents (Elt F) → (⟨S2000000, .i1⟩ : BufTy).Contents (Elt F)),
    nullary main_c_55 (constantI S_ 32 64#32),
    unary main_c_55 main_v175 (broadcastInDim S2000000 ![] bcast_S_S2000000 : (⟨S_, .i32⟩ : BufTy).Contents (Elt F) → (⟨S2000000, .i32⟩ : BufTy).Contents (Elt F)),
    binary main_v165 main_v175 main_v176 (addi : (⟨S2000000, .i32⟩ : BufTy).Contents (Elt F) → (⟨S2000000, .i32⟩ : BufTy).Contents (Elt F) → (⟨S2000000, .i32⟩ : BufTy).Contents (Elt F)),
    ternary main_v174 main_v176 main_v165 main_v177 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_56 (constantI S_ 32 0#32),
    unary main_c_56 main_v178 (broadcastInDim S2000000 ![] bcast_S_S2000000 : (⟨S_, .i32⟩ : BufTy).Contents (Elt F) → (⟨S2000000, .i32⟩ : BufTy).Contents (Elt F)) ]

set_option maxRecDepth 8192 in
set_option maxHeartbeats 4000000 in
/-- Operations 244 … 251 of @main. -/
abbrev ops16 : List (HloOp τ sig (Elt F)) :=
  [
    binary main_v167 main_v178 main_v179 (cmpi .slt : (⟨S2000000, .i32⟩ : BufTy).Contents (Elt F) → (⟨S2000000, .i32⟩ : BufTy).Contents (Elt F) → (⟨S2000000, .i1⟩ : BufTy).Contents (Elt F)),
    nullary main_c_57 (constantI S_ 32 64#32),
    unary main_c_57 main_v180 (broadcastInDim S2000000 ![] bcast_S_S2000000 : (⟨S_, .i32⟩ : BufTy).Contents (Elt F) → (⟨S2000000, .i32⟩ : BufTy).Contents (Elt F)),
    binary main_v167 main_v180 main_v181 (addi : (⟨S2000000, .i32⟩ : BufTy).Contents (Elt F) → (⟨S2000000, .i32⟩ : BufTy).Contents (Elt F) → (⟨S2000000, .i32⟩ : BufTy).Contents (Elt F)),
    ternary main_v179 main_v181 main_v167 main_v182 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v172 main_v183 (broadcastInDim S2000000x1 ![0] bcast_S2000000_S2000000x1_0 : (⟨S2000000, .i32⟩ : BufTy).Contents (Elt F) → (⟨S2000000x1, .i32⟩ : BufTy).Contents (Elt F)),
    unary main_v177 main_v184 (broadcastInDim S2000000x1 ![0] bcast_S2000000_S2000000x1_0 : (⟨S2000000, .i32⟩ : BufTy).Contents (Elt F) → (⟨S2000000x1, .i32⟩ : BufTy).Contents (Elt F)),
    unary main_v182 main_v185 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 252 … 252 of @main. -/
abbrev ops17 : List (HloOp τ sig (Elt F)) :=
  [
    nary ![main_v183, main_v184, main_v185] main_v186 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 253 … 282 of @main. -/
abbrev ops18 : List (HloOp τ sig (Elt F)) :=
  [
    binary main_arg3 main_v186 main_v187 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v187 main_v14 main_v188 (mulf : (⟨S2000000, .f32⟩ : BufTy).Contents (Elt F) → (⟨S2000000, .f32⟩ : BufTy).Contents (Elt F) → (⟨S2000000, .f32⟩ : BufTy).Contents (Elt F)),
    binary main_v161 main_v188 main_v189 (addf : (⟨S2000000, .f32⟩ : BufTy).Contents (Elt F) → (⟨S2000000, .f32⟩ : BufTy).Contents (Elt F) → (⟨S2000000, .f32⟩ : BufTy).Contents (Elt F)),
    nullary main_c_58 (constantI S_ 32 0#32),
    unary main_c_58 main_v190 (broadcastInDim S2000000 ![] bcast_S_S2000000 : (⟨S_, .i32⟩ : BufTy).Contents (Elt F) → (⟨S2000000, .i32⟩ : BufTy).Contents (Elt F)),
    binary main_v8 main_v190 main_v191 (addi : (⟨S2000000, .i32⟩ : BufTy).Contents (Elt F) → (⟨S2000000, .i32⟩ : BufTy).Contents (Elt F) → (⟨S2000000, .i32⟩ : BufTy).Contents (Elt F)),
    nullary main_c_59 (constantI S_ 32 1#32),
    unary main_c_59 main_v192 (broadcastInDim S2000000 ![] bcast_S_S2000000 : (⟨S_, .i32⟩ : BufTy).Contents (Elt F) → (⟨S2000000, .i32⟩ : BufTy).Contents (Elt F)),
    binary main_v10 main_v192 main_v193 (addi : (⟨S2000000, .i32⟩ : BufTy).Contents (Elt F) → (⟨S2000000, .i32⟩ : BufTy).Contents (Elt F) → (⟨S2000000, .i32⟩ : BufTy).Contents (Elt F)),
    nullary main_c_60 (constantI S_ 32 1#32),
    unary main_c_60 main_v194 (broadcastInDim S2000000 ![] bcast_S_S2000000 : (⟨S_, .i32⟩ : BufTy).Contents (Elt F) → (⟨S2000000, .i32⟩ : BufTy).Contents (Elt F)),
    binary main_v12 main_v194 main_v195 (addi : (⟨S2000000, .i32⟩ : BufTy).Contents (Elt F) → (⟨S2000000, .i32⟩ : BufTy).Contents (Elt F) → (⟨S2000000, .i32⟩ : BufTy).Contents (Elt F)),
    nullary main_c_61 (constantI S_ 32 0#32),
    unary main_c_61 main_v196 (broadcastInDim S2000000 ![] bcast_S_S2000000 : (⟨S_, .i32⟩ : BufTy).Contents (Elt F) → (⟨S2000000, .i32⟩ : BufTy).Contents (Elt F)),
    binary main_v191 main_v196 main_v197 (cmpi .slt : (⟨S2000000, .i32⟩ : BufTy).Contents (Elt F) → (⟨S2000000, .i32⟩ : BufTy).Contents (Elt F) → (⟨S2000000, .i1⟩ : BufTy).Contents (Elt F)),
    nullary main_c_62 (constantI S_ 32 64#32),
    unary main_c_62 main_v198 (broadcastInDim S2000000 ![] bcast_S_S2000000 : (⟨S_, .i32⟩ : BufTy).Contents (Elt F) → (⟨S2000000, .i32⟩ : BufTy).Contents (Elt F)),
    binary main_v191 main_v198 main_v199 (addi : (⟨S2000000, .i32⟩ : BufTy).Contents (Elt F) → (⟨S2000000, .i32⟩ : BufTy).Contents (Elt F) → (⟨S2000000, .i32⟩ : BufTy).Contents (Elt F)),
    ternary main_v197 main_v199 main_v191 main_v200 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_63 (constantI S_ 32 0#32),
    unary main_c_63 main_v201 (broadcastInDim S2000000 ![] bcast_S_S2000000 : (⟨S_, .i32⟩ : BufTy).Contents (Elt F) → (⟨S2000000, .i32⟩ : BufTy).Contents (Elt F)),
    binary main_v193 main_v201 main_v202 (cmpi .slt : (⟨S2000000, .i32⟩ : BufTy).Contents (Elt F) → (⟨S2000000, .i32⟩ : BufTy).Contents (Elt F) → (⟨S2000000, .i1⟩ : BufTy).Contents (Elt F)),
    nullary main_c_64 (constantI S_ 32 64#32),
    unary main_c_64 main_v203 (broadcastInDim S2000000 ![] bcast_S_S2000000 : (⟨S_, .i32⟩ : BufTy).Contents (Elt F) → (⟨S2000000, .i32⟩ : BufTy).Contents (Elt F)),
    binary main_v193 main_v203 main_v204 (addi : (⟨S2000000, .i32⟩ : BufTy).Contents (Elt F) → (⟨S2000000, .i32⟩ : BufTy).Contents (Elt F) → (⟨S2000000, .i32⟩ : BufTy).Contents (Elt F)),
    ternary main_v202 main_v204 main_v193 main_v205 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_65 (constantI S_ 32 0#32),
    unary main_c_65 main_v206 (broadcastInDim S2000000 ![] bcast_S_S2000000 : (⟨S_, .i32⟩ : BufTy).Contents (Elt F) → (⟨S2000000, .i32⟩ : BufTy).Contents (Elt F)),
    binary main_v195 main_v206 main_v207 (cmpi .slt : (⟨S2000000, .i32⟩ : BufTy).Contents (Elt F) → (⟨S2000000, .i32⟩ : BufTy).Contents (Elt F) → (⟨S2000000, .i1⟩ : BufTy).Contents (Elt F)),
    nullary main_c_66 (constantI S_ 32 64#32) ]

set_option maxRecDepth 8192 in
set_option maxHeartbeats 4000000 in
/-- Operations 283 … 288 of @main. -/
abbrev ops19 : List (HloOp τ sig (Elt F)) :=
  [
    unary main_c_66 main_v208 (broadcastInDim S2000000 ![] bcast_S_S2000000 : (⟨S_, .i32⟩ : BufTy).Contents (Elt F) → (⟨S2000000, .i32⟩ : BufTy).Contents (Elt F)),
    binary main_v195 main_v208 main_v209 (addi : (⟨S2000000, .i32⟩ : BufTy).Contents (Elt F) → (⟨S2000000, .i32⟩ : BufTy).Contents (Elt F) → (⟨S2000000, .i32⟩ : BufTy).Contents (Elt F)),
    ternary main_v207 main_v209 main_v195 main_v210 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v200 main_v211 (broadcastInDim S2000000x1 ![0] bcast_S2000000_S2000000x1_0 : (⟨S2000000, .i32⟩ : BufTy).Contents (Elt F) → (⟨S2000000x1, .i32⟩ : BufTy).Contents (Elt F)),
    unary main_v205 main_v212 (broadcastInDim S2000000x1 ![0] bcast_S2000000_S2000000x1_0 : (⟨S2000000, .i32⟩ : BufTy).Contents (Elt F) → (⟨S2000000x1, .i32⟩ : BufTy).Contents (Elt F)),
    unary main_v210 main_v213 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 289 … 289 of @main. -/
abbrev ops20 : List (HloOp τ sig (Elt F)) :=
  [
    nary ![main_v211, main_v212, main_v213] main_v214 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 290 … 319 of @main. -/
abbrev ops21 : List (HloOp τ sig (Elt F)) :=
  [
    binary main_arg3 main_v214 main_v215 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    nullary main_cst_67 (constant S_ .f32 0x3F800000#32),
    unary main_cst_67 main_v216 (broadcastInDim S2000000 ![] bcast_S_S2000000 : (⟨S_, .f32⟩ : BufTy).Contents (Elt F) → (⟨S2000000, .f32⟩ : BufTy).Contents (Elt F)),
    binary main_v216 main_v14 main_v217 (subf : (⟨S2000000, .f32⟩ : BufTy).Contents (Elt F) → (⟨S2000000, .f32⟩ : BufTy).Contents (Elt F) → (⟨S2000000, .f32⟩ : BufTy).Contents (Elt F)),
    binary main_v215 main_v217 main_v218 (mulf : (⟨S2000000, .f32⟩ : BufTy).Contents (Elt F) → (⟨S2000000, .f32⟩ : BufTy).Contents (Elt F) → (⟨S2000000, .f32⟩ : BufTy).Contents (Elt F)),
    nullary main_c_68 (constantI S_ 32 1#32),
    unary main_c_68 main_v219 (broadcastInDim S2000000 ![] bcast_S_S2000000 : (⟨S_, .i32⟩ : BufTy).Contents (Elt F) → (⟨S2000000, .i32⟩ : BufTy).Contents (Elt F)),
    binary main_v8 main_v219 main_v220 (addi : (⟨S2000000, .i32⟩ : BufTy).Contents (Elt F) → (⟨S2000000, .i32⟩ : BufTy).Contents (Elt F) → (⟨S2000000, .i32⟩ : BufTy).Contents (Elt F)),
    nullary main_c_69 (constantI S_ 32 1#32),
    unary main_c_69 main_v221 (broadcastInDim S2000000 ![] bcast_S_S2000000 : (⟨S_, .i32⟩ : BufTy).Contents (Elt F) → (⟨S2000000, .i32⟩ : BufTy).Contents (Elt F)),
    binary main_v10 main_v221 main_v222 (addi : (⟨S2000000, .i32⟩ : BufTy).Contents (Elt F) → (⟨S2000000, .i32⟩ : BufTy).Contents (Elt F) → (⟨S2000000, .i32⟩ : BufTy).Contents (Elt F)),
    nullary main_c_70 (constantI S_ 32 1#32),
    unary main_c_70 main_v223 (broadcastInDim S2000000 ![] bcast_S_S2000000 : (⟨S_, .i32⟩ : BufTy).Contents (Elt F) → (⟨S2000000, .i32⟩ : BufTy).Contents (Elt F)),
    binary main_v12 main_v223 main_v224 (addi : (⟨S2000000, .i32⟩ : BufTy).Contents (Elt F) → (⟨S2000000, .i32⟩ : BufTy).Contents (Elt F) → (⟨S2000000, .i32⟩ : BufTy).Contents (Elt F)),
    nullary main_c_71 (constantI S_ 32 0#32),
    unary main_c_71 main_v225 (broadcastInDim S2000000 ![] bcast_S_S2000000 : (⟨S_, .i32⟩ : BufTy).Contents (Elt F) → (⟨S2000000, .i32⟩ : BufTy).Contents (Elt F)),
    binary main_v220 main_v225 main_v226 (cmpi .slt : (⟨S2000000, .i32⟩ : BufTy).Contents (Elt F) → (⟨S2000000, .i32⟩ : BufTy).Contents (Elt F) → (⟨S2000000, .i1⟩ : BufTy).Contents (Elt F)),
    nullary main_c_72 (constantI S_ 32 64#32),
    unary main_c_72 main_v227 (broadcastInDim S2000000 ![] bcast_S_S2000000 : (⟨S_, .i32⟩ : BufTy).Contents (Elt F) → (⟨S2000000, .i32⟩ : BufTy).Contents (Elt F)),
    binary main_v220 main_v227 main_v228 (addi : (⟨S2000000, .i32⟩ : BufTy).Contents (Elt F) → (⟨S2000000, .i32⟩ : BufTy).Contents (Elt F) → (⟨S2000000, .i32⟩ : BufTy).Contents (Elt F)),
    ternary main_v226 main_v228 main_v220 main_v229 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_73 (constantI S_ 32 0#32),
    unary main_c_73 main_v230 (broadcastInDim S2000000 ![] bcast_S_S2000000 : (⟨S_, .i32⟩ : BufTy).Contents (Elt F) → (⟨S2000000, .i32⟩ : BufTy).Contents (Elt F)),
    binary main_v222 main_v230 main_v231 (cmpi .slt : (⟨S2000000, .i32⟩ : BufTy).Contents (Elt F) → (⟨S2000000, .i32⟩ : BufTy).Contents (Elt F) → (⟨S2000000, .i1⟩ : BufTy).Contents (Elt F)),
    nullary main_c_74 (constantI S_ 32 64#32),
    unary main_c_74 main_v232 (broadcastInDim S2000000 ![] bcast_S_S2000000 : (⟨S_, .i32⟩ : BufTy).Contents (Elt F) → (⟨S2000000, .i32⟩ : BufTy).Contents (Elt F)),
    binary main_v222 main_v232 main_v233 (addi : (⟨S2000000, .i32⟩ : BufTy).Contents (Elt F) → (⟨S2000000, .i32⟩ : BufTy).Contents (Elt F) → (⟨S2000000, .i32⟩ : BufTy).Contents (Elt F)),
    ternary main_v231 main_v233 main_v222 main_v234 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_75 (constantI S_ 32 0#32),
    unary main_c_75 main_v235 (broadcastInDim S2000000 ![] bcast_S_S2000000 : (⟨S_, .i32⟩ : BufTy).Contents (Elt F) → (⟨S2000000, .i32⟩ : BufTy).Contents (Elt F)) ]

set_option maxRecDepth 8192 in
set_option maxHeartbeats 4000000 in
/-- Operations 320 … 327 of @main. -/
abbrev ops22 : List (HloOp τ sig (Elt F)) :=
  [
    binary main_v224 main_v235 main_v236 (cmpi .slt : (⟨S2000000, .i32⟩ : BufTy).Contents (Elt F) → (⟨S2000000, .i32⟩ : BufTy).Contents (Elt F) → (⟨S2000000, .i1⟩ : BufTy).Contents (Elt F)),
    nullary main_c_76 (constantI S_ 32 64#32),
    unary main_c_76 main_v237 (broadcastInDim S2000000 ![] bcast_S_S2000000 : (⟨S_, .i32⟩ : BufTy).Contents (Elt F) → (⟨S2000000, .i32⟩ : BufTy).Contents (Elt F)),
    binary main_v224 main_v237 main_v238 (addi : (⟨S2000000, .i32⟩ : BufTy).Contents (Elt F) → (⟨S2000000, .i32⟩ : BufTy).Contents (Elt F) → (⟨S2000000, .i32⟩ : BufTy).Contents (Elt F)),
    ternary main_v236 main_v238 main_v224 main_v239 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v229 main_v240 (broadcastInDim S2000000x1 ![0] bcast_S2000000_S2000000x1_0 : (⟨S2000000, .i32⟩ : BufTy).Contents (Elt F) → (⟨S2000000x1, .i32⟩ : BufTy).Contents (Elt F)),
    unary main_v234 main_v241 (broadcastInDim S2000000x1 ![0] bcast_S2000000_S2000000x1_0 : (⟨S2000000, .i32⟩ : BufTy).Contents (Elt F) → (⟨S2000000x1, .i32⟩ : BufTy).Contents (Elt F)),
    unary main_v239 main_v242 (broadcastInDim S2000000x1 ![0] bcast_S2000000_S2000000x1_0 : (⟨S2000000, .i32⟩ : BufTy).Contents (Elt F) → (⟨S2000000x1, .i32⟩ : BufTy).Contents (Elt F)) ]

set_option maxRecDepth 8192 in
set_option maxHeartbeats 4000000 in
/-- Operations 328 … 328 of @main. -/
abbrev ops23 : List (HloOp τ sig (Elt F)) :=
  [
    nary ![main_v240, main_v241, main_v242] main_v243 (fun u => concatenate S2000000x3 1 [⟨S2000000x1, u 0⟩, ⟨S2000000x1, u 1⟩, ⟨S2000000x1, u 2⟩] concatenates_S2000000x1_S2000000x1_S2000000x1_S2000000x3_d1) ]

set_option maxRecDepth 8192 in
set_option maxHeartbeats 4000000 in
/-- Operations 329 … 358 of @main. -/
abbrev ops24 : List (HloOp τ sig (Elt F)) :=
  [
    binary main_arg3 main_v243 main_v244 ((fun x i => Host.gather gather_S64x64x64_S2000000x3_S2000000_n_012_n_n_012_1_111 x i) : (⟨S64x64x64, .f32⟩ : BufTy).Contents (Elt F) → (⟨S2000000x3, .i32⟩ : BufTy).Contents (Elt F) → (⟨S2000000, .f32⟩ : BufTy).Contents (Elt F)),
    binary main_v244 main_v14 main_v245 (mulf : (⟨S2000000, .f32⟩ : BufTy).Contents (Elt F) → (⟨S2000000, .f32⟩ : BufTy).Contents (Elt F) → (⟨S2000000, .f32⟩ : BufTy).Contents (Elt F)),
    binary main_v218 main_v245 main_v246 (addf : (⟨S2000000, .f32⟩ : BufTy).Contents (Elt F) → (⟨S2000000, .f32⟩ : BufTy).Contents (Elt F) → (⟨S2000000, .f32⟩ : BufTy).Contents (Elt F)),
    nullary main_cst_77 (constant S_ .f32 0x3F800000#32),
    unary main_cst_77 main_v247 (broadcastInDim S2000000 ![] bcast_S_S2000000 : (⟨S_, .f32⟩ : BufTy).Contents (Elt F) → (⟨S2000000, .f32⟩ : BufTy).Contents (Elt F)),
    binary main_v247 main_v16 main_v248 (subf : (⟨S2000000, .f32⟩ : BufTy).Contents (Elt F) → (⟨S2000000, .f32⟩ : BufTy).Contents (Elt F) → (⟨S2000000, .f32⟩ : BufTy).Contents (Elt F)),
    binary main_v75 main_v248 main_v249 (mulf : (⟨S2000000, .f32⟩ : BufTy).Contents (Elt F) → (⟨S2000000, .f32⟩ : BufTy).Contents (Elt F) → (⟨S2000000, .f32⟩ : BufTy).Contents (Elt F)),
    binary main_v189 main_v16 main_v250 (mulf : (⟨S2000000, .f32⟩ : BufTy).Contents (Elt F) → (⟨S2000000, .f32⟩ : BufTy).Contents (Elt F) → (⟨S2000000, .f32⟩ : BufTy).Contents (Elt F)),
    binary main_v249 main_v250 main_v251 (addf : (⟨S2000000, .f32⟩ : BufTy).Contents (Elt F) → (⟨S2000000, .f32⟩ : BufTy).Contents (Elt F) → (⟨S2000000, .f32⟩ : BufTy).Contents (Elt F)),
    nullary main_cst_78 (constant S_ .f32 0x3F800000#32),
    unary main_cst_78 main_v252 (broadcastInDim S2000000 ![] bcast_S_S2000000 : (⟨S_, .f32⟩ : BufTy).Contents (Elt F) → (⟨S2000000, .f32⟩ : BufTy).Contents (Elt F)),
    binary main_v252 main_v16 main_v253 (subf : (⟨S2000000, .f32⟩ : BufTy).Contents (Elt F) → (⟨S2000000, .f32⟩ : BufTy).Contents (Elt F) → (⟨S2000000, .f32⟩ : BufTy).Contents (Elt F)),
    binary main_v132 main_v253 main_v254 (mulf : (⟨S2000000, .f32⟩ : BufTy).Contents (Elt F) → (⟨S2000000, .f32⟩ : BufTy).Contents (Elt F) → (⟨S2000000, .f32⟩ : BufTy).Contents (Elt F)),
    binary main_v246 main_v16 main_v255 (mulf : (⟨S2000000, .f32⟩ : BufTy).Contents (Elt F) → (⟨S2000000, .f32⟩ : BufTy).Contents (Elt F) → (⟨S2000000, .f32⟩ : BufTy).Contents (Elt F)),
    binary main_v254 main_v255 main_v256 (addf : (⟨S2000000, .f32⟩ : BufTy).Contents (Elt F) → (⟨S2000000, .f32⟩ : BufTy).Contents (Elt F) → (⟨S2000000, .f32⟩ : BufTy).Contents (Elt F)),
    nullary main_cst_79 (constant S_ .f32 0x3F800000#32),
    unary main_cst_79 main_v257 (broadcastInDim S2000000 ![] bcast_S_S2000000 : (⟨S_, .f32⟩ : BufTy).Contents (Elt F) → (⟨S2000000, .f32⟩ : BufTy).Contents (Elt F)),
    binary main_v257 main_v18 main_v258 (subf : (⟨S2000000, .f32⟩ : BufTy).Contents (Elt F) → (⟨S2000000, .f32⟩ : BufTy).Contents (Elt F) → (⟨S2000000, .f32⟩ : BufTy).Contents (Elt F)),
    binary main_v251 main_v258 main_v259 (mulf : (⟨S2000000, .f32⟩ : BufTy).Contents (Elt F) → (⟨S2000000, .f32⟩ : BufTy).Contents (Elt F) → (⟨S2000000, .f32⟩ : BufTy).Contents (Elt F)),
    binary main_v256 main_v18 main_v260 (mulf : (⟨S2000000, .f32⟩ : BufTy).Contents (Elt F) → (⟨S2000000, .f32⟩ : BufTy).Contents (Elt F) → (⟨S2000000, .f32⟩ : BufTy).Contents (Elt F)),
    binary main_v259 main_v260 main_v261 (addf : (⟨S2000000, .f32⟩ : BufTy).Contents (Elt F) → (⟨S2000000, .f32⟩ : BufTy).Contents (Elt F) → (⟨S2000000, .f32⟩ : BufTy).Contents (Elt F)),
    binary main_v261 main_v261 main_v262 (mulf : (⟨S2000000, .f32⟩ : BufTy).Contents (Elt F) → (⟨S2000000, .f32⟩ : BufTy).Contents (Elt F) → (⟨S2000000, .f32⟩ : BufTy).Contents (Elt F)),
    nullary main_cst_80 (constant S_ .f32 0x3F000000#32),
    unary main_cst_80 main_v263 (broadcastInDim S2000000 ![] bcast_S_S2000000 : (⟨S_, .f32⟩ : BufTy).Contents (Elt F) → (⟨S2000000, .f32⟩ : BufTy).Contents (Elt F)),
    binary main_v263 main_v262 main_v264 (mulf : (⟨S2000000, .f32⟩ : BufTy).Contents (Elt F) → (⟨S2000000, .f32⟩ : BufTy).Contents (Elt F) → (⟨S2000000, .f32⟩ : BufTy).Contents (Elt F)),
    unary main_arg2 main_v265 ((extractStridedSlice S6000000x1 ![0, 0] · slices_S6000000x2_S6000000x1_0_0) : (⟨S6000000x2, .i32⟩ : BufTy).Contents (Elt F) → (⟨S6000000x1, .i32⟩ : BufTy).Contents (Elt F)),
    reshape main_v265 main_v266 rfl shapeCasts_S6000000x1_S6000000,
    nullary main_c_81 (constantI S_ 32 0#32),
    unary main_c_81 main_v267 (broadcastInDim S6000000 ![] bcast_S_S6000000 : (⟨S_, .i32⟩ : BufTy).Contents (Elt F) → (⟨S6000000, .i32⟩ : BufTy).Contents (Elt F)),
    binary main_v266 main_v267 main_v268 (cmpi .slt : (⟨S6000000, .i32⟩ : BufTy).Contents (Elt F) → (⟨S6000000, .i32⟩ : BufTy).Contents (Elt F) → (⟨S6000000, .i1⟩ : BufTy).Contents (Elt F)) ]

set_option maxRecDepth 8192 in
set_option maxHeartbeats 4000000 in
/-- Operations 359 … 388 of @main. -/
abbrev ops25 : List (HloOp τ sig (Elt F)) :=
  [
    nullary main_c_82 (constantI S_ 32 2000000#32),
    unary main_c_82 main_v269 (broadcastInDim S6000000 ![] bcast_S_S6000000 : (⟨S_, .i32⟩ : BufTy).Contents (Elt F) → (⟨S6000000, .i32⟩ : BufTy).Contents (Elt F)),
    binary main_v266 main_v269 main_v270 (addi : (⟨S6000000, .i32⟩ : BufTy).Contents (Elt F) → (⟨S6000000, .i32⟩ : BufTy).Contents (Elt F) → (⟨S6000000, .i32⟩ : BufTy).Contents (Elt F)),
    ternary main_v268 main_v270 main_v266 main_v271 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v271 main_v272 (broadcastInDim S6000000x1 ![0] bcast_S6000000_S6000000x1_0 : (⟨S6000000, .i32⟩ : BufTy).Contents (Elt F) → (⟨S6000000x1, .i32⟩ : BufTy).Contents (Elt F)),
    binary main_arg0 main_v272 main_v273 ((fun x i => Host.gather gather_S2000000x3_S6000000x1_S6000000x3_1_0_n_n_0_1_13 x i) : (⟨S2000000x3, .f32⟩ : BufTy).Contents (Elt F) → (⟨S6000000x1, .i32⟩ : BufTy).Contents (Elt F) → (⟨S6000000x3, .f32⟩ : BufTy).Contents (Elt F)),
    unary main_arg2 main_v274 ((extractStridedSlice S6000000x1 ![0, 1] · slices_S6000000x2_S6000000x1_0_1) : (⟨S6000000x2, .i32⟩ : BufTy).Contents (Elt F) → (⟨S6000000x1, .i32⟩ : BufTy).Contents (Elt F)),
    reshape main_v274 main_v275 rfl shapeCasts_S6000000x1_S6000000,
    nullary main_c_83 (constantI S_ 32 0#32),
    unary main_c_83 main_v276 (broadcastInDim S6000000 ![] bcast_S_S6000000 : (⟨S_, .i32⟩ : BufTy).Contents (Elt F) → (⟨S6000000, .i32⟩ : BufTy).Contents (Elt F)),
    binary main_v275 main_v276 main_v277 (cmpi .slt : (⟨S6000000, .i32⟩ : BufTy).Contents (Elt F) → (⟨S6000000, .i32⟩ : BufTy).Contents (Elt F) → (⟨S6000000, .i1⟩ : BufTy).Contents (Elt F)),
    nullary main_c_84 (constantI S_ 32 2000000#32),
    unary main_c_84 main_v278 (broadcastInDim S6000000 ![] bcast_S_S6000000 : (⟨S_, .i32⟩ : BufTy).Contents (Elt F) → (⟨S6000000, .i32⟩ : BufTy).Contents (Elt F)),
    binary main_v275 main_v278 main_v279 (addi : (⟨S6000000, .i32⟩ : BufTy).Contents (Elt F) → (⟨S6000000, .i32⟩ : BufTy).Contents (Elt F) → (⟨S6000000, .i32⟩ : BufTy).Contents (Elt F)),
    ternary main_v277 main_v279 main_v275 main_v280 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v280 main_v281 (broadcastInDim S6000000x1 ![0] bcast_S6000000_S6000000x1_0 : (⟨S6000000, .i32⟩ : BufTy).Contents (Elt F) → (⟨S6000000x1, .i32⟩ : BufTy).Contents (Elt F)),
    binary main_arg0 main_v281 main_v282 ((fun x i => Host.gather gather_S2000000x3_S6000000x1_S6000000x3_1_0_n_n_0_1_13 x i) : (⟨S2000000x3, .f32⟩ : BufTy).Contents (Elt F) → (⟨S6000000x1, .i32⟩ : BufTy).Contents (Elt F) → (⟨S6000000x3, .f32⟩ : BufTy).Contents (Elt F)),
    binary main_v273 main_v282 main_v283 (subf : (⟨S6000000x3, .f32⟩ : BufTy).Contents (Elt F) → (⟨S6000000x3, .f32⟩ : BufTy).Contents (Elt F) → (⟨S6000000x3, .f32⟩ : BufTy).Contents (Elt F)),
    binary main_v283 main_v283 main_v284 (mulf : (⟨S6000000x3, .f32⟩ : BufTy).Contents (Elt F) → (⟨S6000000x3, .f32⟩ : BufTy).Contents (Elt F) → (⟨S6000000x3, .f32⟩ : BufTy).Contents (Elt F)),
    nullary main_cst_85 (constant S_ .f32 0x00000000#32),
    binary main_v284 main_cst_85 main_v285 ((fun x v => Host.reduceAdd x v reducesTo_S6000000x3_S6000000_d1 h_S_) : (⟨S6000000x3, .f32⟩ : BufTy).Contents (Elt F) → (⟨S_, .f32⟩ : BufTy).Contents (Elt F) → (⟨S6000000, .f32⟩ : BufTy).Contents (Elt F)),
    nullary main_cst_86 (constant S_ .f32 0x2B8CBCCC#32),
    unary main_cst_86 main_v286 (broadcastInDim S6000000 ![] bcast_S_S6000000 : (⟨S_, .f32⟩ : BufTy).Contents (Elt F) → (⟨S6000000, .f32⟩ : BufTy).Contents (Elt F)),
    binary main_v285 main_v286 main_v287 (addf : (⟨S6000000, .f32⟩ : BufTy).Contents (Elt F) → (⟨S6000000, .f32⟩ : BufTy).Contents (Elt F) → (⟨S6000000, .f32⟩ : BufTy).Contents (Elt F)),
    unary main_v287 main_v288 (Host.sqrt : (⟨S6000000, .f32⟩ : BufTy).Contents (Elt F) → (⟨S6000000, .f32⟩ : BufTy).Contents (Elt F)),
    binary main_v288 main_arg4 main_v289 (subf : (⟨S6000000, .f32⟩ : BufTy).Contents (Elt F) → (⟨S6000000, .f32⟩ : BufTy).Contents (Elt F) → (⟨S6000000, .f32⟩ : BufTy).Contents (Elt F)),
    binary main_v289 main_v289 main_v290 (mulf : (⟨S6000000, .f32⟩ : BufTy).Contents (Elt F) → (⟨S6000000, .f32⟩ : BufTy).Contents (Elt F) → (⟨S6000000, .f32⟩ : BufTy).Contents (Elt F)),
    nullary main_cst_87 (constant S_ .f32 0x3F000000#32),
    unary main_cst_87 main_v291 (broadcastInDim S6000000 ![] bcast_S_S6000000 : (⟨S_, .f32⟩ : BufTy).Contents (Elt F) → (⟨S6000000, .f32⟩ : BufTy).Contents (Elt F)),
    binary main_v291 main_v290 main_v292 (mulf : (⟨S6000000, .f32⟩ : BufTy).Contents (Elt F) → (⟨S6000000, .f32⟩ : BufTy).Contents (Elt F) → (⟨S6000000, .f32⟩ : BufTy).Contents (Elt F)) ]

set_option maxRecDepth 8192 in
set_option maxHeartbeats 4000000 in
/-- Operations 389 … 393 of @main. -/
abbrev ops26 : List (HloOp τ sig (Elt F)) :=
  [
    nullary main_cst_88 (constant S_ .f32 0x00000000#32),
    binary main_v264 main_cst_88 main_v293 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_89 (constant S_ .f32 0x00000000#32),
    binary main_v292 main_cst_89 main_v294 ((fun x v => Host.reduceAdd x v reducesTo_S6000000_S_d0 h_S_) : (⟨S6000000, .f32⟩ : BufTy).Contents (Elt F) → (⟨S_, .f32⟩ : BufTy).Contents (Elt F) → (⟨S_, .f32⟩ : BufTy).Contents (Elt F)),
    binary main_v293 main_v294 main_v295 (addf : (⟨S_, .f32⟩ : BufTy).Contents (Elt F) → (⟨S_, .f32⟩ : BufTy).Contents (Elt F) → (⟨S_, .f32⟩ : BufTy).Contents (Elt F)) ]

end Cert.ReferenceIdeal.RunH
-- ==== Proof.RefRunMain.lean ====
import proofs.«152542_j63075889709151_1_alg».proof.Proof.RefRunOps

/-!
# The reference's run: the program is its operations in order
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 4000000 in
theorem main_eq (c : Dev nD) : main (F := F) c = seq ops := rfl

end Cert.ReferenceIdeal.RunH
-- ==== Proof.RefRunChunksA.lean ====
import proofs.«152542_j63075889709151_1_alg».proof.Proof.RefRunOps

/-!
# The reference's run: the stages after each piece (first part)

After each piece of the operation list, every array written so far that a later operation still reads holds its
stage: the operation's function applied to the stages of its operands.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 2000000 in
/-- After operations 1 … 30, every value still to be read is its stage's. -/
theorem chunk0 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4) :
    after (ops0 (F := F)) W (Proc.devRef .tc main_arg0) = x0
      ∧ after (ops0 (F := F)) W (Proc.devRef .tc main_arg1) = x1
      ∧ after (ops0 (F := F)) W (Proc.devRef .tc main_arg2) = x2
      ∧ after (ops0 (F := F)) W (Proc.devRef .tc main_arg3) = x3
      ∧ after (ops0 (F := F)) W (Proc.devRef .tc main_arg4) = x4
      ∧ after (ops0 (F := F)) W (Proc.devRef .tc main_v8) = val_main_v8 (F := F) x0
      ∧ after (ops0 (F := F)) W (Proc.devRef .tc main_v10) = val_main_v10 (F := F) x0
      ∧ after (ops0 (F := F)) W (Proc.devRef .tc main_v12) = val_main_v12 (F := F) x0
      ∧ after (ops0 (F := F)) W (Proc.devRef .tc main_v14) = val_main_v14 (F := F) x0
      ∧ after (ops0 (F := F)) W (Proc.devRef .tc main_v16) = val_main_v16 (F := F) x0
      ∧ after (ops0 (F := F)) W (Proc.devRef .tc main_v18) = val_main_v18 (F := F) x0
      ∧ after (ops0 (F := F)) W (Proc.devRef .tc main_v20) = val_main_v20 (F := F) x0 := by
  refine ⟨?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4]) <;> (try rfl))

set_option maxRecDepth 8192 in
set_option maxHeartbeats 2000000 in
/-- After operations 31 … 60, every value still to be read is its stage's. -/
theorem chunk1 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v20 : W (Proc.devRef .tc main_v20) = val_main_v20 (F := F) x0) :
    after (ops1 (F := F)) W (Proc.devRef .tc main_arg0) = x0
      ∧ after (ops1 (F := F)) W (Proc.devRef .tc main_arg1) = x1
      ∧ after (ops1 (F := F)) W (Proc.devRef .tc main_arg2) = x2
      ∧ after (ops1 (F := F)) W (Proc.devRef .tc main_arg3) = x3
      ∧ after (ops1 (F := F)) W (Proc.devRef .tc main_arg4) = x4
      ∧ after (ops1 (F := F)) W (Proc.devRef .tc main_v8) = val_main_v8 (F := F) x0
      ∧ after (ops1 (F := F)) W (Proc.devRef .tc main_v10) = val_main_v10 (F := F) x0
      ∧ after (ops1 (F := F)) W (Proc.devRef .tc main_v12) = val_main_v12 (F := F) x0
      ∧ after (ops1 (F := F)) W (Proc.devRef .tc main_v14) = val_main_v14 (F := F) x0
      ∧ after (ops1 (F := F)) W (Proc.devRef .tc main_v16) = val_main_v16 (F := F) x0
      ∧ after (ops1 (F := F)) W (Proc.devRef .tc main_v18) = val_main_v18 (F := F) x0
      ∧ after (ops1 (F := F)) W (Proc.devRef .tc main_v40) = val_main_v40 (F := F) x0
      ∧ after (ops1 (F := F)) W (Proc.devRef .tc main_v41) = val_main_v41 (F := F) x0
      ∧ after (ops1 (F := F)) W (Proc.devRef .tc main_v42) = val_main_v42 (F := F) x0 := by
  refine ⟨?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v20]) <;> (try rfl))

set_option maxRecDepth 8192 in
set_option maxHeartbeats 2000000 in
/-- After operations 61 … 61, every value still to be read is its stage's. -/
theorem chunk2 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v40 : W (Proc.devRef .tc main_v40) = val_main_v40 (F := F) x0)
    (h_main_v41 : W (Proc.devRef .tc main_v41) = val_main_v41 (F := F) x0)
    (h_main_v42 : W (Proc.devRef .tc main_v42) = val_main_v42 (F := F) x0) :
    after (ops2 (F := F)) W (Proc.devRef .tc main_arg0) = x0
      ∧ after (ops2 (F := F)) W (Proc.devRef .tc main_arg1) = x1
      ∧ after (ops2 (F := F)) W (Proc.devRef .tc main_arg2) = x2
      ∧ after (ops2 (F := F)) W (Proc.devRef .tc main_arg3) = x3
      ∧ after (ops2 (F := F)) W (Proc.devRef .tc main_arg4) = x4
      ∧ after (ops2 (F := F)) W (Proc.devRef .tc main_v8) = val_main_v8 (F := F) x0
      ∧ after (ops2 (F := F)) W (Proc.devRef .tc main_v10) = val_main_v10 (F := F) x0
      ∧ after (ops2 (F := F)) W (Proc.devRef .tc main_v12) = val_main_v12 (F := F) x0
      ∧ after (ops2 (F := F)) W (Proc.devRef .tc main_v14) = val_main_v14 (F := F) x0
      ∧ after (ops2 (F := F)) W (Proc.devRef .tc main_v16) = val_main_v16 (F := F) x0
      ∧ after (ops2 (F := F)) W (Proc.devRef .tc main_v18) = val_main_v18 (F := F) x0
      ∧ after (ops2 (F := F)) W (Proc.devRef .tc main_v43) = val_main_v43 (F := F) x0 := by
  refine ⟨?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp only [after_cons, after_nil]
    rw [nary_result]
    show concatenate S2000000x3 1 [⟨S2000000x1, W (Proc.devRef .tc main_v40)⟩, ⟨S2000000x1, W (Proc.devRef .tc main_v41)⟩,
      ⟨S2000000x1, W (Proc.devRef .tc main_v42)⟩] concatenates_S2000000x1_S2000000x1_S2000000x1_S2000000x3_d1 = _
    rw [h_main_v40, h_main_v41, h_main_v42]
    rfl

set_option maxRecDepth 8192 in
set_option maxHeartbeats 2000000 in
/-- After operations 62 … 91, every value still to be read is its stage's. -/
theorem chunk3 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v43 : W (Proc.devRef .tc main_v43) = val_main_v43 (F := F) x0) :
    after (ops3 (F := F)) W (Proc.devRef .tc main_arg0) = x0
      ∧ after (ops3 (F := F)) W (Proc.devRef .tc main_arg1) = x1
      ∧ after (ops3 (F := F)) W (Proc.devRef .tc main_arg2) = x2
      ∧ after (ops3 (F := F)) W (Proc.devRef .tc main_arg3) = x3
      ∧ after (ops3 (F := F)) W (Proc.devRef .tc main_arg4) = x4
      ∧ after (ops3 (F := F)) W (Proc.devRef .tc main_v8) = val_main_v8 (F := F) x0
      ∧ after (ops3 (F := F)) W (Proc.devRef .tc main_v10) = val_main_v10 (F := F) x0
      ∧ after (ops3 (F := F)) W (Proc.devRef .tc main_v12) = val_main_v12 (F := F) x0
      ∧ after (ops3 (F := F)) W (Proc.devRef .tc main_v14) = val_main_v14 (F := F) x0
      ∧ after (ops3 (F := F)) W (Proc.devRef .tc main_v16) = val_main_v16 (F := F) x0
      ∧ after (ops3 (F := F)) W (Proc.devRef .tc main_v18) = val_main_v18 (F := F) x0
      ∧ after (ops3 (F := F)) W (Proc.devRef .tc main_v47) = val_main_v47 (F := F) x0 x3
      ∧ after (ops3 (F := F)) W (Proc.devRef .tc main_v53) = val_main_v53 (F := F) x0
      ∧ after (ops3 (F := F)) W (Proc.devRef .tc main_v58) = val_main_v58 (F := F) x0
      ∧ after (ops3 (F := F)) W (Proc.devRef .tc main_v63) = val_main_v63 (F := F) x0
      ∧ after (ops3 (F := F)) W (Proc.devRef .tc main_v64) = val_main_v64 (F := F) := by
  refine ⟨?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v43]) <;> (try rfl))

set_option maxRecDepth 8192 in
set_option maxHeartbeats 2000000 in
/-- After operations 92 … 99, every value still to be read is its stage's. -/
theorem chunk4 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v47 : W (Proc.devRef .tc main_v47) = val_main_v47 (F := F) x0 x3)
    (h_main_v53 : W (Proc.devRef .tc main_v53) = val_main_v53 (F := F) x0)
    (h_main_v58 : W (Proc.devRef .tc main_v58) = val_main_v58 (F := F) x0)
    (h_main_v63 : W (Proc.devRef .tc main_v63) = val_main_v63 (F := F) x0)
    (h_main_v64 : W (Proc.devRef .tc main_v64) = val_main_v64 (F := F)) :
    after (ops4 (F := F)) W (Proc.devRef .tc main_arg0) = x0
      ∧ after (ops4 (F := F)) W (Proc.devRef .tc main_arg1) = x1
      ∧ after (ops4 (F := F)) W (Proc.devRef .tc main_arg2) = x2
      ∧ after (ops4 (F := F)) W (Proc.devRef .tc main_arg3) = x3
      ∧ after (ops4 (F := F)) W (Proc.devRef .tc main_arg4) = x4
      ∧ after (ops4 (F := F)) W (Proc.devRef .tc main_v8) = val_main_v8 (F := F) x0
      ∧ after (ops4 (F := F)) W (Proc.devRef .tc main_v10) = val_main_v10 (F := F) x0
      ∧ after (ops4 (F := F)) W (Proc.devRef .tc main_v12) = val_main_v12 (F := F) x0
      ∧ after (ops4 (F := F)) W (Proc.devRef .tc main_v14) = val_main_v14 (F := F) x0
      ∧ after (ops4 (F := F)) W (Proc.devRef .tc main_v16) = val_main_v16 (F := F) x0
      ∧ after (ops4 (F := F)) W (Proc.devRef .tc main_v18) = val_main_v18 (F := F) x0
      ∧ after (ops4 (F := F)) W (Proc.devRef .tc main_v47) = val_main_v47 (F := F) x0 x3
      ∧ after (ops4 (F := F)) W (Proc.devRef .tc main_v69) = val_main_v69 (F := F) x0
      ∧ after (ops4 (F := F)) W (Proc.devRef .tc main_v70) = val_main_v70 (F := F) x0
      ∧ after (ops4 (F := F)) W (Proc.devRef .tc main_v71) = val_main_v71 (F := F) x0 := by
  refine ⟨?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v47, h_main_v53, h_main_v58, h_main_v63, h_main_v64]) <;> (try rfl))

set_option maxRecDepth 8192 in
set_option maxHeartbeats 2000000 in
/-- After operations 100 … 100, every value still to be read is its stage's. -/
theorem chunk5 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v47 : W (Proc.devRef .tc main_v47) = val_main_v47 (F := F) x0 x3)
    (h_main_v69 : W (Proc.devRef .tc main_v69) = val_main_v69 (F := F) x0)
    (h_main_v70 : W (Proc.devRef .tc main_v70) = val_main_v70 (F := F) x0)
    (h_main_v71 : W (Proc.devRef .tc main_v71) = val_main_v71 (F := F) x0) :
    after (ops5 (F := F)) W (Proc.devRef .tc main_arg0) = x0
      ∧ after (ops5 (F := F)) W (Proc.devRef .tc main_arg1) = x1
      ∧ after (ops5 (F := F)) W (Proc.devRef .tc main_arg2) = x2
      ∧ after (ops5 (F := F)) W (Proc.devRef .tc main_arg3) = x3
      ∧ after (ops5 (F := F)) W (Proc.devRef .tc main_arg4) = x4
      ∧ after (ops5 (F := F)) W (Proc.devRef .tc main_v8) = val_main_v8 (F := F) x0
      ∧ after (ops5 (F := F)) W (Proc.devRef .tc main_v10) = val_main_v10 (F := F) x0
      ∧ after (ops5 (F := F)) W (Proc.devRef .tc main_v12) = val_main_v12 (F := F) x0
      ∧ after (ops5 (F := F)) W (Proc.devRef .tc main_v14) = val_main_v14 (F := F) x0
      ∧ after (ops5 (F := F)) W (Proc.devRef .tc main_v16) = val_main_v16 (F := F) x0
      ∧ after (ops5 (F := F)) W (Proc.devRef .tc main_v18) = val_main_v18 (F := F) x0
      ∧ after (ops5 (F := F)) W (Proc.devRef .tc main_v47) = val_main_v47 (F := F) x0 x3
      ∧ after (ops5 (F := F)) W (Proc.devRef .tc main_v72) = val_main_v72 (F := F) x0 := by
  refine ⟨?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v47
  · simp only [after_cons, after_nil]
    rw [nary_result]
    show concatenate S2000000x3 1 [⟨S2000000x1, W (Proc.devRef .tc main_v69)⟩, ⟨S2000000x1, W (Proc.devRef .tc main_v70)⟩,
      ⟨S2000000x1, W (Proc.devRef .tc main_v71)⟩] concatenates_S2000000x1_S2000000x1_S2000000x1_S2000000x3_d1 = _
    rw [h_main_v69, h_main_v70, h_main_v71]
    rfl

set_option maxRecDepth 8192 in
set_option maxHeartbeats 2000000 in
/-- After operations 101 … 130, every value still to be read is its stage's. -/
theorem chunk6 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v47 : W (Proc.devRef .tc main_v47) = val_main_v47 (F := F) x0 x3)
    (h_main_v72 : W (Proc.devRef .tc main_v72) = val_main_v72 (F := F) x0) :
    after (ops6 (F := F)) W (Proc.devRef .tc main_arg0) = x0
      ∧ after (ops6 (F := F)) W (Proc.devRef .tc main_arg1) = x1
      ∧ after (ops6 (F := F)) W (Proc.devRef .tc main_arg2) = x2
      ∧ after (ops6 (F := F)) W (Proc.devRef .tc main_arg3) = x3
      ∧ after (ops6 (F := F)) W (Proc.devRef .tc main_arg4) = x4
      ∧ after (ops6 (F := F)) W (Proc.devRef .tc main_v8) = val_main_v8 (F := F) x0
      ∧ after (ops6 (F := F)) W (Proc.devRef .tc main_v10) = val_main_v10 (F := F) x0
      ∧ after (ops6 (F := F)) W (Proc.devRef .tc main_v12) = val_main_v12 (F := F) x0
      ∧ after (ops6 (F := F)) W (Proc.devRef .tc main_v14) = val_main_v14 (F := F) x0
      ∧ after (ops6 (F := F)) W (Proc.devRef .tc main_v16) = val_main_v16 (F := F) x0
      ∧ after (ops6 (F := F)) W (Proc.devRef .tc main_v18) = val_main_v18 (F := F) x0
      ∧ after (ops6 (F := F)) W (Proc.devRef .tc main_v75) = val_main_v75 (F := F) x0 x3
      ∧ after (ops6 (F := F)) W (Proc.devRef .tc main_v81) = val_main_v81 (F := F) x0
      ∧ after (ops6 (F := F)) W (Proc.devRef .tc main_v86) = val_main_v86 (F := F) x0
      ∧ after (ops6 (F := F)) W (Proc.devRef .tc main_v91) = val_main_v91 (F := F) x0
      ∧ after (ops6 (F := F)) W (Proc.devRef .tc main_v93) = val_main_v93 (F := F) x0
      ∧ after (ops6 (F := F)) W (Proc.devRef .tc main_c_28) = val_main_c_28 (F := F) := by
  refine ⟨?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v47, h_main_v72]) <;> (try rfl))

set_option maxRecDepth 8192 in
set_option maxHeartbeats 2000000 in
/-- After operations 131 … 136, every value still to be read is its stage's. -/
theorem chunk7 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v81 : W (Proc.devRef .tc main_v81) = val_main_v81 (F := F) x0)
    (h_main_v86 : W (Proc.devRef .tc main_v86) = val_main_v86 (F := F) x0)
    (h_main_v91 : W (Proc.devRef .tc main_v91) = val_main_v91 (F := F) x0)
    (h_main_v93 : W (Proc.devRef .tc main_v93) = val_main_v93 (F := F) x0)
    (h_main_c_28 : W (Proc.devRef .tc main_c_28) = val_main_c_28 (F := F)) :
    after (ops7 (F := F)) W (Proc.devRef .tc main_arg0) = x0
      ∧ after (ops7 (F := F)) W (Proc.devRef .tc main_arg1) = x1
      ∧ after (ops7 (F := F)) W (Proc.devRef .tc main_arg2) = x2
      ∧ after (ops7 (F := F)) W (Proc.devRef .tc main_arg3) = x3
      ∧ after (ops7 (F := F)) W (Proc.devRef .tc main_arg4) = x4
      ∧ after (ops7 (F := F)) W (Proc.devRef .tc main_v8) = val_main_v8 (F := F) x0
      ∧ after (ops7 (F := F)) W (Proc.devRef .tc main_v10) = val_main_v10 (F := F) x0
      ∧ after (ops7 (F := F)) W (Proc.devRef .tc main_v12) = val_main_v12 (F := F) x0
      ∧ after (ops7 (F := F)) W (Proc.devRef .tc main_v14) = val_main_v14 (F := F) x0
      ∧ after (ops7 (F := F)) W (Proc.devRef .tc main_v16) = val_main_v16 (F := F) x0
      ∧ after (ops7 (F := F)) W (Proc.devRef .tc main_v18) = val_main_v18 (F := F) x0
      ∧ after (ops7 (F := F)) W (Proc.devRef .tc main_v75) = val_main_v75 (F := F) x0 x3
      ∧ after (ops7 (F := F)) W (Proc.devRef .tc main_v97) = val_main_v97 (F := F) x0
      ∧ after (ops7 (F := F)) W (Proc.devRef .tc main_v98) = val_main_v98 (F := F) x0
      ∧ after (ops7 (F := F)) W (Proc.devRef .tc main_v99) = val_main_v99 (F := F) x0 := by
  refine ⟨?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v81, h_main_v86, h_main_v91, h_main_v93, h_main_c_28]) <;> (try rfl))

set_option maxRecDepth 8192 in
set_option maxHeartbeats 2000000 in
/-- After operations 137 … 137, every value still to be read is its stage's. -/
theorem chunk8 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v97 : W (Proc.devRef .tc main_v97) = val_main_v97 (F := F) x0)
    (h_main_v98 : W (Proc.devRef .tc main_v98) = val_main_v98 (F := F) x0)
    (h_main_v99 : W (Proc.devRef .tc main_v99) = val_main_v99 (F := F) x0) :
    after (ops8 (F := F)) W (Proc.devRef .tc main_arg0) = x0
      ∧ after (ops8 (F := F)) W (Proc.devRef .tc main_arg1) = x1
      ∧ after (ops8 (F := F)) W (Proc.devRef .tc main_arg2) = x2
      ∧ after (ops8 (F := F)) W (Proc.devRef .tc main_arg3) = x3
      ∧ after (ops8 (F := F)) W (Proc.devRef .tc main_arg4) = x4
      ∧ after (ops8 (F := F)) W (Proc.devRef .tc main_v8) = val_main_v8 (F := F) x0
      ∧ after (ops8 (F := F)) W (Proc.devRef .tc main_v10) = val_main_v10 (F := F) x0
      ∧ after (ops8 (F := F)) W (Proc.devRef .tc main_v12) = val_main_v12 (F := F) x0
      ∧ after (ops8 (F := F)) W (Proc.devRef .tc main_v14) = val_main_v14 (F := F) x0
      ∧ after (ops8 (F := F)) W (Proc.devRef .tc main_v16) = val_main_v16 (F := F) x0
      ∧ after (ops8 (F := F)) W (Proc.devRef .tc main_v18) = val_main_v18 (F := F) x0
      ∧ after (ops8 (F := F)) W (Proc.devRef .tc main_v75) = val_main_v75 (F := F) x0 x3
      ∧ after (ops8 (F := F)) W (Proc.devRef .tc main_v100) = val_main_v100 (F := F) x0 := by
  refine ⟨?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp only [after_cons, after_nil]
    rw [nary_result]
    show concatenate S2000000x3 1 [⟨S2000000x1, W (Proc.devRef .tc main_v97)⟩, ⟨S2000000x1, W (Proc.devRef .tc main_v98)⟩,
      ⟨S2000000x1, W (Proc.devRef .tc main_v99)⟩] concatenates_S2000000x1_S2000000x1_S2000000x1_S2000000x3_d1 = _
    rw [h_main_v97, h_main_v98, h_main_v99]
    rfl

end Cert.ReferenceIdeal.RunH
-- ==== Proof.RefRunChunksB.lean ====
import proofs.«152542_j63075889709151_1_alg».proof.Proof.RefRunOps

/-!
# The reference's run: the stages after each piece (second part)

After each piece of the operation list, every array written so far that a later operation still reads holds its
stage: the operation's function applied to the stages of its operands.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 2000000 in
/-- After operations 138 … 167, every value still to be read is its stage's. -/
theorem chunk9 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v100 : W (Proc.devRef .tc main_v100) = val_main_v100 (F := F) x0) :
    after (ops9 (F := F)) W (Proc.devRef .tc main_arg0) = x0
      ∧ after (ops9 (F := F)) W (Proc.devRef .tc main_arg1) = x1
      ∧ after (ops9 (F := F)) W (Proc.devRef .tc main_arg2) = x2
      ∧ after (ops9 (F := F)) W (Proc.devRef .tc main_arg3) = x3
      ∧ after (ops9 (F := F)) W (Proc.devRef .tc main_arg4) = x4
      ∧ after (ops9 (F := F)) W (Proc.devRef .tc main_v8) = val_main_v8 (F := F) x0
      ∧ after (ops9 (F := F)) W (Proc.devRef .tc main_v10) = val_main_v10 (F := F) x0
      ∧ after (ops9 (F := F)) W (Proc.devRef .tc main_v12) = val_main_v12 (F := F) x0
      ∧ after (ops9 (F := F)) W (Proc.devRef .tc main_v14) = val_main_v14 (F := F) x0
      ∧ after (ops9 (F := F)) W (Proc.devRef .tc main_v16) = val_main_v16 (F := F) x0
      ∧ after (ops9 (F := F)) W (Proc.devRef .tc main_v18) = val_main_v18 (F := F) x0
      ∧ after (ops9 (F := F)) W (Proc.devRef .tc main_v75) = val_main_v75 (F := F) x0 x3
      ∧ after (ops9 (F := F)) W (Proc.devRef .tc main_v104) = val_main_v104 (F := F) x0 x3
      ∧ after (ops9 (F := F)) W (Proc.devRef .tc main_v110) = val_main_v110 (F := F) x0
      ∧ after (ops9 (F := F)) W (Proc.devRef .tc main_v115) = val_main_v115 (F := F) x0
      ∧ after (ops9 (F := F)) W (Proc.devRef .tc main_v120) = val_main_v120 (F := F) x0
      ∧ after (ops9 (F := F)) W (Proc.devRef .tc main_v121) = val_main_v121 (F := F) := by
  refine ⟨?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v100]) <;> (try rfl))

set_option maxRecDepth 8192 in
set_option maxHeartbeats 2000000 in
/-- After operations 168 … 175, every value still to be read is its stage's. -/
theorem chunk10 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v104 : W (Proc.devRef .tc main_v104) = val_main_v104 (F := F) x0 x3)
    (h_main_v110 : W (Proc.devRef .tc main_v110) = val_main_v110 (F := F) x0)
    (h_main_v115 : W (Proc.devRef .tc main_v115) = val_main_v115 (F := F) x0)
    (h_main_v120 : W (Proc.devRef .tc main_v120) = val_main_v120 (F := F) x0)
    (h_main_v121 : W (Proc.devRef .tc main_v121) = val_main_v121 (F := F)) :
    after (ops10 (F := F)) W (Proc.devRef .tc main_arg0) = x0
      ∧ after (ops10 (F := F)) W (Proc.devRef .tc main_arg1) = x1
      ∧ after (ops10 (F := F)) W (Proc.devRef .tc main_arg2) = x2
      ∧ after (ops10 (F := F)) W (Proc.devRef .tc main_arg3) = x3
      ∧ after (ops10 (F := F)) W (Proc.devRef .tc main_arg4) = x4
      ∧ after (ops10 (F := F)) W (Proc.devRef .tc main_v8) = val_main_v8 (F := F) x0
      ∧ after (ops10 (F := F)) W (Proc.devRef .tc main_v10) = val_main_v10 (F := F) x0
      ∧ after (ops10 (F := F)) W (Proc.devRef .tc main_v12) = val_main_v12 (F := F) x0
      ∧ after (ops10 (F := F)) W (Proc.devRef .tc main_v14) = val_main_v14 (F := F) x0
      ∧ after (ops10 (F := F)) W (Proc.devRef .tc main_v16) = val_main_v16 (F := F) x0
      ∧ after (ops10 (F := F)) W (Proc.devRef .tc main_v18) = val_main_v18 (F := F) x0
      ∧ after (ops10 (F := F)) W (Proc.devRef .tc main_v75) = val_main_v75 (F := F) x0 x3
      ∧ after (ops10 (F := F)) W (Proc.devRef .tc main_v104) = val_main_v104 (F := F) x0 x3
      ∧ after (ops10 (F := F)) W (Proc.devRef .tc main_v126) = val_main_v126 (F := F) x0
      ∧ after (ops10 (F := F)) W (Proc.devRef .tc main_v127) = val_main_v127 (F := F) x0
      ∧ after (ops10 (F := F)) W (Proc.devRef .tc main_v128) = val_main_v128 (F := F) x0 := by
  refine ⟨?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v104, h_main_v110, h_main_v115, h_main_v120, h_main_v121]) <;> (try rfl))

set_option maxRecDepth 8192 in
set_option maxHeartbeats 2000000 in
/-- After operations 176 … 176, every value still to be read is its stage's. -/
theorem chunk11 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v104 : W (Proc.devRef .tc main_v104) = val_main_v104 (F := F) x0 x3)
    (h_main_v126 : W (Proc.devRef .tc main_v126) = val_main_v126 (F := F) x0)
    (h_main_v127 : W (Proc.devRef .tc main_v127) = val_main_v127 (F := F) x0)
    (h_main_v128 : W (Proc.devRef .tc main_v128) = val_main_v128 (F := F) x0) :
    after (ops11 (F := F)) W (Proc.devRef .tc main_arg0) = x0
      ∧ after (ops11 (F := F)) W (Proc.devRef .tc main_arg1) = x1
      ∧ after (ops11 (F := F)) W (Proc.devRef .tc main_arg2) = x2
      ∧ after (ops11 (F := F)) W (Proc.devRef .tc main_arg3) = x3
      ∧ after (ops11 (F := F)) W (Proc.devRef .tc main_arg4) = x4
      ∧ after (ops11 (F := F)) W (Proc.devRef .tc main_v8) = val_main_v8 (F := F) x0
      ∧ after (ops11 (F := F)) W (Proc.devRef .tc main_v10) = val_main_v10 (F := F) x0
      ∧ after (ops11 (F := F)) W (Proc.devRef .tc main_v12) = val_main_v12 (F := F) x0
      ∧ after (ops11 (F := F)) W (Proc.devRef .tc main_v14) = val_main_v14 (F := F) x0
      ∧ after (ops11 (F := F)) W (Proc.devRef .tc main_v16) = val_main_v16 (F := F) x0
      ∧ after (ops11 (F := F)) W (Proc.devRef .tc main_v18) = val_main_v18 (F := F) x0
      ∧ after (ops11 (F := F)) W (Proc.devRef .tc main_v75) = val_main_v75 (F := F) x0 x3
      ∧ after (ops11 (F := F)) W (Proc.devRef .tc main_v104) = val_main_v104 (F := F) x0 x3
      ∧ after (ops11 (F := F)) W (Proc.devRef .tc main_v129) = val_main_v129 (F := F) x0 := by
  refine ⟨?_, ?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp (disch := decide) only [after_cons, after_nil, nary_result_ne']
    exact h_main_v104
  · simp only [after_cons, after_nil]
    rw [nary_result]
    show concatenate S2000000x3 1 [⟨S2000000x1, W (Proc.devRef .tc main_v126)⟩, ⟨S2000000x1, W (Proc.devRef .tc main_v127)⟩,
      ⟨S2000000x1, W (Proc.devRef .tc main_v128)⟩] concatenates_S2000000x1_S2000000x1_S2000000x1_S2000000x3_d1 = _
    rw [h_main_v126, h_main_v127, h_main_v128]
    rfl

set_option maxRecDepth 8192 in
set_option maxHeartbeats 2000000 in
/-- After operations 177 … 206, every value still to be read is its stage's. -/
theorem chunk12 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v104 : W (Proc.devRef .tc main_v104) = val_main_v104 (F := F) x0 x3)
    (h_main_v129 : W (Proc.devRef .tc main_v129) = val_main_v129 (F := F) x0) :
    after (ops12 (F := F)) W (Proc.devRef .tc main_arg0) = x0
      ∧ after (ops12 (F := F)) W (Proc.devRef .tc main_arg1) = x1
      ∧ after (ops12 (F := F)) W (Proc.devRef .tc main_arg2) = x2
      ∧ after (ops12 (F := F)) W (Proc.devRef .tc main_arg3) = x3
      ∧ after (ops12 (F := F)) W (Proc.devRef .tc main_arg4) = x4
      ∧ after (ops12 (F := F)) W (Proc.devRef .tc main_v8) = val_main_v8 (F := F) x0
      ∧ after (ops12 (F := F)) W (Proc.devRef .tc main_v10) = val_main_v10 (F := F) x0
      ∧ after (ops12 (F := F)) W (Proc.devRef .tc main_v12) = val_main_v12 (F := F) x0
      ∧ after (ops12 (F := F)) W (Proc.devRef .tc main_v14) = val_main_v14 (F := F) x0
      ∧ after (ops12 (F := F)) W (Proc.devRef .tc main_v16) = val_main_v16 (F := F) x0
      ∧ after (ops12 (F := F)) W (Proc.devRef .tc main_v18) = val_main_v18 (F := F) x0
      ∧ after (ops12 (F := F)) W (Proc.devRef .tc main_v75) = val_main_v75 (F := F) x0 x3
      ∧ after (ops12 (F := F)) W (Proc.devRef .tc main_v132) = val_main_v132 (F := F) x0 x3
      ∧ after (ops12 (F := F)) W (Proc.devRef .tc main_v138) = val_main_v138 (F := F) x0
      ∧ after (ops12 (F := F)) W (Proc.devRef .tc main_v143) = val_main_v143 (F := F) x0
      ∧ after (ops12 (F := F)) W (Proc.devRef .tc main_v148) = val_main_v148 (F := F) x0
      ∧ after (ops12 (F := F)) W (Proc.devRef .tc main_v150) = val_main_v150 (F := F) x0
      ∧ after (ops12 (F := F)) W (Proc.devRef .tc main_c_47) = val_main_c_47 (F := F) := by
  refine ⟨?_, ?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v104, h_main_v129]) <;> (try rfl))

set_option maxRecDepth 8192 in
set_option maxHeartbeats 2000000 in
/-- After operations 207 … 212, every value still to be read is its stage's. -/
theorem chunk13 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v138 : W (Proc.devRef .tc main_v138) = val_main_v138 (F := F) x0)
    (h_main_v143 : W (Proc.devRef .tc main_v143) = val_main_v143 (F := F) x0)
    (h_main_v148 : W (Proc.devRef .tc main_v148) = val_main_v148 (F := F) x0)
    (h_main_v150 : W (Proc.devRef .tc main_v150) = val_main_v150 (F := F) x0)
    (h_main_c_47 : W (Proc.devRef .tc main_c_47) = val_main_c_47 (F := F)) :
    after (ops13 (F := F)) W (Proc.devRef .tc main_arg0) = x0
      ∧ after (ops13 (F := F)) W (Proc.devRef .tc main_arg1) = x1
      ∧ after (ops13 (F := F)) W (Proc.devRef .tc main_arg2) = x2
      ∧ after (ops13 (F := F)) W (Proc.devRef .tc main_arg3) = x3
      ∧ after (ops13 (F := F)) W (Proc.devRef .tc main_arg4) = x4
      ∧ after (ops13 (F := F)) W (Proc.devRef .tc main_v8) = val_main_v8 (F := F) x0
      ∧ after (ops13 (F := F)) W (Proc.devRef .tc main_v10) = val_main_v10 (F := F) x0
      ∧ after (ops13 (F := F)) W (Proc.devRef .tc main_v12) = val_main_v12 (F := F) x0
      ∧ after (ops13 (F := F)) W (Proc.devRef .tc main_v14) = val_main_v14 (F := F) x0
      ∧ after (ops13 (F := F)) W (Proc.devRef .tc main_v16) = val_main_v16 (F := F) x0
      ∧ after (ops13 (F := F)) W (Proc.devRef .tc main_v18) = val_main_v18 (F := F) x0
      ∧ after (ops13 (F := F)) W (Proc.devRef .tc main_v75) = val_main_v75 (F := F) x0 x3
      ∧ after (ops13 (F := F)) W (Proc.devRef .tc main_v132) = val_main_v132 (F := F) x0 x3
      ∧ after (ops13 (F := F)) W (Proc.devRef .tc main_v154) = val_main_v154 (F := F) x0
      ∧ after (ops13 (F := F)) W (Proc.devRef .tc main_v155) = val_main_v155 (F := F) x0
      ∧ after (ops13 (F := F)) W (Proc.devRef .tc main_v156) = val_main_v156 (F := F) x0 := by
  refine ⟨?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v138, h_main_v143, h_main_v148, h_main_v150, h_main_c_47]) <;> (try rfl))

set_option maxRecDepth 8192 in
set_option maxHeartbeats 2000000 in
/-- After operations 213 … 213, every value still to be read is its stage's. -/
theorem chunk14 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v154 : W (Proc.devRef .tc main_v154) = val_main_v154 (F := F) x0)
    (h_main_v155 : W (Proc.devRef .tc main_v155) = val_main_v155 (F := F) x0)
    (h_main_v156 : W (Proc.devRef .tc main_v156) = val_main_v156 (F := F) x0) :
    after (ops14 (F := F)) W (Proc.devRef .tc main_arg0) = x0
      ∧ after (ops14 (F := F)) W (Proc.devRef .tc main_arg1) = x1
      ∧ after (ops14 (F := F)) W (Proc.devRef .tc main_arg2) = x2
      ∧ after (ops14 (F := F)) W (Proc.devRef .tc main_arg3) = x3
      ∧ after (ops14 (F := F)) W (Proc.devRef .tc main_arg4) = x4
      ∧ after (ops14 (F := F)) W (Proc.devRef .tc main_v8) = val_main_v8 (F := F) x0
      ∧ after (ops14 (F := F)) W (Proc.devRef .tc main_v10) = val_main_v10 (F := F) x0
      ∧ after (ops14 (F := F)) W (Proc.devRef .tc main_v12) = val_main_v12 (F := F) x0
      ∧ after (ops14 (F := F)) W (Proc.devRef .tc main_v14) = val_main_v14 (F := F) x0
      ∧ after (ops14 (F := F)) W (Proc.devRef .tc main_v16) = val_main_v16 (F := F) x0
      ∧ after (ops14 (F := F)) W (Proc.devRef .tc main_v18) = val_main_v18 (F := F) x0
      ∧ after (ops14 (F := F)) W (Proc.devRef .tc main_v75) = val_main_v75 (F := F) x0 x3
      ∧ after (ops14 (F := F)) W (Proc.devRef .tc main_v132) = val_main_v132 (F := F) x0 x3
      ∧ after (ops14 (F := F)) W (Proc.devRef .tc main_v157) = val_main_v157 (F := F) x0 := by
  refine ⟨?_, ?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp (disch := decide) only [after_cons, after_nil, nary_result_ne']
    exact h_main_v132
  · simp only [after_cons, after_nil]
    rw [nary_result]
    show concatenate S2000000x3 1 [⟨S2000000x1, W (Proc.devRef .tc main_v154)⟩, ⟨S2000000x1, W (Proc.devRef .tc main_v155)⟩,
      ⟨S2000000x1, W (Proc.devRef .tc main_v156)⟩] concatenates_S2000000x1_S2000000x1_S2000000x1_S2000000x3_d1 = _
    rw [h_main_v154, h_main_v155, h_main_v156]
    rfl

set_option maxRecDepth 8192 in
set_option maxHeartbeats 2000000 in
/-- After operations 214 … 243, every value still to be read is its stage's. -/
theorem chunk15 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v157 : W (Proc.devRef .tc main_v157) = val_main_v157 (F := F) x0) :
    after (ops15 (F := F)) W (Proc.devRef .tc main_arg0) = x0
      ∧ after (ops15 (F := F)) W (Proc.devRef .tc main_arg1) = x1
      ∧ after (ops15 (F := F)) W (Proc.devRef .tc main_arg2) = x2
      ∧ after (ops15 (F := F)) W (Proc.devRef .tc main_arg3) = x3
      ∧ after (ops15 (F := F)) W (Proc.devRef .tc main_arg4) = x4
      ∧ after (ops15 (F := F)) W (Proc.devRef .tc main_v8) = val_main_v8 (F := F) x0
      ∧ after (ops15 (F := F)) W (Proc.devRef .tc main_v10) = val_main_v10 (F := F) x0
      ∧ after (ops15 (F := F)) W (Proc.devRef .tc main_v12) = val_main_v12 (F := F) x0
      ∧ after (ops15 (F := F)) W (Proc.devRef .tc main_v14) = val_main_v14 (F := F) x0
      ∧ after (ops15 (F := F)) W (Proc.devRef .tc main_v16) = val_main_v16 (F := F) x0
      ∧ after (ops15 (F := F)) W (Proc.devRef .tc main_v18) = val_main_v18 (F := F) x0
      ∧ after (ops15 (F := F)) W (Proc.devRef .tc main_v75) = val_main_v75 (F := F) x0 x3
      ∧ after (ops15 (F := F)) W (Proc.devRef .tc main_v132) = val_main_v132 (F := F) x0 x3
      ∧ after (ops15 (F := F)) W (Proc.devRef .tc main_v161) = val_main_v161 (F := F) x0 x3
      ∧ after (ops15 (F := F)) W (Proc.devRef .tc main_v167) = val_main_v167 (F := F) x0
      ∧ after (ops15 (F := F)) W (Proc.devRef .tc main_v172) = val_main_v172 (F := F) x0
      ∧ after (ops15 (F := F)) W (Proc.devRef .tc main_v177) = val_main_v177 (F := F) x0
      ∧ after (ops15 (F := F)) W (Proc.devRef .tc main_v178) = val_main_v178 (F := F) := by
  refine ⟨?_, ?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v157]) <;> (try rfl))

set_option maxRecDepth 8192 in
set_option maxHeartbeats 2000000 in
/-- After operations 244 … 251, every value still to be read is its stage's. -/
theorem chunk16 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v161 : W (Proc.devRef .tc main_v161) = val_main_v161 (F := F) x0 x3)
    (h_main_v167 : W (Proc.devRef .tc main_v167) = val_main_v167 (F := F) x0)
    (h_main_v172 : W (Proc.devRef .tc main_v172) = val_main_v172 (F := F) x0)
    (h_main_v177 : W (Proc.devRef .tc main_v177) = val_main_v177 (F := F) x0)
    (h_main_v178 : W (Proc.devRef .tc main_v178) = val_main_v178 (F := F)) :
    after (ops16 (F := F)) W (Proc.devRef .tc main_arg0) = x0
      ∧ after (ops16 (F := F)) W (Proc.devRef .tc main_arg1) = x1
      ∧ after (ops16 (F := F)) W (Proc.devRef .tc main_arg2) = x2
      ∧ after (ops16 (F := F)) W (Proc.devRef .tc main_arg3) = x3
      ∧ after (ops16 (F := F)) W (Proc.devRef .tc main_arg4) = x4
      ∧ after (ops16 (F := F)) W (Proc.devRef .tc main_v8) = val_main_v8 (F := F) x0
      ∧ after (ops16 (F := F)) W (Proc.devRef .tc main_v10) = val_main_v10 (F := F) x0
      ∧ after (ops16 (F := F)) W (Proc.devRef .tc main_v12) = val_main_v12 (F := F) x0
      ∧ after (ops16 (F := F)) W (Proc.devRef .tc main_v14) = val_main_v14 (F := F) x0
      ∧ after (ops16 (F := F)) W (Proc.devRef .tc main_v16) = val_main_v16 (F := F) x0
      ∧ after (ops16 (F := F)) W (Proc.devRef .tc main_v18) = val_main_v18 (F := F) x0
      ∧ after (ops16 (F := F)) W (Proc.devRef .tc main_v75) = val_main_v75 (F := F) x0 x3
      ∧ after (ops16 (F := F)) W (Proc.devRef .tc main_v132) = val_main_v132 (F := F) x0 x3
      ∧ after (ops16 (F := F)) W (Proc.devRef .tc main_v161) = val_main_v161 (F := F) x0 x3
      ∧ after (ops16 (F := F)) W (Proc.devRef .tc main_v183) = val_main_v183 (F := F) x0
      ∧ after (ops16 (F := F)) W (Proc.devRef .tc main_v184) = val_main_v184 (F := F) x0
      ∧ after (ops16 (F := F)) W (Proc.devRef .tc main_v185) = val_main_v185 (F := F) x0 := by
  refine ⟨?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v161, h_main_v167, h_main_v172, h_main_v177, h_main_v178]) <;> (try rfl))

set_option maxRecDepth 8192 in
set_option maxHeartbeats 2000000 in
/-- After operations 252 … 252, every value still to be read is its stage's. -/
theorem chunk17 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v161 : W (Proc.devRef .tc main_v161) = val_main_v161 (F := F) x0 x3)
    (h_main_v183 : W (Proc.devRef .tc main_v183) = val_main_v183 (F := F) x0)
    (h_main_v184 : W (Proc.devRef .tc main_v184) = val_main_v184 (F := F) x0)
    (h_main_v185 : W (Proc.devRef .tc main_v185) = val_main_v185 (F := F) x0) :
    after (ops17 (F := F)) W (Proc.devRef .tc main_arg0) = x0
      ∧ after (ops17 (F := F)) W (Proc.devRef .tc main_arg1) = x1
      ∧ after (ops17 (F := F)) W (Proc.devRef .tc main_arg2) = x2
      ∧ after (ops17 (F := F)) W (Proc.devRef .tc main_arg3) = x3
      ∧ after (ops17 (F := F)) W (Proc.devRef .tc main_arg4) = x4
      ∧ after (ops17 (F := F)) W (Proc.devRef .tc main_v8) = val_main_v8 (F := F) x0
      ∧ after (ops17 (F := F)) W (Proc.devRef .tc main_v10) = val_main_v10 (F := F) x0
      ∧ after (ops17 (F := F)) W (Proc.devRef .tc main_v12) = val_main_v12 (F := F) x0
      ∧ after (ops17 (F := F)) W (Proc.devRef .tc main_v14) = val_main_v14 (F := F) x0
      ∧ after (ops17 (F := F)) W (Proc.devRef .tc main_v16) = val_main_v16 (F := F) x0
      ∧ after (ops17 (F := F)) W (Proc.devRef .tc main_v18) = val_main_v18 (F := F) x0
      ∧ after (ops17 (F := F)) W (Proc.devRef .tc main_v75) = val_main_v75 (F := F) x0 x3
      ∧ after (ops17 (F := F)) W (Proc.devRef .tc main_v132) = val_main_v132 (F := F) x0 x3
      ∧ after (ops17 (F := F)) W (Proc.devRef .tc main_v161) = val_main_v161 (F := F) x0 x3
      ∧ after (ops17 (F := F)) W (Proc.devRef .tc main_v186) = val_main_v186 (F := F) x0 := by
  refine ⟨?_, ?_, ?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp (disch := decide) only [after_cons, after_nil, nary_result_ne']
    exact h_main_v132
  · simp (disch := decide) only [after_cons, after_nil, nary_result_ne']
    exact h_main_v161
  · simp only [after_cons, after_nil]
    rw [nary_result]
    show concatenate S2000000x3 1 [⟨S2000000x1, W (Proc.devRef .tc main_v183)⟩, ⟨S2000000x1, W (Proc.devRef .tc main_v184)⟩,
      ⟨S2000000x1, W (Proc.devRef .tc main_v185)⟩] concatenates_S2000000x1_S2000000x1_S2000000x1_S2000000x3_d1 = _
    rw [h_main_v183, h_main_v184, h_main_v185]
    rfl

end Cert.ReferenceIdeal.RunH
-- ==== Proof.RefRunChunksC.lean ====
import proofs.«152542_j63075889709151_1_alg».proof.Proof.RefRunOps

/-!
# The reference's run: the stages after each piece (third part)

After each piece of the operation list, every array written so far that a later operation still reads holds its
stage: the operation's function applied to the stages of its operands.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 2000000 in
/-- After operations 253 … 282, every value still to be read is its stage's. -/
theorem chunk18 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v161 : W (Proc.devRef .tc main_v161) = val_main_v161 (F := F) x0 x3)
    (h_main_v186 : W (Proc.devRef .tc main_v186) = val_main_v186 (F := F) x0) :
    after (ops18 (F := F)) W (Proc.devRef .tc main_arg0) = x0
      ∧ after (ops18 (F := F)) W (Proc.devRef .tc main_arg1) = x1
      ∧ after (ops18 (F := F)) W (Proc.devRef .tc main_arg2) = x2
      ∧ after (ops18 (F := F)) W (Proc.devRef .tc main_arg3) = x3
      ∧ after (ops18 (F := F)) W (Proc.devRef .tc main_arg4) = x4
      ∧ after (ops18 (F := F)) W (Proc.devRef .tc main_v8) = val_main_v8 (F := F) x0
      ∧ after (ops18 (F := F)) W (Proc.devRef .tc main_v10) = val_main_v10 (F := F) x0
      ∧ after (ops18 (F := F)) W (Proc.devRef .tc main_v12) = val_main_v12 (F := F) x0
      ∧ after (ops18 (F := F)) W (Proc.devRef .tc main_v14) = val_main_v14 (F := F) x0
      ∧ after (ops18 (F := F)) W (Proc.devRef .tc main_v16) = val_main_v16 (F := F) x0
      ∧ after (ops18 (F := F)) W (Proc.devRef .tc main_v18) = val_main_v18 (F := F) x0
      ∧ after (ops18 (F := F)) W (Proc.devRef .tc main_v75) = val_main_v75 (F := F) x0 x3
      ∧ after (ops18 (F := F)) W (Proc.devRef .tc main_v132) = val_main_v132 (F := F) x0 x3
      ∧ after (ops18 (F := F)) W (Proc.devRef .tc main_v189) = val_main_v189 (F := F) x0 x3
      ∧ after (ops18 (F := F)) W (Proc.devRef .tc main_v195) = val_main_v195 (F := F) x0
      ∧ after (ops18 (F := F)) W (Proc.devRef .tc main_v200) = val_main_v200 (F := F) x0
      ∧ after (ops18 (F := F)) W (Proc.devRef .tc main_v205) = val_main_v205 (F := F) x0
      ∧ after (ops18 (F := F)) W (Proc.devRef .tc main_v207) = val_main_v207 (F := F) x0
      ∧ after (ops18 (F := F)) W (Proc.devRef .tc main_c_66) = val_main_c_66 (F := F) := by
  refine ⟨?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v161, h_main_v186]) <;> (try rfl))

set_option maxRecDepth 8192 in
set_option maxHeartbeats 2000000 in
/-- After operations 283 … 288, every value still to be read is its stage's. -/
theorem chunk19 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v195 : W (Proc.devRef .tc main_v195) = val_main_v195 (F := F) x0)
    (h_main_v200 : W (Proc.devRef .tc main_v200) = val_main_v200 (F := F) x0)
    (h_main_v205 : W (Proc.devRef .tc main_v205) = val_main_v205 (F := F) x0)
    (h_main_v207 : W (Proc.devRef .tc main_v207) = val_main_v207 (F := F) x0)
    (h_main_c_66 : W (Proc.devRef .tc main_c_66) = val_main_c_66 (F := F)) :
    after (ops19 (F := F)) W (Proc.devRef .tc main_arg0) = x0
      ∧ after (ops19 (F := F)) W (Proc.devRef .tc main_arg1) = x1
      ∧ after (ops19 (F := F)) W (Proc.devRef .tc main_arg2) = x2
      ∧ after (ops19 (F := F)) W (Proc.devRef .tc main_arg3) = x3
      ∧ after (ops19 (F := F)) W (Proc.devRef .tc main_arg4) = x4
      ∧ after (ops19 (F := F)) W (Proc.devRef .tc main_v8) = val_main_v8 (F := F) x0
      ∧ after (ops19 (F := F)) W (Proc.devRef .tc main_v10) = val_main_v10 (F := F) x0
      ∧ after (ops19 (F := F)) W (Proc.devRef .tc main_v12) = val_main_v12 (F := F) x0
      ∧ after (ops19 (F := F)) W (Proc.devRef .tc main_v14) = val_main_v14 (F := F) x0
      ∧ after (ops19 (F := F)) W (Proc.devRef .tc main_v16) = val_main_v16 (F := F) x0
      ∧ after (ops19 (F := F)) W (Proc.devRef .tc main_v18) = val_main_v18 (F := F) x0
      ∧ after (ops19 (F := F)) W (Proc.devRef .tc main_v75) = val_main_v75 (F := F) x0 x3
      ∧ after (ops19 (F := F)) W (Proc.devRef .tc main_v132) = val_main_v132 (F := F) x0 x3
      ∧ after (ops19 (F := F)) W (Proc.devRef .tc main_v189) = val_main_v189 (F := F) x0 x3
      ∧ after (ops19 (F := F)) W (Proc.devRef .tc main_v211) = val_main_v211 (F := F) x0
      ∧ after (ops19 (F := F)) W (Proc.devRef .tc main_v212) = val_main_v212 (F := F) x0
      ∧ after (ops19 (F := F)) W (Proc.devRef .tc main_v213) = val_main_v213 (F := F) x0 := by
  refine ⟨?_, ?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v189, h_main_v195, h_main_v200, h_main_v205, h_main_v207, h_main_c_66]) <;> (try rfl))

set_option maxRecDepth 8192 in
set_option maxHeartbeats 2000000 in
/-- After operations 289 … 289, every value still to be read is its stage's. -/
theorem chunk20 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v211 : W (Proc.devRef .tc main_v211) = val_main_v211 (F := F) x0)
    (h_main_v212 : W (Proc.devRef .tc main_v212) = val_main_v212 (F := F) x0)
    (h_main_v213 : W (Proc.devRef .tc main_v213) = val_main_v213 (F := F) x0) :
    after (ops20 (F := F)) W (Proc.devRef .tc main_arg0) = x0
      ∧ after (ops20 (F := F)) W (Proc.devRef .tc main_arg1) = x1
      ∧ after (ops20 (F := F)) W (Proc.devRef .tc main_arg2) = x2
      ∧ after (ops20 (F := F)) W (Proc.devRef .tc main_arg3) = x3
      ∧ after (ops20 (F := F)) W (Proc.devRef .tc main_arg4) = x4
      ∧ after (ops20 (F := F)) W (Proc.devRef .tc main_v8) = val_main_v8 (F := F) x0
      ∧ after (ops20 (F := F)) W (Proc.devRef .tc main_v10) = val_main_v10 (F := F) x0
      ∧ after (ops20 (F := F)) W (Proc.devRef .tc main_v12) = val_main_v12 (F := F) x0
      ∧ after (ops20 (F := F)) W (Proc.devRef .tc main_v14) = val_main_v14 (F := F) x0
      ∧ after (ops20 (F := F)) W (Proc.devRef .tc main_v16) = val_main_v16 (F := F) x0
      ∧ after (ops20 (F := F)) W (Proc.devRef .tc main_v18) = val_main_v18 (F := F) x0
      ∧ after (ops20 (F := F)) W (Proc.devRef .tc main_v75) = val_main_v75 (F := F) x0 x3
      ∧ after (ops20 (F := F)) W (Proc.devRef .tc main_v132) = val_main_v132 (F := F) x0 x3
      ∧ after (ops20 (F := F)) W (Proc.devRef .tc main_v189) = val_main_v189 (F := F) x0 x3
      ∧ after (ops20 (F := F)) W (Proc.devRef .tc main_v214) = val_main_v214 (F := F) x0 := by
  refine ⟨?_, ?_, ?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v8
  · simp (disch := decide) only [after_cons, after_nil, nary_result_ne']
    exact h_main_v10
  · simp (disch := decide) only [after_cons, after_nil, nary_result_ne']
    exact h_main_v12
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp (disch := decide) only [after_cons, after_nil, nary_result_ne']
    exact h_main_v132
  · simp (disch := decide) only [after_cons, after_nil, nary_result_ne']
    exact h_main_v189
  · simp only [after_cons, after_nil]
    rw [nary_result]
    show concatenate S2000000x3 1 [⟨S2000000x1, W (Proc.devRef .tc main_v211)⟩, ⟨S2000000x1, W (Proc.devRef .tc main_v212)⟩,
      ⟨S2000000x1, W (Proc.devRef .tc main_v213)⟩] concatenates_S2000000x1_S2000000x1_S2000000x1_S2000000x3_d1 = _
    rw [h_main_v211, h_main_v212, h_main_v213]
    rfl

set_option maxRecDepth 8192 in
set_option maxHeartbeats 2000000 in
/-- After operations 290 … 319, every value still to be read is its stage's. -/
theorem chunk21 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v8 : W (Proc.devRef .tc main_v8) = val_main_v8 (F := F) x0)
    (h_main_v10 : W (Proc.devRef .tc main_v10) = val_main_v10 (F := F) x0)
    (h_main_v12 : W (Proc.devRef .tc main_v12) = val_main_v12 (F := F) x0)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v214 : W (Proc.devRef .tc main_v214) = val_main_v214 (F := F) x0) :
    after (ops21 (F := F)) W (Proc.devRef .tc main_arg0) = x0
      ∧ after (ops21 (F := F)) W (Proc.devRef .tc main_arg1) = x1
      ∧ after (ops21 (F := F)) W (Proc.devRef .tc main_arg2) = x2
      ∧ after (ops21 (F := F)) W (Proc.devRef .tc main_arg3) = x3
      ∧ after (ops21 (F := F)) W (Proc.devRef .tc main_arg4) = x4
      ∧ after (ops21 (F := F)) W (Proc.devRef .tc main_v14) = val_main_v14 (F := F) x0
      ∧ after (ops21 (F := F)) W (Proc.devRef .tc main_v16) = val_main_v16 (F := F) x0
      ∧ after (ops21 (F := F)) W (Proc.devRef .tc main_v18) = val_main_v18 (F := F) x0
      ∧ after (ops21 (F := F)) W (Proc.devRef .tc main_v75) = val_main_v75 (F := F) x0 x3
      ∧ after (ops21 (F := F)) W (Proc.devRef .tc main_v132) = val_main_v132 (F := F) x0 x3
      ∧ after (ops21 (F := F)) W (Proc.devRef .tc main_v189) = val_main_v189 (F := F) x0 x3
      ∧ after (ops21 (F := F)) W (Proc.devRef .tc main_v218) = val_main_v218 (F := F) x0 x3
      ∧ after (ops21 (F := F)) W (Proc.devRef .tc main_v224) = val_main_v224 (F := F) x0
      ∧ after (ops21 (F := F)) W (Proc.devRef .tc main_v229) = val_main_v229 (F := F) x0
      ∧ after (ops21 (F := F)) W (Proc.devRef .tc main_v234) = val_main_v234 (F := F) x0
      ∧ after (ops21 (F := F)) W (Proc.devRef .tc main_v235) = val_main_v235 (F := F) := by
  refine ⟨?_, ?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v8, h_main_v10, h_main_v12, h_main_v14, h_main_v16, h_main_v18, h_main_v75, h_main_v132, h_main_v189, h_main_v214]) <;> (try rfl))

set_option maxRecDepth 8192 in
set_option maxHeartbeats 2000000 in
/-- After operations 320 … 327, every value still to be read is its stage's. -/
theorem chunk22 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v218 : W (Proc.devRef .tc main_v218) = val_main_v218 (F := F) x0 x3)
    (h_main_v224 : W (Proc.devRef .tc main_v224) = val_main_v224 (F := F) x0)
    (h_main_v229 : W (Proc.devRef .tc main_v229) = val_main_v229 (F := F) x0)
    (h_main_v234 : W (Proc.devRef .tc main_v234) = val_main_v234 (F := F) x0)
    (h_main_v235 : W (Proc.devRef .tc main_v235) = val_main_v235 (F := F)) :
    after (ops22 (F := F)) W (Proc.devRef .tc main_arg0) = x0
      ∧ after (ops22 (F := F)) W (Proc.devRef .tc main_arg1) = x1
      ∧ after (ops22 (F := F)) W (Proc.devRef .tc main_arg2) = x2
      ∧ after (ops22 (F := F)) W (Proc.devRef .tc main_arg3) = x3
      ∧ after (ops22 (F := F)) W (Proc.devRef .tc main_arg4) = x4
      ∧ after (ops22 (F := F)) W (Proc.devRef .tc main_v14) = val_main_v14 (F := F) x0
      ∧ after (ops22 (F := F)) W (Proc.devRef .tc main_v16) = val_main_v16 (F := F) x0
      ∧ after (ops22 (F := F)) W (Proc.devRef .tc main_v18) = val_main_v18 (F := F) x0
      ∧ after (ops22 (F := F)) W (Proc.devRef .tc main_v75) = val_main_v75 (F := F) x0 x3
      ∧ after (ops22 (F := F)) W (Proc.devRef .tc main_v132) = val_main_v132 (F := F) x0 x3
      ∧ after (ops22 (F := F)) W (Proc.devRef .tc main_v189) = val_main_v189 (F := F) x0 x3
      ∧ after (ops22 (F := F)) W (Proc.devRef .tc main_v218) = val_main_v218 (F := F) x0 x3
      ∧ after (ops22 (F := F)) W (Proc.devRef .tc main_v240) = val_main_v240 (F := F) x0
      ∧ after (ops22 (F := F)) W (Proc.devRef .tc main_v241) = val_main_v241 (F := F) x0
      ∧ after (ops22 (F := F)) W (Proc.devRef .tc main_v242) = val_main_v242 (F := F) x0 := by
  refine ⟨?_, ?_, ?_, ?_, ?_, ?_, ?_, ?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v14, h_main_v16, h_main_v18, h_main_v75, h_main_v132, h_main_v189, h_main_v218, h_main_v224, h_main_v229, h_main_v234, h_main_v235]) <;> (try rfl))

set_option maxRecDepth 8192 in
set_option maxHeartbeats 2000000 in
/-- After operations 328 … 328, every value still to be read is its stage's. -/
theorem chunk23 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v218 : W (Proc.devRef .tc main_v218) = val_main_v218 (F := F) x0 x3)
    (h_main_v240 : W (Proc.devRef .tc main_v240) = val_main_v240 (F := F) x0)
    (h_main_v241 : W (Proc.devRef .tc main_v241) = val_main_v241 (F := F) x0)
    (h_main_v242 : W (Proc.devRef .tc main_v242) = val_main_v242 (F := F) x0) :
    after (ops23 (F := F)) W (Proc.devRef .tc main_arg0) = x0
      ∧ after (ops23 (F := F)) W (Proc.devRef .tc main_arg1) = x1
      ∧ after (ops23 (F := F)) W (Proc.devRef .tc main_arg2) = x2
      ∧ after (ops23 (F := F)) W (Proc.devRef .tc main_arg3) = x3
      ∧ after (ops23 (F := F)) W (Proc.devRef .tc main_arg4) = x4
      ∧ after (ops23 (F := F)) W (Proc.devRef .tc main_v14) = val_main_v14 (F := F) x0
      ∧ after (ops23 (F := F)) W (Proc.devRef .tc main_v16) = val_main_v16 (F := F) x0
      ∧ after (ops23 (F := F)) W (Proc.devRef .tc main_v18) = val_main_v18 (F := F) x0
      ∧ after (ops23 (F := F)) W (Proc.devRef .tc main_v75) = val_main_v75 (F := F) x0 x3
      ∧ after (ops23 (F := F)) W (Proc.devRef .tc main_v132) = val_main_v132 (F := F) x0 x3
      ∧ after (ops23 (F := F)) W (Proc.devRef .tc main_v189) = val_main_v189 (F := F) x0 x3
      ∧ after (ops23 (F := F)) W (Proc.devRef .tc main_v218) = val_main_v218 (F := F) x0 x3
      ∧ after (ops23 (F := F)) W (Proc.devRef .tc main_v243) = val_main_v243 (F := F) x0 := by
  refine ⟨?_, ?_, ?_, ?_, ?_, ?_, ?_, ?_, ?_, ?_, ?_, ?_, ?_⟩
  · simp (disch := decide) only [after_cons, after_nil, nary_result_ne']
    exact h_main_arg0
  · simp (disch := decide) only [after_cons, after_nil, nary_result_ne']
    exact h_main_arg1
  · simp (disch := decide) only [after_cons, after_nil, nary_result_ne']
    exact h_main_arg2
  · simp (disch := decide) only [after_cons, after_nil, nary_result_ne']
    exact h_main_arg3
  · simp (disch := decide) only [after_cons, after_nil, nary_result_ne']
    exact h_main_arg4
  · simp (disch := decide) only [after_cons, after_nil, nary_result_ne']
    exact h_main_v14
  · simp (disch := decide) only [after_cons, after_nil, nary_result_ne']
    exact h_main_v16
  · simp (disch := decide) only [after_cons, after_nil, nary_result_ne']
    exact h_main_v18
  · simp (disch := decide) only [after_cons, after_nil, nary_result_ne']
    exact h_main_v75
  · simp (disch := decide) only [after_cons, after_nil, nary_result_ne']
    exact h_main_v132
  · simp (disch := decide) only [after_cons, after_nil, nary_result_ne']
    exact h_main_v189
  · simp (disch := decide) only [after_cons, after_nil, nary_result_ne']
    exact h_main_v218
  · simp only [after_cons, after_nil]
    rw [nary_result]
    show concatenate S2000000x3 1 [⟨S2000000x1, W (Proc.devRef .tc main_v240)⟩, ⟨S2000000x1, W (Proc.devRef .tc main_v241)⟩,
      ⟨S2000000x1, W (Proc.devRef .tc main_v242)⟩] concatenates_S2000000x1_S2000000x1_S2000000x1_S2000000x3_d1 = _
    rw [h_main_v240, h_main_v241, h_main_v242]
    rfl

set_option maxRecDepth 8192 in
set_option maxHeartbeats 2000000 in
/-- After operations 329 … 358, every value still to be read is its stage's. -/
theorem chunk24 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v14 : W (Proc.devRef .tc main_v14) = val_main_v14 (F := F) x0)
    (h_main_v16 : W (Proc.devRef .tc main_v16) = val_main_v16 (F := F) x0)
    (h_main_v18 : W (Proc.devRef .tc main_v18) = val_main_v18 (F := F) x0)
    (h_main_v75 : W (Proc.devRef .tc main_v75) = val_main_v75 (F := F) x0 x3)
    (h_main_v132 : W (Proc.devRef .tc main_v132) = val_main_v132 (F := F) x0 x3)
    (h_main_v189 : W (Proc.devRef .tc main_v189) = val_main_v189 (F := F) x0 x3)
    (h_main_v218 : W (Proc.devRef .tc main_v218) = val_main_v218 (F := F) x0 x3)
    (h_main_v243 : W (Proc.devRef .tc main_v243) = val_main_v243 (F := F) x0) :
    after (ops24 (F := F)) W (Proc.devRef .tc main_arg0) = x0
      ∧ after (ops24 (F := F)) W (Proc.devRef .tc main_arg1) = x1
      ∧ after (ops24 (F := F)) W (Proc.devRef .tc main_arg2) = x2
      ∧ after (ops24 (F := F)) W (Proc.devRef .tc main_arg3) = x3
      ∧ after (ops24 (F := F)) W (Proc.devRef .tc main_arg4) = x4
      ∧ after (ops24 (F := F)) W (Proc.devRef .tc main_v264) = val_main_v264 (F := F) x0 x3
      ∧ after (ops24 (F := F)) W (Proc.devRef .tc main_v266) = val_main_v266 (F := F) x2
      ∧ after (ops24 (F := F)) W (Proc.devRef .tc main_v268) = val_main_v268 (F := F) x2 := by
  refine ⟨?_, ?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v14, h_main_v16, h_main_v18, h_main_v75, h_main_v132, h_main_v189, h_main_v218, h_main_v243]) <;> (try rfl))

set_option maxRecDepth 8192 in
set_option maxHeartbeats 2000000 in
/-- After operations 359 … 388, every value still to be read is its stage's. -/
theorem chunk25 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v264 : W (Proc.devRef .tc main_v264) = val_main_v264 (F := F) x0 x3)
    (h_main_v266 : W (Proc.devRef .tc main_v266) = val_main_v266 (F := F) x2)
    (h_main_v268 : W (Proc.devRef .tc main_v268) = val_main_v268 (F := F) x2) :
    after (ops25 (F := F)) W (Proc.devRef .tc main_arg0) = x0
      ∧ after (ops25 (F := F)) W (Proc.devRef .tc main_arg1) = x1
      ∧ after (ops25 (F := F)) W (Proc.devRef .tc main_arg2) = x2
      ∧ after (ops25 (F := F)) W (Proc.devRef .tc main_arg3) = x3
      ∧ after (ops25 (F := F)) W (Proc.devRef .tc main_arg4) = x4
      ∧ after (ops25 (F := F)) W (Proc.devRef .tc main_v264) = val_main_v264 (F := F) x0 x3
      ∧ after (ops25 (F := F)) W (Proc.devRef .tc main_v292) = val_main_v292 (F := F) x0 x2 x4 := by
  refine ⟨?_, ?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v264, h_main_v266, h_main_v268]) <;> (try rfl))

set_option maxRecDepth 8192 in
set_option maxHeartbeats 2000000 in
/-- After operations 389 … 393, every value still to be read is its stage's. -/
theorem chunk26 (W : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_v264 : W (Proc.devRef .tc main_v264) = val_main_v264 (F := F) x0 x3)
    (h_main_v292 : W (Proc.devRef .tc main_v292) = val_main_v292 (F := F) x0 x2 x4) :
    after (ops26 (F := F)) W (Proc.devRef .tc main_arg0) = x0
      ∧ after (ops26 (F := F)) W (Proc.devRef .tc main_arg1) = x1
      ∧ after (ops26 (F := F)) W (Proc.devRef .tc main_arg2) = x2
      ∧ after (ops26 (F := F)) W (Proc.devRef .tc main_arg3) = x3
      ∧ after (ops26 (F := F)) W (Proc.devRef .tc main_arg4) = x4
      ∧ after (ops26 (F := F)) W (Proc.devRef .tc main_v295) = val_main_v295 (F := F) x0 x2 x3 x4 := by
  refine ⟨?_, ?_, ?_, ?_, ?_, ?_⟩ <;>
    (simp (disch := decide) only [after_cons, after_nil, nullary_result', unary_result', binary_result', ternary_result', reshape_result',
      nullary_result_ne', unary_result_ne', binary_result_ne', ternary_result_ne', reshape_result_ne']
     <;> (try simp only [h_main_arg0, h_main_arg1, h_main_arg2, h_main_arg3, h_main_arg4, h_main_v264, h_main_v292]) <;> (try rfl))

end Cert.ReferenceIdeal.RunH
-- ==== Proof.RefRunH.lean ====
import proofs.«152542_j63075889709151_1_alg».proof.Proof.RefRunMain
import proofs.«152542_j63075889709151_1_alg».proof.Proof.RefRunChunksA
import proofs.«152542_j63075889709151_1_alg».proof.Proof.RefRunChunksB
import proofs.«152542_j63075889709151_1_alg».proof.Proof.RefRunChunksC

/-!
# The reference's run, one stage at a time

The reference program is a straight line of 393 array operations, each writing one new array.  Walking the line
piece by piece, every array still to be read holds its stage; at the end the result array holds the last stage,
as a function of the arguments' contents at launch, and the arguments are unchanged.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 16000000 in
/-- Running the whole line is running its pieces one after the other. -/
theorem after_split (V : Valuation τ sig (Elt F)) :
    after (ops (F := F)) V = (after (ops26 (F := F)) (after (ops25 (F := F)) (after (ops24 (F := F)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))))))))))))) := rfl

set_option maxRecDepth 8192 in
set_option maxHeartbeats 16000000 in
/-- After all of @main's operations the result buffer holds the last stage and the arguments are unchanged. -/
theorem after_ops (V : Valuation τ sig (Elt F)) (x0 : (⟨S2000000x3, .f32⟩ : BufTy).Contents (Elt F)) (x1 : (⟨S4000000x3, .i32⟩ : BufTy).Contents (Elt F))
    (x2 : (⟨S6000000x2, .i32⟩ : BufTy).Contents (Elt F)) (x3 : (⟨S64x64x64, .f32⟩ : BufTy).Contents (Elt F))
    (x4 : (⟨S6000000, .f32⟩ : BufTy).Contents (Elt F))
    (h_main_arg0 : V (Proc.devRef .tc main_arg0) = x0) (h_main_arg1 : V (Proc.devRef .tc main_arg1) = x1) (h_main_arg2 : V (Proc.devRef .tc main_arg2) = x2) (h_main_arg3 : V (Proc.devRef .tc main_arg3) = x3) (h_main_arg4 : V (Proc.devRef .tc main_arg4) = x4) :
    after (ops (F := F)) V (Proc.devRef .tc main_arg0) = x0
      ∧ after (ops (F := F)) V (Proc.devRef .tc main_arg1) = x1
      ∧ after (ops (F := F)) V (Proc.devRef .tc main_arg2) = x2
      ∧ after (ops (F := F)) V (Proc.devRef .tc main_arg3) = x3
      ∧ after (ops (F := F)) V (Proc.devRef .tc main_arg4) = x4
      ∧ after (ops (F := F)) V (Proc.devRef .tc main_v295) = val_main_v295 (F := F) x0 x2 x3 x4 := by
  rw [after_split V]
  obtain ⟨c0_main_arg0, c0_main_arg1, c0_main_arg2, c0_main_arg3, c0_main_arg4, c0_main_v8, c0_main_v10, c0_main_v12, c0_main_v14, c0_main_v16, c0_main_v18, c0_main_v20⟩ := chunk0 V x0 x1 x2 x3 x4 h_main_arg0 h_main_arg1 h_main_arg2 h_main_arg3 h_main_arg4
  obtain ⟨c1_main_arg0, c1_main_arg1, c1_main_arg2, c1_main_arg3, c1_main_arg4, c1_main_v8, c1_main_v10, c1_main_v12, c1_main_v14, c1_main_v16, c1_main_v18, c1_main_v40, c1_main_v41, c1_main_v42⟩ := chunk1 (after (ops0 (F := F)) V) x0 x1 x2 x3 x4 c0_main_arg0 c0_main_arg1 c0_main_arg2 c0_main_arg3 c0_main_arg4 c0_main_v8 c0_main_v10 c0_main_v12 c0_main_v14 c0_main_v16 c0_main_v18 c0_main_v20
  obtain ⟨c2_main_arg0, c2_main_arg1, c2_main_arg2, c2_main_arg3, c2_main_arg4, c2_main_v8, c2_main_v10, c2_main_v12, c2_main_v14, c2_main_v16, c2_main_v18, c2_main_v43⟩ := chunk2 (after (ops1 (F := F)) (after (ops0 (F := F)) V)) x0 x1 x2 x3 x4 c1_main_arg0 c1_main_arg1 c1_main_arg2 c1_main_arg3 c1_main_arg4 c1_main_v8 c1_main_v10 c1_main_v12 c1_main_v14 c1_main_v16 c1_main_v18 c1_main_v40 c1_main_v41 c1_main_v42
  obtain ⟨c3_main_arg0, c3_main_arg1, c3_main_arg2, c3_main_arg3, c3_main_arg4, c3_main_v8, c3_main_v10, c3_main_v12, c3_main_v14, c3_main_v16, c3_main_v18, c3_main_v47, c3_main_v53, c3_main_v58, c3_main_v63, c3_main_v64⟩ := chunk3 (after (ops2 (F := F)) (after (ops1 (F := F)) (after (ops0 (F := F)) V))) x0 x1 x2 x3 x4 c2_main_arg0 c2_main_arg1 c2_main_arg2 c2_main_arg3 c2_main_arg4 c2_main_v8 c2_main_v10 c2_main_v12 c2_main_v14 c2_main_v16 c2_main_v18 c2_main_v43
  obtain ⟨c4_main_arg0, c4_main_arg1, c4_main_arg2, c4_main_arg3, c4_main_arg4, c4_main_v8, c4_main_v10, c4_main_v12, c4_main_v14, c4_main_v16, c4_main_v18, c4_main_v47, c4_main_v69, c4_main_v70, c4_main_v71⟩ := chunk4 (after (ops3 (F := F)) (after (ops2 (F := F)) (after (ops1 (F := F)) (after (ops0 (F := F)) V)))) x0 x1 x2 x3 x4 c3_main_arg0 c3_main_arg1 c3_main_arg2 c3_main_arg3 c3_main_arg4 c3_main_v8 c3_main_v10 c3_main_v12 c3_main_v14 c3_main_v16 c3_main_v18 c3_main_v47 c3_main_v53 c3_main_v58 c3_main_v63 c3_main_v64
  obtain ⟨c5_main_arg0, c5_main_arg1, c5_main_arg2, c5_main_arg3, c5_main_arg4, c5_main_v8, c5_main_v10, c5_main_v12, c5_main_v14, c5_main_v16, c5_main_v18, c5_main_v47, c5_main_v72⟩ := chunk5 (after (ops4 (F := F)) (after (ops3 (F := F)) (after (ops2 (F := F)) (after (ops1 (F := F)) (after (ops0 (F := F)) V))))) x0 x1 x2 x3 x4 c4_main_arg0 c4_main_arg1 c4_main_arg2 c4_main_arg3 c4_main_arg4 c4_main_v8 c4_main_v10 c4_main_v12 c4_main_v14 c4_main_v16 c4_main_v18 c4_main_v47 c4_main_v69 c4_main_v70 c4_main_v71
  obtain ⟨c6_main_arg0, c6_main_arg1, c6_main_arg2, c6_main_arg3, c6_main_arg4, c6_main_v8, c6_main_v10, c6_main_v12, c6_main_v14, c6_main_v16, c6_main_v18, c6_main_v75, c6_main_v81, c6_main_v86, c6_main_v91, c6_main_v93, c6_main_c_28⟩ := chunk6 (after (ops5 (F := F)) (after (ops4 (F := F)) (after (ops3 (F := F)) (after (ops2 (F := F)) (after (ops1 (F := F)) (after (ops0 (F := F)) V)))))) x0 x1 x2 x3 x4 c5_main_arg0 c5_main_arg1 c5_main_arg2 c5_main_arg3 c5_main_arg4 c5_main_v8 c5_main_v10 c5_main_v12 c5_main_v14 c5_main_v16 c5_main_v18 c5_main_v47 c5_main_v72
  obtain ⟨c7_main_arg0, c7_main_arg1, c7_main_arg2, c7_main_arg3, c7_main_arg4, c7_main_v8, c7_main_v10, c7_main_v12, c7_main_v14, c7_main_v16, c7_main_v18, c7_main_v75, c7_main_v97, c7_main_v98, c7_main_v99⟩ := chunk7 (after (ops6 (F := F)) (after (ops5 (F := F)) (after (ops4 (F := F)) (after (ops3 (F := F)) (after (ops2 (F := F)) (after (ops1 (F := F)) (after (ops0 (F := F)) V))))))) x0 x1 x2 x3 x4 c6_main_arg0 c6_main_arg1 c6_main_arg2 c6_main_arg3 c6_main_arg4 c6_main_v8 c6_main_v10 c6_main_v12 c6_main_v14 c6_main_v16 c6_main_v18 c6_main_v75 c6_main_v81 c6_main_v86 c6_main_v91 c6_main_v93 c6_main_c_28
  obtain ⟨c8_main_arg0, c8_main_arg1, c8_main_arg2, c8_main_arg3, c8_main_arg4, c8_main_v8, c8_main_v10, c8_main_v12, c8_main_v14, c8_main_v16, c8_main_v18, c8_main_v75, c8_main_v100⟩ := chunk8 (after (ops7 (F := F)) (after (ops6 (F := F)) (after (ops5 (F := F)) (after (ops4 (F := F)) (after (ops3 (F := F)) (after (ops2 (F := F)) (after (ops1 (F := F)) (after (ops0 (F := F)) V)))))))) x0 x1 x2 x3 x4 c7_main_arg0 c7_main_arg1 c7_main_arg2 c7_main_arg3 c7_main_arg4 c7_main_v8 c7_main_v10 c7_main_v12 c7_main_v14 c7_main_v16 c7_main_v18 c7_main_v75 c7_main_v97 c7_main_v98 c7_main_v99
  obtain ⟨c9_main_arg0, c9_main_arg1, c9_main_arg2, c9_main_arg3, c9_main_arg4, c9_main_v8, c9_main_v10, c9_main_v12, c9_main_v14, c9_main_v16, c9_main_v18, c9_main_v75, c9_main_v104, c9_main_v110, c9_main_v115, c9_main_v120, c9_main_v121⟩ := chunk9 (after (ops8 (F := F)) (after (ops7 (F := F)) (after (ops6 (F := F)) (after (ops5 (F := F)) (after (ops4 (F := F)) (after (ops3 (F := F)) (after (ops2 (F := F)) (after (ops1 (F := F)) (after (ops0 (F := F)) V))))))))) x0 x1 x2 x3 x4 c8_main_arg0 c8_main_arg1 c8_main_arg2 c8_main_arg3 c8_main_arg4 c8_main_v8 c8_main_v10 c8_main_v12 c8_main_v14 c8_main_v16 c8_main_v18 c8_main_v75 c8_main_v100
  obtain ⟨c10_main_arg0, c10_main_arg1, c10_main_arg2, c10_main_arg3, c10_main_arg4, c10_main_v8, c10_main_v10, c10_main_v12, c10_main_v14, c10_main_v16, c10_main_v18, c10_main_v75, c10_main_v104, c10_main_v126, c10_main_v127, c10_main_v128⟩ := chunk10 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))) x0 x1 x2 x3 x4 c9_main_arg0 c9_main_arg1 c9_main_arg2 c9_main_arg3 c9_main_arg4 c9_main_v8 c9_main_v10 c9_main_v12 c9_main_v14 c9_main_v16 c9_main_v18 c9_main_v75 c9_main_v104 c9_main_v110 c9_main_v115 c9_main_v120 c9_main_v121
  obtain ⟨c11_main_arg0, c11_main_arg1, c11_main_arg2, c11_main_arg3, c11_main_arg4, c11_main_v8, c11_main_v10, c11_main_v12, c11_main_v14, c11_main_v16, c11_main_v18, c11_main_v75, c11_main_v104, c11_main_v129⟩ := chunk11 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))) x0 x1 x2 x3 x4 c10_main_arg0 c10_main_arg1 c10_main_arg2 c10_main_arg3 c10_main_arg4 c10_main_v8 c10_main_v10 c10_main_v12 c10_main_v14 c10_main_v16 c10_main_v18 c10_main_v75 c10_main_v104 c10_main_v126 c10_main_v127 c10_main_v128
  obtain ⟨c12_main_arg0, c12_main_arg1, c12_main_arg2, c12_main_arg3, c12_main_arg4, c12_main_v8, c12_main_v10, c12_main_v12, c12_main_v14, c12_main_v16, c12_main_v18, c12_main_v75, c12_main_v132, c12_main_v138, c12_main_v143, c12_main_v148, c12_main_v150, c12_main_c_47⟩ := chunk12 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))) x0 x1 x2 x3 x4 c11_main_arg0 c11_main_arg1 c11_main_arg2 c11_main_arg3 c11_main_arg4 c11_main_v8 c11_main_v10 c11_main_v12 c11_main_v14 c11_main_v16 c11_main_v18 c11_main_v75 c11_main_v104 c11_main_v129
  obtain ⟨c13_main_arg0, c13_main_arg1, c13_main_arg2, c13_main_arg3, c13_main_arg4, c13_main_v8, c13_main_v10, c13_main_v12, c13_main_v14, c13_main_v16, c13_main_v18, c13_main_v75, c13_main_v132, c13_main_v154, c13_main_v155, c13_main_v156⟩ := chunk13 (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))) x0 x1 x2 x3 x4 c12_main_arg0 c12_main_arg1 c12_main_arg2 c12_main_arg3 c12_main_arg4 c12_main_v8 c12_main_v10 c12_main_v12 c12_main_v14 c12_main_v16 c12_main_v18 c12_main_v75 c12_main_v132 c12_main_v138 c12_main_v143 c12_main_v148 c12_main_v150 c12_main_c_47
  obtain ⟨c14_main_arg0, c14_main_arg1, c14_main_arg2, c14_main_arg3, c14_main_arg4, c14_main_v8, c14_main_v10, c14_main_v12, c14_main_v14, c14_main_v16, c14_main_v18, c14_main_v75, c14_main_v132, c14_main_v157⟩ := chunk14 (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))) x0 x1 x2 x3 x4 c13_main_arg0 c13_main_arg1 c13_main_arg2 c13_main_arg3 c13_main_arg4 c13_main_v8 c13_main_v10 c13_main_v12 c13_main_v14 c13_main_v16 c13_main_v18 c13_main_v75 c13_main_v132 c13_main_v154 c13_main_v155 c13_main_v156
  obtain ⟨c15_main_arg0, c15_main_arg1, c15_main_arg2, c15_main_arg3, c15_main_arg4, c15_main_v8, c15_main_v10, c15_main_v12, c15_main_v14, c15_main_v16, c15_main_v18, c15_main_v75, c15_main_v132, c15_main_v161, c15_main_v167, c15_main_v172, c15_main_v177, c15_main_v178⟩ := chunk15 (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))) x0 x1 x2 x3 x4 c14_main_arg0 c14_main_arg1 c14_main_arg2 c14_main_arg3 c14_main_arg4 c14_main_v8 c14_main_v10 c14_main_v12 c14_main_v14 c14_main_v16 c14_main_v18 c14_main_v75 c14_main_v132 c14_main_v157
  obtain ⟨c16_main_arg0, c16_main_arg1, c16_main_arg2, c16_main_arg3, c16_main_arg4, c16_main_v8, c16_main_v10, c16_main_v12, c16_main_v14, c16_main_v16, c16_main_v18, c16_main_v75, c16_main_v132, c16_main_v161, c16_main_v183, c16_main_v184, c16_main_v185⟩ := chunk16 (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))) x0 x1 x2 x3 x4 c15_main_arg0 c15_main_arg1 c15_main_arg2 c15_main_arg3 c15_main_arg4 c15_main_v8 c15_main_v10 c15_main_v12 c15_main_v14 c15_main_v16 c15_main_v18 c15_main_v75 c15_main_v132 c15_main_v161 c15_main_v167 c15_main_v172 c15_main_v177 c15_main_v178
  obtain ⟨c17_main_arg0, c17_main_arg1, c17_main_arg2, c17_main_arg3, c17_main_arg4, c17_main_v8, c17_main_v10, c17_main_v12, c17_main_v14, c17_main_v16, c17_main_v18, c17_main_v75, c17_main_v132, c17_main_v161, c17_main_v186⟩ := chunk17 (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))) x0 x1 x2 x3 x4 c16_main_arg0 c16_main_arg1 c16_main_arg2 c16_main_arg3 c16_main_arg4 c16_main_v8 c16_main_v10 c16_main_v12 c16_main_v14 c16_main_v16 c16_main_v18 c16_main_v75 c16_main_v132 c16_main_v161 c16_main_v183 c16_main_v184 c16_main_v185
  obtain ⟨c18_main_arg0, c18_main_arg1, c18_main_arg2, c18_main_arg3, c18_main_arg4, c18_main_v8, c18_main_v10, c18_main_v12, c18_main_v14, c18_main_v16, c18_main_v18, c18_main_v75, c18_main_v132, c18_main_v189, c18_main_v195, c18_main_v200, c18_main_v205, c18_main_v207, c18_main_c_66⟩ := chunk18 (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))))) x0 x1 x2 x3 x4 c17_main_arg0 c17_main_arg1 c17_main_arg2 c17_main_arg3 c17_main_arg4 c17_main_v8 c17_main_v10 c17_main_v12 c17_main_v14 c17_main_v16 c17_main_v18 c17_main_v75 c17_main_v132 c17_main_v161 c17_main_v186
  obtain ⟨c19_main_arg0, c19_main_arg1, c19_main_arg2, c19_main_arg3, c19_main_arg4, c19_main_v8, c19_main_v10, c19_main_v12, c19_main_v14, c19_main_v16, c19_main_v18, c19_main_v75, c19_main_v132, c19_main_v189, c19_main_v211, c19_main_v212, c19_main_v213⟩ := chunk19 (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))))) x0 x1 x2 x3 x4 c18_main_arg0 c18_main_arg1 c18_main_arg2 c18_main_arg3 c18_main_arg4 c18_main_v8 c18_main_v10 c18_main_v12 c18_main_v14 c18_main_v16 c18_main_v18 c18_main_v75 c18_main_v132 c18_main_v189 c18_main_v195 c18_main_v200 c18_main_v205 c18_main_v207 c18_main_c_66
  obtain ⟨c20_main_arg0, c20_main_arg1, c20_main_arg2, c20_main_arg3, c20_main_arg4, c20_main_v8, c20_main_v10, c20_main_v12, c20_main_v14, c20_main_v16, c20_main_v18, c20_main_v75, c20_main_v132, c20_main_v189, c20_main_v214⟩ := chunk20 (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))))))) x0 x1 x2 x3 x4 c19_main_arg0 c19_main_arg1 c19_main_arg2 c19_main_arg3 c19_main_arg4 c19_main_v8 c19_main_v10 c19_main_v12 c19_main_v14 c19_main_v16 c19_main_v18 c19_main_v75 c19_main_v132 c19_main_v189 c19_main_v211 c19_main_v212 c19_main_v213
  obtain ⟨c21_main_arg0, c21_main_arg1, c21_main_arg2, c21_main_arg3, c21_main_arg4, c21_main_v14, c21_main_v16, c21_main_v18, c21_main_v75, c21_main_v132, c21_main_v189, c21_main_v218, c21_main_v224, c21_main_v229, c21_main_v234, c21_main_v235⟩ := chunk21 (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))))))) x0 x1 x2 x3 x4 c20_main_arg0 c20_main_arg1 c20_main_arg2 c20_main_arg3 c20_main_arg4 c20_main_v8 c20_main_v10 c20_main_v12 c20_main_v14 c20_main_v16 c20_main_v18 c20_main_v75 c20_main_v132 c20_main_v189 c20_main_v214
  obtain ⟨c22_main_arg0, c22_main_arg1, c22_main_arg2, c22_main_arg3, c22_main_arg4, c22_main_v14, c22_main_v16, c22_main_v18, c22_main_v75, c22_main_v132, c22_main_v189, c22_main_v218, c22_main_v240, c22_main_v241, c22_main_v242⟩ := chunk22 (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))))))))) x0 x1 x2 x3 x4 c21_main_arg0 c21_main_arg1 c21_main_arg2 c21_main_arg3 c21_main_arg4 c21_main_v14 c21_main_v16 c21_main_v18 c21_main_v75 c21_main_v132 c21_main_v189 c21_main_v218 c21_main_v224 c21_main_v229 c21_main_v234 c21_main_v235
  obtain ⟨c23_main_arg0, c23_main_arg1, c23_main_arg2, c23_main_arg3, c23_main_arg4, c23_main_v14, c23_main_v16, c23_main_v18, c23_main_v75, c23_main_v132, c23_main_v189, c23_main_v218, c23_main_v243⟩ := chunk23 (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))))))))) x0 x1 x2 x3 x4 c22_main_arg0 c22_main_arg1 c22_main_arg2 c22_main_arg3 c22_main_arg4 c22_main_v14 c22_main_v16 c22_main_v18 c22_main_v75 c22_main_v132 c22_main_v189 c22_main_v218 c22_main_v240 c22_main_v241 c22_main_v242
  obtain ⟨c24_main_arg0, c24_main_arg1, c24_main_arg2, c24_main_arg3, c24_main_arg4, c24_main_v264, c24_main_v266, c24_main_v268⟩ := chunk24 (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))))))))))) x0 x1 x2 x3 x4 c23_main_arg0 c23_main_arg1 c23_main_arg2 c23_main_arg3 c23_main_arg4 c23_main_v14 c23_main_v16 c23_main_v18 c23_main_v75 c23_main_v132 c23_main_v189 c23_main_v218 c23_main_v243
  obtain ⟨c25_main_arg0, c25_main_arg1, c25_main_arg2, c25_main_arg3, c25_main_arg4, c25_main_v264, c25_main_v292⟩ := chunk25 (after (ops24 (F := F)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V))))))))))))))))))))))))) x0 x1 x2 x3 x4 c24_main_arg0 c24_main_arg1 c24_main_arg2 c24_main_arg3 c24_main_arg4 c24_main_v264 c24_main_v266 c24_main_v268
  obtain ⟨c26_main_arg0, c26_main_arg1, c26_main_arg2, c26_main_arg3, c26_main_arg4, c26_main_v295⟩ := chunk26 (after (ops25 (F := F)) (after (ops24 (F := F)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) V)))))))))))))))))))))))))) x0 x1 x2 x3 x4 c25_main_arg0 c25_main_arg1 c25_main_arg2 c25_main_arg3 c25_main_arg4 c25_main_v264 c25_main_v292
  exact ⟨c26_main_arg0, c26_main_arg1, c26_main_arg2, c26_main_arg3, c26_main_arg4, c26_main_v295⟩

set_option maxRecDepth 8192 in
set_option maxHeartbeats 16000000 in
/-- On every device, for any float values, from any memory with zero counters: every weakly fair execution of
    @main terminates with the result at its last stage, as a function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v295)
          = val_main_v295 (F := F) (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨h0, h1, h2, h3, h4, h295⟩ :=
        after_ops (F := F) (launchContents m c) _ _ _ _ _ rfl rfl rfl rfl rfl
      exact ⟨(h c main_v295).trans h295, (h c main_arg0).trans h0, (h c main_arg1).trans h1,
        (h c main_arg2).trans h2, (h c main_arg3).trans h3, (h c main_arg4).trans h4⟩)
    (run_seq scopedRefs_eq scopedSems_eq defs main (fun _ => ops) main_eq (fun _ => ops_sub) m ρ)

end Cert.ReferenceIdeal.RunH
-- ==== Proof.lean ====
/-
  The kernel computes a mesh-deformation loss in two tiled passes and the reference computes it with whole-array
  operations; at the ideal values they return the same number whenever every vertex coordinate lies in [0, 1).

  Distance-field term. For a vertex with coordinates v, put p = 63·v. The reference takes the cell k = ⌊p⌋ (clipped
  to 0..62) and the fractions f = p − k and interpolates the 64×64×64 grid trilinearly at the cell's eight corners. The
  kernel never finds the cell: on each axis it forms all 64 hat weights max(1 − |i − p|, 0), contracts the grid with
  them (a matrix product for the last axis, then 64 unrolled steps for the first two), and squares. For 0 ≤ p < 63 the
  hat weights vanish except at k and k + 1, where they are 1 − f and f: the two samples are one real number. Outside
  that range they differ (the reference extrapolates with an unclipped fraction), which is why the domain is needed.
  Edge term. Both programs gather the two end points of every edge from the vertex array with the same index
  arithmetic, and take one half of the squared deviation of the regularised length from the rest length.
  Tiling. The kernel walks the vertices in 3125 tiles of 640 and the edges in 75 tiles of 80000, keeping a 1×1 running
  sum in scratch memory that is zeroed at the first tile; the reference reduces each whole array at once. Addition of
  extended reals is commutative and associative, so the tiles regroup freely; moving the one half inside the sums uses
  that every term is a real number, which the finiteness of the inputs gives.
  Frames. Each program runs to the end without a fault and writes no argument: the two kernel programs through the
  launch of their five segments with the accumulator carried in each region's invariant, the reference through its run
  as a sequence of host operations.
-/
import proofs.«152542_j63075889709151_1_alg».proof.Defs
import proofs.«152542_j63075889709151_1_alg».proof.Proof.Gen.Kernel
import proofs.«152542_j63075889709151_1_alg».proof.Proof.Gen.KernelIdeal
import proofs.«152542_j63075889709151_1_alg».proof.Proof.Gen.ReferenceIdeal
import proofs.«152542_j63075889709151_1_alg».proof.Proof.Gen.Pre_finite_inputs
import proofs.«152542_j63075889709151_1_alg».proof.Proof.K.Launch
import proofs.«152542_j63075889709151_1_alg».proof.Proof.KI.Launch
import proofs.«152542_j63075889709151_1_alg».proof.Proof.KI.TileLaw
import proofs.«152542_j63075889709151_1_alg».proof.Proof.Final
import proofs.«152542_j63075889709151_1_alg».proof.Proof.RefRunH
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Hand

/-- The kernel program as printed runs, faults nowhere and leaves its arguments as launched. -/
theorem frame_k : Cert.frame_Kernel (hKernel := Cert.Kernel.Gen.facts) (hPre_finite_inputs := Cert.Pre_finite_inputs.Gen.facts) :=
  fun m ρ _ => Cert.Kernel.Hand.frameH (F := Bits) m ρ

/-- So does its reading at the ideal instance. -/
theorem frame_ki : Cert.frame_KernelIdeal (hKernelIdeal := Cert.KernelIdeal.Gen.facts) (hPre_finite_inputs := Cert.Pre_finite_inputs.Gen.facts) :=
  fun m ρ _ => Cert.KernelIdeal.Hand.frameH (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- The ideal pass rewrote nothing in this kernel: the idealization is the program's own text read at the ideal instance. -/
theorem preserves : Cert.preserves_Kernel_KernelIdeal := trivial

/-- From memories that agree on the arguments both idealized programs run, leave the arguments as launched, and return the
    same scalar: the kernel program's run ends with every buffer at the last boundary's contents, of which the returned
    buffer is the reference's last stage of the arguments (`Cert.Final.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => B5 (F := Ideal) m ρ c (Proc.devRef .tc Cert.KernelIdeal.main_v28), ?_, ?_⟩
  · refine (θ_run Cert.KernelIdeal.defs _ _).mono (fun r h c => ?_) (run_all (F := Ideal) m ρ)
    exact ⟨h c _ (mem_ucH Cert.KernelIdeal.main_v28 (by decide)),
      (h c _ (mem_ucH Cert.KernelIdeal.main_arg0 (by decide))).trans (B5_main_arg0 m ρ c),
      (h c _ (mem_ucH Cert.KernelIdeal.main_arg1 (by decide))).trans (B5_main_arg1 m ρ c),
      (h c _ (mem_ucH Cert.KernelIdeal.main_arg2 (by decide))).trans (B5_main_arg2 m ρ c),
      (h c _ (mem_ucH Cert.KernelIdeal.main_arg3 (by decide))).trans (B5_main_arg3 m ρ c),
      (h c _ (mem_ucH Cert.KernelIdeal.main_arg4 (by decide))).trans (B5_main_arg4 m ρ c)⟩
  · refine (θ_run Cert.ReferenceIdeal.defs _ _).mono (fun r h c => ⟨(h c).1.trans ?_, (h c).2⟩) (Cert.ReferenceIdeal.RunH.run (F := Ideal) m' ρ')
    obtain ⟨a0, a1, a2, a3, a4⟩ := hagree c
    rw [a0, a2, a3, a4]
    exact (Cert.Final.result_eq tileLaw m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
